-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x96x224x224 : Shape := ⟨4, ![4, 96, 224, 224]⟩
abbrev S_ : Shape := ⟨0, ![]⟩

class Facts : Prop where
  bcast_S_S4x96x224x224 : S_.BroadcastsInDim S4x96x224x224 (![] : Fin 0 → Fin S4x96x224x224.rank)
  reducesTo_S4x96x224x224_S_d0_1_2_3 : S4x96x224x224.ReducesTo [0, 1, 2, 3] S_
  h_S_ : 0 < S_.numel

variable [Facts]

def fn {F : FTy → Type} [FloatOps F] (main_arg0 : FVec F S4x96x224x224 .f32) : IVec S_ 1 :=
  let main_v0 : FVec F S4x96x224x224 .f32 := Host.absf main_arg0
  let main_cst : FVec F S_ .f32 := constant S_ .f32 0x7F800000#32
  let main_v1 : FVec F S4x96x224x224 .f32 := broadcastInDim S4x96x224x224 ![] bcast_S_S4x96x224x224 main_cst
  let main_v2 : IVec S4x96x224x224 1 := cmpf .olt main_v0 main_v1
  let main_c : IVec S_ 1 := constantI S_ 1 1#1
  let main_v3 : IVec S_ 1 := (fun x v => Host.reduce IntOp.andi x v reducesTo_S4x96x224x224_S_d0_1_2_3 h_S_) main_v2 main_c
  main_v3
-- ==== Kernel.lean ====
abbrev S4x96x224x224 : Shape := ⟨4, ![4, 96, 224, 224]⟩
abbrev S384x50176 : Shape := ⟨2, ![384, 50176]⟩
abbrev S_ : Shape := ⟨0, ![]⟩
abbrev S1x50176 : Shape := ⟨2, ![1, 50176]⟩

abbrev nBuf : Table → Nat
  | .hbm => 4
  | _ => 0

abbrev bufTy : (tb : Table) → Fin (nBuf tb) → BufTy
  | .hbm, ⟨0, _⟩ => ⟨S4x96x224x224, .f32⟩
  | .hbm, ⟨1, _⟩ => ⟨S384x50176, .f32⟩
  | .hbm, ⟨2, _⟩ => ⟨S384x50176, .f32⟩
  | .hbm, ⟨3, _⟩ => ⟨S4x96x224x224, .f32⟩
  | _, _ => ⟨S4x96x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let v3 : BitVec 32 := Scalar.addi v2 c0_i32
  let c0_i32_18 : BitVec 32 := 0#32
  ![v3.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let v3 : BitVec 32 := Scalar.addi v2 c0_i32
  let c0_i32_1 : BitVec 32 := 0#32
  let c96_i32 : BitVec 32 := 96#32
  let v4 : BitVec 32 := Scalar.remsi v3 c96_i32
  let c19_i32 : BitVec 32 := 19#32
  let v5 : BitVec 1 := Scalar.cmpi .eq v4 c19_i32
  let c1_i32 : BitVec 32 := 1#32
  let c0_i32_0 : BitVec 32 := 0#32
  let v6 : BitVec 32 := Scalar.select v5 c1_i32 c0_i32_0
  let v7 : BitVec 32 := Scalar.addi c0_i32_1 v6
  let c76_i32 : BitVec 32 := 76#32
  let v8 : BitVec 1 := Scalar.cmpi .eq v4 c76_i32
  let c1_i32_2 : BitVec 32 := 1#32
  let c0_i32_3 : BitVec 32 := 0#32
  let v9 : BitVec 32 := Scalar.select v8 c1_i32_2 c0_i32_3
  let v10 : BitVec 32 := Scalar.addi v7 v9
  let c54_i32 : BitVec 32 := 54#32
  let v11 : BitVec 1 := Scalar.cmpi .eq v4 c54_i32
  let c1_i32_4 : BitVec 32 := 1#32
  let c0_i32_5 : BitVec 32 := 0#32
  let v12 : BitVec 32 := Scalar.select v11 c1_i32_4 c0_i32_5
  let v13 : BitVec 32 := Scalar.addi v10 v12
  let c90_i32 : BitVec 32 := 90#32
  let v14 : BitVec 1 := Scalar.cmpi .eq v4 c90_i32
  let c1_i32_6 : BitVec 32 := 1#32
  let c0_i32_7 : BitVec 32 := 0#32
  let v15 : BitVec 32 := Scalar.select v14 c1_i32_6 c0_i32_7
  let v16 : BitVec 32 := Scalar.addi v13 v15
  let c30_i32 : BitVec 32 := 30#32
  let v17 : BitVec 1 := Scalar.cmpi .eq v4 c30_i32
  let c1_i32_8 : BitVec 32 := 1#32
  let c0_i32_9 : BitVec 32 := 0#32
  let v18 : BitVec 32 := Scalar.select v17 c1_i32_8 c0_i32_9
  let v19 : BitVec 32 := Scalar.addi v16 v18
  let c7_i32 : BitVec 32 := 7#32
  let v20 : BitVec 1 := Scalar.cmpi .eq v4 c7_i32
  let c1_i32_10 : BitVec 32 := 1#32
  let c0_i32_11 : BitVec 32 := 0#32
  let v21 : BitVec 32 := Scalar.select v20 c1_i32_10 c0_i32_11
  let v22 : BitVec 32 := Scalar.addi v19 v21
  let c6_i32 : BitVec 32 := 6#32
  let v23 : BitVec 1 := Scalar.cmpi .eq v4 c6_i32
  let c1_i32_12 : BitVec 32 := 1#32
  let c0_i32_13 : BitVec 32 := 0#32
  let v24 : BitVec 32 := Scalar.select v23 c1_i32_12 c0_i32_13
  let v25 : BitVec 32 := Scalar.addi v22 v24
  let c35_i32 : BitVec 32 := 35#32
  let v26 : BitVec 1 := Scalar.cmpi .eq v4 c35_i32
  let c1_i32_14 : BitVec 32 := 1#32
  let c0_i32_15 : BitVec 32 := 0#32
  let v27 : BitVec 32 := Scalar.select v26 c1_i32_14 c0_i32_15
  let v28 : BitVec 32 := Scalar.addi v25 v27
  let c23_i32 : BitVec 32 := 23#32
  let v29 : BitVec 1 := Scalar.cmpi .eq v4 c23_i32
  let c1_i32_16 : BitVec 32 := 1#32
  let c0_i32_17 : BitVec 32 := 0#32
  let v30 : BitVec 32 := Scalar.select v29 c1_i32_16 c0_i32_17
  let v31 : BitVec 32 := Scalar.addi v28 v30
  let v32 : BitVec 32 := Scalar.addi v3 v31
  let c0_i32_19 : BitVec 32 := 0#32
  ![v32.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x96x224x224_S384x50176 : S4x96x224x224.ShapeCasts S384x50176
  shapeCasts_S384x50176_S4x96x224x224 : S384x50176.ShapeCasts S4x96x224x224
  hcc0_scratch0 : 0 + S_.numel ≤ 1
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 12), ∀ a, (k0_off1 i (BitVec.ofNat 32 r.val)) a + S1x50176.size a ≤ S384x50176.size a
  k0_off2_inb : ∀ i : grid0.Coords, ∀ (r : Fin 12), ∀ a, (k0_off2 i (BitVec.ofNat 32 r.val)) a + S1x50176.size a ≤ S384x50176.size a

variable [Facts₀]

abbrev cc0_scratch0 : DmaSems sig S_ := SemArray.consecutive 0 S_ hcc0_scratch0

class Facts : Prop extends Facts₀ where

variable [Facts]
-- ==== ReferenceIdeal.lean ====
abbrev S4x96x224x224 : Shape := ⟨4, ![4, 96, 224, 224]⟩
abbrev S_ : Shape := ⟨0, ![]⟩
abbrev S1 : Shape := ⟨1, ![1]⟩
abbrev S2 : Shape := ⟨1, ![2]⟩
abbrev S95 : Shape := ⟨1, ![95]⟩
abbrev S2x1 : Shape := ⟨2, ![2, 1]⟩
abbrev S2x2 : Shape := ⟨2, ![2, 2]⟩
abbrev S1x2 : Shape := ⟨2, ![1, 2]⟩
abbrev S9 : Shape := ⟨1, ![9]⟩
abbrev S9x1 : Shape := ⟨2, ![9, 1]⟩
abbrev S4x9x224x224 : Shape := ⟨4, ![4, 9, 224, 224]⟩

abbrev nBuf : Space → Nat
  | .hbm => 514
  | .vmem => 0
  | .smem => 0
  | _ => 0

abbrev hbmTy0_0 (i : Nat) : BufTy := match i % 128 with
  | 0 => ⟨S4x96x224x224, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S95, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S4x96x224x224, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S1, .i32⟩
  | 127 => ⟨S_, .i32⟩
  | _ => ⟨S4x96x224x224, .f32⟩

abbrev hbmTy0_2 (i : Nat) : BufTy := match i % 128 with
  | 0 => ⟨S1, .i32⟩
  | 1 => ⟨S_, .i32⟩
  | 2 => ⟨S95, .i64⟩
  | 3 => ⟨S_, .i64⟩
  | 4 => ⟨S95, .i64⟩
  | 5 => ⟨S95, .i64⟩
  | 6 => ⟨S_, .i64⟩
  | 7 => ⟨S95, .i64⟩
  | 8 => ⟨S95, .i64⟩
  | 9 => ⟨S95, .i32⟩
  | 10 => ⟨S95, .i32⟩
  | 11 => ⟨S_, .i32⟩
  | 12 => ⟨S_, .i32⟩
  | 13 => ⟨S_, .i32⟩
  | 14 => ⟨S95, .i32⟩
  | 15 => ⟨S95, .i32⟩
  | 16 => ⟨S95, .i32⟩
  | 17 => ⟨S95, .i32⟩
  | 18 => ⟨S95, .i32⟩
  | 19 => ⟨S_, .i32⟩
  | 20 => ⟨S95, .i32⟩
  | 21 => ⟨S95, .i32⟩
  | 22 => ⟨S_, .i32⟩
  | 23 => ⟨S95, .i32⟩
  | 24 => ⟨S95, .i32⟩
  | 25 => ⟨S95, .i32⟩
  | 26 => ⟨S95, .i32⟩
  | 27 => ⟨S95, .i32⟩
  | 28 => ⟨S_, .i32⟩
  | 29 => ⟨S95, .i32⟩
  | 30 => ⟨S95, .i32⟩
  | 31 => ⟨S_, .i32⟩
  | 32 => ⟨S95, .i32⟩
  | 33 => ⟨S95, .i32⟩
  | 34 => ⟨S95, .i32⟩
  | 35 => ⟨S95, .i32⟩
  | 36 => ⟨S95, .i32⟩
  | 37 => ⟨S_, .i32⟩
  | 38 => ⟨S95, .i32⟩
  | 39 => ⟨S95, .i32⟩
  | 40 => ⟨S_, .i32⟩
  | 41 => ⟨S95, .i32⟩
  | 42 => ⟨S95, .i32⟩
  | 43 => ⟨S95, .i32⟩
  | 44 => ⟨S95, .i32⟩
  | 45 => ⟨S95, .i32⟩
  | 46 => ⟨S_, .i32⟩
  | 47 => ⟨S95, .i32⟩
  | 48 => ⟨S95, .i32⟩
  | 49 => ⟨S_, .i32⟩
  | 50 => ⟨S95, .i32⟩
  | 51 => ⟨S95, .i32⟩
  | 52 => ⟨S95, .i32⟩
  | 53 => ⟨S95, .i32⟩
  | 54 => ⟨S95, .i32⟩
  | 55 => ⟨S95, .i32⟩
  | 56 => ⟨S95, .i32⟩
  | 57 => ⟨S95, .i32⟩
  | 58 => ⟨S_, .i32⟩
  | 59 => ⟨S95, .i32⟩
  | 60 => ⟨S95, .i32⟩
  | 61 => ⟨S95, .i32⟩
  | 62 => ⟨S_, .i32⟩
  | 63 => ⟨S95, .i32⟩
  | 64 => ⟨S95, .i32⟩
  | 65 => ⟨S_, .i32⟩
  | 66 => ⟨S95, .i32⟩
  | 67 => ⟨S95, .i32⟩
  | 68 => ⟨S95, .i32⟩
  | 69 => ⟨S95, .i32⟩
  | 70 => ⟨S95, .i32⟩
  | 71 => ⟨S_, .i32⟩
  | 72 => ⟨S95, .i32⟩
  | 73 => ⟨S95, .i32⟩
  | 74 => ⟨S_, .i32⟩
  | 75 => ⟨S95, .i32⟩
  | 76 => ⟨S95, .i32⟩
  | 77 => ⟨S95, .i32⟩
  | 78 => ⟨S95, .i32⟩
  | 79 => ⟨S95, .i32⟩
  | 80 => ⟨S_, .i32⟩
  | 81 => ⟨S95, .i32⟩
  | 82 => ⟨S95, .i32⟩
  | 83 => ⟨S_, .i32⟩
  | 84 => ⟨S95, .i32⟩
  | 85 => ⟨S95, .i32⟩
  | 86 => ⟨S95, .i32⟩
  | 87 => ⟨S95, .i32⟩
  | 88 => ⟨S95, .i32⟩
  | 89 => ⟨S_, .i32⟩
  | 90 => ⟨S95, .i32⟩
  | 91 => ⟨S95, .i32⟩
  | 92 => ⟨S_, .i32⟩
  | 93 => ⟨S95, .i32⟩
  | 94 => ⟨S95, .i32⟩
  | 95 => ⟨S95, .i32⟩
  | 96 => ⟨S95, .i32⟩
  | 97 => ⟨S95, .i32⟩
  | 98 => ⟨S95, .i32⟩
  | 99 => ⟨S95, .i32⟩
  | 100 => ⟨S95, .i32⟩
  | 101 => ⟨S_, .i32⟩
  | 102 => ⟨S95, .i32⟩
  | 103 => ⟨S95, .i32⟩
  | 104 => ⟨S95, .i32⟩
  | 105 => ⟨S_, .i32⟩
  | 106 => ⟨S95, .i32⟩
  | 107 => ⟨S95, .i32⟩
  | 108 => ⟨S_, .i32⟩
  | 109 => ⟨S95, .i32⟩
  | 110 => ⟨S95, .i32⟩
  | 111 => ⟨S95, .i32⟩
  | 112 => ⟨S95, .i32⟩
  | 113 => ⟨S95, .i32⟩
  | 114 => ⟨S_, .i32⟩
  | 115 => ⟨S95, .i32⟩
  | 116 => ⟨S95, .i32⟩
  | 117 => ⟨S_, .i32⟩
  | 118 => ⟨S95, .i32⟩
  | 119 => ⟨S95, .i32⟩
  | 120 => ⟨S95, .i32⟩
  | 121 => ⟨S95, .i32⟩
  | 122 => ⟨S95, .i32⟩
  | 123 => ⟨S_, .i32⟩
  | 124 => ⟨S95, .i32⟩
  | 125 => ⟨S95, .i32⟩
  | 126 => ⟨S_, .i32⟩
  | 127 => ⟨S95, .i32⟩
  | _ => ⟨S4x96x224x224, .f32⟩

abbrev hbmTy0_3 (i : Nat) : BufTy := match i % 128 with
  | 0 => ⟨S95, .i32⟩
  | 1 => ⟨S95, .i32⟩
  | 2 => ⟨S95, .i32⟩
  | 3 => ⟨S95, .i32⟩
  | 4 => ⟨S_, .i32⟩
  | 5 => ⟨S95, .i32⟩
  | 6 => ⟨S95, .i32⟩
  | 7 => ⟨S_, .i32⟩
  | 8 => ⟨S95, .i32⟩
  | 9 => ⟨S95, .i32⟩
  | 10 => ⟨S95, .i32⟩
  | 11 => ⟨S95, .i32⟩
  | 12 => ⟨S95, .i32⟩
  | 13 => ⟨S95, .i32⟩
  | 14 => ⟨S95, .i32⟩
  | 15 => ⟨S95, .i32⟩
  | 16 => ⟨S_, .i32⟩
  | 17 => ⟨S95, .i32⟩
  | 18 => ⟨S95, .i32⟩
  | 19 => ⟨S95, .i32⟩
  | 20 => ⟨S_, .i32⟩
  | 21 => ⟨S95, .i32⟩
  | 22 => ⟨S95, .i32⟩
  | 23 => ⟨S_, .i32⟩
  | 24 => ⟨S95, .i32⟩
  | 25 => ⟨S95, .i32⟩
  | 26 => ⟨S95, .i32⟩
  | 27 => ⟨S95, .i32⟩
  | 28 => ⟨S95, .i32⟩
  | 29 => ⟨S_, .i32⟩
  | 30 => ⟨S95, .i32⟩
  | 31 => ⟨S95, .i32⟩
  | 32 => ⟨S_, .i32⟩
  | 33 => ⟨S95, .i32⟩
  | 34 => ⟨S95, .i32⟩
  | 35 => ⟨S95, .i32⟩
  | 36 => ⟨S95, .i32⟩
  | 37 => ⟨S95, .i32⟩
  | 38 => ⟨S_, .i32⟩
  | 39 => ⟨S95, .i32⟩
  | 40 => ⟨S95, .i32⟩
  | 41 => ⟨S_, .i32⟩
  | 42 => ⟨S95, .i32⟩
  | 43 => ⟨S95, .i32⟩
  | 44 => ⟨S95, .i32⟩
  | 45 => ⟨S95, .i32⟩
  | 46 => ⟨S95, .i32⟩
  | 47 => ⟨S_, .i32⟩
  | 48 => ⟨S95, .i32⟩
  | 49 => ⟨S95, .i32⟩
  | 50 => ⟨S_, .i32⟩
  | 51 => ⟨S95, .i32⟩
  | 52 => ⟨S95, .i32⟩
  | 53 => ⟨S95, .i32⟩
  | 54 => ⟨S95, .i32⟩
  | 55 => ⟨S95, .i32⟩
  | 56 => ⟨S95, .i32⟩
  | 57 => ⟨S95, .i32⟩
  | 58 => ⟨S95, .i32⟩
  | 59 => ⟨S_, .i32⟩
  | 60 => ⟨S95, .i32⟩
  | 61 => ⟨S95, .i32⟩
  | 62 => ⟨S95, .i32⟩
  | 63 => ⟨S_, .i32⟩
  | 64 => ⟨S95, .i32⟩
  | 65 => ⟨S95, .i32⟩
  | 66 => ⟨S_, .i32⟩
  | 67 => ⟨S95, .i32⟩
  | 68 => ⟨S95, .i32⟩
  | 69 => ⟨S95, .i32⟩
  | 70 => ⟨S95, .i32⟩
  | 71 => ⟨S95, .i32⟩
  | 72 => ⟨S_, .i32⟩
  | 73 => ⟨S95, .i32⟩
  | 74 => ⟨S95, .i32⟩
  | 75 => ⟨S_, .i32⟩
  | 76 => ⟨S95, .i32⟩
  | 77 => ⟨S95, .i32⟩
  | 78 => ⟨S95, .i32⟩
  | 79 => ⟨S95, .i32⟩
  | 80 => ⟨S95, .i32⟩
  | 81 => ⟨S_, .i32⟩
  | 82 => ⟨S95, .i32⟩
  | 83 => ⟨S95, .i32⟩
  | 84 => ⟨S_, .i32⟩
  | 85 => ⟨S95, .i32⟩
  | 86 => ⟨S95, .i32⟩
  | 87 => ⟨S95, .i32⟩
  | 88 => ⟨S95, .i32⟩
  | 89 => ⟨S95, .i32⟩
  | 90 => ⟨S_, .i32⟩
  | 91 => ⟨S95, .i32⟩
  | 92 => ⟨S95, .i32⟩
  | 93 => ⟨S_, .i32⟩
  | 94 => ⟨S95, .i32⟩
  | 95 => ⟨S95, .i32⟩
  | 96 => ⟨S95, .i32⟩
  | 97 => ⟨S95, .i32⟩
  | 98 => ⟨S95, .i32⟩
  | 99 => ⟨S95, .i32⟩
  | 100 => ⟨S95, .i32⟩
  | 101 => ⟨S95, .i32⟩
  | 102 => ⟨S_, .i32⟩
  | 103 => ⟨S95, .i32⟩
  | 104 => ⟨S95, .i32⟩
  | 105 => ⟨S95, .i32⟩
  | 106 => ⟨S95, .i32⟩
  | 107 => ⟨S95, .i32⟩
  | 108 => ⟨S9, .i32⟩
  | 109 => ⟨S_, .i32⟩
  | 110 => ⟨S9, .i32⟩
  | 111 => ⟨S9, .i32⟩
  | 112 => ⟨S_, .i32⟩
  | 113 => ⟨S9, .i32⟩
  | 114 => ⟨S9, .i1⟩
  | 115 => ⟨S_, .i32⟩
  | 116 => ⟨S9, .i32⟩
  | 117 => ⟨S9, .i32⟩
  | 118 => ⟨S9, .i32⟩
  | 119 => ⟨S9x1, .i32⟩
  | 120 => ⟨S4x9x224x224, .f32⟩
  | 121 => ⟨S_, .i32⟩
  | 122 => ⟨S9, .i32⟩
  | 123 => ⟨S9, .i1⟩
  | 124 => ⟨S_, .i32⟩
  | 125 => ⟨S9, .i32⟩
  | 126 => ⟨S9, .i32⟩
  | 127 => ⟨S9, .i32⟩
  | _ => ⟨S4x96x224x224, .f32⟩

abbrev hbmTy0_4 (i : Nat) : BufTy := match i % 128 with
  | 0 => ⟨S9x1, .i32⟩
  | 1 => ⟨S4x96x224x224, .f32⟩
  | _ => ⟨S4x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_c : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_c_0 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_call0_v0 : Ref sig .tc := ⟨.hbm, 25, rfl⟩
abbrev main_call0_call0_call0_c : Ref sig .tc := ⟨.hbm, 26, rfl⟩
abbrev main_call0_call0_call0_v1 : Ref sig .tc := ⟨.hbm, 27, rfl⟩
abbrev main_call0_call0_call0_v2 : Ref sig .tc := ⟨.hbm, 28, rfl⟩
abbrev main_call0_call0_call0_v3 : Ref sig .tc := ⟨.hbm, 29, rfl⟩
abbrev main_call0_call0_call0_v4 : Ref sig .tc := ⟨.hbm, 30, rfl⟩
abbrev main_call0_call0_call0_v5 : Ref sig .tc := ⟨.hbm, 31, rfl⟩
abbrev main_call0_call0_call0_v6 : Ref sig .tc := ⟨.hbm, 32, rfl⟩
abbrev main_call0_call0_call0_c_0 : Ref sig .tc := ⟨.hbm, 33, rfl⟩
abbrev main_call0_call0_call0_v7 : Ref sig .tc := ⟨.hbm, 34, rfl⟩
abbrev main_call0_call0_call0_v8 : Ref sig .tc := ⟨.hbm, 35, rfl⟩
abbrev main_call0_call0_call0_c_1 : Ref sig .tc := ⟨.hbm, 36, rfl⟩
abbrev main_call0_call0_call0_v9 : Ref sig .tc := ⟨.hbm, 37, rfl⟩
abbrev main_call0_call0_call0_v10 : Ref sig .tc := ⟨.hbm, 38, rfl⟩
abbrev main_call0_call0_call0_v11 : Ref sig .tc := ⟨.hbm, 39, rfl⟩
abbrev main_call0_call0_call0_v12 : Ref sig .tc := ⟨.hbm, 40, rfl⟩
abbrev main_call0_call0_call0_v13 : Ref sig .tc := ⟨.hbm, 41, rfl⟩
abbrev main_call0_call0_call0_c_2 : Ref sig .tc := ⟨.hbm, 42, rfl⟩
abbrev main_call0_call0_call0_v14 : Ref sig .tc := ⟨.hbm, 43, rfl⟩
abbrev main_call0_call0_call0_v15 : Ref sig .tc := ⟨.hbm, 44, rfl⟩
abbrev main_call0_call0_call0_c_3 : Ref sig .tc := ⟨.hbm, 45, rfl⟩
abbrev main_call0_call0_call0_v16 : Ref sig .tc := ⟨.hbm, 46, rfl⟩
abbrev main_call0_call0_call0_v17 : Ref sig .tc := ⟨.hbm, 47, rfl⟩
abbrev main_call0_call0_call0_v18 : Ref sig .tc := ⟨.hbm, 48, rfl⟩
abbrev main_call0_call0_call0_v19 : Ref sig .tc := ⟨.hbm, 49, rfl⟩
abbrev main_call0_call0_call0_v20 : Ref sig .tc := ⟨.hbm, 50, rfl⟩
abbrev main_call0_call0_call0_c_4 : Ref sig .tc := ⟨.hbm, 51, rfl⟩
abbrev main_call0_call0_call0_v21 : Ref sig .tc := ⟨.hbm, 52, rfl⟩
abbrev main_call0_call0_call0_v22 : Ref sig .tc := ⟨.hbm, 53, rfl⟩
abbrev main_call0_call0_call0_c_5 : Ref sig .tc := ⟨.hbm, 54, rfl⟩
abbrev main_call0_call0_call0_v23 : Ref sig .tc := ⟨.hbm, 55, rfl⟩
abbrev main_call0_call0_call0_v24 : Ref sig .tc := ⟨.hbm, 56, rfl⟩
abbrev main_call0_call0_call0_v25 : Ref sig .tc := ⟨.hbm, 57, rfl⟩
abbrev main_call0_call0_call0_v26 : Ref sig .tc := ⟨.hbm, 58, rfl⟩
abbrev main_call0_call0_call0_v27 : Ref sig .tc := ⟨.hbm, 59, rfl⟩
abbrev main_call0_call0_call0_c_6 : Ref sig .tc := ⟨.hbm, 60, rfl⟩
abbrev main_call0_call0_call0_v28 : Ref sig .tc := ⟨.hbm, 61, rfl⟩
abbrev main_call0_call0_call0_v29 : Ref sig .tc := ⟨.hbm, 62, rfl⟩
abbrev main_call0_call0_call0_c_7 : Ref sig .tc := ⟨.hbm, 63, rfl⟩
abbrev main_call0_call0_call0_v30 : Ref sig .tc := ⟨.hbm, 64, rfl⟩
abbrev main_call0_call0_call0_v31 : Ref sig .tc := ⟨.hbm, 65, rfl⟩
abbrev main_call0_call0_call0_v32 : Ref sig .tc := ⟨.hbm, 66, rfl⟩
abbrev main_call0_call0_call0_v33 : Ref sig .tc := ⟨.hbm, 67, rfl⟩
abbrev main_call0_call0_call0_v34 : Ref sig .tc := ⟨.hbm, 68, rfl⟩
abbrev main_call0_call0_call0_v35 : Ref sig .tc := ⟨.hbm, 69, rfl⟩
abbrev main_call0_call0_call0_v36 : Ref sig .tc := ⟨.hbm, 70, rfl⟩
abbrev main_call0_call0_call0_v37 : Ref sig .tc := ⟨.hbm, 71, rfl⟩
abbrev main_call0_call0_call0_c_8 : Ref sig .tc := ⟨.hbm, 72, rfl⟩
abbrev main_call0_call0_call0_v38 : Ref sig .tc := ⟨.hbm, 73, rfl⟩
abbrev main_call0_call0_call0_v39 : Ref sig .tc := ⟨.hbm, 74, rfl⟩
abbrev main_call0_call0_call0_v40 : Ref sig .tc := ⟨.hbm, 75, rfl⟩
abbrev main_call0_call0_call0_c_9 : Ref sig .tc := ⟨.hbm, 76, rfl⟩
abbrev main_call0_call0_call0_v41 : Ref sig .tc := ⟨.hbm, 77, rfl⟩
abbrev main_call0_call0_call0_v42 : Ref sig .tc := ⟨.hbm, 78, rfl⟩
abbrev main_call0_call0_call0_c_10 : Ref sig .tc := ⟨.hbm, 79, rfl⟩
abbrev main_call0_call0_call0_v43 : Ref sig .tc := ⟨.hbm, 80, rfl⟩
abbrev main_call0_call0_call0_v44 : Ref sig .tc := ⟨.hbm, 81, rfl⟩
abbrev main_call0_call0_call0_v45 : Ref sig .tc := ⟨.hbm, 82, rfl⟩
abbrev main_call0_call0_call0_v46 : Ref sig .tc := ⟨.hbm, 83, rfl⟩
abbrev main_call0_call0_call0_v47 : Ref sig .tc := ⟨.hbm, 84, rfl⟩
abbrev main_call0_call0_call0_c_11 : Ref sig .tc := ⟨.hbm, 85, rfl⟩
abbrev main_call0_call0_call0_v48 : Ref sig .tc := ⟨.hbm, 86, rfl⟩
abbrev main_call0_call0_call0_v49 : Ref sig .tc := ⟨.hbm, 87, rfl⟩
abbrev main_call0_call0_call0_c_12 : Ref sig .tc := ⟨.hbm, 88, rfl⟩
abbrev main_call0_call0_call0_v50 : Ref sig .tc := ⟨.hbm, 89, rfl⟩
abbrev main_call0_call0_call0_v51 : Ref sig .tc := ⟨.hbm, 90, rfl⟩
abbrev main_call0_call0_call0_v52 : Ref sig .tc := ⟨.hbm, 91, rfl⟩
abbrev main_call0_call0_call0_v53 : Ref sig .tc := ⟨.hbm, 92, rfl⟩
abbrev main_call0_call0_call0_v54 : Ref sig .tc := ⟨.hbm, 93, rfl⟩
abbrev main_call0_call0_call0_c_13 : Ref sig .tc := ⟨.hbm, 94, rfl⟩
abbrev main_call0_call0_call0_v55 : Ref sig .tc := ⟨.hbm, 95, rfl⟩
abbrev main_call0_call0_call0_v56 : Ref sig .tc := ⟨.hbm, 96, rfl⟩
abbrev main_call0_call0_call0_c_14 : Ref sig .tc := ⟨.hbm, 97, rfl⟩
abbrev main_call0_call0_call0_v57 : Ref sig .tc := ⟨.hbm, 98, rfl⟩
abbrev main_call0_call0_call0_v58 : Ref sig .tc := ⟨.hbm, 99, rfl⟩
abbrev main_call0_call0_call0_v59 : Ref sig .tc := ⟨.hbm, 100, rfl⟩
abbrev main_call0_call0_call0_v60 : Ref sig .tc := ⟨.hbm, 101, rfl⟩
abbrev main_call0_call0_call0_v61 : Ref sig .tc := ⟨.hbm, 102, rfl⟩
abbrev main_call0_call0_call0_c_15 : Ref sig .tc := ⟨.hbm, 103, rfl⟩
abbrev main_call0_call0_call0_v62 : Ref sig .tc := ⟨.hbm, 104, rfl⟩
abbrev main_call0_call0_call0_v63 : Ref sig .tc := ⟨.hbm, 105, rfl⟩
abbrev main_call0_call0_call0_c_16 : Ref sig .tc := ⟨.hbm, 106, rfl⟩
abbrev main_call0_call0_call0_v64 : Ref sig .tc := ⟨.hbm, 107, rfl⟩
abbrev main_call0_call0_call0_v65 : Ref sig .tc := ⟨.hbm, 108, rfl⟩
abbrev main_call0_call0_call0_v66 : Ref sig .tc := ⟨.hbm, 109, rfl⟩
abbrev main_call0_call0_call0_v67 : Ref sig .tc := ⟨.hbm, 110, rfl⟩
abbrev main_call0_call0_call0_v68 : Ref sig .tc := ⟨.hbm, 111, rfl⟩
abbrev main_call0_call0_call0_v69 : Ref sig .tc := ⟨.hbm, 112, rfl⟩
abbrev main_call0_call0_call0_v70 : Ref sig .tc := ⟨.hbm, 113, rfl⟩
abbrev main_call0_call0_call0_v71 : Ref sig .tc := ⟨.hbm, 114, rfl⟩
abbrev main_call0_call0_call0_c_17 : Ref sig .tc := ⟨.hbm, 115, rfl⟩
abbrev main_call0_call0_call0_v72 : Ref sig .tc := ⟨.hbm, 116, rfl⟩
abbrev main_call0_call0_call0_v73 : Ref sig .tc := ⟨.hbm, 117, rfl⟩
abbrev main_call0_call0_call0_v74 : Ref sig .tc := ⟨.hbm, 118, rfl⟩
abbrev main_call0_call0_call0_c_18 : Ref sig .tc := ⟨.hbm, 119, rfl⟩
abbrev main_call0_call0_call0_v75 : Ref sig .tc := ⟨.hbm, 120, rfl⟩
abbrev main_call0_call0_call0_v76 : Ref sig .tc := ⟨.hbm, 121, rfl⟩
abbrev main_call0_call0_call0_c_19 : Ref sig .tc := ⟨.hbm, 122, rfl⟩
abbrev main_call0_call0_call0_v77 : Ref sig .tc := ⟨.hbm, 123, rfl⟩
abbrev main_call0_call0_call0_v78 : Ref sig .tc := ⟨.hbm, 124, rfl⟩
abbrev main_call0_call0_call0_v79 : Ref sig .tc := ⟨.hbm, 125, rfl⟩
abbrev main_call0_call0_call0_v80 : Ref sig .tc := ⟨.hbm, 126, rfl⟩
abbrev main_call0_call0_call0_v81 : Ref sig .tc := ⟨.hbm, 127, rfl⟩
abbrev main_call0_call0_call0_c_20 : Ref sig .tc := ⟨.hbm, 128, rfl⟩
abbrev main_call0_call0_call0_v82 : Ref sig .tc := ⟨.hbm, 129, rfl⟩
abbrev main_call0_call0_call0_v83 : Ref sig .tc := ⟨.hbm, 130, rfl⟩
abbrev main_call0_call0_call0_c_21 : Ref sig .tc := ⟨.hbm, 131, rfl⟩
abbrev main_call0_call0_call0_v84 : Ref sig .tc := ⟨.hbm, 132, rfl⟩
abbrev main_call0_call0_call0_v85 : Ref sig .tc := ⟨.hbm, 133, rfl⟩
abbrev main_call0_call0_call0_v86 : Ref sig .tc := ⟨.hbm, 134, rfl⟩
abbrev main_call0_call0_call0_v87 : Ref sig .tc := ⟨.hbm, 135, rfl⟩
abbrev main_call0_call0_call0_v88 : Ref sig .tc := ⟨.hbm, 136, rfl⟩
abbrev main_call0_call0_call0_c_22 : Ref sig .tc := ⟨.hbm, 137, rfl⟩
abbrev main_call0_call0_call0_v89 : Ref sig .tc := ⟨.hbm, 138, rfl⟩
abbrev main_call0_call0_call0_v90 : Ref sig .tc := ⟨.hbm, 139, rfl⟩
abbrev main_call0_call0_call0_c_23 : Ref sig .tc := ⟨.hbm, 140, rfl⟩
abbrev main_call0_call0_call0_v91 : Ref sig .tc := ⟨.hbm, 141, rfl⟩
abbrev main_call0_call0_call0_v92 : Ref sig .tc := ⟨.hbm, 142, rfl⟩
abbrev main_call0_call0_call0_v93 : Ref sig .tc := ⟨.hbm, 143, rfl⟩
abbrev main_call0_call0_call0_v94 : Ref sig .tc := ⟨.hbm, 144, rfl⟩
abbrev main_call0_call0_call0_v95 : Ref sig .tc := ⟨.hbm, 145, rfl⟩
abbrev main_call0_call0_call0_c_24 : Ref sig .tc := ⟨.hbm, 146, rfl⟩
abbrev main_call0_call0_call0_v96 : Ref sig .tc := ⟨.hbm, 147, rfl⟩
abbrev main_call0_call0_call0_v97 : Ref sig .tc := ⟨.hbm, 148, rfl⟩
abbrev main_call0_call0_call0_c_25 : Ref sig .tc := ⟨.hbm, 149, rfl⟩
abbrev main_call0_call0_call0_v98 : Ref sig .tc := ⟨.hbm, 150, rfl⟩
abbrev main_call0_call0_call0_v99 : Ref sig .tc := ⟨.hbm, 151, rfl⟩
abbrev main_call0_call0_call0_v100 : Ref sig .tc := ⟨.hbm, 152, rfl⟩
abbrev main_call0_call0_call0_v101 : Ref sig .tc := ⟨.hbm, 153, rfl⟩
abbrev main_call0_call0_call0_v102 : Ref sig .tc := ⟨.hbm, 154, rfl⟩
abbrev main_call0_call0_call0_v103 : Ref sig .tc := ⟨.hbm, 155, rfl⟩
abbrev main_call0_call0_call0_v104 : Ref sig .tc := ⟨.hbm, 156, rfl⟩
abbrev main_call0_call0_call0_v105 : Ref sig .tc := ⟨.hbm, 157, rfl⟩
abbrev main_call0_call0_call0_c_26 : Ref sig .tc := ⟨.hbm, 158, rfl⟩
abbrev main_call0_call0_call0_v106 : Ref sig .tc := ⟨.hbm, 159, rfl⟩
abbrev main_call0_call0_call0_v107 : Ref sig .tc := ⟨.hbm, 160, rfl⟩
abbrev main_call0_call0_call0_v108 : Ref sig .tc := ⟨.hbm, 161, rfl⟩
abbrev main_call0_call0_call0_c_27 : Ref sig .tc := ⟨.hbm, 162, rfl⟩
abbrev main_call0_call0_call0_v109 : Ref sig .tc := ⟨.hbm, 163, rfl⟩
abbrev main_call0_call0_call0_v110 : Ref sig .tc := ⟨.hbm, 164, rfl⟩
abbrev main_call0_call0_call0_c_28 : Ref sig .tc := ⟨.hbm, 165, rfl⟩
abbrev main_call0_call0_call0_v111 : Ref sig .tc := ⟨.hbm, 166, rfl⟩
abbrev main_call0_call0_call0_v112 : Ref sig .tc := ⟨.hbm, 167, rfl⟩
abbrev main_call0_call0_call0_v113 : Ref sig .tc := ⟨.hbm, 168, rfl⟩
abbrev main_call0_call0_call0_v114 : Ref sig .tc := ⟨.hbm, 169, rfl⟩
abbrev main_call0_call0_call0_v115 : Ref sig .tc := ⟨.hbm, 170, rfl⟩
abbrev main_call0_call0_call0_c_29 : Ref sig .tc := ⟨.hbm, 171, rfl⟩
abbrev main_call0_call0_call0_v116 : Ref sig .tc := ⟨.hbm, 172, rfl⟩
abbrev main_call0_call0_call0_v117 : Ref sig .tc := ⟨.hbm, 173, rfl⟩
abbrev main_call0_call0_call0_c_30 : Ref sig .tc := ⟨.hbm, 174, rfl⟩
abbrev main_call0_call0_call0_v118 : Ref sig .tc := ⟨.hbm, 175, rfl⟩
abbrev main_call0_call0_call0_v119 : Ref sig .tc := ⟨.hbm, 176, rfl⟩
abbrev main_call0_call0_call0_v120 : Ref sig .tc := ⟨.hbm, 177, rfl⟩
abbrev main_call0_call0_call0_v121 : Ref sig .tc := ⟨.hbm, 178, rfl⟩
abbrev main_call0_call0_call0_v122 : Ref sig .tc := ⟨.hbm, 179, rfl⟩
abbrev main_call0_call0_call0_c_31 : Ref sig .tc := ⟨.hbm, 180, rfl⟩
abbrev main_call0_call0_call0_v123 : Ref sig .tc := ⟨.hbm, 181, rfl⟩
abbrev main_call0_call0_call0_v124 : Ref sig .tc := ⟨.hbm, 182, rfl⟩
abbrev main_call0_call0_call0_c_32 : Ref sig .tc := ⟨.hbm, 183, rfl⟩
abbrev main_call0_call0_call0_v125 : Ref sig .tc := ⟨.hbm, 184, rfl⟩
abbrev main_call0_call0_call0_v126 : Ref sig .tc := ⟨.hbm, 185, rfl⟩
abbrev main_call0_call0_call0_v127 : Ref sig .tc := ⟨.hbm, 186, rfl⟩
abbrev main_call0_call0_call0_v128 : Ref sig .tc := ⟨.hbm, 187, rfl⟩
abbrev main_call0_call0_call0_v129 : Ref sig .tc := ⟨.hbm, 188, rfl⟩
abbrev main_call0_call0_call0_c_33 : Ref sig .tc := ⟨.hbm, 189, rfl⟩
abbrev main_call0_call0_call0_v130 : Ref sig .tc := ⟨.hbm, 190, rfl⟩
abbrev main_call0_call0_call0_v131 : Ref sig .tc := ⟨.hbm, 191, rfl⟩
abbrev main_call0_call0_call0_c_34 : Ref sig .tc := ⟨.hbm, 192, rfl⟩
abbrev main_call0_call0_call0_v132 : Ref sig .tc := ⟨.hbm, 193, rfl⟩
abbrev main_call0_call0_call0_v133 : Ref sig .tc := ⟨.hbm, 194, rfl⟩
abbrev main_call0_call0_call0_v134 : Ref sig .tc := ⟨.hbm, 195, rfl⟩
abbrev main_call0_call0_call0_v135 : Ref sig .tc := ⟨.hbm, 196, rfl⟩
abbrev main_call0_call0_call0_v136 : Ref sig .tc := ⟨.hbm, 197, rfl⟩
abbrev main_call0_call0_call0_v137 : Ref sig .tc := ⟨.hbm, 198, rfl⟩
abbrev main_call0_call0_call0_v138 : Ref sig .tc := ⟨.hbm, 199, rfl⟩
abbrev main_call0_call0_call0_v139 : Ref sig .tc := ⟨.hbm, 200, rfl⟩
abbrev main_call0_call0_call0_c_35 : Ref sig .tc := ⟨.hbm, 201, rfl⟩
abbrev main_call0_call0_call0_v140 : Ref sig .tc := ⟨.hbm, 202, rfl⟩
abbrev main_call0_call0_call0_v141 : Ref sig .tc := ⟨.hbm, 203, rfl⟩
abbrev main_call0_call0_call0_v142 : Ref sig .tc := ⟨.hbm, 204, rfl⟩
abbrev main_call0_call0_call0_c_36 : Ref sig .tc := ⟨.hbm, 205, rfl⟩
abbrev main_call0_call0_call0_v143 : Ref sig .tc := ⟨.hbm, 206, rfl⟩
abbrev main_call0_call0_call0_v144 : Ref sig .tc := ⟨.hbm, 207, rfl⟩
abbrev main_call0_call0_call0_c_37 : Ref sig .tc := ⟨.hbm, 208, rfl⟩
abbrev main_call0_call0_call0_v145 : Ref sig .tc := ⟨.hbm, 209, rfl⟩
abbrev main_call0_call0_call0_v146 : Ref sig .tc := ⟨.hbm, 210, rfl⟩
abbrev main_call0_call0_call0_v147 : Ref sig .tc := ⟨.hbm, 211, rfl⟩
abbrev main_call0_call0_call0_v148 : Ref sig .tc := ⟨.hbm, 212, rfl⟩
abbrev main_call0_call0_call0_v149 : Ref sig .tc := ⟨.hbm, 213, rfl⟩
abbrev main_call0_call0_call0_c_38 : Ref sig .tc := ⟨.hbm, 214, rfl⟩
abbrev main_call0_call0_call0_v150 : Ref sig .tc := ⟨.hbm, 215, rfl⟩
abbrev main_call0_call0_call0_v151 : Ref sig .tc := ⟨.hbm, 216, rfl⟩
abbrev main_call0_call0_call0_c_39 : Ref sig .tc := ⟨.hbm, 217, rfl⟩
abbrev main_call0_call0_call0_v152 : Ref sig .tc := ⟨.hbm, 218, rfl⟩
abbrev main_call0_call0_call0_v153 : Ref sig .tc := ⟨.hbm, 219, rfl⟩
abbrev main_call0_call0_call0_v154 : Ref sig .tc := ⟨.hbm, 220, rfl⟩
abbrev main_call0_call0_call0_v155 : Ref sig .tc := ⟨.hbm, 221, rfl⟩
abbrev main_call0_call0_call0_v156 : Ref sig .tc := ⟨.hbm, 222, rfl⟩
abbrev main_call0_call0_call0_c_40 : Ref sig .tc := ⟨.hbm, 223, rfl⟩
abbrev main_call0_call0_call0_v157 : Ref sig .tc := ⟨.hbm, 224, rfl⟩
abbrev main_call0_call0_call0_v158 : Ref sig .tc := ⟨.hbm, 225, rfl⟩
abbrev main_call0_call0_call0_c_41 : Ref sig .tc := ⟨.hbm, 226, rfl⟩
abbrev main_call0_call0_call0_v159 : Ref sig .tc := ⟨.hbm, 227, rfl⟩
abbrev main_call0_call0_call0_v160 : Ref sig .tc := ⟨.hbm, 228, rfl⟩
abbrev main_call0_call0_call0_v161 : Ref sig .tc := ⟨.hbm, 229, rfl⟩
abbrev main_call0_call0_call0_v162 : Ref sig .tc := ⟨.hbm, 230, rfl⟩
abbrev main_call0_call0_call0_v163 : Ref sig .tc := ⟨.hbm, 231, rfl⟩
abbrev main_call0_call0_call0_c_42 : Ref sig .tc := ⟨.hbm, 232, rfl⟩
abbrev main_call0_call0_call0_v164 : Ref sig .tc := ⟨.hbm, 233, rfl⟩
abbrev main_call0_call0_call0_v165 : Ref sig .tc := ⟨.hbm, 234, rfl⟩
abbrev main_call0_call0_call0_c_43 : Ref sig .tc := ⟨.hbm, 235, rfl⟩
abbrev main_call0_call0_call0_v166 : Ref sig .tc := ⟨.hbm, 236, rfl⟩
abbrev main_call0_call0_call0_v167 : Ref sig .tc := ⟨.hbm, 237, rfl⟩
abbrev main_call0_call0_call0_v168 : Ref sig .tc := ⟨.hbm, 238, rfl⟩
abbrev main_call0_call0_call0_v169 : Ref sig .tc := ⟨.hbm, 239, rfl⟩
abbrev main_call0_call0_call0_v170 : Ref sig .tc := ⟨.hbm, 240, rfl⟩
abbrev main_call0_call0_v11_0 : Ref sig .tc := ⟨.hbm, 241, rfl⟩
abbrev main_call0_call0_call0_v172 : Ref sig .tc := ⟨.hbm, 242, rfl⟩
abbrev main_call0_call0_call0_v173 : Ref sig .tc := ⟨.hbm, 243, rfl⟩
abbrev main_call0_call0_call0_c_44 : Ref sig .tc := ⟨.hbm, 244, rfl⟩
abbrev main_call0_call0_call0_v174 : Ref sig .tc := ⟨.hbm, 245, rfl⟩
abbrev main_call0_call0_v11_1 : Ref sig .tc := ⟨.hbm, 246, rfl⟩
abbrev main_call0_call0_v12 : Ref sig .tc := ⟨.hbm, 247, rfl⟩
abbrev main_call0_call0_v13 : Ref sig .tc := ⟨.hbm, 248, rfl⟩
abbrev main_call0_v0 : Ref sig .tc := ⟨.hbm, 249, rfl⟩
abbrev main_call0_v1 : Ref sig .tc := ⟨.hbm, 250, rfl⟩
abbrev main_call0_v2 : Ref sig .tc := ⟨.hbm, 251, rfl⟩
abbrev main_call0_v3 : Ref sig .tc := ⟨.hbm, 252, rfl⟩
abbrev main_call0_v4 : Ref sig .tc := ⟨.hbm, 253, rfl⟩
abbrev main_call0_v5 : Ref sig .tc := ⟨.hbm, 254, rfl⟩
abbrev main_call0_v6 : Ref sig .tc := ⟨.hbm, 255, rfl⟩
abbrev main_call0_v7 : Ref sig .tc := ⟨.hbm, 256, rfl⟩
abbrev main_call0_v8 : Ref sig .tc := ⟨.hbm, 257, rfl⟩
abbrev main_call0_v9 : Ref sig .tc := ⟨.hbm, 258, rfl⟩
abbrev main_call0_c : Ref sig .tc := ⟨.hbm, 259, rfl⟩
abbrev main_call0_v10 : Ref sig .tc := ⟨.hbm, 260, rfl⟩
abbrev main_call0_v11 : Ref sig .tc := ⟨.hbm, 261, rfl⟩
abbrev main_call0_c_0 : Ref sig .tc := ⟨.hbm, 262, rfl⟩
abbrev main_call0_v12 : Ref sig .tc := ⟨.hbm, 263, rfl⟩
abbrev main_call0_v13 : Ref sig .tc := ⟨.hbm, 264, rfl⟩
abbrev main_call0_v14 : Ref sig .tc := ⟨.hbm, 265, rfl⟩
abbrev main_call0_v15 : Ref sig .tc := ⟨.hbm, 266, rfl⟩
abbrev main_call0_call1_v0 : Ref sig .tc := ⟨.hbm, 267, rfl⟩
abbrev main_call0_call1_c : Ref sig .tc := ⟨.hbm, 268, rfl⟩
abbrev main_call0_call1_v1 : Ref sig .tc := ⟨.hbm, 269, rfl⟩
abbrev main_call0_call1_v2 : Ref sig .tc := ⟨.hbm, 270, rfl⟩
abbrev main_call0_call1_v3 : Ref sig .tc := ⟨.hbm, 271, rfl⟩
abbrev main_call0_call1_v4 : Ref sig .tc := ⟨.hbm, 272, rfl⟩
abbrev main_call0_call1_v5 : Ref sig .tc := ⟨.hbm, 273, rfl⟩
abbrev main_call0_call1_v6 : Ref sig .tc := ⟨.hbm, 274, rfl⟩
abbrev main_call0_call1_c_0 : Ref sig .tc := ⟨.hbm, 275, rfl⟩
abbrev main_call0_call1_v7 : Ref sig .tc := ⟨.hbm, 276, rfl⟩
abbrev main_call0_call1_v8 : Ref sig .tc := ⟨.hbm, 277, rfl⟩
abbrev main_call0_call1_c_1 : Ref sig .tc := ⟨.hbm, 278, rfl⟩
abbrev main_call0_call1_v9 : Ref sig .tc := ⟨.hbm, 279, rfl⟩
abbrev main_call0_call1_v10 : Ref sig .tc := ⟨.hbm, 280, rfl⟩
abbrev main_call0_call1_v11 : Ref sig .tc := ⟨.hbm, 281, rfl⟩
abbrev main_call0_call1_v12 : Ref sig .tc := ⟨.hbm, 282, rfl⟩
abbrev main_call0_call1_v13 : Ref sig .tc := ⟨.hbm, 283, rfl⟩
abbrev main_call0_call1_c_2 : Ref sig .tc := ⟨.hbm, 284, rfl⟩
abbrev main_call0_call1_v14 : Ref sig .tc := ⟨.hbm, 285, rfl⟩
abbrev main_call0_call1_v15 : Ref sig .tc := ⟨.hbm, 286, rfl⟩
abbrev main_call0_call1_c_3 : Ref sig .tc := ⟨.hbm, 287, rfl⟩
abbrev main_call0_call1_v16 : Ref sig .tc := ⟨.hbm, 288, rfl⟩
abbrev main_call0_call1_v17 : Ref sig .tc := ⟨.hbm, 289, rfl⟩
abbrev main_call0_call1_v18 : Ref sig .tc := ⟨.hbm, 290, rfl⟩
abbrev main_call0_call1_v19 : Ref sig .tc := ⟨.hbm, 291, rfl⟩
abbrev main_call0_call1_v20 : Ref sig .tc := ⟨.hbm, 292, rfl⟩
abbrev main_call0_call1_c_4 : Ref sig .tc := ⟨.hbm, 293, rfl⟩
abbrev main_call0_call1_v21 : Ref sig .tc := ⟨.hbm, 294, rfl⟩
abbrev main_call0_call1_v22 : Ref sig .tc := ⟨.hbm, 295, rfl⟩
abbrev main_call0_call1_c_5 : Ref sig .tc := ⟨.hbm, 296, rfl⟩
abbrev main_call0_call1_v23 : Ref sig .tc := ⟨.hbm, 297, rfl⟩
abbrev main_call0_call1_v24 : Ref sig .tc := ⟨.hbm, 298, rfl⟩
abbrev main_call0_call1_v25 : Ref sig .tc := ⟨.hbm, 299, rfl⟩
abbrev main_call0_call1_v26 : Ref sig .tc := ⟨.hbm, 300, rfl⟩
abbrev main_call0_call1_v27 : Ref sig .tc := ⟨.hbm, 301, rfl⟩
abbrev main_call0_call1_c_6 : Ref sig .tc := ⟨.hbm, 302, rfl⟩
abbrev main_call0_call1_v28 : Ref sig .tc := ⟨.hbm, 303, rfl⟩
abbrev main_call0_call1_v29 : Ref sig .tc := ⟨.hbm, 304, rfl⟩
abbrev main_call0_call1_c_7 : Ref sig .tc := ⟨.hbm, 305, rfl⟩
abbrev main_call0_call1_v30 : Ref sig .tc := ⟨.hbm, 306, rfl⟩
abbrev main_call0_call1_v31 : Ref sig .tc := ⟨.hbm, 307, rfl⟩
abbrev main_call0_call1_v32 : Ref sig .tc := ⟨.hbm, 308, rfl⟩
abbrev main_call0_call1_v33 : Ref sig .tc := ⟨.hbm, 309, rfl⟩
abbrev main_call0_call1_v34 : Ref sig .tc := ⟨.hbm, 310, rfl⟩
abbrev main_call0_call1_v35 : Ref sig .tc := ⟨.hbm, 311, rfl⟩
abbrev main_call0_call1_v36 : Ref sig .tc := ⟨.hbm, 312, rfl⟩
abbrev main_call0_call1_v37 : Ref sig .tc := ⟨.hbm, 313, rfl⟩
abbrev main_call0_call1_c_8 : Ref sig .tc := ⟨.hbm, 314, rfl⟩
abbrev main_call0_call1_v38 : Ref sig .tc := ⟨.hbm, 315, rfl⟩
abbrev main_call0_call1_v39 : Ref sig .tc := ⟨.hbm, 316, rfl⟩
abbrev main_call0_call1_v40 : Ref sig .tc := ⟨.hbm, 317, rfl⟩
abbrev main_call0_call1_c_9 : Ref sig .tc := ⟨.hbm, 318, rfl⟩
abbrev main_call0_call1_v41 : Ref sig .tc := ⟨.hbm, 319, rfl⟩
abbrev main_call0_call1_v42 : Ref sig .tc := ⟨.hbm, 320, rfl⟩
abbrev main_call0_call1_c_10 : Ref sig .tc := ⟨.hbm, 321, rfl⟩
abbrev main_call0_call1_v43 : Ref sig .tc := ⟨.hbm, 322, rfl⟩
abbrev main_call0_call1_v44 : Ref sig .tc := ⟨.hbm, 323, rfl⟩
abbrev main_call0_call1_v45 : Ref sig .tc := ⟨.hbm, 324, rfl⟩
abbrev main_call0_call1_v46 : Ref sig .tc := ⟨.hbm, 325, rfl⟩
abbrev main_call0_call1_v47 : Ref sig .tc := ⟨.hbm, 326, rfl⟩
abbrev main_call0_call1_c_11 : Ref sig .tc := ⟨.hbm, 327, rfl⟩
abbrev main_call0_call1_v48 : Ref sig .tc := ⟨.hbm, 328, rfl⟩
abbrev main_call0_call1_v49 : Ref sig .tc := ⟨.hbm, 329, rfl⟩
abbrev main_call0_call1_c_12 : Ref sig .tc := ⟨.hbm, 330, rfl⟩
abbrev main_call0_call1_v50 : Ref sig .tc := ⟨.hbm, 331, rfl⟩
abbrev main_call0_call1_v51 : Ref sig .tc := ⟨.hbm, 332, rfl⟩
abbrev main_call0_call1_v52 : Ref sig .tc := ⟨.hbm, 333, rfl⟩
abbrev main_call0_call1_v53 : Ref sig .tc := ⟨.hbm, 334, rfl⟩
abbrev main_call0_call1_v54 : Ref sig .tc := ⟨.hbm, 335, rfl⟩
abbrev main_call0_call1_c_13 : Ref sig .tc := ⟨.hbm, 336, rfl⟩
abbrev main_call0_call1_v55 : Ref sig .tc := ⟨.hbm, 337, rfl⟩
abbrev main_call0_call1_v56 : Ref sig .tc := ⟨.hbm, 338, rfl⟩
abbrev main_call0_call1_c_14 : Ref sig .tc := ⟨.hbm, 339, rfl⟩
abbrev main_call0_call1_v57 : Ref sig .tc := ⟨.hbm, 340, rfl⟩
abbrev main_call0_call1_v58 : Ref sig .tc := ⟨.hbm, 341, rfl⟩
abbrev main_call0_call1_v59 : Ref sig .tc := ⟨.hbm, 342, rfl⟩
abbrev main_call0_call1_v60 : Ref sig .tc := ⟨.hbm, 343, rfl⟩
abbrev main_call0_call1_v61 : Ref sig .tc := ⟨.hbm, 344, rfl⟩
abbrev main_call0_call1_c_15 : Ref sig .tc := ⟨.hbm, 345, rfl⟩
abbrev main_call0_call1_v62 : Ref sig .tc := ⟨.hbm, 346, rfl⟩
abbrev main_call0_call1_v63 : Ref sig .tc := ⟨.hbm, 347, rfl⟩
abbrev main_call0_call1_c_16 : Ref sig .tc := ⟨.hbm, 348, rfl⟩
abbrev main_call0_call1_v64 : Ref sig .tc := ⟨.hbm, 349, rfl⟩
abbrev main_call0_call1_v65 : Ref sig .tc := ⟨.hbm, 350, rfl⟩
abbrev main_call0_call1_v66 : Ref sig .tc := ⟨.hbm, 351, rfl⟩
abbrev main_call0_call1_v67 : Ref sig .tc := ⟨.hbm, 352, rfl⟩
abbrev main_call0_call1_v68 : Ref sig .tc := ⟨.hbm, 353, rfl⟩
abbrev main_call0_call1_v69 : Ref sig .tc := ⟨.hbm, 354, rfl⟩
abbrev main_call0_call1_v70 : Ref sig .tc := ⟨.hbm, 355, rfl⟩
abbrev main_call0_call1_v71 : Ref sig .tc := ⟨.hbm, 356, rfl⟩
abbrev main_call0_call1_c_17 : Ref sig .tc := ⟨.hbm, 357, rfl⟩
abbrev main_call0_call1_v72 : Ref sig .tc := ⟨.hbm, 358, rfl⟩
abbrev main_call0_call1_v73 : Ref sig .tc := ⟨.hbm, 359, rfl⟩
abbrev main_call0_call1_v74 : Ref sig .tc := ⟨.hbm, 360, rfl⟩
abbrev main_call0_call1_c_18 : Ref sig .tc := ⟨.hbm, 361, rfl⟩
abbrev main_call0_call1_v75 : Ref sig .tc := ⟨.hbm, 362, rfl⟩
abbrev main_call0_call1_v76 : Ref sig .tc := ⟨.hbm, 363, rfl⟩
abbrev main_call0_call1_c_19 : Ref sig .tc := ⟨.hbm, 364, rfl⟩
abbrev main_call0_call1_v77 : Ref sig .tc := ⟨.hbm, 365, rfl⟩
abbrev main_call0_call1_v78 : Ref sig .tc := ⟨.hbm, 366, rfl⟩
abbrev main_call0_call1_v79 : Ref sig .tc := ⟨.hbm, 367, rfl⟩
abbrev main_call0_call1_v80 : Ref sig .tc := ⟨.hbm, 368, rfl⟩
abbrev main_call0_call1_v81 : Ref sig .tc := ⟨.hbm, 369, rfl⟩
abbrev main_call0_call1_c_20 : Ref sig .tc := ⟨.hbm, 370, rfl⟩
abbrev main_call0_call1_v82 : Ref sig .tc := ⟨.hbm, 371, rfl⟩
abbrev main_call0_call1_v83 : Ref sig .tc := ⟨.hbm, 372, rfl⟩
abbrev main_call0_call1_c_21 : Ref sig .tc := ⟨.hbm, 373, rfl⟩
abbrev main_call0_call1_v84 : Ref sig .tc := ⟨.hbm, 374, rfl⟩
abbrev main_call0_call1_v85 : Ref sig .tc := ⟨.hbm, 375, rfl⟩
abbrev main_call0_call1_v86 : Ref sig .tc := ⟨.hbm, 376, rfl⟩
abbrev main_call0_call1_v87 : Ref sig .tc := ⟨.hbm, 377, rfl⟩
abbrev main_call0_call1_v88 : Ref sig .tc := ⟨.hbm, 378, rfl⟩
abbrev main_call0_call1_c_22 : Ref sig .tc := ⟨.hbm, 379, rfl⟩
abbrev main_call0_call1_v89 : Ref sig .tc := ⟨.hbm, 380, rfl⟩
abbrev main_call0_call1_v90 : Ref sig .tc := ⟨.hbm, 381, rfl⟩
abbrev main_call0_call1_c_23 : Ref sig .tc := ⟨.hbm, 382, rfl⟩
abbrev main_call0_call1_v91 : Ref sig .tc := ⟨.hbm, 383, rfl⟩
abbrev main_call0_call1_v92 : Ref sig .tc := ⟨.hbm, 384, rfl⟩
abbrev main_call0_call1_v93 : Ref sig .tc := ⟨.hbm, 385, rfl⟩
abbrev main_call0_call1_v94 : Ref sig .tc := ⟨.hbm, 386, rfl⟩
abbrev main_call0_call1_v95 : Ref sig .tc := ⟨.hbm, 387, rfl⟩
abbrev main_call0_call1_c_24 : Ref sig .tc := ⟨.hbm, 388, rfl⟩
abbrev main_call0_call1_v96 : Ref sig .tc := ⟨.hbm, 389, rfl⟩
abbrev main_call0_call1_v97 : Ref sig .tc := ⟨.hbm, 390, rfl⟩
abbrev main_call0_call1_c_25 : Ref sig .tc := ⟨.hbm, 391, rfl⟩
abbrev main_call0_call1_v98 : Ref sig .tc := ⟨.hbm, 392, rfl⟩
abbrev main_call0_call1_v99 : Ref sig .tc := ⟨.hbm, 393, rfl⟩
abbrev main_call0_call1_v100 : Ref sig .tc := ⟨.hbm, 394, rfl⟩
abbrev main_call0_call1_v101 : Ref sig .tc := ⟨.hbm, 395, rfl⟩
abbrev main_call0_call1_v102 : Ref sig .tc := ⟨.hbm, 396, rfl⟩
abbrev main_call0_call1_v103 : Ref sig .tc := ⟨.hbm, 397, rfl⟩
abbrev main_call0_call1_v104 : Ref sig .tc := ⟨.hbm, 398, rfl⟩
abbrev main_call0_call1_v105 : Ref sig .tc := ⟨.hbm, 399, rfl⟩
abbrev main_call0_call1_c_26 : Ref sig .tc := ⟨.hbm, 400, rfl⟩
abbrev main_call0_call1_v106 : Ref sig .tc := ⟨.hbm, 401, rfl⟩
abbrev main_call0_call1_v107 : Ref sig .tc := ⟨.hbm, 402, rfl⟩
abbrev main_call0_call1_v108 : Ref sig .tc := ⟨.hbm, 403, rfl⟩
abbrev main_call0_call1_c_27 : Ref sig .tc := ⟨.hbm, 404, rfl⟩
abbrev main_call0_call1_v109 : Ref sig .tc := ⟨.hbm, 405, rfl⟩
abbrev main_call0_call1_v110 : Ref sig .tc := ⟨.hbm, 406, rfl⟩
abbrev main_call0_call1_c_28 : Ref sig .tc := ⟨.hbm, 407, rfl⟩
abbrev main_call0_call1_v111 : Ref sig .tc := ⟨.hbm, 408, rfl⟩
abbrev main_call0_call1_v112 : Ref sig .tc := ⟨.hbm, 409, rfl⟩
abbrev main_call0_call1_v113 : Ref sig .tc := ⟨.hbm, 410, rfl⟩
abbrev main_call0_call1_v114 : Ref sig .tc := ⟨.hbm, 411, rfl⟩
abbrev main_call0_call1_v115 : Ref sig .tc := ⟨.hbm, 412, rfl⟩
abbrev main_call0_call1_c_29 : Ref sig .tc := ⟨.hbm, 413, rfl⟩
abbrev main_call0_call1_v116 : Ref sig .tc := ⟨.hbm, 414, rfl⟩
abbrev main_call0_call1_v117 : Ref sig .tc := ⟨.hbm, 415, rfl⟩
abbrev main_call0_call1_c_30 : Ref sig .tc := ⟨.hbm, 416, rfl⟩
abbrev main_call0_call1_v118 : Ref sig .tc := ⟨.hbm, 417, rfl⟩
abbrev main_call0_call1_v119 : Ref sig .tc := ⟨.hbm, 418, rfl⟩
abbrev main_call0_call1_v120 : Ref sig .tc := ⟨.hbm, 419, rfl⟩
abbrev main_call0_call1_v121 : Ref sig .tc := ⟨.hbm, 420, rfl⟩
abbrev main_call0_call1_v122 : Ref sig .tc := ⟨.hbm, 421, rfl⟩
abbrev main_call0_call1_c_31 : Ref sig .tc := ⟨.hbm, 422, rfl⟩
abbrev main_call0_call1_v123 : Ref sig .tc := ⟨.hbm, 423, rfl⟩
abbrev main_call0_call1_v124 : Ref sig .tc := ⟨.hbm, 424, rfl⟩
abbrev main_call0_call1_c_32 : Ref sig .tc := ⟨.hbm, 425, rfl⟩
abbrev main_call0_call1_v125 : Ref sig .tc := ⟨.hbm, 426, rfl⟩
abbrev main_call0_call1_v126 : Ref sig .tc := ⟨.hbm, 427, rfl⟩
abbrev main_call0_call1_v127 : Ref sig .tc := ⟨.hbm, 428, rfl⟩
abbrev main_call0_call1_v128 : Ref sig .tc := ⟨.hbm, 429, rfl⟩
abbrev main_call0_call1_v129 : Ref sig .tc := ⟨.hbm, 430, rfl⟩
abbrev main_call0_call1_c_33 : Ref sig .tc := ⟨.hbm, 431, rfl⟩
abbrev main_call0_call1_v130 : Ref sig .tc := ⟨.hbm, 432, rfl⟩
abbrev main_call0_call1_v131 : Ref sig .tc := ⟨.hbm, 433, rfl⟩
abbrev main_call0_call1_c_34 : Ref sig .tc := ⟨.hbm, 434, rfl⟩
abbrev main_call0_call1_v132 : Ref sig .tc := ⟨.hbm, 435, rfl⟩
abbrev main_call0_call1_v133 : Ref sig .tc := ⟨.hbm, 436, rfl⟩
abbrev main_call0_call1_v134 : Ref sig .tc := ⟨.hbm, 437, rfl⟩
abbrev main_call0_call1_v135 : Ref sig .tc := ⟨.hbm, 438, rfl⟩
abbrev main_call0_call1_v136 : Ref sig .tc := ⟨.hbm, 439, rfl⟩
abbrev main_call0_call1_v137 : Ref sig .tc := ⟨.hbm, 440, rfl⟩
abbrev main_call0_call1_v138 : Ref sig .tc := ⟨.hbm, 441, rfl⟩
abbrev main_call0_call1_v139 : Ref sig .tc := ⟨.hbm, 442, rfl⟩
abbrev main_call0_call1_c_35 : Ref sig .tc := ⟨.hbm, 443, rfl⟩
abbrev main_call0_call1_v140 : Ref sig .tc := ⟨.hbm, 444, rfl⟩
abbrev main_call0_call1_v141 : Ref sig .tc := ⟨.hbm, 445, rfl⟩
abbrev main_call0_call1_v142 : Ref sig .tc := ⟨.hbm, 446, rfl⟩
abbrev main_call0_call1_c_36 : Ref sig .tc := ⟨.hbm, 447, rfl⟩
abbrev main_call0_call1_v143 : Ref sig .tc := ⟨.hbm, 448, rfl⟩
abbrev main_call0_call1_v144 : Ref sig .tc := ⟨.hbm, 449, rfl⟩
abbrev main_call0_call1_c_37 : Ref sig .tc := ⟨.hbm, 450, rfl⟩
abbrev main_call0_call1_v145 : Ref sig .tc := ⟨.hbm, 451, rfl⟩
abbrev main_call0_call1_v146 : Ref sig .tc := ⟨.hbm, 452, rfl⟩
abbrev main_call0_call1_v147 : Ref sig .tc := ⟨.hbm, 453, rfl⟩
abbrev main_call0_call1_v148 : Ref sig .tc := ⟨.hbm, 454, rfl⟩
abbrev main_call0_call1_v149 : Ref sig .tc := ⟨.hbm, 455, rfl⟩
abbrev main_call0_call1_c_38 : Ref sig .tc := ⟨.hbm, 456, rfl⟩
abbrev main_call0_call1_v150 : Ref sig .tc := ⟨.hbm, 457, rfl⟩
abbrev main_call0_call1_v151 : Ref sig .tc := ⟨.hbm, 458, rfl⟩
abbrev main_call0_call1_c_39 : Ref sig .tc := ⟨.hbm, 459, rfl⟩
abbrev main_call0_call1_v152 : Ref sig .tc := ⟨.hbm, 460, rfl⟩
abbrev main_call0_call1_v153 : Ref sig .tc := ⟨.hbm, 461, rfl⟩
abbrev main_call0_call1_v154 : Ref sig .tc := ⟨.hbm, 462, rfl⟩
abbrev main_call0_call1_v155 : Ref sig .tc := ⟨.hbm, 463, rfl⟩
abbrev main_call0_call1_v156 : Ref sig .tc := ⟨.hbm, 464, rfl⟩
abbrev main_call0_call1_c_40 : Ref sig .tc := ⟨.hbm, 465, rfl⟩
abbrev main_call0_call1_v157 : Ref sig .tc := ⟨.hbm, 466, rfl⟩
abbrev main_call0_call1_v158 : Ref sig .tc := ⟨.hbm, 467, rfl⟩
abbrev main_call0_call1_c_41 : Ref sig .tc := ⟨.hbm, 468, rfl⟩
abbrev main_call0_call1_v159 : Ref sig .tc := ⟨.hbm, 469, rfl⟩
abbrev main_call0_call1_v160 : Ref sig .tc := ⟨.hbm, 470, rfl⟩
abbrev main_call0_call1_v161 : Ref sig .tc := ⟨.hbm, 471, rfl⟩
abbrev main_call0_call1_v162 : Ref sig .tc := ⟨.hbm, 472, rfl⟩
abbrev main_call0_call1_v163 : Ref sig .tc := ⟨.hbm, 473, rfl⟩
abbrev main_call0_call1_c_42 : Ref sig .tc := ⟨.hbm, 474, rfl⟩
abbrev main_call0_call1_v164 : Ref sig .tc := ⟨.hbm, 475, rfl⟩
abbrev main_call0_call1_v165 : Ref sig .tc := ⟨.hbm, 476, rfl⟩
abbrev main_call0_call1_c_43 : Ref sig .tc := ⟨.hbm, 477, rfl⟩
abbrev main_call0_call1_v166 : Ref sig .tc := ⟨.hbm, 478, rfl⟩
abbrev main_call0_call1_v167 : Ref sig .tc := ⟨.hbm, 479, rfl⟩
abbrev main_call0_call1_v168 : Ref sig .tc := ⟨.hbm, 480, rfl⟩
abbrev main_call0_call1_v169 : Ref sig .tc := ⟨.hbm, 481, rfl⟩
abbrev main_call0_call1_v170 : Ref sig .tc := ⟨.hbm, 482, rfl⟩
abbrev main_call0_v16_0 : Ref sig .tc := ⟨.hbm, 483, rfl⟩
abbrev main_call0_call1_v172 : Ref sig .tc := ⟨.hbm, 484, rfl⟩
abbrev main_call0_call1_v173 : Ref sig .tc := ⟨.hbm, 485, rfl⟩
abbrev main_call0_call1_c_44 : Ref sig .tc := ⟨.hbm, 486, rfl⟩
abbrev main_call0_call1_v174 : Ref sig .tc := ⟨.hbm, 487, rfl⟩
abbrev main_call0_v16_1 : Ref sig .tc := ⟨.hbm, 488, rfl⟩
abbrev main_call0_v17 : Ref sig .tc := ⟨.hbm, 489, rfl⟩
abbrev main_call0_v18_0 : Ref sig .tc := ⟨.hbm, 490, rfl⟩
abbrev main_v8 : Ref sig .tc := ⟨.hbm, 491, rfl⟩
abbrev main_v9 : Ref sig .tc := ⟨.hbm, 492, rfl⟩
abbrev main_c_2 : Ref sig .tc := ⟨.hbm, 493, rfl⟩
abbrev main_v10 : Ref sig .tc := ⟨.hbm, 494, rfl⟩
abbrev main_v11 : Ref sig .tc := ⟨.hbm, 495, rfl⟩
abbrev main_c_3 : Ref sig .tc := ⟨.hbm, 496, rfl⟩
abbrev main_v12 : Ref sig .tc := ⟨.hbm, 497, rfl⟩
abbrev main_v13 : Ref sig .tc := ⟨.hbm, 498, rfl⟩
abbrev main_c_4 : Ref sig .tc := ⟨.hbm, 499, rfl⟩
abbrev main_v14 : Ref sig .tc := ⟨.hbm, 500, rfl⟩
abbrev main_v15 : Ref sig .tc := ⟨.hbm, 501, rfl⟩
abbrev main_v16 : Ref sig .tc := ⟨.hbm, 502, rfl⟩
abbrev main_v17 : Ref sig .tc := ⟨.hbm, 503, rfl⟩
abbrev main_v18 : Ref sig .tc := ⟨.hbm, 504, rfl⟩
abbrev main_c_5 : Ref sig .tc := ⟨.hbm, 505, rfl⟩
abbrev main_v19 : Ref sig .tc := ⟨.hbm, 506, rfl⟩
abbrev main_v20 : Ref sig .tc := ⟨.hbm, 507, rfl⟩
abbrev main_c_6 : Ref sig .tc := ⟨.hbm, 508, rfl⟩
abbrev main_v21 : Ref sig .tc := ⟨.hbm, 509, rfl⟩
abbrev main_v22 : Ref sig .tc := ⟨.hbm, 510, rfl⟩
abbrev main_v23 : Ref sig .tc := ⟨.hbm, 511, rfl⟩
abbrev main_v24 : Ref sig .tc := ⟨.hbm, 512, rfl⟩
abbrev main_v25 : Ref sig .tc := ⟨.hbm, 513, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S2 : S_.BroadcastsInDim S2 (![] : Fin 0 → Fin S2.rank)
  natLt_32_64 : 32 < 64
  bcast_S2_S2x1_0 : S2.BroadcastsInDim S2x1 (![0] : Fin 1 → Fin S2x1.rank)
  concatenates_S2x1_S2x1_S2x2_d1 : Shape.Concatenates [S2x1, S2x1] S2x2 1
  slices_S2x2_S1x2_0_0 : S2x2.Slices ![0, 0] S1x2
  shapeCasts_S1x2_S2 : S1x2.ShapeCasts S2
  slices_S2x2_S1x2_1_0 : S2x2.Slices ![1, 0] S1x2
  bcast_S_S95 : S_.BroadcastsInDim S95 (![] : Fin 0 → Fin S95.rank)
  slices_S95_S9_0 : S95.Slices ![0] S9
  bcast_S_S9 : S_.BroadcastsInDim S9 (![] : Fin 0 → Fin S9.rank)
  bcast_S9_S9x1_0 : S9.BroadcastsInDim S9x1 (![0] : Fin 1 → Fin S9x1.rank)
  gather_S4x96x224x224_S9x1_S4x9x224x224_023_1_n_n_1_1_41224224_wf : GatherDims.WF S4x96x224x224 S9x1 S4x9x224x224 [0, 2, 3] [1] [] [1] [] 1 ![4, 1, 224, 224]
  scatter_S4x96x224x224_S9x1_S4x9x224x224_023_1_1_1_wf : ScatterDims.WF S4x96x224x224 S9x1 S4x9x224x224 [0, 2, 3] [1] [1] 1

variable [Facts₀]

def comparator_i32_i32_d0 : BitVec 32 × BitVec 32 → BitVec 32 × BitVec 32 → BitVec 1 :=
  fun l r =>
    let v19 := IntOp.cmpi .ult l.1 r.1
    v19
def gather_S4x96x224x224_S9x1_S4x9x224x224_023_1_n_n_1_1_41224224 : GatherDims S4x96x224x224 S9x1 S4x9x224x224 where
  offsetDims := [0, 2, 3]
  collapsedSliceDims := [1]
  operandBatchingDims := []
  startIndicesBatchingDims := []
  startIndexMap := [1]
  indexVectorDim := 1
  sliceSizes := ![4, 1, 224, 224]
  wf := gather_S4x96x224x224_S9x1_S4x9x224x224_023_1_n_n_1_1_41224224_wf
def scatter_S4x96x224x224_S9x1_S4x9x224x224_023_1_1_1 : ScatterDims S4x96x224x224 S9x1 S4x9x224x224 where
  updateWindowDims := [0, 2, 3]
  insertedWindowDims := [1]
  scatterDimsToOperandDims := [1]
  indexVectorDim := 1
  wf := scatter_S4x96x224x224_S9x1_S4x9x224x224_023_1_1_1_wf

class Facts : Prop extends Facts₀ where

variable [Facts]
-- ==== Proof.Spec.lean ====
/-
  The specification both programs meet. The input is a batch of 4 images of 96 channels of 224 × 224 pixels. Nine
  channel numbers are drawn once (below: `drawn`); in every image the channel numbered `drawn j` is overwritten by a
  copy of its right neighbour, channel `drawn j + 1`, as that neighbour stood in the INPUT (so the overwritten
  neighbours 6 and 7 do not cascade: channel 6 receives the input's channel 7, channel 7 the input's channel 8).
  Every other channel is kept. As one function of the index: the entry at (b, c, h, w) of the result is the input's
  entry at (b, c + shift c, h, w), where `shift c` is 1 on the nine drawn channels and 0 elsewhere. No drawn channel is
  the last one, so c + shift c is again a channel.
-/
import Idealize.ShloMosaic.Lib.ValueIdx

namespace Cert.Spec

open Idealize.ShloMosaic Idealize.ShloMosaic.ValueIdx

/-- The nine drawn channel numbers, in the order drawn. -/
def drawn : Fin 9 → Nat := ![19, 76, 54, 90, 30, 7, 6, 35, 23]

/-- 1 on a drawn channel, 0 elsewhere. -/
def shift (c : Nat) : Nat :=
  if c = 19 ∨ c = 76 ∨ c = 54 ∨ c = 90 ∨ c = 30 ∨ c = 7 ∨ c = 6 ∨ c = 35 ∨ c = 23 then 1 else 0

theorem shift_le_one (c : Nat) : shift c ≤ 1 := by unfold shift; split <;> omega

/-- `shift c = 1` exactly on the drawn channels. -/
theorem shift_eq_one_iff (c : Nat) : shift c = 1 ↔ ∃ j : Fin 9, drawn j = c := by
  unfold shift
  constructor
  · intro h
    split at h
    · rename_i hc
      rcases hc with h | h | h | h | h | h | h | h | h
      · exact ⟨0, h.symm⟩
      · exact ⟨1, h.symm⟩
      · exact ⟨2, h.symm⟩
      · exact ⟨3, h.symm⟩
      · exact ⟨4, h.symm⟩
      · exact ⟨5, h.symm⟩
      · exact ⟨6, h.symm⟩
      · exact ⟨7, h.symm⟩
      · exact ⟨8, h.symm⟩
    · omega
  · rintro ⟨j, rfl⟩
    fin_cases j <;> simp [drawn]

/-- A drawn channel's right neighbour exists: no drawn channel is channel 95. -/
theorem add_shift_lt (c : Nat) (hc : c < 96) : c + shift c < 96 := by
  unfold shift; split <;> omega

/-- The batch of images as a shape. -/
abbrev S4 : Shape := ⟨4, ![4, 96, 224, 224]⟩

/-- Where the result's entry at `i` comes from in the input. -/
def src (i : S4.Idx) : S4.Idx :=
  ix4 (i 0) ⟨(i 1).val + shift (i 1).val, add_shift_lt _ (i 1).isLt⟩ (i 2) (i 3)

/-- The result as one function of the input, over any kind of entry. -/
def G4 {α : Type} (x : S4.Idx → α) : S4.Idx → α := fun i => x (src i)

theorem G4_apply {α : Type} (x : S4.Idx → α) (i : S4.Idx) : G4 x i = x (src i) := rfl

end Cert.Spec
-- ==== Proof.KValue.lean ====
/-
  The specification row by row. The batch of images, 4 × 96 × 224 × 224, re-laid in row-major order as 384 rows of
  50176 entries, has row r = 96 · image + channel and column 224 · h + w. In that layout the specification reads: row
  r of the result is row r + shift (r % 96) of the input (`G2`). Re-laying the input, applying `G2` and re-laying the
  result back is the specification `G4` of Spec.lean: both re-layings keep the row-major position, and
  96 · b + c + shift c is the row of image b, channel c + shift c.
-/
import proofs.«214360_g58884001628789_cont_9to1c4b_137_4_alg».proof.Proof.Spec
import Idealize.ShloMosaic.Lib.Pipeline.Value

namespace Cert.Spec

open Idealize.ShloMosaic Idealize.ShloMosaic.ValueIdx

/-- The batch as 384 rows of 50176. -/
abbrev S2 : Shape := ⟨2, ![384, 50176]⟩

/-- The input row a result row is a copy of. -/
def srow (r : Fin 384) : Fin 384 := ⟨r.val + shift (r.val % 96), by
  have h1 := add_shift_lt (r.val % 96) (Nat.mod_lt _ (by decide))
  have := r.isLt
  omega⟩

theorem srow_val (r : Fin 384) : (srow r).val = r.val + shift (r.val % 96) := rfl

/-- The result as one function of the input, row by row. -/
def G2 {α : Type} (x : S2.Idx → α) : S2.Idx → α := fun i => x (ix2 (srow (i 0)) (i 1))

theorem G2_apply {α : Type} (x : S2.Idx → α) (i : S2.Idx) : G2 x i = x (ix2 (srow (i 0)) (i 1)) := rfl

/-- Re-lay as rows, copy rows, re-lay back: the specification. -/
theorem relay_G2 {α : Type} (x : S4.Idx → α) (h1 : S4.ShapeCasts S2) (h2 : S2.ShapeCasts S4) :
    shapeCast S4 (G2 (shapeCast S2 x h1)) h2 = G4 x := by
  funext j
  obtain ⟨b, c, h, w, rfl⟩ : ∃ (b : Fin 4) (c : Fin 96) (h : Fin 224) (w : Fin 224), j = ix4 b c h w := ⟨j 0, j 1, j 2, j 3, eq_ix4 j⟩
  have hb := b.isLt; have hc := c.isLt; have hh := h.isLt; have hw := w.isLt
  have hs := add_shift_lt c.val hc
  -- the result's entry sits in row 96 b + c, column 224 h + w
  have e1 : shapeCast S4 (G2 (shapeCast S2 x h1)) h2 (ix4 b c h w)
      = G2 (shapeCast S2 x h1) (ix2 (⟨96 * b.val + c.val, by omega⟩ : Fin 384) (⟨224 * h.val + w.val, by omega⟩ : Fin 50176)) := by
    refine shapeCast_apply _ h2 _ _ ?_
    rw [Shape.rowMajor_val_two, Shape.rowMajor_val_four]
    show (96 * b.val + c.val) * 50176 + (224 * h.val + w.val) = ((b.val * 96 + c.val) * 224 + h.val) * 224 + w.val
    omega
  rw [e1, G2_apply, G4_apply]
  -- and that row's source row is the row of channel c + shift c
  refine shapeCast_apply _ h1 _ _ ?_
  rw [Shape.rowMajor_val_two, Shape.rowMajor_val_four]
  show ((b.val * 96 + (c.val + shift c.val)) * 224 + h.val) * 224 + w.val
    = (96 * b.val + c.val + shift ((96 * b.val + c.val) % 96)) * 50176 + (224 * h.val + w.val)
  have hm : (96 * b.val + c.val) % 96 = c.val := by omega
  rw [hm]
  have := shift_le_one c.val
  omega

end Cert.Spec
-- ==== Proof.KDefsB.lean ====
/-
  The kernel's program as the launch theorem of the SparseCore library sees it, and what the one call hands around.
  The argument, 4 images × 96 channels × 224 × 224, is re-laid by the host as 384 rows of 50176 (row r = image r / 96,
  channel r % 96); the call's 32 tasks (SparseCore c, subcore s) each copy 12 rows: task (c, s) writes rows
  24 s + 12 c + k of the result, k < 12, each from the source row r + shift (r % 96) (Spec.lean); the host re-lays the
  result as 4 × 96 × 224 × 224. The source is only read: every copy holds its own read share of it (two copies of one
  task may read the same source row, and a source row may belong to another task's range); each result row is written
  by exactly one copy.
-/
import proofs.«214360_g58884001628789_cont_9to1c4b_137_4_alg».proof.Defs
import proofs.«214360_g58884001628789_cont_9to1c4b_137_4_alg».proof.Proof.KValue
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«214360_g58884001628789_cont_9to1c4b_137_4_alg».proof.Proof.Gen.Kernel
import proofs.«214360_g58884001628789_cont_9to1c4b_137_4_alg».proof.Proof.Gen.Kernel.Skeleton

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The argument (4 × 96 × 224 × 224), its re-laid copy the kernel reads (384 × 50176), the kernel's result
    (384 × 50176), and the re-laid result (4 × 96 × 224 × 224), as locations of device `d`. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- Row r of the 384 × 50176 layout, as a set of indices. -/
theorem row_inb (r : Fin 384) : ∀ a, (![r.val, 0] : Fin 2 → Nat) a + S1x50176.size a ≤ S384x50176.size a := by
  have := r.isLt; intro a; fin_cases a
  · show r.val + 1 ≤ 384; omega
  · show 0 + 50176 ≤ 50176; omega
abbrev row (r : Fin 384) : Rect S384x50176 := Rect.unit (s := S384x50176) ![r.val, 0] S1x50176.size (row_inb r)
abbrev rowSet (r : Fin 384) : Finset S384x50176.Idx := (row r).set

theorem mem_rowSet (r : Fin 384) (i : S384x50176.Idx) : i ∈ rowSet r ↔ (i 0).val = r.val := by
  unfold rowSet row
  rw [Rect.mem_set_unit]
  constructor
  · intro h; have := h 0; simp at this; omega
  · intro h a; fin_cases a
    · simp; omega
    · have := (i 1).isLt; simp; exact this

theorem rows_disjoint : ∀ r ∈ (Finset.univ : Finset (Fin 384)), ∀ r' ∈ (Finset.univ : Finset (Fin 384)), r ≠ r' → Disjoint (rowSet r) (rowSet r') := by
  intro r _ r' _ h
  rw [Finset.disjoint_left]
  intro i hi hi'
  rw [mem_rowSet] at hi hi'
  exact h (Fin.ext (hi.symm.trans hi'))

theorem rows_cover : (Finset.univ : Finset (Fin 384)).biUnion rowSet = Finset.univ := by
  ext i
  simp only [Finset.mem_biUnion, Finset.mem_univ, true_and, iff_true]
  exact ⟨⟨(i 0).val, (i 0).isLt⟩, (mem_rowSet _ i).mpr rfl⟩

/-- The row that copy k of the task on SparseCore c, subcore s writes. -/
def wrow (c : Fin 2) (s : Fin 16) (k : Fin 12) : Fin 384 := ⟨24 * s.val + 12 * c.val + k.val, by omega⟩

/-- Every row is written by exactly one copy of one task. -/
def wrowEquiv : (Fin 2 × Fin 16 × Fin 12) ≃ Fin 384 where
  toFun p := wrow p.1 p.2.1 p.2.2
  invFun r := (⟨(r.val / 12) % 2, by omega⟩, ⟨r.val / 24, by omega⟩, ⟨r.val % 12, by omega⟩)
  left_inv p := by
    obtain ⟨c, s, k⟩ := p
    simp only [wrow, Prod.mk.injEq]
    refine ⟨Fin.ext ?_, Fin.ext ?_, Fin.ext ?_⟩ <;> simp only <;> omega
  right_inv r := by
    simp only [wrow]; exact Fin.ext (by simp only; omega)

/-- The source's share for SparseCore c, for its subcore s, for that task's copy k. -/
def qCore (c : Fin 2) : PosShare TreeShare := piece fullShare 1 c
def qTile (c : Fin 2) (s : Fin 16) : PosShare TreeShare := piece (qCore c) 15 s
def qCopy (c : Fin 2) (s : Fin 16) (k : Fin 12) : PosShare TreeShare := piece (qTile c s) 11 k

variable [FloatOps F]

/-- What the kernel reads: the argument re-laid as 384 × 50176. -/
def X (d : Dev nD) : Buf (Elt F) (xLoc d) := shapeCast S384x50176 (m (aLoc d)) shapeCasts_S4x96x224x224_S384x50176
/-- What the kernel leaves. -/
def Y (d : Dev nD) : Buf (Elt F) (oLoc d) := Cert.Spec.G2 (X m d)

/-- The rows of the result that one task writes, all at contents `f`. -/
abbrev oRows (d : Dev nD) (c : Fin 2) (s : Fin 16) (f : Buf (Elt F) (oLoc d)) : sProp 𝕄 :=
  bigSep Finset.univ fun k : Fin 12 => oLoc d ↦[rowSet (wrow c s k)]{fullShare} f

/-- The one call hands each SparseCore its share of the source and its tasks' rows of the result, each task its share
    and its rows, and takes them back with the rows at what the kernel leaves. -/
def P : (K (F := F)).Pay (nD := nD) (Val := Elt F) (Name := ℕ) (U := UU) where
  st := fun q d c => match q with | 0 => iprop((xLoc d ↦{qCore (Fin.cast nCore_zero c)} X m d) ∗ bigSep Finset.univ fun s : Fin 16 => oRows d (Fin.cast nCore_zero c) s (m (oLoc d)))
  dn := fun q d c => match q with | 0 => iprop((xLoc d ↦{qCore (Fin.cast nCore_zero c)} X m d) ∗ bigSep Finset.univ fun s : Fin 16 => oRows d (Fin.cast nCore_zero c) s (Y m d))
  go := fun q d c s => match q with | 0 => iprop((xLoc d ↦{qTile (Fin.cast nCore_zero c) (Fin.cast nSub_zero s)} X m d) ∗ oRows d (Fin.cast nCore_zero c) (Fin.cast nSub_zero s) (m (oLoc d)))
  td := fun q d c s => match q with | 0 => iprop((xLoc d ↦{qTile (Fin.cast nCore_zero c) (Fin.cast nSub_zero s)} X m d) ∗ oRows d (Fin.cast nCore_zero c) (Fin.cast nSub_zero s) (Y m d))
  x := fun _ _ => iprop(emp)

instance P_storable : (P (F := F) m).IsStorable where
  st q d c := match q with | 0 => by unfold P; infer_instance
  dn q d c := match q with | 0 => by unfold P; infer_instance
  go q d c s := match q with | 0 => by unfold P; infer_instance
  td q d c s := match q with | 0 => by unfold P; infer_instance

end Cert.Proof.KernelRun

end
-- ==== Proof.KGeomB.lean ====
/-
  One task of the kernel: the vector subcore at grid coordinates L = (SparseCore, subcore) starts its twelve row
  copies on its one DMA semaphore and then waits for the twelve. Copy k reads the source row
  r + shift (r % 96) and writes the result row r = 24 · subcore + 12 · SparseCore + k. Each copy holds its own read
  share of its source row and the whole of its result row; after the last wait every result row holds its source
  row, which is the specification's row.
-/
import proofs.«214360_g58884001628789_cont_9to1c4b_137_4_alg».proof.Proof.KDefsB

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile

variable (d : Dev nD) (L : grid0.Coords)

abbrev cV (L : grid0.Coords) : Fin τ.nSC := (L 0).castLE hcore0
abbrev sV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)
/-- The task's thread. -/
abbrev tv (d : Dev nD) (L : grid0.Coords) : Thread nD τ := V d (cV L) (sV L)

-- the kernel's two arrays, spelt as the body table passes them
local notation "xW" => (Memref.whole Cert.Kernel.main_v0_scv : Memref Cert.Kernel.sig Kind.scVector Space.hbm Cert.Kernel.S384x50176 EltTy.f32)
local notation "oW" => (Memref.whole Cert.Kernel.main_v1_scv : Memref Cert.Kernel.sig Kind.scVector Space.hbm Cert.Kernel.S384x50176 EltTy.f32)

/-- Copy k's result row and source row, as the body slices them. -/
abbrev dstM (L : grid0.Coords) (k : Fin 12) : Memref sig .scVector .hbm S1x50176 .f32 :=
  (oW).slice (Rect.unit (s := S384x50176) (k0_off1 L (BitVec.ofNat 32 k.val)) S1x50176.size (k0_off1_inb L k)) (fun _ => rfl)
abbrev srcM (L : grid0.Coords) (k : Fin 12) : Memref sig .scVector .hbm S1x50176 .f32 :=
  (xW).slice (Rect.unit (s := S384x50176) (k0_off2 L (BitVec.ofNat 32 k.val)) S1x50176.size (k0_off2_inb L k)) (fun _ => rfl)

omit [FloatOps F] in
/-- A rectangle's elements depend on its offsets only. -/
theorem unit_set_congr {s : Shape} {off off' size : Fin s.rank → Nat} (inb : ∀ a, off a + size a ≤ s.size a) (inb' : ∀ a, off' a + size a ≤ s.size a)
    (h : off = off') : (Rect.unit (s := s) off size inb).set = (Rect.unit (s := s) off' size inb').set := by
  subst h; rfl

/-- The nine tests of the kernel's offset chain add up to the specification's shift. -/
theorem ifs_eq_shift (c : Fin 96) :
    (if c.val = 19 then 1 else 0) + (if c.val = 76 then 1 else 0) + (if c.val = 54 then 1 else 0) + (if c.val = 90 then 1 else 0)
      + (if c.val = 30 then 1 else 0) + (if c.val = 7 then 1 else 0) + (if c.val = 6 then 1 else 0) + (if c.val = 35 then 1 else 0)
      + (if c.val = 23 then 1 else 0) = Cert.Spec.shift c.val := by
  revert c; decide

omit [FloatOps F] in
theorem off1_eq (k : Fin 12) : k0_off1 L (BitVec.ofNat 32 k.val) = ![(wrow (cL L) (sL L) k).val, 0] := k0_off1_eq L k

omit [FloatOps F] in
theorem off2_eq (k : Fin 12) : k0_off2 L (BitVec.ofNat 32 k.val) = ![(Cert.Spec.srow (wrow (cL L) (sL L) k)).val, 0] := by
  rw [k0_off2_eq L k]
  have h := ifs_eq_shift ⟨(24 * (L 1).val + 12 * (L 0).val + k.val) % 96, Nat.mod_lt _ (by decide)⟩
  simp only at h
  show _ = ![(24 * (L 1).val + 12 * (L 0).val + k.val) + Cert.Spec.shift ((24 * (L 1).val + 12 * (L 0).val + k.val) % 96), 0]
  rw [← h]
  congr 1
  simp only [Nat.add_assoc]

omit [FloatOps F] in
theorem set_dstM (k : Fin 12) : (dstM L k).view.set = rowSet (wrow (cL L) (sL L) k) := by
  show ((View.whole main_v1_scv).slice _).set = _
  rw [View.set_slice_whole]
  exact unit_set_congr _ _ (off1_eq L k)

omit [FloatOps F] in
theorem set_srcM (k : Fin 12) : (srcM L k).view.set = rowSet (Cert.Spec.srow (wrow (cL L) (sL L) k)) := by
  show ((View.whole main_v0_scv).slice _).set = _
  rw [View.set_slice_whole]
  exact unit_set_congr _ _ (off2_eq L k)

end Tile

end Cert.Proof.KernelRun

end
-- ==== Proof.KTileB.lean ====
/-
  The task's run. Before the first copy starts, the task's share of the source is cut into the twelve copies' shares,
  each cut again into the copy's source row and the rest of the array (kept aside); the twelve result rows are held
  one by one. The twelve copies are one batch on the task's DMA semaphore: nothing is learnt at the first eleven
  waits, and the twelfth returns every row, each result row now holding its source row.
-/
import proofs.«214360_g58884001628789_cont_9to1c4b_137_4_alg».proof.Proof.KGeomB

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile

variable (d : Dev nD) (L : grid0.Coords)

local notation "xW" => (Memref.whole Cert.Kernel.main_v0_scv : Memref Cert.Kernel.sig Kind.scVector Space.hbm Cert.Kernel.S384x50176 EltTy.f32)
local notation "oW" => (Memref.whole Cert.Kernel.main_v1_scv : Memref Cert.Kernel.sig Kind.scVector Space.hbm Cert.Kernel.S384x50176 EltTy.f32)

/-- The task's DMA semaphore as a cell. -/
abbrev c0cell (d : Dev nD) (c : Fin τ.nSC) (i : Fin τ.nSub) : GSem nD τ sig := (V d c i, .dma cc0_scratch0.sem)

omit [FloatOps F] in
theorem ownSems0_V :
    (ownSems0 (tv d L) : sProp 𝕄)
      = iprop(semVal (c0cell d (cV L) (sV L)) 0 ∗ bigSep ((ownCells (tv d L)).erase (c0cell d (cV L) (sV L))) fun g => semVal g 0) := by
  unfold SparseCore.Cfg.ownSems0
  exact SparseCore.bigSep_erase' ((mem_ownCells (g := c0cell d (cV L) (sV L))).mpr ⟨rfl, by
    show (SemLoc.dma cc0_scratch0.sem : SemLoc sig).isScoped .scVector = true; decide⟩)

/-- One row's credit on the semaphore. -/
abbrev N : ℕ := sig.dmaCredit .scVector (Kind.scVector.table .hbm) (main_v1_scv : Ref sig .scVector).idx S1x50176 .f32

/-- A result row landed: the source row's read written over the row's prior contents. -/
abbrev landed (k : Fin 12) : Buf (Elt F) ((dstM L k).view.loc (tv d L)) :=
  (dstM L k).view.writes (Elt F) (m (oLoc d)) [⟨Rect.whole S1x50176, ReadAs.same.apply ((srcM L k).view.read (Elt F) (X m d))⟩]

/-- Copy k's source row at the copy's share; the rest of the source at that share; its result row before and after. -/
abbrev srcPts (k : Fin 12) : sProp 𝕄 := (srcM L k).view.loc (tv d L) ↦[(srcM L k).view.set]{qCopy (cL L) (sL L) k} X m d
abbrev restPts (k : Fin 12) : sProp 𝕄 := xLoc d ↦[Finset.univ \ (srcM L k).view.set]{qCopy (cL L) (sL L) k} X m d
abbrev dst0Pts (k : Fin 12) : sProp 𝕄 := (dstM L k).view.loc (tv d L) ↦[(dstM L k).view.set]{fullShare} m (oLoc d)
abbrev dst1Pts (k : Fin 12) : sProp 𝕄 := (dstM L k).view.loc (tv d L) ↦[(dstM L k).view.set]{fullShare} landed m d L k

/-- What the batch's last wait returns for copy k. -/
abbrev deliv (k : Fin 12) : sProp 𝕄 := iprop(dst1Pts m d L k ∗ srcPts m d L k)

omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  repeat rw [SparseCore.bigSep_insert' (by decide)]
  rw [bigSep_singleton]

/-- The task's share of the source is the twelve copies' source rows and the twelve rests. -/
theorem x_split :
    (xLoc d ↦{qTile (cL L) (sL L)} X m d : sProp 𝕄)
      = iprop((bigSep Finset.univ fun k : Fin 12 => srcPts m d L k) ∗ bigSep Finset.univ fun k : Fin 12 => restPts m d L k) := by
  rw [← bigSep_sep']
  rw [pointsTo_pieces Finset.univ (X m d) 11 (qTile (cL L) (sL L))]
  refine bigSep_congr fun k _ => ?_
  have h : (xLoc d ↦[Finset.univ]{qCopy (cL L) (sL L) k} X m d : sProp 𝕄)
      ⊣⊢ iprop((xLoc d ↦[(srcM L k).view.set]{qCopy (cL L) (sL L) k} X m d) ∗ xLoc d ↦[Finset.univ \ (srcM L k).view.set]{qCopy (cL L) (sL L) k} X m d) :=
    pointsTo_split_subset (Finset.subset_univ _)
  exact BI.Entails.antisymm h.1 h.2

/-- A landed result row is the specification's row. -/
theorem landed_eq (k : Fin 12) : ∀ i ∈ (dstM L k).view.set, landed m d L k i = Y m d i := by
  intro i hi
  rw [set_dstM, mem_rowSet] at hi
  obtain ⟨r, j, rfl⟩ : ∃ (r : Fin 384) (j : Fin 50176), i = ix2 r j := ⟨i 0, i 1, eq_ix2 i⟩
  have hr : r = wrow (cL L) (sL L) k := Fin.ext hi
  subst hr
  have hd : (dstM L k).view.emb (ix2 (0 : Fin 1) j) = ix2 (wrow (cL L) (sL L) k) j := by
    funext a; refine Fin.ext ?_
    match a with
    | ⟨0, _⟩ => show (k0_off1 L (BitVec.ofNat 32 k.val)) 0 + 1 * 0 = _; rw [off1_eq]; rfl
    | ⟨1, _⟩ => show (k0_off1 L (BitVec.ofNat 32 k.val)) 1 + 1 * j.val = _; rw [off1_eq]; simp
  have hs : (srcM L k).view.emb (ix2 (0 : Fin 1) j) = ix2 (Cert.Spec.srow (wrow (cL L) (sL L) k)) j := by
    funext a; refine Fin.ext ?_
    match a with
    | ⟨0, _⟩ => show (k0_off2 L (BitVec.ofNat 32 k.val)) 0 + 1 * 0 = _; rw [off2_eq]; rfl
    | ⟨1, _⟩ => show (k0_off2 L (BitVec.ofNat 32 k.val)) 1 + 1 * j.val = _; rw [off2_eq]; simp
  have he : ((dstM L k).view.slice (Rect.whole S1x50176)).emb (ix2 (0 : Fin 1) j) = (dstM L k).view.emb (ix2 (0 : Fin 1) j) := by
    rw [View.emb_slice]
    show (dstM L k).view.emb ((Rect.whole S1x50176).emb (ix2 (0 : Fin 1) j)) = _
    refine congrArg _ (funext fun a => Fin.ext ?_)
    match a with
    | ⟨0, _⟩ => rfl
    | ⟨1, _⟩ => show 0 + 1 * j.val = j.val; omega
  have key : landed m d L k ((dstM L k).view.emb (ix2 (0 : Fin 1) j)) = X m d ((srcM L k).view.emb (ix2 (0 : Fin 1) j)) := by
    unfold landed
    rw [View.writes_singleton]
    conv_lhs => rw [← he]
    rw [View.write_emb_of_mem _ _ (Finset.mem_univ _)]
    rfl
  have e1 : landed m d L k (ix2 (wrow (cL L) (sL L) k) j) = X m d (ix2 (Cert.Spec.srow (wrow (cL L) (sL L) k)) j) := by
    rw [← hd, key, hs]
  rw [e1]
  rfl

theorem dst0_eq (k : Fin 12) : dst0Pts m d L k = (oLoc d ↦[rowSet (wrow (cL L) (sL L) k)]{fullShare} m (oLoc d) : sProp 𝕄) := by
  unfold dst0Pts; rw [set_dstM]
theorem dst1_eq (k : Fin 12) : dst1Pts m d L k = (oLoc d ↦[rowSet (wrow (cL L) (sL L) k)]{fullShare} Y m d : sProp 𝕄) := by
  unfold dst1Pts; rw [pointsTo_congr (landed_eq m d L k), set_dstM]

/-- The task's program with each part's results bound to one name: the printed function, by unfolding. -/
def rootT (L : grid0.Coords) : Prog (TpuEff nD τ sig (Elt F) Λ₀ (.scVector ((L 0).castLE hcore0) ((L 1).castLE hsub0))) PUnit := do
  let r1 ← k0_part1 (F := F) L xW (Memref.isWhole_whole _) oW (Memref.isWhole_whole _) cc0_scratch0
  let r2 ← k0_part2 (F := F) L xW (Memref.isWhole_whole _) oW (Memref.isWhole_whole _) cc0_scratch0 r1.1 r1.2.1 r1.2.2.1 r1.2.2.2
  let r3 ← k0_part3 (F := F) L xW (Memref.isWhole_whole _) oW (Memref.isWhole_whole _) cc0_scratch0 r1.1 r2.1 r2.2.1 r2.2.2.1 r2.2.2.2
  let r4 ← k0_part4 (F := F) L xW (Memref.isWhole_whole _) oW (Memref.isWhole_whole _) cc0_scratch0 r1.1 r3.1 r3.2.1 r3.2.2.1 r3.2.2.2
  let r5 ← k0_part5 (F := F) L xW (Memref.isWhole_whole _) oW (Memref.isWhole_whole _) cc0_scratch0 r1.1 r4.1 r4.2.1 r4.2.2.1 r4.2.2.2.1 r4.2.2.2.2
  let r6 ← k0_part6 (F := F) L xW (Memref.isWhole_whole _) oW (Memref.isWhole_whole _) cc0_scratch0 r1.1 r5.1 r5.2.1 r5.2.2.1 r5.2.2.2.1 r5.2.2.2.2.1 r5.2.2.2.2.2
  let r7 ← k0_part7 (F := F) L xW (Memref.isWhole_whole _) oW (Memref.isWhole_whole _) cc0_scratch0 r1.1 r6.1 r6.2.1 r6.2.2.1 r6.2.2.2
  let r8 ← k0_part8 (F := F) L xW (Memref.isWhole_whole _) oW (Memref.isWhole_whole _) cc0_scratch0 r1.1 r7.1 r7.2.1 r7.2.2
  let r9 ← k0_part9 (F := F) L xW (Memref.isWhole_whole _) oW (Memref.isWhole_whole _) cc0_scratch0 r1.1 r8.1 r8.2.1 r8.2.2.1 r8.2.2.2
  let r10 ← k0_part10 (F := F) L xW (Memref.isWhole_whole _) oW (Memref.isWhole_whole _) cc0_scratch0 r1.1 r9.1 r9.2.1 r9.2.2.1 r9.2.2.2
  let r11 ← k0_part11 (F := F) L xW (Memref.isWhole_whole _) oW (Memref.isWhole_whole _) cc0_scratch0 r1.1 r10.1 r10.2.1 r10.2.2.1 r10.2.2.2.1 r10.2.2.2.2
  k0_part12 (F := F) L xW (Memref.isWhole_whole _) oW (Memref.isWhole_whole _) cc0_scratch0 r11.1 r11.2
  let r13 ← k0_part13 (F := F) L xW (Memref.isWhole_whole _) oW (Memref.isWhole_whole _) cc0_scratch0 r1.1
  k0_part14 (F := F) L xW (Memref.isWhole_whole _) oW (Memref.isWhole_whole _) cc0_scratch0 r13.1 r13.2.1 r13.2.2
  Prog.lift (.waitDma2 cc0_scratch0.sem (srcM L 10) (dstM L 10) (View.wordExact_bits rfl) (View.wordExact_bits rfl))
  Prog.lift (.waitDma2 cc0_scratch0.sem (srcM L 11) (dstM L 11) (View.wordExact_bits rfl) (View.wordExact_bits rfl))
  pure ⟨⟩

set_option maxRecDepth 65536 in
theorem rootT_eq (L : grid0.Coords) : cc0__sc_replace (F := F) L xW (Memref.isWhole_whole _) oW (Memref.isWhole_whole _) cc0_scratch0 = rootT (F := F) L := rfl

/-- What the task holds after its run. -/
abbrev runPost (O : CellTallies nD τ sig (HIx 1)) (W : Waits sig (HIx 1)) : sProp 𝕄 :=
  iprop((srcPts m d L 0 ∗ srcPts m d L 1 ∗ srcPts m d L 2 ∗ srcPts m d L 3 ∗ srcPts m d L 4 ∗ srcPts m d L 5 ∗ srcPts m d L 6 ∗ srcPts m d L 7 ∗ srcPts m d L 8 ∗ srcPts m d L 9 ∗ srcPts m d L 10 ∗ srcPts m d L 11)
    ∗ (dst1Pts m d L 0 ∗ dst1Pts m d L 1 ∗ dst1Pts m d L 2 ∗ dst1Pts m d L 3 ∗ dst1Pts m d L 4 ∗ dst1Pts m d L 5 ∗ dst1Pts m d L 6 ∗ dst1Pts m d L 7 ∗ dst1Pts m d L 8 ∗ dst1Pts m d L 9 ∗ dst1Pts m d L 10 ∗ dst1Pts m d L 11)
    ∗ semVal (c0cell d (cV L) (sV L)) 0
    ∗ ∃ W', ⌜∀ p ∈ W', p ∈ W ∨ p.2 = none⌝ ∗ owes (tv d L) O W')

set_option maxRecDepth 65536 in
/-- The task's run from its rows held one by one. -/
theorem tile_run (O : CellTallies nD τ sig (HIx 1)) (W : Waits sig (HIx 1)) (hO : ∀ g, O g none = 0) :
    iprop(levAts (K (F := F)).L (K (F := F)).lev
        ∗ (srcPts m d L 0 ∗ srcPts m d L 1 ∗ srcPts m d L 2 ∗ srcPts m d L 3 ∗ srcPts m d L 4 ∗ srcPts m d L 5 ∗ srcPts m d L 6 ∗ srcPts m d L 7 ∗ srcPts m d L 8 ∗ srcPts m d L 9 ∗ srcPts m d L 10 ∗ srcPts m d L 11)
        ∗ (dst0Pts m d L 0 ∗ dst0Pts m d L 1 ∗ dst0Pts m d L 2 ∗ dst0Pts m d L 3 ∗ dst0Pts m d L 4 ∗ dst0Pts m d L 5 ∗ dst0Pts m d L 6 ∗ dst0Pts m d L 7 ∗ dst0Pts m d L 8 ∗ dst0Pts m d L 9 ∗ dst0Pts m d L 10 ∗ dst0Pts m d L 11)
        ∗ semVal (c0cell d (cV L) (sV L)) 0 ∗ owes (tv d L) O W)
      ⊢ wp frame (wpE (defs₀ (F := F)) 𝒱₀ (tv d L) none) Set.univ
          (cc0__sc_replace L xW (Memref.isWhole_whole _) oW (Memref.isWhole_whole _) cc0_scratch0)
          fun _ => runPost m d L O W := by
  rw [rootT_eq]; unfold rootT
  iintro ⟨#Hlv, ⟨HS0, HS1, HS2, HS3, HS4, HS5, HS6, HS7, HS8, HS9, HS10, HS11⟩, ⟨HD0, HD1, HD2, HD3, HD4, HD5, HD6, HD7, HD8, HD9, HD10, HD11⟩, Hsem, HO⟩
  ihave Hmw := ((K (F := F)).mayWaits_none (thr := tv d L) hO) $$ Hlv
  imod (Transfers.batch_alloc' (Lvl := ℕ) (countersEmb (U := UU)) (tv d L) (none : HIx 1) N (deliv m d L) (sm := .dma cc0_scratch0.sem) (E := Set.univ)) $$ Hsem with HB
  sl_exec_parts
  sl_step
  isplitl [HB_src0 HB_src1 HB_src2 HB_src3 HB_src4 HB_src5 HB_src6 HB_src7 HB_src8 HB_src9 HB_src10 HB_src11]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    isplitl [HB_src7]; · iexact HB_src7
    isplitl [HB_src8]; · iexact HB_src8
    isplitl [HB_src9]; · iexact HB_src9
    isplitl [HB_src10]; · iexact HB_src10
    iexact HB_src11
  isplitl [HB_dst0 HB_dst1 HB_dst2 HB_dst3 HB_dst4 HB_dst5 HB_dst6 HB_dst7 HB_dst8 HB_dst9 HB_dst10 HB_dst11]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    isplitl [HB_dst7]; · iexact HB_dst7
    isplitl [HB_dst8]; · iexact HB_dst8
    isplitl [HB_dst9]; · iexact HB_dst9
    isplitl [HB_dst10]; · iexact HB_dst10
    iexact HB_dst11
  isplitl [HB]; · iexact HB
  iexists _; isplitr
  on_goal 2 => iexact HO
  ipureintro
  intro p hp
  iterate 12 (rcases Finset.mem_insert.mp hp with h | hp; · exact .inr (by rw [h]))
  exact .inl hp

/-- What a task holds beside its rows while it runs: the rests of the source at the copies' shares, its scoped buffers,
    its other semaphores at zero. -/
abbrev frameR : sProp 𝕄 :=
  iprop((bigSep Finset.univ fun k : Fin 12 => restPts m d L k) ∗ scopedBufs (tv d L)
    ∗ bigSep ((ownCells (tv d L)).erase (c0cell d (cV L) (sV L))) fun g => semVal g 0)

theorem pre_split (O : CellTallies nD τ sig (HIx 1)) (W : Waits sig (HIx 1)) :
    iprop(levAts (K (F := F)).L (K (F := F)).lev ∗ emp
        ∗ (((srcPts m d L 0 ∗ srcPts m d L 1 ∗ srcPts m d L 2 ∗ srcPts m d L 3 ∗ srcPts m d L 4 ∗ srcPts m d L 5 ∗ srcPts m d L 6 ∗ srcPts m d L 7 ∗ srcPts m d L 8 ∗ srcPts m d L 9 ∗ srcPts m d L 10 ∗ srcPts m d L 11) ∗ bigSep Finset.univ fun k : Fin 12 => restPts m d L k) ∗ (dst0Pts m d L 0 ∗ dst0Pts m d L 1 ∗ dst0Pts m d L 2 ∗ dst0Pts m d L 3 ∗ dst0Pts m d L 4 ∗ dst0Pts m d L 5 ∗ dst0Pts m d L 6 ∗ dst0Pts m d L 7 ∗ dst0Pts m d L 8 ∗ dst0Pts m d L 9 ∗ dst0Pts m d L 10 ∗ dst0Pts m d L 11))
        ∗ scopedBufs (tv d L)
        ∗ (semVal (c0cell d (cV L) (sV L)) 0 ∗ bigSep ((ownCells (tv d L)).erase (c0cell d (cV L) (sV L))) fun g => semVal g 0)
        ∗ owes (tv d L) O W)
      ⊢ iprop((levAts (K (F := F)).L (K (F := F)).lev ∗ (srcPts m d L 0 ∗ srcPts m d L 1 ∗ srcPts m d L 2 ∗ srcPts m d L 3 ∗ srcPts m d L 4 ∗ srcPts m d L 5 ∗ srcPts m d L 6 ∗ srcPts m d L 7 ∗ srcPts m d L 8 ∗ srcPts m d L 9 ∗ srcPts m d L 10 ∗ srcPts m d L 11) ∗ (dst0Pts m d L 0 ∗ dst0Pts m d L 1 ∗ dst0Pts m d L 2 ∗ dst0Pts m d L 3 ∗ dst0Pts m d L 4 ∗ dst0Pts m d L 5 ∗ dst0Pts m d L 6 ∗ dst0Pts m d L 7 ∗ dst0Pts m d L 8 ∗ dst0Pts m d L 9 ∗ dst0Pts m d L 10 ∗ dst0Pts m d L 11) ∗ semVal (c0cell d (cV L) (sV L)) 0 ∗ owes (tv d L) O W)
          ∗ frameR m d L) := by
  iintro ⟨Hlv, -, ⟨⟨HS, Hrest⟩, HD⟩, Hsb, ⟨Hsem, Hsems⟩, HO⟩
  isplitl [Hlv HS HD Hsem HO]
  · isplitl [Hlv]; · iexact Hlv
    isplitl [HS]; · iexact HS
    isplitl [HD]; · iexact HD
    isplitl [Hsem]; · iexact Hsem
    iexact HO
  · isplitl [Hrest]; · iexact Hrest
    isplitl [Hsb]; · iexact Hsb
    iexact Hsems

theorem post_join (O : CellTallies nD τ sig (HIx 1)) (W : Waits sig (HIx 1)) :
    iprop(runPost m d L O W ∗ frameR m d L)
      ⊢ iprop((((srcPts m d L 0 ∗ srcPts m d L 1 ∗ srcPts m d L 2 ∗ srcPts m d L 3 ∗ srcPts m d L 4 ∗ srcPts m d L 5 ∗ srcPts m d L 6 ∗ srcPts m d L 7 ∗ srcPts m d L 8 ∗ srcPts m d L 9 ∗ srcPts m d L 10 ∗ srcPts m d L 11) ∗ bigSep Finset.univ fun k : Fin 12 => restPts m d L k) ∗ (dst1Pts m d L 0 ∗ dst1Pts m d L 1 ∗ dst1Pts m d L 2 ∗ dst1Pts m d L 3 ∗ dst1Pts m d L 4 ∗ dst1Pts m d L 5 ∗ dst1Pts m d L 6 ∗ dst1Pts m d L 7 ∗ dst1Pts m d L 8 ∗ dst1Pts m d L 9 ∗ dst1Pts m d L 10 ∗ dst1Pts m d L 11))
          ∗ scopedBufs (tv d L)
          ∗ (semVal (c0cell d (cV L) (sV L)) 0 ∗ bigSep ((ownCells (tv d L)).erase (c0cell d (cV L) (sV L))) fun g => semVal g 0)
          ∗ ∃ W', ⌜∀ p ∈ W', p ∈ W ∨ p.2 = none⌝ ∗ owes (tv d L) O W') := by
  unfold runPost frameR
  iintro ⟨⟨HS, HD, Hsem, HW⟩, Hrest, Hsb, Hsems⟩
  isplitl [HS Hrest HD]
  · isplitl [HS Hrest]
    · isplitl [HS]; · iexact HS
      iexact Hrest
    · iexact HD
  isplitl [Hsb]; · iexact Hsb
  isplitl [Hsem Hsems]
  · isplitl [Hsem]; · iexact Hsem
    iexact Hsems
  iexact HW

/-- The task's run from what the call hands it: its share of the source and its twelve rows of the result. -/
theorem tile_body (O : CellTallies nD τ sig (HIx 1)) (W : Waits sig (HIx 1)) (hO : ∀ g, O g none = 0) :
    iprop(levAts (K (F := F)).L (K (F := F)).lev ∗ emp
        ∗ ((xLoc d ↦{qTile (cL L) (sL L)} X m d) ∗ oRows d (cL L) (sL L) (m (oLoc d)))
        ∗ scopedBufs (tv d L) ∗ scopedSems0 (tv d L) ∗ owes (tv d L) O W)
      ⊢ wp frame (wpE (defs₀ (F := F)) 𝒱₀ (tv d L) none) Set.univ
          (cc0__sc_replace L xW (Memref.isWhole_whole _) oW (Memref.isWhole_whole _) cc0_scratch0)
          fun _ => iprop(((xLoc d ↦{qTile (cL L) (sL L)} X m d) ∗ oRows d (cL L) (sL L) (Y m d))
            ∗ scopedBufs (tv d L) ∗ scopedSems0 (tv d L)
            ∗ ∃ W', ⌜∀ p ∈ W', p ∈ W ∨ p.2 = none⌝ ∗ owes (tv d L) O W') := by
  rw [SparseCore.Cfg.scopedSems0_V (Val := Elt F) d (cV L) (sV L), ownSems0_V]
  unfold oRows
  rw [x_split, bigSep_congr (fun k _ => (dst0_eq m d L k).symm), bigSep_congr (fun k _ => (dst1_eq m d L k).symm)]
  rw [bigSep_fin12 (fun k => srcPts m d L k), bigSep_fin12 (fun k => dst0Pts m d L k), bigSep_fin12 (fun k => dst1Pts m d L k)]
  exact (pre_split m d L O W).trans ((BIClass.sep_mono (tile_run m d L O W hO) (BI.Entails.refl _)).trans
    ((wp_frame_r frame _ _).trans (wp_mono frame _ _ fun _ => post_join m d L O W)))

end Tile

end Cert.Proof.KernelRun

end
-- ==== Proof.KLaunchB.lean ====
/-
  The launch: the task's run as the launch theorem's obligation; how a SparseCore's operands split among its sixteen
  tasks (its share of the source cut in sixteen, its rows of the result dealt task by task) and gather again; the
  launch element (the handshakes' rounds; the kernel's own transfers need no ghost state beyond the counters); @main on
  the TensorCore — re-lay the argument as 384 rows, hand the two SparseCores their halves of the source and their rows
  of the result, take them back with every row copied, re-lay the result —; and the run: every weakly fair execution
  of the 35 threads ends, the argument unchanged and the result the specification of the argument.
-/
import proofs.«214360_g58884001628789_cont_9to1c4b_137_4_alg».proof.Proof.KTileB

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.Kernel.main_v0_scv : Memref Cert.Kernel.sig Kind.scVector Space.hbm Cert.Kernel.S384x50176 EltTy.f32)
local notation "oW" => (Memref.whole Cert.Kernel.main_v1_scv : Memref Cert.Kernel.sig Kind.scVector Space.hbm Cert.Kernel.S384x50176 EltTy.f32)

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_replace (coordsV c s)
          xW (Memref.isWhole_whole _) oW (Memref.isWhole_whole _) cc0_scratch0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share of the source is its sixteen tasks' shares; the whole source the two SparseCores' shares. -/
theorem x_tiles (d : Dev nD) (c : Fin 2) :
    (bigSep Finset.univ fun s : Fin 16 => (xLoc d ↦{qTile c s} X m d : sProp 𝕄)) = (xLoc d ↦{qCore c} X m d) :=
  (pointsTo_pieces Finset.univ (X m d) 15 (qCore c)).symm
theorem x_cores (d : Dev nD) :
    (bigSep Finset.univ fun c : Fin 2 => (xLoc d ↦{qCore c} X m d : sProp 𝕄)) = (xLoc d ↦{fullShare} X m d) :=
  (pointsTo_pieces Finset.univ (X m d) 1 fullShare).symm

theorem vecSplit : (K (F := F)).VecSplit' (P m) 0 := by
  intro d c
  show iprop((xLoc d ↦{qCore (Fin.cast nCore_zero c)} X m d) ∗ bigSep Finset.univ fun s : Fin 16 => oRows d (Fin.cast nCore_zero c) s (m (oLoc d)))
    ⊢ |={Set.univ}=> iprop(
      (bigSep Finset.univ fun i : Fin ((K (F := F)).nSub 0) =>
        iprop((xLoc d ↦{qTile (Fin.cast nCore_zero c) (Fin.cast nSub_zero i)} X m d) ∗ oRows d (Fin.cast nCore_zero c) (Fin.cast nSub_zero i) (m (oLoc d))))
      ∗ ((bigSep Finset.univ fun i : Fin ((K (F := F)).nSub 0) =>
          iprop((xLoc d ↦{qTile (Fin.cast nCore_zero c) (Fin.cast nSub_zero i)} X m d) ∗ oRows d (Fin.cast nCore_zero c) (Fin.cast nSub_zero i) (Y m d)))
          -∗ iprop((xLoc d ↦{qCore (Fin.cast nCore_zero c)} X m d) ∗ bigSep Finset.univ fun s : Fin 16 => oRows d (Fin.cast nCore_zero c) s (Y m d))))
  rw [bigSep_tasks (F := F) (fun s => iprop((xLoc d ↦{qTile (Fin.cast nCore_zero c) s} X m d) ∗ oRows d (Fin.cast nCore_zero c) s (m (oLoc d)))),
    bigSep_tasks (F := F) (fun s => iprop((xLoc d ↦{qTile (Fin.cast nCore_zero c) s} X m d) ∗ oRows d (Fin.cast nCore_zero c) s (Y m d))),
    bigSep_sep', bigSep_sep', x_tiles]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

open Idealize.ShloMosaic.StableHlo (held held_split held_sdiff_result wp_hlo_within)

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two re-layings. -/
abbrev op1 : HloOp τ sig (Elt F) := StableHlo.reshape main_arg0 main_v0 rfl shapeCasts_S4x96x224x224_S384x50176
abbrev op2 : HloOp τ sig (Elt F) := StableHlo.reshape main_v1 main_v2 rfl shapeCasts_S384x50176_S4x96x224x224

/-- The TensorCore's arrays, all unscoped. -/
abbrev SS : Finset (DevRef τ sig) := {a', x', o', r'}

omit [FloatOps F] in
theorem held_SS (d : Dev nD) (W : Valuation τ sig (Elt F)) :
    (held (T d) SS W : sProp 𝕄) = iprop((aLoc d ↦{fullShare} W a') ∗ (xLoc d ↦{fullShare} W x') ∗ (oLoc d ↦{fullShare} W o') ∗ (rLoc d ↦{fullShare} W r')) := by
  unfold held SS
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1) ∗ (rLoc d ↦{fullShare} W main_v2)) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; after the call, the kernel's result at what it leaves. -/
def V0 (d : Dev nD) : Valuation τ sig (Elt F) := fun b => m (d, b)
def V1 (d : Dev nD) : Valuation τ sig (Elt F) := Function.update ((op1 (F := F)).result (V0 m d)) o' (Y m d)

theorem unscoped_held (d : Dev nD) : (unscopedBufs d (fun b => m ((SparseCore.T d).loc b)) : sProp 𝕄) = held (T d) SS (V0 m d) := by
  rw [unscopedBufs_eq, held_SS]; rfl

/-- The result re-laid. -/
def R (d : Dev nD) : Buf (Elt F) (rLoc d) := shapeCast S4x96x224x224 (Y m d) shapeCasts_S384x50176_S4x96x224x224

theorem r1_a (d : Dev nD) : (op1 (F := F)).result (V0 m d) a' = m (aLoc d) :=
  (op1 (F := F)).result_of_not_mem (V0 m d) (b := a') (show a' ∉ ({x'} : Finset (DevRef τ sig)) by decide)
theorem r1_o (d : Dev nD) : (op1 (F := F)).result (V0 m d) o' = m (oLoc d) :=
  (op1 (F := F)).result_of_not_mem (V0 m d) (b := o') (show o' ∉ ({x'} : Finset (DevRef τ sig)) by decide)
theorem r1_r (d : Dev nD) : (op1 (F := F)).result (V0 m d) r' = m (rLoc d) :=
  (op1 (F := F)).result_of_not_mem (V0 m d) (b := r') (show r' ∉ ({x'} : Finset (DevRef τ sig)) by decide)
theorem r1_x (d : Dev nD) : (op1 (F := F)).result (V0 m d) x' = X m d :=
  (StableHlo.reshape_result main_arg0 main_v0 rfl shapeCasts_S4x96x224x224_S384x50176 ⟨by decide, rfl⟩ ⟨by decide, rfl⟩ (V0 m d)).trans rfl

theorem V1_a (d : Dev nD) : V1 m d a' = m (aLoc d) := (Function.update_of_ne (show a' ≠ o' by decide) _ _).trans (r1_a m d)
theorem V1_x (d : Dev nD) : V1 m d x' = X m d := (Function.update_of_ne (show x' ≠ o' by decide) _ _).trans (r1_x m d)
theorem V1_o (d : Dev nD) : V1 m d o' = Y m d := Function.update_self _ _ _
theorem V1_r (d : Dev nD) : V1 m d r' = m (rLoc d) := (Function.update_of_ne (show r' ≠ o' by decide) _ _).trans (r1_r m d)

theorem r2_a (d : Dev nD) : (op2 (F := F)).result (V1 m d) a' = m (aLoc d) :=
  ((op2 (F := F)).result_of_not_mem (V1 m d) (b := a') (show a' ∉ ({r'} : Finset (DevRef τ sig)) by decide)).trans (V1_a m d)
theorem r2_r (d : Dev nD) : (op2 (F := F)).result (V1 m d) r' = R m d := by
  refine (StableHlo.reshape_result main_v1 main_v2 rfl shapeCasts_S384x50176_S4x96x224x224 ⟨by decide, rfl⟩ ⟨by decide, rfl⟩ (V1 m d)).trans ?_
  show (fun i => shapeCast S4x96x224x224 (V1 m d o') shapeCasts_S384x50176_S4x96x224x224 i) = _
  rw [V1_o]; rfl

/-- The result's rows, task by task. -/
theorem o_rows (d : Dev nD) (f : Buf (Elt F) (oLoc d)) :
    (oLoc d ↦{fullShare} f : sProp 𝕄) = bigSep Finset.univ fun c : Fin 2 => bigSep Finset.univ fun s : Fin 16 => oRows d c s f := by
  have h : (oLoc d ↦{fullShare} f : sProp 𝕄) = bigSep Finset.univ fun r : Fin 384 => oLoc d ↦[rowSet r]{fullShare} f := by
    rw [← pointsTo_biUnion Finset.univ (ℓ := oLoc d) rowSet rows_disjoint, rows_cover]; try rfl
  rw [h, bigSep_univ_equiv wrowEquiv, bigSep_univ_prod]
  refine bigSep_congr fun c _ => ?_
  rw [bigSep_univ_prod]
  rfl

/-- What the call takes for the two SparseCores, and what it hands back. -/
theorem st0_eq (d : Dev nD) : (bigSep Finset.univ fun c : Fin ((K (F := F)).nCore 0) => (P m).st 0 d c)
    = iprop((xLoc d ↦{fullShare} X m d) ∗ (oLoc d ↦{fullShare} m (oLoc d))) := by
  show (bigSep Finset.univ fun c : Fin ((K (F := F)).nCore 0) => iprop((xLoc d ↦{qCore (Fin.cast nCore_zero c)} X m d)
    ∗ bigSep Finset.univ fun s : Fin 16 => oRows d (Fin.cast nCore_zero c) s (m (oLoc d)))) = _
  rw [bigSep_cores (F := F) (fun c => iprop((xLoc d ↦{qCore c} X m d) ∗ bigSep Finset.univ fun s : Fin 16 => oRows d c s (m (oLoc d)))),
    bigSep_sep', x_cores, ← o_rows]
theorem dn0_eq (d : Dev nD) : (bigSep Finset.univ fun c : Fin ((K (F := F)).nCore 0) => (P m).dn 0 d c)
    = iprop((xLoc d ↦{fullShare} X m d) ∗ (oLoc d ↦{fullShare} Y m d)) := by
  show (bigSep Finset.univ fun c : Fin ((K (F := F)).nCore 0) => iprop((xLoc d ↦{qCore (Fin.cast nCore_zero c)} X m d)
    ∗ bigSep Finset.univ fun s : Fin 16 => oRows d (Fin.cast nCore_zero c) s (Y m d))) = _
  rw [bigSep_cores (F := F) (fun c => iprop((xLoc d ↦{qCore c} X m d) ∗ bigSep Finset.univ fun s : Fin 16 => oRows d c s (Y m d))),
    bigSep_sep', x_cores, ← o_rows]

theorem h1 : (op1 (F := F)).bufs ⊆ SS := show ({a', x'} : Finset (DevRef τ sig)) ⊆ SS by decide
theorem h2 : (op2 (F := F)).bufs ⊆ SS := show ({o', r'} : Finset (DevRef τ sig)) ⊆ SS by decide

/-- What @main leaves the claim: the argument at its launch contents, the result re-laid. -/
abbrev FIN (d : Dev nD) : sProp 𝕄 := iprop((aLoc d ↦{fullShare} m (aLoc d)) ∗ (rLoc d ↦{fullShare} R m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the argument re-laid as 384 rows
  iapply (wp_hlo_within 𝒱 (SparseCore.T d) none Set.univ (op := op1) (S := SS) h1 (V := V0 m d)) $$ [Hb Hheld]
  · isplitl [Hb]; · iexact Hb
    iexact Hheld
  iintro ⟨Hb, Hheld⟩
  ihave Hh := (Entails.of_eq (held_SS (F := F) d _)) $$ Hheld
  rw [r1_a, r1_x, r1_o, r1_r]
  icases Hh with ⟨Ha, Hx, Ho, Hr⟩
  rw [wp_ret]; imodintro
  -- the call: the source and the result's rows to the two SparseCores and back
  iapply ((K (F := F)).wp_run (D (F := F)) 𝒱 (EH := EH) (P := P m) κ d 0) $$ [Hst Hx Ho Hb Ha Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  -- the result re-laid
  iapply (wp_hlo_within 𝒱 (SparseCore.T d) none Set.univ (op := op2) (S := SS) h2 (V := V1 m d)) $$ [Hb Ha Hx Ho Hr]
  · isplitl [Hb]; · iexact Hb
    rw [held_SS, V1_a, V1_x, V1_o, V1_r]
    isplitl [Ha]; · iexact Ha
    isplitl [Hx]; · iexact Hx
    isplitl [Ho]; · iexact Ho
    iexact Hr
  iintro ⟨Hb, Hheld⟩
  ihave Hh := (Entails.of_eq (held_SS (F := F) d _)) $$ Hheld
  rw [r2_a, r2_r]
  icases Hh with ⟨Ha, -, -, Hr⟩
  rw [wp_ret]; imodintro; imodintro
  isplitl [Hst]; · iexact Hst
  isplitl [Ha]; · iexact Ha
  iexact Hr

def fq (d : Dev nD) (s' : Phys nD τ sig (Elt F)) : Prop := s'.mem.mem (aLoc d) = m (aLoc d) ∧ s'.mem.mem (rLoc d) = R m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := R m d)) $$ [HSI Hr]
  · isplitl [HSI] <;> iassumption
  icases H with %hr
  ipureintro
  exact ⟨funext fun i => ha i (Finset.mem_univ i), funext fun i => hr i (Finset.mem_univ i)⟩

/-! ## The program's run -/

/-- The re-laid result is the specification of the argument. -/
theorem R_eq (d : Dev nD) : R m d = Cert.Spec.G4 (m (aLoc d)) :=
  Cert.Spec.relay_G2 (m (aLoc d)) shapeCasts_S4x96x224x224_S384x50176 shapeCasts_S384x50176_S4x96x224x224

def QC : PUnit × MemSt nD τ sig (Elt F) → Prop := fun r => ∀ c : Dev nD,
  r.2.mem (rLoc c) = Cert.Spec.G4 (m (aLoc c)) ∧ r.2.mem (aLoc c) = m (aLoc c)

theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.trans (R_eq m c), (h c).1⟩)

end Cert.Proof.KernelRun

end
-- ==== Proof.KDefsI.lean ====
/-
  The kernel's program as the launch theorem of the SparseCore library sees it, and what the one call hands around.
  The argument, 4 images × 96 channels × 224 × 224, is re-laid by the host as 384 rows of 50176 (row r = image r / 96,
  channel r % 96); the call's 32 tasks (SparseCore c, subcore s) each copy 12 rows: task (c, s) writes rows
  24 s + 12 c + k of the result, k < 12, each from the source row r + shift (r % 96) (Spec.lean); the host re-lays the
  result as 4 × 96 × 224 × 224. The source is only read: every copy holds its own read share of it (two copies of one
  task may read the same source row, and a source row may belong to another task's range); each result row is written
  by exactly one copy.
-/
import proofs.«214360_g58884001628789_cont_9to1c4b_137_4_alg».proof.Defs
import proofs.«214360_g58884001628789_cont_9to1c4b_137_4_alg».proof.Proof.KValue
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«214360_g58884001628789_cont_9to1c4b_137_4_alg».proof.Proof.Gen.KernelIdeal
import proofs.«214360_g58884001628789_cont_9to1c4b_137_4_alg».proof.Proof.Gen.KernelIdeal.Skeleton

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The argument (4 × 96 × 224 × 224), its re-laid copy the kernel reads (384 × 50176), the kernel's result
    (384 × 50176), and the re-laid result (4 × 96 × 224 × 224), as locations of device `d`. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- Row r of the 384 × 50176 layout, as a set of indices. -/
theorem row_inb (r : Fin 384) : ∀ a, (![r.val, 0] : Fin 2 → Nat) a + S1x50176.size a ≤ S384x50176.size a := by
  have := r.isLt; intro a; fin_cases a
  · show r.val + 1 ≤ 384; omega
  · show 0 + 50176 ≤ 50176; omega
abbrev row (r : Fin 384) : Rect S384x50176 := Rect.unit (s := S384x50176) ![r.val, 0] S1x50176.size (row_inb r)
abbrev rowSet (r : Fin 384) : Finset S384x50176.Idx := (row r).set

theorem mem_rowSet (r : Fin 384) (i : S384x50176.Idx) : i ∈ rowSet r ↔ (i 0).val = r.val := by
  unfold rowSet row
  rw [Rect.mem_set_unit]
  constructor
  · intro h; have := h 0; simp at this; omega
  · intro h a; fin_cases a
    · simp; omega
    · have := (i 1).isLt; simp; exact this

theorem rows_disjoint : ∀ r ∈ (Finset.univ : Finset (Fin 384)), ∀ r' ∈ (Finset.univ : Finset (Fin 384)), r ≠ r' → Disjoint (rowSet r) (rowSet r') := by
  intro r _ r' _ h
  rw [Finset.disjoint_left]
  intro i hi hi'
  rw [mem_rowSet] at hi hi'
  exact h (Fin.ext (hi.symm.trans hi'))

theorem rows_cover : (Finset.univ : Finset (Fin 384)).biUnion rowSet = Finset.univ := by
  ext i
  simp only [Finset.mem_biUnion, Finset.mem_univ, true_and, iff_true]
  exact ⟨⟨(i 0).val, (i 0).isLt⟩, (mem_rowSet _ i).mpr rfl⟩

/-- The row that copy k of the task on SparseCore c, subcore s writes. -/
def wrow (c : Fin 2) (s : Fin 16) (k : Fin 12) : Fin 384 := ⟨24 * s.val + 12 * c.val + k.val, by omega⟩

/-- Every row is written by exactly one copy of one task. -/
def wrowEquiv : (Fin 2 × Fin 16 × Fin 12) ≃ Fin 384 where
  toFun p := wrow p.1 p.2.1 p.2.2
  invFun r := (⟨(r.val / 12) % 2, by omega⟩, ⟨r.val / 24, by omega⟩, ⟨r.val % 12, by omega⟩)
  left_inv p := by
    obtain ⟨c, s, k⟩ := p
    simp only [wrow, Prod.mk.injEq]
    refine ⟨Fin.ext ?_, Fin.ext ?_, Fin.ext ?_⟩ <;> simp only <;> omega
  right_inv r := by
    simp only [wrow]; exact Fin.ext (by simp only; omega)

/-- The source's share for SparseCore c, for its subcore s, for that task's copy k. -/
def qCore (c : Fin 2) : PosShare TreeShare := piece fullShare 1 c
def qTile (c : Fin 2) (s : Fin 16) : PosShare TreeShare := piece (qCore c) 15 s
def qCopy (c : Fin 2) (s : Fin 16) (k : Fin 12) : PosShare TreeShare := piece (qTile c s) 11 k

variable [FloatOps F]

/-- What the kernel reads: the argument re-laid as 384 × 50176. -/
def X (d : Dev nD) : Buf (Elt F) (xLoc d) := shapeCast S384x50176 (m (aLoc d)) shapeCasts_S4x96x224x224_S384x50176
/-- What the kernel leaves. -/
def Y (d : Dev nD) : Buf (Elt F) (oLoc d) := Cert.Spec.G2 (X m d)

/-- The rows of the result that one task writes, all at contents `f`. -/
abbrev oRows (d : Dev nD) (c : Fin 2) (s : Fin 16) (f : Buf (Elt F) (oLoc d)) : sProp 𝕄 :=
  bigSep Finset.univ fun k : Fin 12 => oLoc d ↦[rowSet (wrow c s k)]{fullShare} f

/-- The one call hands each SparseCore its share of the source and its tasks' rows of the result, each task its share
    and its rows, and takes them back with the rows at what the kernel leaves. -/
def P : (K (F := F)).Pay (nD := nD) (Val := Elt F) (Name := ℕ) (U := UU) where
  st := fun q d c => match q with | 0 => iprop((xLoc d ↦{qCore (Fin.cast nCore_zero c)} X m d) ∗ bigSep Finset.univ fun s : Fin 16 => oRows d (Fin.cast nCore_zero c) s (m (oLoc d)))
  dn := fun q d c => match q with | 0 => iprop((xLoc d ↦{qCore (Fin.cast nCore_zero c)} X m d) ∗ bigSep Finset.univ fun s : Fin 16 => oRows d (Fin.cast nCore_zero c) s (Y m d))
  go := fun q d c s => match q with | 0 => iprop((xLoc d ↦{qTile (Fin.cast nCore_zero c) (Fin.cast nSub_zero s)} X m d) ∗ oRows d (Fin.cast nCore_zero c) (Fin.cast nSub_zero s) (m (oLoc d)))
  td := fun q d c s => match q with | 0 => iprop((xLoc d ↦{qTile (Fin.cast nCore_zero c) (Fin.cast nSub_zero s)} X m d) ∗ oRows d (Fin.cast nCore_zero c) (Fin.cast nSub_zero s) (Y m d))
  x := fun _ _ => iprop(emp)

instance P_storable : (P (F := F) m).IsStorable where
  st q d c := match q with | 0 => by unfold P; infer_instance
  dn q d c := match q with | 0 => by unfold P; infer_instance
  go q d c s := match q with | 0 => by unfold P; infer_instance
  td q d c s := match q with | 0 => by unfold P; infer_instance

end Cert.Proof.KernelIdealRun

end
-- ==== Proof.KGeomI.lean ====
/-
  One task of the kernel: the vector subcore at grid coordinates L = (SparseCore, subcore) starts its twelve row
  copies on its one DMA semaphore and then waits for the twelve. Copy k reads the source row
  r + shift (r % 96) and writes the result row r = 24 · subcore + 12 · SparseCore + k. Each copy holds its own read
  share of its source row and the whole of its result row; after the last wait every result row holds its source
  row, which is the specification's row.
-/
import proofs.«214360_g58884001628789_cont_9to1c4b_137_4_alg».proof.Proof.KDefsI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile

variable (d : Dev nD) (L : grid0.Coords)

abbrev cV (L : grid0.Coords) : Fin τ.nSC := (L 0).castLE hcore0
abbrev sV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)
/-- The task's thread. -/
abbrev tv (d : Dev nD) (L : grid0.Coords) : Thread nD τ := V d (cV L) (sV L)

-- the kernel's two arrays, spelt as the body table passes them
local notation "xW" => (Memref.whole Cert.KernelIdeal.main_v0_scv : Memref Cert.KernelIdeal.sig Kind.scVector Space.hbm Cert.KernelIdeal.S384x50176 EltTy.f32)
local notation "oW" => (Memref.whole Cert.KernelIdeal.main_v1_scv : Memref Cert.KernelIdeal.sig Kind.scVector Space.hbm Cert.KernelIdeal.S384x50176 EltTy.f32)

/-- Copy k's result row and source row, as the body slices them. -/
abbrev dstM (L : grid0.Coords) (k : Fin 12) : Memref sig .scVector .hbm S1x50176 .f32 :=
  (oW).slice (Rect.unit (s := S384x50176) (k0_off1 L (BitVec.ofNat 32 k.val)) S1x50176.size (k0_off1_inb L k)) (fun _ => rfl)
abbrev srcM (L : grid0.Coords) (k : Fin 12) : Memref sig .scVector .hbm S1x50176 .f32 :=
  (xW).slice (Rect.unit (s := S384x50176) (k0_off2 L (BitVec.ofNat 32 k.val)) S1x50176.size (k0_off2_inb L k)) (fun _ => rfl)

omit [FloatOps F] in
/-- A rectangle's elements depend on its offsets only. -/
theorem unit_set_congr {s : Shape} {off off' size : Fin s.rank → Nat} (inb : ∀ a, off a + size a ≤ s.size a) (inb' : ∀ a, off' a + size a ≤ s.size a)
    (h : off = off') : (Rect.unit (s := s) off size inb).set = (Rect.unit (s := s) off' size inb').set := by
  subst h; rfl

/-- The nine tests of the kernel's offset chain add up to the specification's shift. -/
theorem ifs_eq_shift (c : Fin 96) :
    (if c.val = 19 then 1 else 0) + (if c.val = 76 then 1 else 0) + (if c.val = 54 then 1 else 0) + (if c.val = 90 then 1 else 0)
      + (if c.val = 30 then 1 else 0) + (if c.val = 7 then 1 else 0) + (if c.val = 6 then 1 else 0) + (if c.val = 35 then 1 else 0)
      + (if c.val = 23 then 1 else 0) = Cert.Spec.shift c.val := by
  revert c; decide

omit [FloatOps F] in
theorem off1_eq (k : Fin 12) : k0_off1 L (BitVec.ofNat 32 k.val) = ![(wrow (cL L) (sL L) k).val, 0] := k0_off1_eq L k

omit [FloatOps F] in
theorem off2_eq (k : Fin 12) : k0_off2 L (BitVec.ofNat 32 k.val) = ![(Cert.Spec.srow (wrow (cL L) (sL L) k)).val, 0] := by
  rw [k0_off2_eq L k]
  have h := ifs_eq_shift ⟨(24 * (L 1).val + 12 * (L 0).val + k.val) % 96, Nat.mod_lt _ (by decide)⟩
  simp only at h
  show _ = ![(24 * (L 1).val + 12 * (L 0).val + k.val) + Cert.Spec.shift ((24 * (L 1).val + 12 * (L 0).val + k.val) % 96), 0]
  rw [← h]
  congr 1
  simp only [Nat.add_assoc]

omit [FloatOps F] in
theorem set_dstM (k : Fin 12) : (dstM L k).view.set = rowSet (wrow (cL L) (sL L) k) := by
  show ((View.whole main_v1_scv).slice _).set = _
  rw [View.set_slice_whole]
  exact unit_set_congr _ _ (off1_eq L k)

omit [FloatOps F] in
theorem set_srcM (k : Fin 12) : (srcM L k).view.set = rowSet (Cert.Spec.srow (wrow (cL L) (sL L) k)) := by
  show ((View.whole main_v0_scv).slice _).set = _
  rw [View.set_slice_whole]
  exact unit_set_congr _ _ (off2_eq L k)

end Tile

end Cert.Proof.KernelIdealRun

end
-- ==== Proof.KTileI.lean ====
/-
  The task's run. Before the first copy starts, the task's share of the source is cut into the twelve copies' shares,
  each cut again into the copy's source row and the rest of the array (kept aside); the twelve result rows are held
  one by one. The twelve copies are one batch on the task's DMA semaphore: nothing is learnt at the first eleven
  waits, and the twelfth returns every row, each result row now holding its source row.
-/
import proofs.«214360_g58884001628789_cont_9to1c4b_137_4_alg».proof.Proof.KGeomI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)
variable [FloatOps F]

section Tile

variable (d : Dev nD) (L : grid0.Coords)

local notation "xW" => (Memref.whole Cert.KernelIdeal.main_v0_scv : Memref Cert.KernelIdeal.sig Kind.scVector Space.hbm Cert.KernelIdeal.S384x50176 EltTy.f32)
local notation "oW" => (Memref.whole Cert.KernelIdeal.main_v1_scv : Memref Cert.KernelIdeal.sig Kind.scVector Space.hbm Cert.KernelIdeal.S384x50176 EltTy.f32)

/-- The task's DMA semaphore as a cell. -/
abbrev c0cell (d : Dev nD) (c : Fin τ.nSC) (i : Fin τ.nSub) : GSem nD τ sig := (V d c i, .dma cc0_scratch0.sem)

omit [FloatOps F] in
theorem ownSems0_V :
    (ownSems0 (tv d L) : sProp 𝕄)
      = iprop(semVal (c0cell d (cV L) (sV L)) 0 ∗ bigSep ((ownCells (tv d L)).erase (c0cell d (cV L) (sV L))) fun g => semVal g 0) := by
  unfold SparseCore.Cfg.ownSems0
  exact SparseCore.bigSep_erase' ((mem_ownCells (g := c0cell d (cV L) (sV L))).mpr ⟨rfl, by
    show (SemLoc.dma cc0_scratch0.sem : SemLoc sig).isScoped .scVector = true; decide⟩)

/-- One row's credit on the semaphore. -/
abbrev N : ℕ := sig.dmaCredit .scVector (Kind.scVector.table .hbm) (main_v1_scv : Ref sig .scVector).idx S1x50176 .f32

/-- A result row landed: the source row's read written over the row's prior contents. -/
abbrev landed (k : Fin 12) : Buf (Elt F) ((dstM L k).view.loc (tv d L)) :=
  (dstM L k).view.writes (Elt F) (m (oLoc d)) [⟨Rect.whole S1x50176, ReadAs.same.apply ((srcM L k).view.read (Elt F) (X m d))⟩]

/-- Copy k's source row at the copy's share; the rest of the source at that share; its result row before and after. -/
abbrev srcPts (k : Fin 12) : sProp 𝕄 := (srcM L k).view.loc (tv d L) ↦[(srcM L k).view.set]{qCopy (cL L) (sL L) k} X m d
abbrev restPts (k : Fin 12) : sProp 𝕄 := xLoc d ↦[Finset.univ \ (srcM L k).view.set]{qCopy (cL L) (sL L) k} X m d
abbrev dst0Pts (k : Fin 12) : sProp 𝕄 := (dstM L k).view.loc (tv d L) ↦[(dstM L k).view.set]{fullShare} m (oLoc d)
abbrev dst1Pts (k : Fin 12) : sProp 𝕄 := (dstM L k).view.loc (tv d L) ↦[(dstM L k).view.set]{fullShare} landed m d L k

/-- What the batch's last wait returns for copy k. -/
abbrev deliv (k : Fin 12) : sProp 𝕄 := iprop(dst1Pts m d L k ∗ srcPts m d L k)

omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  repeat rw [SparseCore.bigSep_insert' (by decide)]
  rw [bigSep_singleton]

/-- The task's share of the source is the twelve copies' source rows and the twelve rests. -/
theorem x_split :
    (xLoc d ↦{qTile (cL L) (sL L)} X m d : sProp 𝕄)
      = iprop((bigSep Finset.univ fun k : Fin 12 => srcPts m d L k) ∗ bigSep Finset.univ fun k : Fin 12 => restPts m d L k) := by
  rw [← bigSep_sep']
  rw [pointsTo_pieces Finset.univ (X m d) 11 (qTile (cL L) (sL L))]
  refine bigSep_congr fun k _ => ?_
  have h : (xLoc d ↦[Finset.univ]{qCopy (cL L) (sL L) k} X m d : sProp 𝕄)
      ⊣⊢ iprop((xLoc d ↦[(srcM L k).view.set]{qCopy (cL L) (sL L) k} X m d) ∗ xLoc d ↦[Finset.univ \ (srcM L k).view.set]{qCopy (cL L) (sL L) k} X m d) :=
    pointsTo_split_subset (Finset.subset_univ _)
  exact BI.Entails.antisymm h.1 h.2

/-- A landed result row is the specification's row. -/
theorem landed_eq (k : Fin 12) : ∀ i ∈ (dstM L k).view.set, landed m d L k i = Y m d i := by
  intro i hi
  rw [set_dstM, mem_rowSet] at hi
  obtain ⟨r, j, rfl⟩ : ∃ (r : Fin 384) (j : Fin 50176), i = ix2 r j := ⟨i 0, i 1, eq_ix2 i⟩
  have hr : r = wrow (cL L) (sL L) k := Fin.ext hi
  subst hr
  have hd : (dstM L k).view.emb (ix2 (0 : Fin 1) j) = ix2 (wrow (cL L) (sL L) k) j := by
    funext a; refine Fin.ext ?_
    match a with
    | ⟨0, _⟩ => show (k0_off1 L (BitVec.ofNat 32 k.val)) 0 + 1 * 0 = _; rw [off1_eq]; rfl
    | ⟨1, _⟩ => show (k0_off1 L (BitVec.ofNat 32 k.val)) 1 + 1 * j.val = _; rw [off1_eq]; simp
  have hs : (srcM L k).view.emb (ix2 (0 : Fin 1) j) = ix2 (Cert.Spec.srow (wrow (cL L) (sL L) k)) j := by
    funext a; refine Fin.ext ?_
    match a with
    | ⟨0, _⟩ => show (k0_off2 L (BitVec.ofNat 32 k.val)) 0 + 1 * 0 = _; rw [off2_eq]; rfl
    | ⟨1, _⟩ => show (k0_off2 L (BitVec.ofNat 32 k.val)) 1 + 1 * j.val = _; rw [off2_eq]; simp
  have he : ((dstM L k).view.slice (Rect.whole S1x50176)).emb (ix2 (0 : Fin 1) j) = (dstM L k).view.emb (ix2 (0 : Fin 1) j) := by
    rw [View.emb_slice]
    show (dstM L k).view.emb ((Rect.whole S1x50176).emb (ix2 (0 : Fin 1) j)) = _
    refine congrArg _ (funext fun a => Fin.ext ?_)
    match a with
    | ⟨0, _⟩ => rfl
    | ⟨1, _⟩ => show 0 + 1 * j.val = j.val; omega
  have key : landed m d L k ((dstM L k).view.emb (ix2 (0 : Fin 1) j)) = X m d ((srcM L k).view.emb (ix2 (0 : Fin 1) j)) := by
    unfold landed
    rw [View.writes_singleton]
    conv_lhs => rw [← he]
    rw [View.write_emb_of_mem _ _ (Finset.mem_univ _)]
    rfl
  have e1 : landed m d L k (ix2 (wrow (cL L) (sL L) k) j) = X m d (ix2 (Cert.Spec.srow (wrow (cL L) (sL L) k)) j) := by
    rw [← hd, key, hs]
  rw [e1]
  rfl

theorem dst0_eq (k : Fin 12) : dst0Pts m d L k = (oLoc d ↦[rowSet (wrow (cL L) (sL L) k)]{fullShare} m (oLoc d) : sProp 𝕄) := by
  unfold dst0Pts; rw [set_dstM]
theorem dst1_eq (k : Fin 12) : dst1Pts m d L k = (oLoc d ↦[rowSet (wrow (cL L) (sL L) k)]{fullShare} Y m d : sProp 𝕄) := by
  unfold dst1Pts; rw [pointsTo_congr (landed_eq m d L k), set_dstM]

/-- The task's program with each part's results bound to one name: the printed function, by unfolding. -/
def rootT (L : grid0.Coords) : Prog (TpuEff nD τ sig (Elt F) Λ₀ (.scVector ((L 0).castLE hcore0) ((L 1).castLE hsub0))) PUnit := do
  let r1 ← k0_part1 (F := F) L xW (Memref.isWhole_whole _) oW (Memref.isWhole_whole _) cc0_scratch0
  let r2 ← k0_part2 (F := F) L xW (Memref.isWhole_whole _) oW (Memref.isWhole_whole _) cc0_scratch0 r1.1 r1.2.1 r1.2.2.1 r1.2.2.2
  let r3 ← k0_part3 (F := F) L xW (Memref.isWhole_whole _) oW (Memref.isWhole_whole _) cc0_scratch0 r1.1 r2.1 r2.2.1 r2.2.2.1 r2.2.2.2
  let r4 ← k0_part4 (F := F) L xW (Memref.isWhole_whole _) oW (Memref.isWhole_whole _) cc0_scratch0 r1.1 r3.1 r3.2.1 r3.2.2.1 r3.2.2.2
  let r5 ← k0_part5 (F := F) L xW (Memref.isWhole_whole _) oW (Memref.isWhole_whole _) cc0_scratch0 r1.1 r4.1 r4.2.1 r4.2.2.1 r4.2.2.2.1 r4.2.2.2.2
  let r6 ← k0_part6 (F := F) L xW (Memref.isWhole_whole _) oW (Memref.isWhole_whole _) cc0_scratch0 r1.1 r5.1 r5.2.1 r5.2.2.1 r5.2.2.2.1 r5.2.2.2.2.1 r5.2.2.2.2.2
  let r7 ← k0_part7 (F := F) L xW (Memref.isWhole_whole _) oW (Memref.isWhole_whole _) cc0_scratch0 r1.1 r6.1 r6.2.1 r6.2.2.1 r6.2.2.2
  let r8 ← k0_part8 (F := F) L xW (Memref.isWhole_whole _) oW (Memref.isWhole_whole _) cc0_scratch0 r1.1 r7.1 r7.2.1 r7.2.2
  let r9 ← k0_part9 (F := F) L xW (Memref.isWhole_whole _) oW (Memref.isWhole_whole _) cc0_scratch0 r1.1 r8.1 r8.2.1 r8.2.2.1 r8.2.2.2
  let r10 ← k0_part10 (F := F) L xW (Memref.isWhole_whole _) oW (Memref.isWhole_whole _) cc0_scratch0 r1.1 r9.1 r9.2.1 r9.2.2.1 r9.2.2.2
  let r11 ← k0_part11 (F := F) L xW (Memref.isWhole_whole _) oW (Memref.isWhole_whole _) cc0_scratch0 r1.1 r10.1 r10.2.1 r10.2.2.1 r10.2.2.2.1 r10.2.2.2.2
  k0_part12 (F := F) L xW (Memref.isWhole_whole _) oW (Memref.isWhole_whole _) cc0_scratch0 r11.1 r11.2
  let r13 ← k0_part13 (F := F) L xW (Memref.isWhole_whole _) oW (Memref.isWhole_whole _) cc0_scratch0 r1.1
  k0_part14 (F := F) L xW (Memref.isWhole_whole _) oW (Memref.isWhole_whole _) cc0_scratch0 r13.1 r13.2.1 r13.2.2
  Prog.lift (.waitDma2 cc0_scratch0.sem (srcM L 10) (dstM L 10) (View.wordExact_bits rfl) (View.wordExact_bits rfl))
  Prog.lift (.waitDma2 cc0_scratch0.sem (srcM L 11) (dstM L 11) (View.wordExact_bits rfl) (View.wordExact_bits rfl))
  pure ⟨⟩

set_option maxRecDepth 65536 in
theorem rootT_eq (L : grid0.Coords) : cc0__sc_replace (F := F) L xW (Memref.isWhole_whole _) oW (Memref.isWhole_whole _) cc0_scratch0 = rootT (F := F) L := rfl

/-- What the task holds after its run. -/
abbrev runPost (O : CellTallies nD τ sig (HIx 1)) (W : Waits sig (HIx 1)) : sProp 𝕄 :=
  iprop((srcPts m d L 0 ∗ srcPts m d L 1 ∗ srcPts m d L 2 ∗ srcPts m d L 3 ∗ srcPts m d L 4 ∗ srcPts m d L 5 ∗ srcPts m d L 6 ∗ srcPts m d L 7 ∗ srcPts m d L 8 ∗ srcPts m d L 9 ∗ srcPts m d L 10 ∗ srcPts m d L 11)
    ∗ (dst1Pts m d L 0 ∗ dst1Pts m d L 1 ∗ dst1Pts m d L 2 ∗ dst1Pts m d L 3 ∗ dst1Pts m d L 4 ∗ dst1Pts m d L 5 ∗ dst1Pts m d L 6 ∗ dst1Pts m d L 7 ∗ dst1Pts m d L 8 ∗ dst1Pts m d L 9 ∗ dst1Pts m d L 10 ∗ dst1Pts m d L 11)
    ∗ semVal (c0cell d (cV L) (sV L)) 0
    ∗ ∃ W', ⌜∀ p ∈ W', p ∈ W ∨ p.2 = none⌝ ∗ owes (tv d L) O W')

set_option maxRecDepth 65536 in
/-- The task's run from its rows held one by one. -/
theorem tile_run (O : CellTallies nD τ sig (HIx 1)) (W : Waits sig (HIx 1)) (hO : ∀ g, O g none = 0) :
    iprop(levAts (K (F := F)).L (K (F := F)).lev
        ∗ (srcPts m d L 0 ∗ srcPts m d L 1 ∗ srcPts m d L 2 ∗ srcPts m d L 3 ∗ srcPts m d L 4 ∗ srcPts m d L 5 ∗ srcPts m d L 6 ∗ srcPts m d L 7 ∗ srcPts m d L 8 ∗ srcPts m d L 9 ∗ srcPts m d L 10 ∗ srcPts m d L 11)
        ∗ (dst0Pts m d L 0 ∗ dst0Pts m d L 1 ∗ dst0Pts m d L 2 ∗ dst0Pts m d L 3 ∗ dst0Pts m d L 4 ∗ dst0Pts m d L 5 ∗ dst0Pts m d L 6 ∗ dst0Pts m d L 7 ∗ dst0Pts m d L 8 ∗ dst0Pts m d L 9 ∗ dst0Pts m d L 10 ∗ dst0Pts m d L 11)
        ∗ semVal (c0cell d (cV L) (sV L)) 0 ∗ owes (tv d L) O W)
      ⊢ wp frame (wpE (defs₀ (F := F)) 𝒱₀ (tv d L) none) Set.univ
          (cc0__sc_replace L xW (Memref.isWhole_whole _) oW (Memref.isWhole_whole _) cc0_scratch0)
          fun _ => runPost m d L O W := by
  rw [rootT_eq]; unfold rootT
  iintro ⟨#Hlv, ⟨HS0, HS1, HS2, HS3, HS4, HS5, HS6, HS7, HS8, HS9, HS10, HS11⟩, ⟨HD0, HD1, HD2, HD3, HD4, HD5, HD6, HD7, HD8, HD9, HD10, HD11⟩, Hsem, HO⟩
  ihave Hmw := ((K (F := F)).mayWaits_none (thr := tv d L) hO) $$ Hlv
  imod (Transfers.batch_alloc' (Lvl := ℕ) (countersEmb (U := UU)) (tv d L) (none : HIx 1) N (deliv m d L) (sm := .dma cc0_scratch0.sem) (E := Set.univ)) $$ Hsem with HB
  sl_exec_parts
  sl_step
  isplitl [HB_src0 HB_src1 HB_src2 HB_src3 HB_src4 HB_src5 HB_src6 HB_src7 HB_src8 HB_src9 HB_src10 HB_src11]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    isplitl [HB_src7]; · iexact HB_src7
    isplitl [HB_src8]; · iexact HB_src8
    isplitl [HB_src9]; · iexact HB_src9
    isplitl [HB_src10]; · iexact HB_src10
    iexact HB_src11
  isplitl [HB_dst0 HB_dst1 HB_dst2 HB_dst3 HB_dst4 HB_dst5 HB_dst6 HB_dst7 HB_dst8 HB_dst9 HB_dst10 HB_dst11]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    isplitl [HB_dst7]; · iexact HB_dst7
    isplitl [HB_dst8]; · iexact HB_dst8
    isplitl [HB_dst9]; · iexact HB_dst9
    isplitl [HB_dst10]; · iexact HB_dst10
    iexact HB_dst11
  isplitl [HB]; · iexact HB
  iexists _; isplitr
  on_goal 2 => iexact HO
  ipureintro
  intro p hp
  iterate 12 (rcases Finset.mem_insert.mp hp with h | hp; · exact .inr (by rw [h]))
  exact .inl hp

/-- What a task holds beside its rows while it runs: the rests of the source at the copies' shares, its scoped buffers,
    its other semaphores at zero. -/
abbrev frameR : sProp 𝕄 :=
  iprop((bigSep Finset.univ fun k : Fin 12 => restPts m d L k) ∗ scopedBufs (tv d L)
    ∗ bigSep ((ownCells (tv d L)).erase (c0cell d (cV L) (sV L))) fun g => semVal g 0)

theorem pre_split (O : CellTallies nD τ sig (HIx 1)) (W : Waits sig (HIx 1)) :
    iprop(levAts (K (F := F)).L (K (F := F)).lev ∗ emp
        ∗ (((srcPts m d L 0 ∗ srcPts m d L 1 ∗ srcPts m d L 2 ∗ srcPts m d L 3 ∗ srcPts m d L 4 ∗ srcPts m d L 5 ∗ srcPts m d L 6 ∗ srcPts m d L 7 ∗ srcPts m d L 8 ∗ srcPts m d L 9 ∗ srcPts m d L 10 ∗ srcPts m d L 11) ∗ bigSep Finset.univ fun k : Fin 12 => restPts m d L k) ∗ (dst0Pts m d L 0 ∗ dst0Pts m d L 1 ∗ dst0Pts m d L 2 ∗ dst0Pts m d L 3 ∗ dst0Pts m d L 4 ∗ dst0Pts m d L 5 ∗ dst0Pts m d L 6 ∗ dst0Pts m d L 7 ∗ dst0Pts m d L 8 ∗ dst0Pts m d L 9 ∗ dst0Pts m d L 10 ∗ dst0Pts m d L 11))
        ∗ scopedBufs (tv d L)
        ∗ (semVal (c0cell d (cV L) (sV L)) 0 ∗ bigSep ((ownCells (tv d L)).erase (c0cell d (cV L) (sV L))) fun g => semVal g 0)
        ∗ owes (tv d L) O W)
      ⊢ iprop((levAts (K (F := F)).L (K (F := F)).lev ∗ (srcPts m d L 0 ∗ srcPts m d L 1 ∗ srcPts m d L 2 ∗ srcPts m d L 3 ∗ srcPts m d L 4 ∗ srcPts m d L 5 ∗ srcPts m d L 6 ∗ srcPts m d L 7 ∗ srcPts m d L 8 ∗ srcPts m d L 9 ∗ srcPts m d L 10 ∗ srcPts m d L 11) ∗ (dst0Pts m d L 0 ∗ dst0Pts m d L 1 ∗ dst0Pts m d L 2 ∗ dst0Pts m d L 3 ∗ dst0Pts m d L 4 ∗ dst0Pts m d L 5 ∗ dst0Pts m d L 6 ∗ dst0Pts m d L 7 ∗ dst0Pts m d L 8 ∗ dst0Pts m d L 9 ∗ dst0Pts m d L 10 ∗ dst0Pts m d L 11) ∗ semVal (c0cell d (cV L) (sV L)) 0 ∗ owes (tv d L) O W)
          ∗ frameR m d L) := by
  iintro ⟨Hlv, -, ⟨⟨HS, Hrest⟩, HD⟩, Hsb, ⟨Hsem, Hsems⟩, HO⟩
  isplitl [Hlv HS HD Hsem HO]
  · isplitl [Hlv]; · iexact Hlv
    isplitl [HS]; · iexact HS
    isplitl [HD]; · iexact HD
    isplitl [Hsem]; · iexact Hsem
    iexact HO
  · isplitl [Hrest]; · iexact Hrest
    isplitl [Hsb]; · iexact Hsb
    iexact Hsems

theorem post_join (O : CellTallies nD τ sig (HIx 1)) (W : Waits sig (HIx 1)) :
    iprop(runPost m d L O W ∗ frameR m d L)
      ⊢ iprop((((srcPts m d L 0 ∗ srcPts m d L 1 ∗ srcPts m d L 2 ∗ srcPts m d L 3 ∗ srcPts m d L 4 ∗ srcPts m d L 5 ∗ srcPts m d L 6 ∗ srcPts m d L 7 ∗ srcPts m d L 8 ∗ srcPts m d L 9 ∗ srcPts m d L 10 ∗ srcPts m d L 11) ∗ bigSep Finset.univ fun k : Fin 12 => restPts m d L k) ∗ (dst1Pts m d L 0 ∗ dst1Pts m d L 1 ∗ dst1Pts m d L 2 ∗ dst1Pts m d L 3 ∗ dst1Pts m d L 4 ∗ dst1Pts m d L 5 ∗ dst1Pts m d L 6 ∗ dst1Pts m d L 7 ∗ dst1Pts m d L 8 ∗ dst1Pts m d L 9 ∗ dst1Pts m d L 10 ∗ dst1Pts m d L 11))
          ∗ scopedBufs (tv d L)
          ∗ (semVal (c0cell d (cV L) (sV L)) 0 ∗ bigSep ((ownCells (tv d L)).erase (c0cell d (cV L) (sV L))) fun g => semVal g 0)
          ∗ ∃ W', ⌜∀ p ∈ W', p ∈ W ∨ p.2 = none⌝ ∗ owes (tv d L) O W') := by
  unfold runPost frameR
  iintro ⟨⟨HS, HD, Hsem, HW⟩, Hrest, Hsb, Hsems⟩
  isplitl [HS Hrest HD]
  · isplitl [HS Hrest]
    · isplitl [HS]; · iexact HS
      iexact Hrest
    · iexact HD
  isplitl [Hsb]; · iexact Hsb
  isplitl [Hsem Hsems]
  · isplitl [Hsem]; · iexact Hsem
    iexact Hsems
  iexact HW

/-- The task's run from what the call hands it: its share of the source and its twelve rows of the result. -/
theorem tile_body (O : CellTallies nD τ sig (HIx 1)) (W : Waits sig (HIx 1)) (hO : ∀ g, O g none = 0) :
    iprop(levAts (K (F := F)).L (K (F := F)).lev ∗ emp
        ∗ ((xLoc d ↦{qTile (cL L) (sL L)} X m d) ∗ oRows d (cL L) (sL L) (m (oLoc d)))
        ∗ scopedBufs (tv d L) ∗ scopedSems0 (tv d L) ∗ owes (tv d L) O W)
      ⊢ wp frame (wpE (defs₀ (F := F)) 𝒱₀ (tv d L) none) Set.univ
          (cc0__sc_replace L xW (Memref.isWhole_whole _) oW (Memref.isWhole_whole _) cc0_scratch0)
          fun _ => iprop(((xLoc d ↦{qTile (cL L) (sL L)} X m d) ∗ oRows d (cL L) (sL L) (Y m d))
            ∗ scopedBufs (tv d L) ∗ scopedSems0 (tv d L)
            ∗ ∃ W', ⌜∀ p ∈ W', p ∈ W ∨ p.2 = none⌝ ∗ owes (tv d L) O W') := by
  rw [SparseCore.Cfg.scopedSems0_V (Val := Elt F) d (cV L) (sV L), ownSems0_V]
  unfold oRows
  rw [x_split, bigSep_congr (fun k _ => (dst0_eq m d L k).symm), bigSep_congr (fun k _ => (dst1_eq m d L k).symm)]
  rw [bigSep_fin12 (fun k => srcPts m d L k), bigSep_fin12 (fun k => dst0Pts m d L k), bigSep_fin12 (fun k => dst1Pts m d L k)]
  exact (pre_split m d L O W).trans ((BIClass.sep_mono (tile_run m d L O W hO) (BI.Entails.refl _)).trans
    ((wp_frame_r frame _ _).trans (wp_mono frame _ _ fun _ => post_join m d L O W)))

end Tile

end Cert.Proof.KernelIdealRun

end
-- ==== Proof.KLaunchI.lean ====
/-
  The launch: the task's run as the launch theorem's obligation; how a SparseCore's operands split among its sixteen
  tasks (its share of the source cut in sixteen, its rows of the result dealt task by task) and gather again; the
  launch element (the handshakes' rounds; the kernel's own transfers need no ghost state beyond the counters); @main on
  the TensorCore — re-lay the argument as 384 rows, hand the two SparseCores their halves of the source and their rows
  of the result, take them back with every row copied, re-lay the result —; and the run: every weakly fair execution
  of the 35 threads ends, the argument unchanged and the result the specification of the argument.
-/
import proofs.«214360_g58884001628789_cont_9to1c4b_137_4_alg».proof.Proof.KTileI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "xW" => (Memref.whole Cert.KernelIdeal.main_v0_scv : Memref Cert.KernelIdeal.sig Kind.scVector Space.hbm Cert.KernelIdeal.S384x50176 EltTy.f32)
local notation "oW" => (Memref.whole Cert.KernelIdeal.main_v1_scv : Memref Cert.KernelIdeal.sig Kind.scVector Space.hbm Cert.KernelIdeal.S384x50176 EltTy.f32)

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_replace (coordsV c s)
          xW (Memref.isWhole_whole _) oW (Memref.isWhole_whole _) cc0_scratch0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share of the source is its sixteen tasks' shares; the whole source the two SparseCores' shares. -/
theorem x_tiles (d : Dev nD) (c : Fin 2) :
    (bigSep Finset.univ fun s : Fin 16 => (xLoc d ↦{qTile c s} X m d : sProp 𝕄)) = (xLoc d ↦{qCore c} X m d) :=
  (pointsTo_pieces Finset.univ (X m d) 15 (qCore c)).symm
theorem x_cores (d : Dev nD) :
    (bigSep Finset.univ fun c : Fin 2 => (xLoc d ↦{qCore c} X m d : sProp 𝕄)) = (xLoc d ↦{fullShare} X m d) :=
  (pointsTo_pieces Finset.univ (X m d) 1 fullShare).symm

theorem vecSplit : (K (F := F)).VecSplit' (P m) 0 := by
  intro d c
  show iprop((xLoc d ↦{qCore (Fin.cast nCore_zero c)} X m d) ∗ bigSep Finset.univ fun s : Fin 16 => oRows d (Fin.cast nCore_zero c) s (m (oLoc d)))
    ⊢ |={Set.univ}=> iprop(
      (bigSep Finset.univ fun i : Fin ((K (F := F)).nSub 0) =>
        iprop((xLoc d ↦{qTile (Fin.cast nCore_zero c) (Fin.cast nSub_zero i)} X m d) ∗ oRows d (Fin.cast nCore_zero c) (Fin.cast nSub_zero i) (m (oLoc d))))
      ∗ ((bigSep Finset.univ fun i : Fin ((K (F := F)).nSub 0) =>
          iprop((xLoc d ↦{qTile (Fin.cast nCore_zero c) (Fin.cast nSub_zero i)} X m d) ∗ oRows d (Fin.cast nCore_zero c) (Fin.cast nSub_zero i) (Y m d)))
          -∗ iprop((xLoc d ↦{qCore (Fin.cast nCore_zero c)} X m d) ∗ bigSep Finset.univ fun s : Fin 16 => oRows d (Fin.cast nCore_zero c) s (Y m d))))
  rw [bigSep_tasks (F := F) (fun s => iprop((xLoc d ↦{qTile (Fin.cast nCore_zero c) s} X m d) ∗ oRows d (Fin.cast nCore_zero c) s (m (oLoc d)))),
    bigSep_tasks (F := F) (fun s => iprop((xLoc d ↦{qTile (Fin.cast nCore_zero c) s} X m d) ∗ oRows d (Fin.cast nCore_zero c) s (Y m d))),
    bigSep_sep', bigSep_sep', x_tiles]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

open Idealize.ShloMosaic.StableHlo (held held_split held_sdiff_result wp_hlo_within)

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two re-layings. -/
abbrev op1 : HloOp τ sig (Elt F) := StableHlo.reshape main_arg0 main_v0 rfl shapeCasts_S4x96x224x224_S384x50176
abbrev op2 : HloOp τ sig (Elt F) := StableHlo.reshape main_v1 main_v2 rfl shapeCasts_S384x50176_S4x96x224x224

/-- The TensorCore's arrays, all unscoped. -/
abbrev SS : Finset (DevRef τ sig) := {a', x', o', r'}

omit [FloatOps F] in
theorem held_SS (d : Dev nD) (W : Valuation τ sig (Elt F)) :
    (held (T d) SS W : sProp 𝕄) = iprop((aLoc d ↦{fullShare} W a') ∗ (xLoc d ↦{fullShare} W x') ∗ (oLoc d ↦{fullShare} W o') ∗ (rLoc d ↦{fullShare} W r')) := by
  unfold held SS
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1) ∗ (rLoc d ↦{fullShare} W main_v2)) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; after the call, the kernel's result at what it leaves. -/
def V0 (d : Dev nD) : Valuation τ sig (Elt F) := fun b => m (d, b)
def V1 (d : Dev nD) : Valuation τ sig (Elt F) := Function.update ((op1 (F := F)).result (V0 m d)) o' (Y m d)

theorem unscoped_held (d : Dev nD) : (unscopedBufs d (fun b => m ((SparseCore.T d).loc b)) : sProp 𝕄) = held (T d) SS (V0 m d) := by
  rw [unscopedBufs_eq, held_SS]; rfl

/-- The result re-laid. -/
def R (d : Dev nD) : Buf (Elt F) (rLoc d) := shapeCast S4x96x224x224 (Y m d) shapeCasts_S384x50176_S4x96x224x224

theorem r1_a (d : Dev nD) : (op1 (F := F)).result (V0 m d) a' = m (aLoc d) :=
  (op1 (F := F)).result_of_not_mem (V0 m d) (b := a') (show a' ∉ ({x'} : Finset (DevRef τ sig)) by decide)
theorem r1_o (d : Dev nD) : (op1 (F := F)).result (V0 m d) o' = m (oLoc d) :=
  (op1 (F := F)).result_of_not_mem (V0 m d) (b := o') (show o' ∉ ({x'} : Finset (DevRef τ sig)) by decide)
theorem r1_r (d : Dev nD) : (op1 (F := F)).result (V0 m d) r' = m (rLoc d) :=
  (op1 (F := F)).result_of_not_mem (V0 m d) (b := r') (show r' ∉ ({x'} : Finset (DevRef τ sig)) by decide)
theorem r1_x (d : Dev nD) : (op1 (F := F)).result (V0 m d) x' = X m d :=
  (StableHlo.reshape_result main_arg0 main_v0 rfl shapeCasts_S4x96x224x224_S384x50176 ⟨by decide, rfl⟩ ⟨by decide, rfl⟩ (V0 m d)).trans rfl

theorem V1_a (d : Dev nD) : V1 m d a' = m (aLoc d) := (Function.update_of_ne (show a' ≠ o' by decide) _ _).trans (r1_a m d)
theorem V1_x (d : Dev nD) : V1 m d x' = X m d := (Function.update_of_ne (show x' ≠ o' by decide) _ _).trans (r1_x m d)
theorem V1_o (d : Dev nD) : V1 m d o' = Y m d := Function.update_self _ _ _
theorem V1_r (d : Dev nD) : V1 m d r' = m (rLoc d) := (Function.update_of_ne (show r' ≠ o' by decide) _ _).trans (r1_r m d)

theorem r2_a (d : Dev nD) : (op2 (F := F)).result (V1 m d) a' = m (aLoc d) :=
  ((op2 (F := F)).result_of_not_mem (V1 m d) (b := a') (show a' ∉ ({r'} : Finset (DevRef τ sig)) by decide)).trans (V1_a m d)
theorem r2_r (d : Dev nD) : (op2 (F := F)).result (V1 m d) r' = R m d := by
  refine (StableHlo.reshape_result main_v1 main_v2 rfl shapeCasts_S384x50176_S4x96x224x224 ⟨by decide, rfl⟩ ⟨by decide, rfl⟩ (V1 m d)).trans ?_
  show (fun i => shapeCast S4x96x224x224 (V1 m d o') shapeCasts_S384x50176_S4x96x224x224 i) = _
  rw [V1_o]; rfl

/-- The result's rows, task by task. -/
theorem o_rows (d : Dev nD) (f : Buf (Elt F) (oLoc d)) :
    (oLoc d ↦{fullShare} f : sProp 𝕄) = bigSep Finset.univ fun c : Fin 2 => bigSep Finset.univ fun s : Fin 16 => oRows d c s f := by
  have h : (oLoc d ↦{fullShare} f : sProp 𝕄) = bigSep Finset.univ fun r : Fin 384 => oLoc d ↦[rowSet r]{fullShare} f := by
    rw [← pointsTo_biUnion Finset.univ (ℓ := oLoc d) rowSet rows_disjoint, rows_cover]; try rfl
  rw [h, bigSep_univ_equiv wrowEquiv, bigSep_univ_prod]
  refine bigSep_congr fun c _ => ?_
  rw [bigSep_univ_prod]
  rfl

/-- What the call takes for the two SparseCores, and what it hands back. -/
theorem st0_eq (d : Dev nD) : (bigSep Finset.univ fun c : Fin ((K (F := F)).nCore 0) => (P m).st 0 d c)
    = iprop((xLoc d ↦{fullShare} X m d) ∗ (oLoc d ↦{fullShare} m (oLoc d))) := by
  show (bigSep Finset.univ fun c : Fin ((K (F := F)).nCore 0) => iprop((xLoc d ↦{qCore (Fin.cast nCore_zero c)} X m d)
    ∗ bigSep Finset.univ fun s : Fin 16 => oRows d (Fin.cast nCore_zero c) s (m (oLoc d)))) = _
  rw [bigSep_cores (F := F) (fun c => iprop((xLoc d ↦{qCore c} X m d) ∗ bigSep Finset.univ fun s : Fin 16 => oRows d c s (m (oLoc d)))),
    bigSep_sep', x_cores, ← o_rows]
theorem dn0_eq (d : Dev nD) : (bigSep Finset.univ fun c : Fin ((K (F := F)).nCore 0) => (P m).dn 0 d c)
    = iprop((xLoc d ↦{fullShare} X m d) ∗ (oLoc d ↦{fullShare} Y m d)) := by
  show (bigSep Finset.univ fun c : Fin ((K (F := F)).nCore 0) => iprop((xLoc d ↦{qCore (Fin.cast nCore_zero c)} X m d)
    ∗ bigSep Finset.univ fun s : Fin 16 => oRows d (Fin.cast nCore_zero c) s (Y m d))) = _
  rw [bigSep_cores (F := F) (fun c => iprop((xLoc d ↦{qCore c} X m d) ∗ bigSep Finset.univ fun s : Fin 16 => oRows d c s (Y m d))),
    bigSep_sep', x_cores, ← o_rows]

theorem h1 : (op1 (F := F)).bufs ⊆ SS := show ({a', x'} : Finset (DevRef τ sig)) ⊆ SS by decide
theorem h2 : (op2 (F := F)).bufs ⊆ SS := show ({o', r'} : Finset (DevRef τ sig)) ⊆ SS by decide

/-- What @main leaves the claim: the argument at its launch contents, the result re-laid. -/
abbrev FIN (d : Dev nD) : sProp 𝕄 := iprop((aLoc d ↦{fullShare} m (aLoc d)) ∗ (rLoc d ↦{fullShare} R m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the argument re-laid as 384 rows
  iapply (wp_hlo_within 𝒱 (SparseCore.T d) none Set.univ (op := op1) (S := SS) h1 (V := V0 m d)) $$ [Hb Hheld]
  · isplitl [Hb]; · iexact Hb
    iexact Hheld
  iintro ⟨Hb, Hheld⟩
  ihave Hh := (Entails.of_eq (held_SS (F := F) d _)) $$ Hheld
  rw [r1_a, r1_x, r1_o, r1_r]
  icases Hh with ⟨Ha, Hx, Ho, Hr⟩
  rw [wp_ret]; imodintro
  -- the call: the source and the result's rows to the two SparseCores and back
  iapply ((K (F := F)).wp_run (D (F := F)) 𝒱 (EH := EH) (P := P m) κ d 0) $$ [Hst Hx Ho Hb Ha Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  -- the result re-laid
  iapply (wp_hlo_within 𝒱 (SparseCore.T d) none Set.univ (op := op2) (S := SS) h2 (V := V1 m d)) $$ [Hb Ha Hx Ho Hr]
  · isplitl [Hb]; · iexact Hb
    rw [held_SS, V1_a, V1_x, V1_o, V1_r]
    isplitl [Ha]; · iexact Ha
    isplitl [Hx]; · iexact Hx
    isplitl [Ho]; · iexact Ho
    iexact Hr
  iintro ⟨Hb, Hheld⟩
  ihave Hh := (Entails.of_eq (held_SS (F := F) d _)) $$ Hheld
  rw [r2_a, r2_r]
  icases Hh with ⟨Ha, -, -, Hr⟩
  rw [wp_ret]; imodintro; imodintro
  isplitl [Hst]; · iexact Hst
  isplitl [Ha]; · iexact Ha
  iexact Hr

def fq (d : Dev nD) (s' : Phys nD τ sig (Elt F)) : Prop := s'.mem.mem (aLoc d) = m (aLoc d) ∧ s'.mem.mem (rLoc d) = R m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := R m d)) $$ [HSI Hr]
  · isplitl [HSI] <;> iassumption
  icases H with %hr
  ipureintro
  exact ⟨funext fun i => ha i (Finset.mem_univ i), funext fun i => hr i (Finset.mem_univ i)⟩

/-! ## The program's run -/

/-- The re-laid result is the specification of the argument. -/
theorem R_eq (d : Dev nD) : R m d = Cert.Spec.G4 (m (aLoc d)) :=
  Cert.Spec.relay_G2 (m (aLoc d)) shapeCasts_S4x96x224x224_S384x50176 shapeCasts_S384x50176_S4x96x224x224

def QC : PUnit × MemSt nD τ sig (Elt F) → Prop := fun r => ∀ c : Dev nD,
  r.2.mem (rLoc c) = Cert.Spec.G4 (m (aLoc c)) ∧ r.2.mem (aLoc c) = m (aLoc c)

theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.trans (R_eq m c), (h c).1⟩)

end Cert.Proof.KernelIdealRun

end
-- ==== Proof.RefTerm.lean ====
/- The reference program's values as terms. One definition per buffer its operations write, in program
   order (the calls of @main inlined over their buffer records): the buffer's operation applied to the
   definitions of its operands' buffers, never unfolded. Integer buffers are closed terms; the gather's
   and the scatter's results are functions of the argument's contents. -/
import proofs.«214360_g58884001628789_cont_9to1c4b_137_4_alg».proof.Proof.Gen.ReferenceIdeal

noncomputable section

namespace Cert.ReferenceIdeal.RefTerm

open Idealize.ShloMosaic Idealize.SL.Sem
open Cert.ReferenceIdeal Cert.ReferenceIdeal.Facts₀ Cert.ReferenceIdeal.Facts

variable [Cert.ReferenceIdeal.Facts]

def val_main_c : IVec S_ 32 := constantI S_ 32 1#32
def val_main_c_0 : IVec S_ 32 := constantI S_ 32 32#32
def val_main_v0 : IVec S_ 32 := Host.shrui val_main_c val_main_c_0
def val_main_v1 : IVec S_ 32 := id val_main_v0
def val_main_v2 : IVec S1 32 := broadcastInDim S1 ![] bcast_S_S1 val_main_v1
def val_main_c_1 : IVec S_ 32 := constantI S_ 32 4294967295#32
def val_main_v3 : IVec S_ 32 := andi val_main_c val_main_c_1
def val_main_v4 : IVec S_ 32 := id val_main_v3
def val_main_v5 : IVec S1 32 := broadcastInDim S1 ![] bcast_S_S1 val_main_v4
def val_main_v6 : IVec S2 32 := concatenate S2 0 [⟨S1, val_main_v2⟩, ⟨S1, val_main_v5⟩] concatenates_S1_S1_S2_d0
def val_main_v7 : IVec S95 32 := iotaInDim S95 32 0
def val_main_call0_call0_v0 : IVec S1 32 := extractStridedSlice S1 ![0] val_main_v6 slices_S2_S1_0
def val_main_call0_call0_v1 : IVec S_ 32 := shapeCast S_ val_main_call0_call0_v0 shapeCasts_S1_S_
def val_main_call0_call0_v2 : IVec S1 32 := extractStridedSlice S1 ![1] val_main_v6 slices_S2_S1_1
def val_main_call0_call0_v3 : IVec S_ 32 := shapeCast S_ val_main_call0_call0_v2 shapeCasts_S1_S_
def val_main_call0_call0_v4 : IVec S2 64 := iotaInDim S2 64 0
def val_main_call0_call0_c : IVec S_ 64 := constantI S_ 64 1#64
def val_main_call0_call0_v5 : IVec S2 64 := broadcastInDim S2 ![] bcast_S_S2 val_main_call0_call0_c
def val_main_call0_call0_v6 : IVec S2 64 := muli val_main_call0_call0_v5 val_main_call0_call0_v4
def val_main_call0_call0_c_0 : IVec S_ 64 := constantI S_ 64 32#64
def val_main_call0_call0_v7 : IVec S2 64 := broadcastInDim S2 ![] bcast_S_S2 val_main_call0_call0_c_0
def val_main_call0_call0_v8 : IVec S2 64 := Host.shrui val_main_call0_call0_v6 val_main_call0_call0_v7
def val_main_call0_call0_v9 : IVec S2 32 := trunci 32 val_main_call0_call0_v6 natLt_32_64
def val_main_call0_call0_v10 : IVec S2 32 := trunci 32 val_main_call0_call0_v8 natLt_32_64
def val_main_call0_call0_call0_v0 : IVec S_ 32 := xori val_main_call0_call0_v1 val_main_call0_call0_v3
def val_main_call0_call0_call0_c : IVec S_ 32 := constantI S_ 32 466688986#32
def val_main_call0_call0_call0_v1 : IVec S_ 32 := xori val_main_call0_call0_call0_v0 val_main_call0_call0_call0_c
def val_main_call0_call0_call0_v2 : IVec S2 32 := broadcastInDim S2 ![] bcast_S_S2 val_main_call0_call0_v1
def val_main_call0_call0_call0_v3 : IVec S2 32 := addi val_main_call0_call0_v10 val_main_call0_call0_call0_v2
def val_main_call0_call0_call0_v4 : IVec S2 32 := broadcastInDim S2 ![] bcast_S_S2 val_main_call0_call0_v3
def val_main_call0_call0_call0_v5 : IVec S2 32 := addi val_main_call0_call0_v9 val_main_call0_call0_call0_v4
def val_main_call0_call0_call0_v6 : IVec S2 32 := addi val_main_call0_call0_call0_v3 val_main_call0_call0_call0_v5
def val_main_call0_call0_call0_c_0 : IVec S_ 32 := constantI S_ 32 13#32
def val_main_call0_call0_call0_v7 : IVec S2 32 := broadcastInDim S2 ![] bcast_S_S2 val_main_call0_call0_call0_c_0
def val_main_call0_call0_call0_v8 : IVec S2 32 := Host.shli val_main_call0_call0_call0_v5 val_main_call0_call0_call0_v7
def val_main_call0_call0_call0_c_1 : IVec S_ 32 := constantI S_ 32 19#32
def val_main_call0_call0_call0_v9 : IVec S2 32 := broadcastInDim S2 ![] bcast_S_S2 val_main_call0_call0_call0_c_1
def val_main_call0_call0_call0_v10 : IVec S2 32 := Host.shrui val_main_call0_call0_call0_v5 val_main_call0_call0_call0_v9
def val_main_call0_call0_call0_v11 : IVec S2 32 := ori val_main_call0_call0_call0_v8 val_main_call0_call0_call0_v10
def val_main_call0_call0_call0_v12 : IVec S2 32 := xori val_main_call0_call0_call0_v6 val_main_call0_call0_call0_v11
def val_main_call0_call0_call0_v13 : IVec S2 32 := addi val_main_call0_call0_call0_v6 val_main_call0_call0_call0_v12
def val_main_call0_call0_call0_c_2 : IVec S_ 32 := constantI S_ 32 15#32
def val_main_call0_call0_call0_v14 : IVec S2 32 := broadcastInDim S2 ![] bcast_S_S2 val_main_call0_call0_call0_c_2
def val_main_call0_call0_call0_v15 : IVec S2 32 := Host.shli val_main_call0_call0_call0_v12 val_main_call0_call0_call0_v14
def val_main_call0_call0_call0_c_3 : IVec S_ 32 := constantI S_ 32 17#32
def val_main_call0_call0_call0_v16 : IVec S2 32 := broadcastInDim S2 ![] bcast_S_S2 val_main_call0_call0_call0_c_3
def val_main_call0_call0_call0_v17 : IVec S2 32 := Host.shrui val_main_call0_call0_call0_v12 val_main_call0_call0_call0_v16
def val_main_call0_call0_call0_v18 : IVec S2 32 := ori val_main_call0_call0_call0_v15 val_main_call0_call0_call0_v17
def val_main_call0_call0_call0_v19 : IVec S2 32 := xori val_main_call0_call0_call0_v13 val_main_call0_call0_call0_v18
def val_main_call0_call0_call0_v20 : IVec S2 32 := addi val_main_call0_call0_call0_v13 val_main_call0_call0_call0_v19
def val_main_call0_call0_call0_c_4 : IVec S_ 32 := constantI S_ 32 26#32
def val_main_call0_call0_call0_v21 : IVec S2 32 := broadcastInDim S2 ![] bcast_S_S2 val_main_call0_call0_call0_c_4
def val_main_call0_call0_call0_v22 : IVec S2 32 := Host.shli val_main_call0_call0_call0_v19 val_main_call0_call0_call0_v21
def val_main_call0_call0_call0_c_5 : IVec S_ 32 := constantI S_ 32 6#32
def val_main_call0_call0_call0_v23 : IVec S2 32 := broadcastInDim S2 ![] bcast_S_S2 val_main_call0_call0_call0_c_5
def val_main_call0_call0_call0_v24 : IVec S2 32 := Host.shrui val_main_call0_call0_call0_v19 val_main_call0_call0_call0_v23
def val_main_call0_call0_call0_v25 : IVec S2 32 := ori val_main_call0_call0_call0_v22 val_main_call0_call0_call0_v24
def val_main_call0_call0_call0_v26 : IVec S2 32 := xori val_main_call0_call0_call0_v20 val_main_call0_call0_call0_v25
def val_main_call0_call0_call0_v27 : IVec S2 32 := addi val_main_call0_call0_call0_v20 val_main_call0_call0_call0_v26
def val_main_call0_call0_call0_c_6 : IVec S_ 32 := constantI S_ 32 6#32
def val_main_call0_call0_call0_v28 : IVec S2 32 := broadcastInDim S2 ![] bcast_S_S2 val_main_call0_call0_call0_c_6
def val_main_call0_call0_call0_v29 : IVec S2 32 := Host.shli val_main_call0_call0_call0_v26 val_main_call0_call0_call0_v28
def val_main_call0_call0_call0_c_7 : IVec S_ 32 := constantI S_ 32 26#32
def val_main_call0_call0_call0_v30 : IVec S2 32 := broadcastInDim S2 ![] bcast_S_S2 val_main_call0_call0_call0_c_7
def val_main_call0_call0_call0_v31 : IVec S2 32 := Host.shrui val_main_call0_call0_call0_v26 val_main_call0_call0_call0_v30
def val_main_call0_call0_call0_v32 : IVec S2 32 := ori val_main_call0_call0_call0_v29 val_main_call0_call0_call0_v31
def val_main_call0_call0_call0_v33 : IVec S2 32 := xori val_main_call0_call0_call0_v27 val_main_call0_call0_call0_v32
def val_main_call0_call0_call0_v34 : IVec S2 32 := broadcastInDim S2 ![] bcast_S_S2 val_main_call0_call0_v3
def val_main_call0_call0_call0_v35 : IVec S2 32 := addi val_main_call0_call0_call0_v27 val_main_call0_call0_call0_v34
def val_main_call0_call0_call0_v36 : IVec S2 32 := broadcastInDim S2 ![] bcast_S_S2 val_main_call0_call0_call0_v1
def val_main_call0_call0_call0_v37 : IVec S2 32 := addi val_main_call0_call0_call0_v33 val_main_call0_call0_call0_v36
def val_main_call0_call0_call0_c_8 : IVec S_ 32 := constantI S_ 32 1#32
def val_main_call0_call0_call0_v38 : IVec S2 32 := broadcastInDim S2 ![] bcast_S_S2 val_main_call0_call0_call0_c_8
def val_main_call0_call0_call0_v39 : IVec S2 32 := addi val_main_call0_call0_call0_v37 val_main_call0_call0_call0_v38
def val_main_call0_call0_call0_v40 : IVec S2 32 := addi val_main_call0_call0_call0_v35 val_main_call0_call0_call0_v39
def val_main_call0_call0_call0_c_9 : IVec S_ 32 := constantI S_ 32 17#32
def val_main_call0_call0_call0_v41 : IVec S2 32 := broadcastInDim S2 ![] bcast_S_S2 val_main_call0_call0_call0_c_9
def val_main_call0_call0_call0_v42 : IVec S2 32 := Host.shli val_main_call0_call0_call0_v39 val_main_call0_call0_call0_v41
def val_main_call0_call0_call0_c_10 : IVec S_ 32 := constantI S_ 32 15#32
def val_main_call0_call0_call0_v43 : IVec S2 32 := broadcastInDim S2 ![] bcast_S_S2 val_main_call0_call0_call0_c_10
def val_main_call0_call0_call0_v44 : IVec S2 32 := Host.shrui val_main_call0_call0_call0_v39 val_main_call0_call0_call0_v43
def val_main_call0_call0_call0_v45 : IVec S2 32 := ori val_main_call0_call0_call0_v42 val_main_call0_call0_call0_v44
def val_main_call0_call0_call0_v46 : IVec S2 32 := xori val_main_call0_call0_call0_v40 val_main_call0_call0_call0_v45
def val_main_call0_call0_call0_v47 : IVec S2 32 := addi val_main_call0_call0_call0_v40 val_main_call0_call0_call0_v46
def val_main_call0_call0_call0_c_11 : IVec S_ 32 := constantI S_ 32 29#32
def val_main_call0_call0_call0_v48 : IVec S2 32 := broadcastInDim S2 ![] bcast_S_S2 val_main_call0_call0_call0_c_11
def val_main_call0_call0_call0_v49 : IVec S2 32 := Host.shli val_main_call0_call0_call0_v46 val_main_call0_call0_call0_v48
def val_main_call0_call0_call0_c_12 : IVec S_ 32 := constantI S_ 32 3#32
def val_main_call0_call0_call0_v50 : IVec S2 32 := broadcastInDim S2 ![] bcast_S_S2 val_main_call0_call0_call0_c_12
def val_main_call0_call0_call0_v51 : IVec S2 32 := Host.shrui val_main_call0_call0_call0_v46 val_main_call0_call0_call0_v50
def val_main_call0_call0_call0_v52 : IVec S2 32 := ori val_main_call0_call0_call0_v49 val_main_call0_call0_call0_v51
def val_main_call0_call0_call0_v53 : IVec S2 32 := xori val_main_call0_call0_call0_v47 val_main_call0_call0_call0_v52
def val_main_call0_call0_call0_v54 : IVec S2 32 := addi val_main_call0_call0_call0_v47 val_main_call0_call0_call0_v53
def val_main_call0_call0_call0_c_13 : IVec S_ 32 := constantI S_ 32 16#32
def val_main_call0_call0_call0_v55 : IVec S2 32 := broadcastInDim S2 ![] bcast_S_S2 val_main_call0_call0_call0_c_13
def val_main_call0_call0_call0_v56 : IVec S2 32 := Host.shli val_main_call0_call0_call0_v53 val_main_call0_call0_call0_v55
def val_main_call0_call0_call0_c_14 : IVec S_ 32 := constantI S_ 32 16#32
def val_main_call0_call0_call0_v57 : IVec S2 32 := broadcastInDim S2 ![] bcast_S_S2 val_main_call0_call0_call0_c_14
def val_main_call0_call0_call0_v58 : IVec S2 32 := Host.shrui val_main_call0_call0_call0_v53 val_main_call0_call0_call0_v57
def val_main_call0_call0_call0_v59 : IVec S2 32 := ori val_main_call0_call0_call0_v56 val_main_call0_call0_call0_v58
def val_main_call0_call0_call0_v60 : IVec S2 32 := xori val_main_call0_call0_call0_v54 val_main_call0_call0_call0_v59
def val_main_call0_call0_call0_v61 : IVec S2 32 := addi val_main_call0_call0_call0_v54 val_main_call0_call0_call0_v60
def val_main_call0_call0_call0_c_15 : IVec S_ 32 := constantI S_ 32 24#32
def val_main_call0_call0_call0_v62 : IVec S2 32 := broadcastInDim S2 ![] bcast_S_S2 val_main_call0_call0_call0_c_15
def val_main_call0_call0_call0_v63 : IVec S2 32 := Host.shli val_main_call0_call0_call0_v60 val_main_call0_call0_call0_v62
def val_main_call0_call0_call0_c_16 : IVec S_ 32 := constantI S_ 32 8#32
def val_main_call0_call0_call0_v64 : IVec S2 32 := broadcastInDim S2 ![] bcast_S_S2 val_main_call0_call0_call0_c_16
def val_main_call0_call0_call0_v65 : IVec S2 32 := Host.shrui val_main_call0_call0_call0_v60 val_main_call0_call0_call0_v64
def val_main_call0_call0_call0_v66 : IVec S2 32 := ori val_main_call0_call0_call0_v63 val_main_call0_call0_call0_v65
def val_main_call0_call0_call0_v67 : IVec S2 32 := xori val_main_call0_call0_call0_v61 val_main_call0_call0_call0_v66
def val_main_call0_call0_call0_v68 : IVec S2 32 := broadcastInDim S2 ![] bcast_S_S2 val_main_call0_call0_call0_v1
def val_main_call0_call0_call0_v69 : IVec S2 32 := addi val_main_call0_call0_call0_v61 val_main_call0_call0_call0_v68
def val_main_call0_call0_call0_v70 : IVec S2 32 := broadcastInDim S2 ![] bcast_S_S2 val_main_call0_call0_v1
def val_main_call0_call0_call0_v71 : IVec S2 32 := addi val_main_call0_call0_call0_v67 val_main_call0_call0_call0_v70
def val_main_call0_call0_call0_c_17 : IVec S_ 32 := constantI S_ 32 2#32
def val_main_call0_call0_call0_v72 : IVec S2 32 := broadcastInDim S2 ![] bcast_S_S2 val_main_call0_call0_call0_c_17
def val_main_call0_call0_call0_v73 : IVec S2 32 := addi val_main_call0_call0_call0_v71 val_main_call0_call0_call0_v72
def val_main_call0_call0_call0_v74 : IVec S2 32 := addi val_main_call0_call0_call0_v69 val_main_call0_call0_call0_v73
def val_main_call0_call0_call0_c_18 : IVec S_ 32 := constantI S_ 32 13#32
def val_main_call0_call0_call0_v75 : IVec S2 32 := broadcastInDim S2 ![] bcast_S_S2 val_main_call0_call0_call0_c_18
def val_main_call0_call0_call0_v76 : IVec S2 32 := Host.shli val_main_call0_call0_call0_v73 val_main_call0_call0_call0_v75
def val_main_call0_call0_call0_c_19 : IVec S_ 32 := constantI S_ 32 19#32
def val_main_call0_call0_call0_v77 : IVec S2 32 := broadcastInDim S2 ![] bcast_S_S2 val_main_call0_call0_call0_c_19
def val_main_call0_call0_call0_v78 : IVec S2 32 := Host.shrui val_main_call0_call0_call0_v73 val_main_call0_call0_call0_v77
def val_main_call0_call0_call0_v79 : IVec S2 32 := ori val_main_call0_call0_call0_v76 val_main_call0_call0_call0_v78
def val_main_call0_call0_call0_v80 : IVec S2 32 := xori val_main_call0_call0_call0_v74 val_main_call0_call0_call0_v79
def val_main_call0_call0_call0_v81 : IVec S2 32 := addi val_main_call0_call0_call0_v74 val_main_call0_call0_call0_v80
def val_main_call0_call0_call0_c_20 : IVec S_ 32 := constantI S_ 32 15#32
def val_main_call0_call0_call0_v82 : IVec S2 32 := broadcastInDim S2 ![] bcast_S_S2 val_main_call0_call0_call0_c_20
def val_main_call0_call0_call0_v83 : IVec S2 32 := Host.shli val_main_call0_call0_call0_v80 val_main_call0_call0_call0_v82
def val_main_call0_call0_call0_c_21 : IVec S_ 32 := constantI S_ 32 17#32
def val_main_call0_call0_call0_v84 : IVec S2 32 := broadcastInDim S2 ![] bcast_S_S2 val_main_call0_call0_call0_c_21
def val_main_call0_call0_call0_v85 : IVec S2 32 := Host.shrui val_main_call0_call0_call0_v80 val_main_call0_call0_call0_v84
def val_main_call0_call0_call0_v86 : IVec S2 32 := ori val_main_call0_call0_call0_v83 val_main_call0_call0_call0_v85
def val_main_call0_call0_call0_v87 : IVec S2 32 := xori val_main_call0_call0_call0_v81 val_main_call0_call0_call0_v86
def val_main_call0_call0_call0_v88 : IVec S2 32 := addi val_main_call0_call0_call0_v81 val_main_call0_call0_call0_v87
def val_main_call0_call0_call0_c_22 : IVec S_ 32 := constantI S_ 32 26#32
def val_main_call0_call0_call0_v89 : IVec S2 32 := broadcastInDim S2 ![] bcast_S_S2 val_main_call0_call0_call0_c_22
def val_main_call0_call0_call0_v90 : IVec S2 32 := Host.shli val_main_call0_call0_call0_v87 val_main_call0_call0_call0_v89
def val_main_call0_call0_call0_c_23 : IVec S_ 32 := constantI S_ 32 6#32
def val_main_call0_call0_call0_v91 : IVec S2 32 := broadcastInDim S2 ![] bcast_S_S2 val_main_call0_call0_call0_c_23
def val_main_call0_call0_call0_v92 : IVec S2 32 := Host.shrui val_main_call0_call0_call0_v87 val_main_call0_call0_call0_v91
def val_main_call0_call0_call0_v93 : IVec S2 32 := ori val_main_call0_call0_call0_v90 val_main_call0_call0_call0_v92
def val_main_call0_call0_call0_v94 : IVec S2 32 := xori val_main_call0_call0_call0_v88 val_main_call0_call0_call0_v93
def val_main_call0_call0_call0_v95 : IVec S2 32 := addi val_main_call0_call0_call0_v88 val_main_call0_call0_call0_v94
def val_main_call0_call0_call0_c_24 : IVec S_ 32 := constantI S_ 32 6#32
def val_main_call0_call0_call0_v96 : IVec S2 32 := broadcastInDim S2 ![] bcast_S_S2 val_main_call0_call0_call0_c_24
def val_main_call0_call0_call0_v97 : IVec S2 32 := Host.shli val_main_call0_call0_call0_v94 val_main_call0_call0_call0_v96
def val_main_call0_call0_call0_c_25 : IVec S_ 32 := constantI S_ 32 26#32
def val_main_call0_call0_call0_v98 : IVec S2 32 := broadcastInDim S2 ![] bcast_S_S2 val_main_call0_call0_call0_c_25
def val_main_call0_call0_call0_v99 : IVec S2 32 := Host.shrui val_main_call0_call0_call0_v94 val_main_call0_call0_call0_v98
def val_main_call0_call0_call0_v100 : IVec S2 32 := ori val_main_call0_call0_call0_v97 val_main_call0_call0_call0_v99
def val_main_call0_call0_call0_v101 : IVec S2 32 := xori val_main_call0_call0_call0_v95 val_main_call0_call0_call0_v100
def val_main_call0_call0_call0_v102 : IVec S2 32 := broadcastInDim S2 ![] bcast_S_S2 val_main_call0_call0_v1
def val_main_call0_call0_call0_v103 : IVec S2 32 := addi val_main_call0_call0_call0_v95 val_main_call0_call0_call0_v102
def val_main_call0_call0_call0_v104 : IVec S2 32 := broadcastInDim S2 ![] bcast_S_S2 val_main_call0_call0_v3
def val_main_call0_call0_call0_v105 : IVec S2 32 := addi val_main_call0_call0_call0_v101 val_main_call0_call0_call0_v104
def val_main_call0_call0_call0_c_26 : IVec S_ 32 := constantI S_ 32 3#32
def val_main_call0_call0_call0_v106 : IVec S2 32 := broadcastInDim S2 ![] bcast_S_S2 val_main_call0_call0_call0_c_26
def val_main_call0_call0_call0_v107 : IVec S2 32 := addi val_main_call0_call0_call0_v105 val_main_call0_call0_call0_v106
def val_main_call0_call0_call0_v108 : IVec S2 32 := addi val_main_call0_call0_call0_v103 val_main_call0_call0_call0_v107
def val_main_call0_call0_call0_c_27 : IVec S_ 32 := constantI S_ 32 17#32
def val_main_call0_call0_call0_v109 : IVec S2 32 := broadcastInDim S2 ![] bcast_S_S2 val_main_call0_call0_call0_c_27
def val_main_call0_call0_call0_v110 : IVec S2 32 := Host.shli val_main_call0_call0_call0_v107 val_main_call0_call0_call0_v109
def val_main_call0_call0_call0_c_28 : IVec S_ 32 := constantI S_ 32 15#32
def val_main_call0_call0_call0_v111 : IVec S2 32 := broadcastInDim S2 ![] bcast_S_S2 val_main_call0_call0_call0_c_28
def val_main_call0_call0_call0_v112 : IVec S2 32 := Host.shrui val_main_call0_call0_call0_v107 val_main_call0_call0_call0_v111
def val_main_call0_call0_call0_v113 : IVec S2 32 := ori val_main_call0_call0_call0_v110 val_main_call0_call0_call0_v112
def val_main_call0_call0_call0_v114 : IVec S2 32 := xori val_main_call0_call0_call0_v108 val_main_call0_call0_call0_v113
def val_main_call0_call0_call0_v115 : IVec S2 32 := addi val_main_call0_call0_call0_v108 val_main_call0_call0_call0_v114
def val_main_call0_call0_call0_c_29 : IVec S_ 32 := constantI S_ 32 29#32
def val_main_call0_call0_call0_v116 : IVec S2 32 := broadcastInDim S2 ![] bcast_S_S2 val_main_call0_call0_call0_c_29
def val_main_call0_call0_call0_v117 : IVec S2 32 := Host.shli val_main_call0_call0_call0_v114 val_main_call0_call0_call0_v116
def val_main_call0_call0_call0_c_30 : IVec S_ 32 := constantI S_ 32 3#32
def val_main_call0_call0_call0_v118 : IVec S2 32 := broadcastInDim S2 ![] bcast_S_S2 val_main_call0_call0_call0_c_30
def val_main_call0_call0_call0_v119 : IVec S2 32 := Host.shrui val_main_call0_call0_call0_v114 val_main_call0_call0_call0_v118
def val_main_call0_call0_call0_v120 : IVec S2 32 := ori val_main_call0_call0_call0_v117 val_main_call0_call0_call0_v119
def val_main_call0_call0_call0_v121 : IVec S2 32 := xori val_main_call0_call0_call0_v115 val_main_call0_call0_call0_v120
def val_main_call0_call0_call0_v122 : IVec S2 32 := addi val_main_call0_call0_call0_v115 val_main_call0_call0_call0_v121
def val_main_call0_call0_call0_c_31 : IVec S_ 32 := constantI S_ 32 16#32
def val_main_call0_call0_call0_v123 : IVec S2 32 := broadcastInDim S2 ![] bcast_S_S2 val_main_call0_call0_call0_c_31
def val_main_call0_call0_call0_v124 : IVec S2 32 := Host.shli val_main_call0_call0_call0_v121 val_main_call0_call0_call0_v123
def val_main_call0_call0_call0_c_32 : IVec S_ 32 := constantI S_ 32 16#32
def val_main_call0_call0_call0_v125 : IVec S2 32 := broadcastInDim S2 ![] bcast_S_S2 val_main_call0_call0_call0_c_32
def val_main_call0_call0_call0_v126 : IVec S2 32 := Host.shrui val_main_call0_call0_call0_v121 val_main_call0_call0_call0_v125
def val_main_call0_call0_call0_v127 : IVec S2 32 := ori val_main_call0_call0_call0_v124 val_main_call0_call0_call0_v126
def val_main_call0_call0_call0_v128 : IVec S2 32 := xori val_main_call0_call0_call0_v122 val_main_call0_call0_call0_v127
def val_main_call0_call0_call0_v129 : IVec S2 32 := addi val_main_call0_call0_call0_v122 val_main_call0_call0_call0_v128
def val_main_call0_call0_call0_c_33 : IVec S_ 32 := constantI S_ 32 24#32
def val_main_call0_call0_call0_v130 : IVec S2 32 := broadcastInDim S2 ![] bcast_S_S2 val_main_call0_call0_call0_c_33
def val_main_call0_call0_call0_v131 : IVec S2 32 := Host.shli val_main_call0_call0_call0_v128 val_main_call0_call0_call0_v130
def val_main_call0_call0_call0_c_34 : IVec S_ 32 := constantI S_ 32 8#32
def val_main_call0_call0_call0_v132 : IVec S2 32 := broadcastInDim S2 ![] bcast_S_S2 val_main_call0_call0_call0_c_34
def val_main_call0_call0_call0_v133 : IVec S2 32 := Host.shrui val_main_call0_call0_call0_v128 val_main_call0_call0_call0_v132
def val_main_call0_call0_call0_v134 : IVec S2 32 := ori val_main_call0_call0_call0_v131 val_main_call0_call0_call0_v133
def val_main_call0_call0_call0_v135 : IVec S2 32 := xori val_main_call0_call0_call0_v129 val_main_call0_call0_call0_v134
def val_main_call0_call0_call0_v136 : IVec S2 32 := broadcastInDim S2 ![] bcast_S_S2 val_main_call0_call0_v3
def val_main_call0_call0_call0_v137 : IVec S2 32 := addi val_main_call0_call0_call0_v129 val_main_call0_call0_call0_v136
def val_main_call0_call0_call0_v138 : IVec S2 32 := broadcastInDim S2 ![] bcast_S_S2 val_main_call0_call0_call0_v1
def val_main_call0_call0_call0_v139 : IVec S2 32 := addi val_main_call0_call0_call0_v135 val_main_call0_call0_call0_v138
def val_main_call0_call0_call0_c_35 : IVec S_ 32 := constantI S_ 32 4#32
def val_main_call0_call0_call0_v140 : IVec S2 32 := broadcastInDim S2 ![] bcast_S_S2 val_main_call0_call0_call0_c_35
def val_main_call0_call0_call0_v141 : IVec S2 32 := addi val_main_call0_call0_call0_v139 val_main_call0_call0_call0_v140
def val_main_call0_call0_call0_v142 : IVec S2 32 := addi val_main_call0_call0_call0_v137 val_main_call0_call0_call0_v141
def val_main_call0_call0_call0_c_36 : IVec S_ 32 := constantI S_ 32 13#32
def val_main_call0_call0_call0_v143 : IVec S2 32 := broadcastInDim S2 ![] bcast_S_S2 val_main_call0_call0_call0_c_36
def val_main_call0_call0_call0_v144 : IVec S2 32 := Host.shli val_main_call0_call0_call0_v141 val_main_call0_call0_call0_v143
def val_main_call0_call0_call0_c_37 : IVec S_ 32 := constantI S_ 32 19#32
def val_main_call0_call0_call0_v145 : IVec S2 32 := broadcastInDim S2 ![] bcast_S_S2 val_main_call0_call0_call0_c_37
def val_main_call0_call0_call0_v146 : IVec S2 32 := Host.shrui val_main_call0_call0_call0_v141 val_main_call0_call0_call0_v145
def val_main_call0_call0_call0_v147 : IVec S2 32 := ori val_main_call0_call0_call0_v144 val_main_call0_call0_call0_v146
def val_main_call0_call0_call0_v148 : IVec S2 32 := xori val_main_call0_call0_call0_v142 val_main_call0_call0_call0_v147
def val_main_call0_call0_call0_v149 : IVec S2 32 := addi val_main_call0_call0_call0_v142 val_main_call0_call0_call0_v148
def val_main_call0_call0_call0_c_38 : IVec S_ 32 := constantI S_ 32 15#32
def val_main_call0_call0_call0_v150 : IVec S2 32 := broadcastInDim S2 ![] bcast_S_S2 val_main_call0_call0_call0_c_38
def val_main_call0_call0_call0_v151 : IVec S2 32 := Host.shli val_main_call0_call0_call0_v148 val_main_call0_call0_call0_v150
def val_main_call0_call0_call0_c_39 : IVec S_ 32 := constantI S_ 32 17#32
def val_main_call0_call0_call0_v152 : IVec S2 32 := broadcastInDim S2 ![] bcast_S_S2 val_main_call0_call0_call0_c_39
def val_main_call0_call0_call0_v153 : IVec S2 32 := Host.shrui val_main_call0_call0_call0_v148 val_main_call0_call0_call0_v152
def val_main_call0_call0_call0_v154 : IVec S2 32 := ori val_main_call0_call0_call0_v151 val_main_call0_call0_call0_v153
def val_main_call0_call0_call0_v155 : IVec S2 32 := xori val_main_call0_call0_call0_v149 val_main_call0_call0_call0_v154
def val_main_call0_call0_call0_v156 : IVec S2 32 := addi val_main_call0_call0_call0_v149 val_main_call0_call0_call0_v155
def val_main_call0_call0_call0_c_40 : IVec S_ 32 := constantI S_ 32 26#32
def val_main_call0_call0_call0_v157 : IVec S2 32 := broadcastInDim S2 ![] bcast_S_S2 val_main_call0_call0_call0_c_40
def val_main_call0_call0_call0_v158 : IVec S2 32 := Host.shli val_main_call0_call0_call0_v155 val_main_call0_call0_call0_v157
def val_main_call0_call0_call0_c_41 : IVec S_ 32 := constantI S_ 32 6#32
def val_main_call0_call0_call0_v159 : IVec S2 32 := broadcastInDim S2 ![] bcast_S_S2 val_main_call0_call0_call0_c_41
def val_main_call0_call0_call0_v160 : IVec S2 32 := Host.shrui val_main_call0_call0_call0_v155 val_main_call0_call0_call0_v159
def val_main_call0_call0_call0_v161 : IVec S2 32 := ori val_main_call0_call0_call0_v158 val_main_call0_call0_call0_v160
def val_main_call0_call0_call0_v162 : IVec S2 32 := xori val_main_call0_call0_call0_v156 val_main_call0_call0_call0_v161
def val_main_call0_call0_call0_v163 : IVec S2 32 := addi val_main_call0_call0_call0_v156 val_main_call0_call0_call0_v162
def val_main_call0_call0_call0_c_42 : IVec S_ 32 := constantI S_ 32 6#32
def val_main_call0_call0_call0_v164 : IVec S2 32 := broadcastInDim S2 ![] bcast_S_S2 val_main_call0_call0_call0_c_42
def val_main_call0_call0_call0_v165 : IVec S2 32 := Host.shli val_main_call0_call0_call0_v162 val_main_call0_call0_call0_v164
def val_main_call0_call0_call0_c_43 : IVec S_ 32 := constantI S_ 32 26#32
def val_main_call0_call0_call0_v166 : IVec S2 32 := broadcastInDim S2 ![] bcast_S_S2 val_main_call0_call0_call0_c_43
def val_main_call0_call0_call0_v167 : IVec S2 32 := Host.shrui val_main_call0_call0_call0_v162 val_main_call0_call0_call0_v166
def val_main_call0_call0_call0_v168 : IVec S2 32 := ori val_main_call0_call0_call0_v165 val_main_call0_call0_call0_v167
def val_main_call0_call0_call0_v169 : IVec S2 32 := xori val_main_call0_call0_call0_v163 val_main_call0_call0_call0_v168
def val_main_call0_call0_call0_v170 : IVec S2 32 := broadcastInDim S2 ![] bcast_S_S2 val_main_call0_call0_call0_v1
def val_main_call0_call0_v11_0 : IVec S2 32 := addi val_main_call0_call0_call0_v163 val_main_call0_call0_call0_v170
def val_main_call0_call0_call0_v172 : IVec S2 32 := broadcastInDim S2 ![] bcast_S_S2 val_main_call0_call0_v1
def val_main_call0_call0_call0_v173 : IVec S2 32 := addi val_main_call0_call0_call0_v169 val_main_call0_call0_call0_v172
def val_main_call0_call0_call0_c_44 : IVec S_ 32 := constantI S_ 32 5#32
def val_main_call0_call0_call0_v174 : IVec S2 32 := broadcastInDim S2 ![] bcast_S_S2 val_main_call0_call0_call0_c_44
def val_main_call0_call0_v11_1 : IVec S2 32 := addi val_main_call0_call0_call0_v173 val_main_call0_call0_call0_v174
def val_main_call0_call0_v12 : IVec S2x1 32 := broadcastInDim S2x1 ![0] bcast_S2_S2x1_0 val_main_call0_call0_v11_0
def val_main_call0_call0_v13 : IVec S2x1 32 := broadcastInDim S2x1 ![0] bcast_S2_S2x1_0 val_main_call0_call0_v11_1
def val_main_call0_v0 : IVec S2x2 32 := concatenate S2x2 1 [⟨S2x1, val_main_call0_call0_v12⟩, ⟨S2x1, val_main_call0_call0_v13⟩] concatenates_S2x1_S2x1_S2x2_d1
def val_main_call0_v1 : IVec S1x2 32 := extractStridedSlice S1x2 ![0, 0] val_main_call0_v0 slices_S2x2_S1x2_0_0
def val_main_call0_v2 : IVec S2 32 := shapeCast S2 val_main_call0_v1 shapeCasts_S1x2_S2
def val_main_call0_v3 : IVec S1x2 32 := extractStridedSlice S1x2 ![1, 0] val_main_call0_v0 slices_S2x2_S1x2_1_0
def val_main_call0_v4 : IVec S2 32 := shapeCast S2 val_main_call0_v3 shapeCasts_S1x2_S2
def val_main_call0_v5 : IVec S1 32 := extractStridedSlice S1 ![0] val_main_call0_v4 slices_S2_S1_0
def val_main_call0_v6 : IVec S_ 32 := shapeCast S_ val_main_call0_v5 shapeCasts_S1_S_
def val_main_call0_v7 : IVec S1 32 := extractStridedSlice S1 ![1] val_main_call0_v4 slices_S2_S1_1
def val_main_call0_v8 : IVec S_ 32 := shapeCast S_ val_main_call0_v7 shapeCasts_S1_S_
def val_main_call0_v9 : IVec S95 64 := iotaInDim S95 64 0
def val_main_call0_c : IVec S_ 64 := constantI S_ 64 1#64
def val_main_call0_v10 : IVec S95 64 := broadcastInDim S95 ![] bcast_S_S95 val_main_call0_c
def val_main_call0_v11 : IVec S95 64 := muli val_main_call0_v10 val_main_call0_v9
def val_main_call0_c_0 : IVec S_ 64 := constantI S_ 64 32#64
def val_main_call0_v12 : IVec S95 64 := broadcastInDim S95 ![] bcast_S_S95 val_main_call0_c_0
def val_main_call0_v13 : IVec S95 64 := Host.shrui val_main_call0_v11 val_main_call0_v12
def val_main_call0_v14 : IVec S95 32 := trunci 32 val_main_call0_v11 natLt_32_64
def val_main_call0_v15 : IVec S95 32 := trunci 32 val_main_call0_v13 natLt_32_64
def val_main_call0_call1_v0 : IVec S_ 32 := xori val_main_call0_v6 val_main_call0_v8
def val_main_call0_call1_c : IVec S_ 32 := constantI S_ 32 466688986#32
def val_main_call0_call1_v1 : IVec S_ 32 := xori val_main_call0_call1_v0 val_main_call0_call1_c
def val_main_call0_call1_v2 : IVec S95 32 := broadcastInDim S95 ![] bcast_S_S95 val_main_call0_v6
def val_main_call0_call1_v3 : IVec S95 32 := addi val_main_call0_v15 val_main_call0_call1_v2
def val_main_call0_call1_v4 : IVec S95 32 := broadcastInDim S95 ![] bcast_S_S95 val_main_call0_v8
def val_main_call0_call1_v5 : IVec S95 32 := addi val_main_call0_v14 val_main_call0_call1_v4
def val_main_call0_call1_v6 : IVec S95 32 := addi val_main_call0_call1_v3 val_main_call0_call1_v5
def val_main_call0_call1_c_0 : IVec S_ 32 := constantI S_ 32 13#32
def val_main_call0_call1_v7 : IVec S95 32 := broadcastInDim S95 ![] bcast_S_S95 val_main_call0_call1_c_0
def val_main_call0_call1_v8 : IVec S95 32 := Host.shli val_main_call0_call1_v5 val_main_call0_call1_v7
def val_main_call0_call1_c_1 : IVec S_ 32 := constantI S_ 32 19#32
def val_main_call0_call1_v9 : IVec S95 32 := broadcastInDim S95 ![] bcast_S_S95 val_main_call0_call1_c_1
def val_main_call0_call1_v10 : IVec S95 32 := Host.shrui val_main_call0_call1_v5 val_main_call0_call1_v9
def val_main_call0_call1_v11 : IVec S95 32 := ori val_main_call0_call1_v8 val_main_call0_call1_v10
def val_main_call0_call1_v12 : IVec S95 32 := xori val_main_call0_call1_v6 val_main_call0_call1_v11
def val_main_call0_call1_v13 : IVec S95 32 := addi val_main_call0_call1_v6 val_main_call0_call1_v12
def val_main_call0_call1_c_2 : IVec S_ 32 := constantI S_ 32 15#32
def val_main_call0_call1_v14 : IVec S95 32 := broadcastInDim S95 ![] bcast_S_S95 val_main_call0_call1_c_2
def val_main_call0_call1_v15 : IVec S95 32 := Host.shli val_main_call0_call1_v12 val_main_call0_call1_v14
def val_main_call0_call1_c_3 : IVec S_ 32 := constantI S_ 32 17#32
def val_main_call0_call1_v16 : IVec S95 32 := broadcastInDim S95 ![] bcast_S_S95 val_main_call0_call1_c_3
def val_main_call0_call1_v17 : IVec S95 32 := Host.shrui val_main_call0_call1_v12 val_main_call0_call1_v16
def val_main_call0_call1_v18 : IVec S95 32 := ori val_main_call0_call1_v15 val_main_call0_call1_v17
def val_main_call0_call1_v19 : IVec S95 32 := xori val_main_call0_call1_v13 val_main_call0_call1_v18
def val_main_call0_call1_v20 : IVec S95 32 := addi val_main_call0_call1_v13 val_main_call0_call1_v19
def val_main_call0_call1_c_4 : IVec S_ 32 := constantI S_ 32 26#32
def val_main_call0_call1_v21 : IVec S95 32 := broadcastInDim S95 ![] bcast_S_S95 val_main_call0_call1_c_4
def val_main_call0_call1_v22 : IVec S95 32 := Host.shli val_main_call0_call1_v19 val_main_call0_call1_v21
def val_main_call0_call1_c_5 : IVec S_ 32 := constantI S_ 32 6#32
def val_main_call0_call1_v23 : IVec S95 32 := broadcastInDim S95 ![] bcast_S_S95 val_main_call0_call1_c_5
def val_main_call0_call1_v24 : IVec S95 32 := Host.shrui val_main_call0_call1_v19 val_main_call0_call1_v23
def val_main_call0_call1_v25 : IVec S95 32 := ori val_main_call0_call1_v22 val_main_call0_call1_v24
def val_main_call0_call1_v26 : IVec S95 32 := xori val_main_call0_call1_v20 val_main_call0_call1_v25
def val_main_call0_call1_v27 : IVec S95 32 := addi val_main_call0_call1_v20 val_main_call0_call1_v26
def val_main_call0_call1_c_6 : IVec S_ 32 := constantI S_ 32 6#32
def val_main_call0_call1_v28 : IVec S95 32 := broadcastInDim S95 ![] bcast_S_S95 val_main_call0_call1_c_6
def val_main_call0_call1_v29 : IVec S95 32 := Host.shli val_main_call0_call1_v26 val_main_call0_call1_v28
def val_main_call0_call1_c_7 : IVec S_ 32 := constantI S_ 32 26#32
def val_main_call0_call1_v30 : IVec S95 32 := broadcastInDim S95 ![] bcast_S_S95 val_main_call0_call1_c_7
def val_main_call0_call1_v31 : IVec S95 32 := Host.shrui val_main_call0_call1_v26 val_main_call0_call1_v30
def val_main_call0_call1_v32 : IVec S95 32 := ori val_main_call0_call1_v29 val_main_call0_call1_v31
def val_main_call0_call1_v33 : IVec S95 32 := xori val_main_call0_call1_v27 val_main_call0_call1_v32
def val_main_call0_call1_v34 : IVec S95 32 := broadcastInDim S95 ![] bcast_S_S95 val_main_call0_v8
def val_main_call0_call1_v35 : IVec S95 32 := addi val_main_call0_call1_v27 val_main_call0_call1_v34
def val_main_call0_call1_v36 : IVec S95 32 := broadcastInDim S95 ![] bcast_S_S95 val_main_call0_call1_v1
def val_main_call0_call1_v37 : IVec S95 32 := addi val_main_call0_call1_v33 val_main_call0_call1_v36
def val_main_call0_call1_c_8 : IVec S_ 32 := constantI S_ 32 1#32
def val_main_call0_call1_v38 : IVec S95 32 := broadcastInDim S95 ![] bcast_S_S95 val_main_call0_call1_c_8
def val_main_call0_call1_v39 : IVec S95 32 := addi val_main_call0_call1_v37 val_main_call0_call1_v38
def val_main_call0_call1_v40 : IVec S95 32 := addi val_main_call0_call1_v35 val_main_call0_call1_v39
def val_main_call0_call1_c_9 : IVec S_ 32 := constantI S_ 32 17#32
def val_main_call0_call1_v41 : IVec S95 32 := broadcastInDim S95 ![] bcast_S_S95 val_main_call0_call1_c_9
def val_main_call0_call1_v42 : IVec S95 32 := Host.shli val_main_call0_call1_v39 val_main_call0_call1_v41
def val_main_call0_call1_c_10 : IVec S_ 32 := constantI S_ 32 15#32
def val_main_call0_call1_v43 : IVec S95 32 := broadcastInDim S95 ![] bcast_S_S95 val_main_call0_call1_c_10
def val_main_call0_call1_v44 : IVec S95 32 := Host.shrui val_main_call0_call1_v39 val_main_call0_call1_v43
def val_main_call0_call1_v45 : IVec S95 32 := ori val_main_call0_call1_v42 val_main_call0_call1_v44
def val_main_call0_call1_v46 : IVec S95 32 := xori val_main_call0_call1_v40 val_main_call0_call1_v45
def val_main_call0_call1_v47 : IVec S95 32 := addi val_main_call0_call1_v40 val_main_call0_call1_v46
def val_main_call0_call1_c_11 : IVec S_ 32 := constantI S_ 32 29#32
def val_main_call0_call1_v48 : IVec S95 32 := broadcastInDim S95 ![] bcast_S_S95 val_main_call0_call1_c_11
def val_main_call0_call1_v49 : IVec S95 32 := Host.shli val_main_call0_call1_v46 val_main_call0_call1_v48
def val_main_call0_call1_c_12 : IVec S_ 32 := constantI S_ 32 3#32
def val_main_call0_call1_v50 : IVec S95 32 := broadcastInDim S95 ![] bcast_S_S95 val_main_call0_call1_c_12
def val_main_call0_call1_v51 : IVec S95 32 := Host.shrui val_main_call0_call1_v46 val_main_call0_call1_v50
def val_main_call0_call1_v52 : IVec S95 32 := ori val_main_call0_call1_v49 val_main_call0_call1_v51
def val_main_call0_call1_v53 : IVec S95 32 := xori val_main_call0_call1_v47 val_main_call0_call1_v52
def val_main_call0_call1_v54 : IVec S95 32 := addi val_main_call0_call1_v47 val_main_call0_call1_v53
def val_main_call0_call1_c_13 : IVec S_ 32 := constantI S_ 32 16#32
def val_main_call0_call1_v55 : IVec S95 32 := broadcastInDim S95 ![] bcast_S_S95 val_main_call0_call1_c_13
def val_main_call0_call1_v56 : IVec S95 32 := Host.shli val_main_call0_call1_v53 val_main_call0_call1_v55
def val_main_call0_call1_c_14 : IVec S_ 32 := constantI S_ 32 16#32
def val_main_call0_call1_v57 : IVec S95 32 := broadcastInDim S95 ![] bcast_S_S95 val_main_call0_call1_c_14
def val_main_call0_call1_v58 : IVec S95 32 := Host.shrui val_main_call0_call1_v53 val_main_call0_call1_v57
def val_main_call0_call1_v59 : IVec S95 32 := ori val_main_call0_call1_v56 val_main_call0_call1_v58
def val_main_call0_call1_v60 : IVec S95 32 := xori val_main_call0_call1_v54 val_main_call0_call1_v59
def val_main_call0_call1_v61 : IVec S95 32 := addi val_main_call0_call1_v54 val_main_call0_call1_v60
def val_main_call0_call1_c_15 : IVec S_ 32 := constantI S_ 32 24#32
def val_main_call0_call1_v62 : IVec S95 32 := broadcastInDim S95 ![] bcast_S_S95 val_main_call0_call1_c_15
def val_main_call0_call1_v63 : IVec S95 32 := Host.shli val_main_call0_call1_v60 val_main_call0_call1_v62
def val_main_call0_call1_c_16 : IVec S_ 32 := constantI S_ 32 8#32
def val_main_call0_call1_v64 : IVec S95 32 := broadcastInDim S95 ![] bcast_S_S95 val_main_call0_call1_c_16
def val_main_call0_call1_v65 : IVec S95 32 := Host.shrui val_main_call0_call1_v60 val_main_call0_call1_v64
def val_main_call0_call1_v66 : IVec S95 32 := ori val_main_call0_call1_v63 val_main_call0_call1_v65
def val_main_call0_call1_v67 : IVec S95 32 := xori val_main_call0_call1_v61 val_main_call0_call1_v66
def val_main_call0_call1_v68 : IVec S95 32 := broadcastInDim S95 ![] bcast_S_S95 val_main_call0_call1_v1
def val_main_call0_call1_v69 : IVec S95 32 := addi val_main_call0_call1_v61 val_main_call0_call1_v68
def val_main_call0_call1_v70 : IVec S95 32 := broadcastInDim S95 ![] bcast_S_S95 val_main_call0_v6
def val_main_call0_call1_v71 : IVec S95 32 := addi val_main_call0_call1_v67 val_main_call0_call1_v70
def val_main_call0_call1_c_17 : IVec S_ 32 := constantI S_ 32 2#32
def val_main_call0_call1_v72 : IVec S95 32 := broadcastInDim S95 ![] bcast_S_S95 val_main_call0_call1_c_17
def val_main_call0_call1_v73 : IVec S95 32 := addi val_main_call0_call1_v71 val_main_call0_call1_v72
def val_main_call0_call1_v74 : IVec S95 32 := addi val_main_call0_call1_v69 val_main_call0_call1_v73
def val_main_call0_call1_c_18 : IVec S_ 32 := constantI S_ 32 13#32
def val_main_call0_call1_v75 : IVec S95 32 := broadcastInDim S95 ![] bcast_S_S95 val_main_call0_call1_c_18
def val_main_call0_call1_v76 : IVec S95 32 := Host.shli val_main_call0_call1_v73 val_main_call0_call1_v75
def val_main_call0_call1_c_19 : IVec S_ 32 := constantI S_ 32 19#32
def val_main_call0_call1_v77 : IVec S95 32 := broadcastInDim S95 ![] bcast_S_S95 val_main_call0_call1_c_19
def val_main_call0_call1_v78 : IVec S95 32 := Host.shrui val_main_call0_call1_v73 val_main_call0_call1_v77
def val_main_call0_call1_v79 : IVec S95 32 := ori val_main_call0_call1_v76 val_main_call0_call1_v78
def val_main_call0_call1_v80 : IVec S95 32 := xori val_main_call0_call1_v74 val_main_call0_call1_v79
def val_main_call0_call1_v81 : IVec S95 32 := addi val_main_call0_call1_v74 val_main_call0_call1_v80
def val_main_call0_call1_c_20 : IVec S_ 32 := constantI S_ 32 15#32
def val_main_call0_call1_v82 : IVec S95 32 := broadcastInDim S95 ![] bcast_S_S95 val_main_call0_call1_c_20
def val_main_call0_call1_v83 : IVec S95 32 := Host.shli val_main_call0_call1_v80 val_main_call0_call1_v82
def val_main_call0_call1_c_21 : IVec S_ 32 := constantI S_ 32 17#32
def val_main_call0_call1_v84 : IVec S95 32 := broadcastInDim S95 ![] bcast_S_S95 val_main_call0_call1_c_21
def val_main_call0_call1_v85 : IVec S95 32 := Host.shrui val_main_call0_call1_v80 val_main_call0_call1_v84
def val_main_call0_call1_v86 : IVec S95 32 := ori val_main_call0_call1_v83 val_main_call0_call1_v85
def val_main_call0_call1_v87 : IVec S95 32 := xori val_main_call0_call1_v81 val_main_call0_call1_v86
def val_main_call0_call1_v88 : IVec S95 32 := addi val_main_call0_call1_v81 val_main_call0_call1_v87
def val_main_call0_call1_c_22 : IVec S_ 32 := constantI S_ 32 26#32
def val_main_call0_call1_v89 : IVec S95 32 := broadcastInDim S95 ![] bcast_S_S95 val_main_call0_call1_c_22
def val_main_call0_call1_v90 : IVec S95 32 := Host.shli val_main_call0_call1_v87 val_main_call0_call1_v89
def val_main_call0_call1_c_23 : IVec S_ 32 := constantI S_ 32 6#32
def val_main_call0_call1_v91 : IVec S95 32 := broadcastInDim S95 ![] bcast_S_S95 val_main_call0_call1_c_23
def val_main_call0_call1_v92 : IVec S95 32 := Host.shrui val_main_call0_call1_v87 val_main_call0_call1_v91
def val_main_call0_call1_v93 : IVec S95 32 := ori val_main_call0_call1_v90 val_main_call0_call1_v92
def val_main_call0_call1_v94 : IVec S95 32 := xori val_main_call0_call1_v88 val_main_call0_call1_v93
def val_main_call0_call1_v95 : IVec S95 32 := addi val_main_call0_call1_v88 val_main_call0_call1_v94
def val_main_call0_call1_c_24 : IVec S_ 32 := constantI S_ 32 6#32
def val_main_call0_call1_v96 : IVec S95 32 := broadcastInDim S95 ![] bcast_S_S95 val_main_call0_call1_c_24
def val_main_call0_call1_v97 : IVec S95 32 := Host.shli val_main_call0_call1_v94 val_main_call0_call1_v96
def val_main_call0_call1_c_25 : IVec S_ 32 := constantI S_ 32 26#32
def val_main_call0_call1_v98 : IVec S95 32 := broadcastInDim S95 ![] bcast_S_S95 val_main_call0_call1_c_25
def val_main_call0_call1_v99 : IVec S95 32 := Host.shrui val_main_call0_call1_v94 val_main_call0_call1_v98
def val_main_call0_call1_v100 : IVec S95 32 := ori val_main_call0_call1_v97 val_main_call0_call1_v99
def val_main_call0_call1_v101 : IVec S95 32 := xori val_main_call0_call1_v95 val_main_call0_call1_v100
def val_main_call0_call1_v102 : IVec S95 32 := broadcastInDim S95 ![] bcast_S_S95 val_main_call0_v6
def val_main_call0_call1_v103 : IVec S95 32 := addi val_main_call0_call1_v95 val_main_call0_call1_v102
def val_main_call0_call1_v104 : IVec S95 32 := broadcastInDim S95 ![] bcast_S_S95 val_main_call0_v8
def val_main_call0_call1_v105 : IVec S95 32 := addi val_main_call0_call1_v101 val_main_call0_call1_v104
def val_main_call0_call1_c_26 : IVec S_ 32 := constantI S_ 32 3#32
def val_main_call0_call1_v106 : IVec S95 32 := broadcastInDim S95 ![] bcast_S_S95 val_main_call0_call1_c_26
def val_main_call0_call1_v107 : IVec S95 32 := addi val_main_call0_call1_v105 val_main_call0_call1_v106
def val_main_call0_call1_v108 : IVec S95 32 := addi val_main_call0_call1_v103 val_main_call0_call1_v107
def val_main_call0_call1_c_27 : IVec S_ 32 := constantI S_ 32 17#32
def val_main_call0_call1_v109 : IVec S95 32 := broadcastInDim S95 ![] bcast_S_S95 val_main_call0_call1_c_27
def val_main_call0_call1_v110 : IVec S95 32 := Host.shli val_main_call0_call1_v107 val_main_call0_call1_v109
def val_main_call0_call1_c_28 : IVec S_ 32 := constantI S_ 32 15#32
def val_main_call0_call1_v111 : IVec S95 32 := broadcastInDim S95 ![] bcast_S_S95 val_main_call0_call1_c_28
def val_main_call0_call1_v112 : IVec S95 32 := Host.shrui val_main_call0_call1_v107 val_main_call0_call1_v111
def val_main_call0_call1_v113 : IVec S95 32 := ori val_main_call0_call1_v110 val_main_call0_call1_v112
def val_main_call0_call1_v114 : IVec S95 32 := xori val_main_call0_call1_v108 val_main_call0_call1_v113
def val_main_call0_call1_v115 : IVec S95 32 := addi val_main_call0_call1_v108 val_main_call0_call1_v114
def val_main_call0_call1_c_29 : IVec S_ 32 := constantI S_ 32 29#32
def val_main_call0_call1_v116 : IVec S95 32 := broadcastInDim S95 ![] bcast_S_S95 val_main_call0_call1_c_29
def val_main_call0_call1_v117 : IVec S95 32 := Host.shli val_main_call0_call1_v114 val_main_call0_call1_v116
def val_main_call0_call1_c_30 : IVec S_ 32 := constantI S_ 32 3#32
def val_main_call0_call1_v118 : IVec S95 32 := broadcastInDim S95 ![] bcast_S_S95 val_main_call0_call1_c_30
def val_main_call0_call1_v119 : IVec S95 32 := Host.shrui val_main_call0_call1_v114 val_main_call0_call1_v118
def val_main_call0_call1_v120 : IVec S95 32 := ori val_main_call0_call1_v117 val_main_call0_call1_v119
def val_main_call0_call1_v121 : IVec S95 32 := xori val_main_call0_call1_v115 val_main_call0_call1_v120
def val_main_call0_call1_v122 : IVec S95 32 := addi val_main_call0_call1_v115 val_main_call0_call1_v121
def val_main_call0_call1_c_31 : IVec S_ 32 := constantI S_ 32 16#32
def val_main_call0_call1_v123 : IVec S95 32 := broadcastInDim S95 ![] bcast_S_S95 val_main_call0_call1_c_31
def val_main_call0_call1_v124 : IVec S95 32 := Host.shli val_main_call0_call1_v121 val_main_call0_call1_v123
def val_main_call0_call1_c_32 : IVec S_ 32 := constantI S_ 32 16#32
def val_main_call0_call1_v125 : IVec S95 32 := broadcastInDim S95 ![] bcast_S_S95 val_main_call0_call1_c_32
def val_main_call0_call1_v126 : IVec S95 32 := Host.shrui val_main_call0_call1_v121 val_main_call0_call1_v125
def val_main_call0_call1_v127 : IVec S95 32 := ori val_main_call0_call1_v124 val_main_call0_call1_v126
def val_main_call0_call1_v128 : IVec S95 32 := xori val_main_call0_call1_v122 val_main_call0_call1_v127
def val_main_call0_call1_v129 : IVec S95 32 := addi val_main_call0_call1_v122 val_main_call0_call1_v128
def val_main_call0_call1_c_33 : IVec S_ 32 := constantI S_ 32 24#32
def val_main_call0_call1_v130 : IVec S95 32 := broadcastInDim S95 ![] bcast_S_S95 val_main_call0_call1_c_33
def val_main_call0_call1_v131 : IVec S95 32 := Host.shli val_main_call0_call1_v128 val_main_call0_call1_v130
def val_main_call0_call1_c_34 : IVec S_ 32 := constantI S_ 32 8#32
def val_main_call0_call1_v132 : IVec S95 32 := broadcastInDim S95 ![] bcast_S_S95 val_main_call0_call1_c_34
def val_main_call0_call1_v133 : IVec S95 32 := Host.shrui val_main_call0_call1_v128 val_main_call0_call1_v132
def val_main_call0_call1_v134 : IVec S95 32 := ori val_main_call0_call1_v131 val_main_call0_call1_v133
def val_main_call0_call1_v135 : IVec S95 32 := xori val_main_call0_call1_v129 val_main_call0_call1_v134
def val_main_call0_call1_v136 : IVec S95 32 := broadcastInDim S95 ![] bcast_S_S95 val_main_call0_v8
def val_main_call0_call1_v137 : IVec S95 32 := addi val_main_call0_call1_v129 val_main_call0_call1_v136
def val_main_call0_call1_v138 : IVec S95 32 := broadcastInDim S95 ![] bcast_S_S95 val_main_call0_call1_v1
def val_main_call0_call1_v139 : IVec S95 32 := addi val_main_call0_call1_v135 val_main_call0_call1_v138
def val_main_call0_call1_c_35 : IVec S_ 32 := constantI S_ 32 4#32
def val_main_call0_call1_v140 : IVec S95 32 := broadcastInDim S95 ![] bcast_S_S95 val_main_call0_call1_c_35
def val_main_call0_call1_v141 : IVec S95 32 := addi val_main_call0_call1_v139 val_main_call0_call1_v140
def val_main_call0_call1_v142 : IVec S95 32 := addi val_main_call0_call1_v137 val_main_call0_call1_v141
def val_main_call0_call1_c_36 : IVec S_ 32 := constantI S_ 32 13#32
def val_main_call0_call1_v143 : IVec S95 32 := broadcastInDim S95 ![] bcast_S_S95 val_main_call0_call1_c_36
def val_main_call0_call1_v144 : IVec S95 32 := Host.shli val_main_call0_call1_v141 val_main_call0_call1_v143
def val_main_call0_call1_c_37 : IVec S_ 32 := constantI S_ 32 19#32
def val_main_call0_call1_v145 : IVec S95 32 := broadcastInDim S95 ![] bcast_S_S95 val_main_call0_call1_c_37
def val_main_call0_call1_v146 : IVec S95 32 := Host.shrui val_main_call0_call1_v141 val_main_call0_call1_v145
def val_main_call0_call1_v147 : IVec S95 32 := ori val_main_call0_call1_v144 val_main_call0_call1_v146
def val_main_call0_call1_v148 : IVec S95 32 := xori val_main_call0_call1_v142 val_main_call0_call1_v147
def val_main_call0_call1_v149 : IVec S95 32 := addi val_main_call0_call1_v142 val_main_call0_call1_v148
def val_main_call0_call1_c_38 : IVec S_ 32 := constantI S_ 32 15#32
def val_main_call0_call1_v150 : IVec S95 32 := broadcastInDim S95 ![] bcast_S_S95 val_main_call0_call1_c_38
def val_main_call0_call1_v151 : IVec S95 32 := Host.shli val_main_call0_call1_v148 val_main_call0_call1_v150
def val_main_call0_call1_c_39 : IVec S_ 32 := constantI S_ 32 17#32
def val_main_call0_call1_v152 : IVec S95 32 := broadcastInDim S95 ![] bcast_S_S95 val_main_call0_call1_c_39
def val_main_call0_call1_v153 : IVec S95 32 := Host.shrui val_main_call0_call1_v148 val_main_call0_call1_v152
def val_main_call0_call1_v154 : IVec S95 32 := ori val_main_call0_call1_v151 val_main_call0_call1_v153
def val_main_call0_call1_v155 : IVec S95 32 := xori val_main_call0_call1_v149 val_main_call0_call1_v154
def val_main_call0_call1_v156 : IVec S95 32 := addi val_main_call0_call1_v149 val_main_call0_call1_v155
def val_main_call0_call1_c_40 : IVec S_ 32 := constantI S_ 32 26#32
def val_main_call0_call1_v157 : IVec S95 32 := broadcastInDim S95 ![] bcast_S_S95 val_main_call0_call1_c_40
def val_main_call0_call1_v158 : IVec S95 32 := Host.shli val_main_call0_call1_v155 val_main_call0_call1_v157
def val_main_call0_call1_c_41 : IVec S_ 32 := constantI S_ 32 6#32
def val_main_call0_call1_v159 : IVec S95 32 := broadcastInDim S95 ![] bcast_S_S95 val_main_call0_call1_c_41
def val_main_call0_call1_v160 : IVec S95 32 := Host.shrui val_main_call0_call1_v155 val_main_call0_call1_v159
def val_main_call0_call1_v161 : IVec S95 32 := ori val_main_call0_call1_v158 val_main_call0_call1_v160
def val_main_call0_call1_v162 : IVec S95 32 := xori val_main_call0_call1_v156 val_main_call0_call1_v161
def val_main_call0_call1_v163 : IVec S95 32 := addi val_main_call0_call1_v156 val_main_call0_call1_v162
def val_main_call0_call1_c_42 : IVec S_ 32 := constantI S_ 32 6#32
def val_main_call0_call1_v164 : IVec S95 32 := broadcastInDim S95 ![] bcast_S_S95 val_main_call0_call1_c_42
def val_main_call0_call1_v165 : IVec S95 32 := Host.shli val_main_call0_call1_v162 val_main_call0_call1_v164
def val_main_call0_call1_c_43 : IVec S_ 32 := constantI S_ 32 26#32
def val_main_call0_call1_v166 : IVec S95 32 := broadcastInDim S95 ![] bcast_S_S95 val_main_call0_call1_c_43
def val_main_call0_call1_v167 : IVec S95 32 := Host.shrui val_main_call0_call1_v162 val_main_call0_call1_v166
def val_main_call0_call1_v168 : IVec S95 32 := ori val_main_call0_call1_v165 val_main_call0_call1_v167
def val_main_call0_call1_v169 : IVec S95 32 := xori val_main_call0_call1_v163 val_main_call0_call1_v168
def val_main_call0_call1_v170 : IVec S95 32 := broadcastInDim S95 ![] bcast_S_S95 val_main_call0_call1_v1
def val_main_call0_v16_0 : IVec S95 32 := addi val_main_call0_call1_v163 val_main_call0_call1_v170
def val_main_call0_call1_v172 : IVec S95 32 := broadcastInDim S95 ![] bcast_S_S95 val_main_call0_v6
def val_main_call0_call1_v173 : IVec S95 32 := addi val_main_call0_call1_v169 val_main_call0_call1_v172
def val_main_call0_call1_c_44 : IVec S_ 32 := constantI S_ 32 5#32
def val_main_call0_call1_v174 : IVec S95 32 := broadcastInDim S95 ![] bcast_S_S95 val_main_call0_call1_c_44
def val_main_call0_v16_1 : IVec S95 32 := addi val_main_call0_call1_v173 val_main_call0_call1_v174
def val_main_call0_v17 : IVec S95 32 := xori val_main_call0_v16_0 val_main_call0_v16_1
def val_main_call0_v18_0 : IVec S95 32 := (Host.sort2 S95 0 comparator_i32_i32_d0 val_main_call0_v17 val_main_v7).1
def val_main_v8 : IVec S95 32 := (Host.sort2 S95 0 comparator_i32_i32_d0 val_main_call0_v17 val_main_v7).2
def val_main_v9 : IVec S9 32 := extractStridedSlice S9 ![0] val_main_v8 slices_S95_S9_0
def val_main_c_2 : IVec S_ 32 := constantI S_ 32 1#32
def val_main_v10 : IVec S9 32 := broadcastInDim S9 ![] bcast_S_S9 val_main_c_2
def val_main_v11 : IVec S9 32 := addi val_main_v9 val_main_v10
def val_main_c_3 : IVec S_ 32 := constantI S_ 32 0#32
def val_main_v12 : IVec S9 32 := broadcastInDim S9 ![] bcast_S_S9 val_main_c_3
def val_main_v13 : IVec S9 1 := cmpi .slt val_main_v11 val_main_v12
def val_main_c_4 : IVec S_ 32 := constantI S_ 32 96#32
def val_main_v14 : IVec S9 32 := broadcastInDim S9 ![] bcast_S_S9 val_main_c_4
def val_main_v15 : IVec S9 32 := addi val_main_v11 val_main_v14
def val_main_v16 : IVec S9 32 := select val_main_v13 val_main_v15 val_main_v11
def val_main_v17 : IVec S9x1 32 := broadcastInDim S9x1 ![0] bcast_S9_S9x1_0 val_main_v16
def val_main_v18 {F : FTy → Type} [FloatOps F] (x : FVec F S4x96x224x224 .f32) : FVec F S4x9x224x224 .f32 :=
  Host.gather gather_S4x96x224x224_S9x1_S4x9x224x224_023_1_n_n_1_1_41224224 x val_main_v17
def val_main_c_5 : IVec S_ 32 := constantI S_ 32 0#32
def val_main_v19 : IVec S9 32 := broadcastInDim S9 ![] bcast_S_S9 val_main_c_5
def val_main_v20 : IVec S9 1 := cmpi .slt val_main_v9 val_main_v19
def val_main_c_6 : IVec S_ 32 := constantI S_ 32 96#32
def val_main_v21 : IVec S9 32 := broadcastInDim S9 ![] bcast_S_S9 val_main_c_6
def val_main_v22 : IVec S9 32 := addi val_main_v9 val_main_v21
def val_main_v23 : IVec S9 32 := select val_main_v20 val_main_v22 val_main_v9
def val_main_v24 : IVec S9x1 32 := broadcastInDim S9x1 ![0] bcast_S9_S9x1_0 val_main_v23
def val_main_v25 {F : FTy → Type} [FloatOps F] (x : FVec F S4x96x224x224 .f32) : FVec F S4x96x224x224 .f32 :=
  Host.scatter scatter_S4x96x224x224_S9x1_S4x9x224x224_023_1_1_1 (fun _ b => b) x val_main_v24 (val_main_v18 x)

end Cert.ReferenceIdeal.RefTerm

end
-- ==== Proof.RefRun0.lean ====
/- The run of a straight line of single-result operations, read cell by cell.

   A cell is a reference together with the contents it is to hold. A valuation HOLDS a list of cells when it
   has each cell's contents at the cell's reference. Obl n ops base base' says: the operations ops, run in
   order from any valuation holding base, end in a valuation holding base' -- stated operation by operation:
   each operation writes exactly one reference (its cell's), that reference's index is the counter n (so it
   is none of the references of base, whose indices are all below n), and from any valuation holding the
   cells so far the operation's result at its reference is the cell's contents. The new cell is put in front
   and the counter goes up by one. Since every obligation is about an ARBITRARY valuation holding the cells,
   no term ever mentions the valuations the earlier operations produced: each value is named once, by its
   cell, and read back by position in the list.

   Obl.holds is the induction (an operation leaves every reference it does not write unchanged); Obl.append
   joins two stretches; Obl.bufs_sub and Obl.fresh give the side conditions of StableHlo.run_seq. The lemmas
   Obl.nullary ... Obl.ternary discharge one operation of each builder from the positions of its operands'
   cells and a definitional equation between the operation's function at the operands' contents and the
   result cell's contents. seqK is a line of operations followed by a continuation: a program text is a
   seqK of its operations by unfolding alone. -/
import Idealize.ShloMosaic.Lib.StableHlo.Run

namespace Cert.ReferenceIdeal.RefRun

open Idealize.ShloMosaic Idealize.ShloMosaic.StableHlo Idealize.SL.Sem

variable {nD : Nat} {τ : Topo} {sig : RefSig} {Val : EltTy → Type} {Λ : Labels}

/-- A reference with the contents it is to hold. -/
structure Cell (sig : RefSig) (Val : EltTy → Type) where
  ref : Ref sig .tc
  val : ref.ty.Contents Val

/-- The valuation has each cell's contents at the cell's reference. -/
def Holds (W : Valuation τ sig Val) (cs : List (Cell sig Val)) : Prop :=
  ∀ c ∈ cs, W (Proc.devRef .tc c.ref) = c.val

theorem Holds.get {W : Valuation τ sig Val} {cs : List (Cell sig Val)} (h : Holds W cs) {i : Nat}
    {x : Ref sig .tc} {vx : x.ty.Contents Val} (hX : cs[i]? = some ⟨x, vx⟩) : W (Proc.devRef .tc x) = vx :=
  h ⟨x, vx⟩ (List.mem_of_getElem? hX)

/-- The operations, one cell each, from any valuation holding base to one holding base'. -/
inductive Obl : Nat → List (HloOp τ sig Val) → List (Cell sig Val) → List (Cell sig Val) → Prop
  | nil (n : Nat) (base : List (Cell sig Val)) : Obl n [] base base
  | cons {n : Nat} {op : HloOp τ sig Val} {ops : List (HloOp τ sig Val)} {base base' : List (Cell sig Val)}
      (c : Cell sig Val)
      (hw : op.writes = {Proc.devRef .tc c.ref}) (hb : op.bufs ⊆ tcRefs τ sig) (hf : op.fresh = ∅)
      (hk : c.ref.idx.val = n)
      (hv : ∀ W : Valuation τ sig Val, Holds W base → op.result W (Proc.devRef .tc c.ref) = c.val)
      (rest : Obl (n + 1) ops (c :: base) base') : Obl n (op :: ops) base base'

namespace Obl

/-- Run from a valuation holding base whose references all have index below the counter, the operations
    end in a valuation holding base'. -/
theorem holds {n : Nat} {ops : List (HloOp τ sig Val)} {base base' : List (Cell sig Val)}
    (h : Obl (τ := τ) n ops base base') :
    ∀ {W : Valuation τ sig Val}, (∀ c ∈ base, c.ref.idx.val < n) → Holds W base → Holds (after ops W) base' := by
  induction h with
  | nil n base => intro W _ hW; exact hW
  | @cons n op ops base base' c hw hb hf hk hv rest ih =>
    intro W hlt hW
    rw [after_cons]
    refine ih (fun c' hc' => ?_) (fun c' hc' => ?_)
    · rcases List.mem_cons.mp hc' with rfl | hc'
      · omega
      · exact Nat.lt_succ_of_lt (hlt c' hc')
    · rcases List.mem_cons.mp hc' with rfl | hc'
      · exact hv W hW
      · rw [op.result_of_not_mem W, hW c' hc']
        rw [hw, Finset.mem_singleton]
        intro e
        have e' : c'.ref = c.ref := Proc.devRef_injective _ e
        have := hlt c' hc'
        rw [e'] at this
        omega

theorem bufs_sub {n : Nat} {ops : List (HloOp τ sig Val)} {base base' : List (Cell sig Val)}
    (h : Obl (τ := τ) n ops base base') : ops.Forall fun op => op.bufs ⊆ tcRefs τ sig := by
  induction h with
  | nil n base => exact List.forall_iff_forall_mem.mpr (fun _ h => nomatch h)
  | @cons n op ops base base' c hw hb hf hk hv rest ih =>
    exact List.forall_iff_forall_mem.mpr fun o ho => by
      rcases List.mem_cons.mp ho with rfl | ho
      · exact hb
      · exact List.forall_iff_forall_mem.mp ih o ho

theorem fresh {n : Nat} {ops : List (HloOp τ sig Val)} {base base' : List (Cell sig Val)}
    (h : Obl (τ := τ) n ops base base') : ∀ op ∈ ops, op.fresh = ∅ := by
  induction h with
  | nil n base => intro _ h; exact nomatch h
  | @cons n op ops base base' c hw hb hf hk hv rest ih =>
    intro o ho
    rcases List.mem_cons.mp ho with rfl | ho
    · exact hf
    · exact ih o ho

/-- Two stretches one after the other. -/
theorem append {n : Nat} {l₁ l₂ : List (HloOp τ sig Val)} {b₀ b₁ b₂ : List (Cell sig Val)}
    (h₁ : Obl (τ := τ) n l₁ b₀ b₁) (h₂ : Obl (τ := τ) (n + l₁.length) l₂ b₁ b₂) : Obl n (l₁ ++ l₂) b₀ b₂ := by
  induction h₁ with
  | nil n base => simpa using h₂
  | @cons n op ops base base' c hw hb hf hk hv rest ih =>
    refine .cons c hw hb hf hk hv (ih ?_)
    have e : n + (op :: ops).length = n + 1 + ops.length := by simp only [List.length_cons]; omega
    exact e ▸ h₂

variable {n : Nat} {ops : List (HloOp τ sig Val)} {base base' : List (Cell sig Val)}

/-- One stablehlo operation with no operand. -/
theorem nullary {y : Ref sig .tc} {v : y.ty.Contents Val} {hy}
    (vy : y.ty.Contents Val) (e : v = vy) (hk : y.idx.val = n)
    (rest : Obl (τ := τ) (n + 1) ops (⟨y, vy⟩ :: base) base') :
    Obl n (StableHlo.nullary y v hy :: ops) base base' :=
  .cons ⟨y, vy⟩ rfl (nullary_bufs_sub ..) rfl hk (fun W _ => (nullary_result y v hy W).trans e) rest

/-- One operation of one operand, whose cell is at position i. -/
theorem unary {x y : Ref sig .tc} {f : x.ty.Contents Val → y.ty.Contents Val} {hx hy}
    (i : Nat) (vx : x.ty.Contents Val) (vy : y.ty.Contents Val)
    (hX : base[i]? = some ⟨x, vx⟩) (e : f vx = vy) (hk : y.idx.val = n)
    (rest : Obl (τ := τ) (n + 1) ops (⟨y, vy⟩ :: base) base') :
    Obl n (StableHlo.unary x y f hx hy :: ops) base base' :=
  .cons ⟨y, vy⟩ rfl (unary_bufs_sub ..) rfl hk
    (fun W h => (unary_result x y f hx hy W).trans ((congrArg f (h.get hX)).trans e)) rest

/-- One operation of two operands, whose cells are at positions i and j. -/
theorem binary {a b y : Ref sig .tc} {f : a.ty.Contents Val → b.ty.Contents Val → y.ty.Contents Val} {ha hb hy}
    (i j : Nat) (va : a.ty.Contents Val) (vb : b.ty.Contents Val) (vy : y.ty.Contents Val)
    (hA : base[i]? = some ⟨a, va⟩) (hB : base[j]? = some ⟨b, vb⟩) (e : f va vb = vy) (hk : y.idx.val = n)
    (rest : Obl (τ := τ) (n + 1) ops (⟨y, vy⟩ :: base) base') :
    Obl n (StableHlo.binary a b y f ha hb hy :: ops) base base' :=
  .cons ⟨y, vy⟩ rfl (binary_bufs_sub ..) rfl hk
    (fun W h => (binary_result a b y f ha hb hy W).trans ((congrArg₂ f (h.get hA) (h.get hB)).trans e)) rest

/-- One operation of three operands, whose cells are at positions i, j and k. -/
theorem ternary {c a b y : Ref sig .tc}
    {f : c.ty.Contents Val → a.ty.Contents Val → b.ty.Contents Val → y.ty.Contents Val} {hc ha hb hy}
    (i j k : Nat) (vc : c.ty.Contents Val) (va : a.ty.Contents Val) (vb : b.ty.Contents Val) (vy : y.ty.Contents Val)
    (hC : base[i]? = some ⟨c, vc⟩) (hA : base[j]? = some ⟨a, va⟩) (hB : base[k]? = some ⟨b, vb⟩)
    (e : f vc va vb = vy) (hk : y.idx.val = n)
    (rest : Obl (τ := τ) (n + 1) ops (⟨y, vy⟩ :: base) base') :
    Obl n (StableHlo.ternary c a b y f hc ha hb hy :: ops) base base' :=
  .cons ⟨y, vy⟩ rfl (ternary_bufs_sub ..) rfl hk
    (fun W h => (ternary_result c a b y f hc ha hb hy W).trans (by rw [h.get hC, h.get hA, h.get hB]; exact e)) rest

/-- A reshape, whose operand's cell is at position i: the equation is about the operation's own result. -/
theorem reshape {x y : Ref sig .tc} {he hn' hx hy}
    (i : Nat) (vx : x.ty.Contents Val) (vy : y.ty.Contents Val)
    (hX : base[i]? = some ⟨x, vx⟩)
    (e : ∀ W : Valuation τ sig Val, W (Proc.devRef .tc x) = vx →
      (StableHlo.reshape (Val := Val) x y he hn' hx hy).result W (Proc.devRef .tc y) = vy)
    (hk : y.idx.val = n)
    (rest : Obl (τ := τ) (n + 1) ops (⟨y, vy⟩ :: base) base') :
    Obl n (StableHlo.reshape (Val := Val) x y he hn' hx hy :: ops) base base' :=
  .cons ⟨y, vy⟩ rfl (reshape_bufs_sub ..) rfl hk (fun W h => e W (h.get hX)) rest

end Obl

/-- The fold over two stretches. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations, then a continuation. -/
def seqK : List (HloOp τ sig Val) → Prog (TpuEff nD τ sig Val Λ .tc) PUnit → Prog (TpuEff nD τ sig Val Λ .tc) PUnit
  | [], k => k
  | op :: ops, k => (hlo rfl op fun _ => .ret (⟨⟩ : PUnit)) >>= fun _ => seqK ops k

theorem seqK_eq (l : List (HloOp τ sig Val)) (k : Prog (TpuEff nD τ sig Val Λ .tc) PUnit) :
    seqK l k = (seq l >>= fun _ => k) := by
  induction l with
  | nil => simp only [seqK, seq, pure_bind]
  | cons op l ih => simp only [seqK, seq, ih, bind_assoc]

/-- A line followed by a line is the two as one. -/
theorem seqK_seq (l₁ l₂ : List (HloOp τ sig Val)) :
    (seqK l₁ (seq l₂) : Prog (TpuEff nD τ sig Val Λ .tc) PUnit) = seq (l₁ ++ l₂) := by
  rw [seqK_eq, seq_append]

end Cert.ReferenceIdeal.RefRun
-- ==== Proof.RefRunCells.lean ====
/- The cells of the reference program's run: base0 is the argument's buffer at its launch contents x; base<k> puts in
   front of base<k-1> the cells of stretch k of the program text, the last written first: each buffer with the term
   (RefTerm) it is to hold. -/
import proofs.«214360_g58884001628789_cont_9to1c4b_137_4_alg».proof.Proof.RefTerm
import proofs.«214360_g58884001628789_cont_9to1c4b_137_4_alg».proof.Proof.RefRun0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def base0 (x : FVec F S4x96x224x224 .f32) : List (Cell sig (Elt F)) := [⟨main_arg0, x⟩]

/-- After stretch 1 (main: operations 1 … 11). -/
def base1 (x : FVec F S4x96x224x224 .f32) : List (Cell sig (Elt F)) :=
  ⟨main_v7, RefTerm.val_main_v7⟩ ::
  ⟨main_v6, RefTerm.val_main_v6⟩ ::
  ⟨main_v5, RefTerm.val_main_v5⟩ ::
  ⟨main_v4, RefTerm.val_main_v4⟩ ::
  ⟨main_v3, RefTerm.val_main_v3⟩ ::
  ⟨main_c_1, RefTerm.val_main_c_1⟩ ::
  ⟨main_v2, RefTerm.val_main_v2⟩ ::
  ⟨main_v1, RefTerm.val_main_v1⟩ ::
  ⟨main_v0, RefTerm.val_main_v0⟩ ::
  ⟨main_c_0, RefTerm.val_main_c_0⟩ ::
  ⟨main_c, RefTerm.val_main_c⟩ ::
  base0 x

/-- After stretch 2 (fn_threefry_split.body: operations 12 … 24). -/
def base2 (x : FVec F S4x96x224x224 .f32) : List (Cell sig (Elt F)) :=
  ⟨main_call0_call0_v10, RefTerm.val_main_call0_call0_v10⟩ ::
  ⟨main_call0_call0_v9, RefTerm.val_main_call0_call0_v9⟩ ::
  ⟨main_call0_call0_v8, RefTerm.val_main_call0_call0_v8⟩ ::
  ⟨main_call0_call0_v7, RefTerm.val_main_call0_call0_v7⟩ ::
  ⟨main_call0_call0_c_0, RefTerm.val_main_call0_call0_c_0⟩ ::
  ⟨main_call0_call0_v6, RefTerm.val_main_call0_call0_v6⟩ ::
  ⟨main_call0_call0_v5, RefTerm.val_main_call0_call0_v5⟩ ::
  ⟨main_call0_call0_c, RefTerm.val_main_call0_call0_c⟩ ::
  ⟨main_call0_call0_v4, RefTerm.val_main_call0_call0_v4⟩ ::
  ⟨main_call0_call0_v3, RefTerm.val_main_call0_call0_v3⟩ ::
  ⟨main_call0_call0_v2, RefTerm.val_main_call0_call0_v2⟩ ::
  ⟨main_call0_call0_v1, RefTerm.val_main_call0_call0_v1⟩ ::
  ⟨main_call0_call0_v0, RefTerm.val_main_call0_call0_v0⟩ ::
  base1 x

/-- After stretch 3 (fn_threefry2x32.body_part0: operations 25 … 84). -/
def base3 (x : FVec F S4x96x224x224 .f32) : List (Cell sig (Elt F)) :=
  ⟨main_call0_call0_call0_v47, RefTerm.val_main_call0_call0_call0_v47⟩ ::
  ⟨main_call0_call0_call0_v46, RefTerm.val_main_call0_call0_call0_v46⟩ ::
  ⟨main_call0_call0_call0_v45, RefTerm.val_main_call0_call0_call0_v45⟩ ::
  ⟨main_call0_call0_call0_v44, RefTerm.val_main_call0_call0_call0_v44⟩ ::
  ⟨main_call0_call0_call0_v43, RefTerm.val_main_call0_call0_call0_v43⟩ ::
  ⟨main_call0_call0_call0_c_10, RefTerm.val_main_call0_call0_call0_c_10⟩ ::
  ⟨main_call0_call0_call0_v42, RefTerm.val_main_call0_call0_call0_v42⟩ ::
  ⟨main_call0_call0_call0_v41, RefTerm.val_main_call0_call0_call0_v41⟩ ::
  ⟨main_call0_call0_call0_c_9, RefTerm.val_main_call0_call0_call0_c_9⟩ ::
  ⟨main_call0_call0_call0_v40, RefTerm.val_main_call0_call0_call0_v40⟩ ::
  ⟨main_call0_call0_call0_v39, RefTerm.val_main_call0_call0_call0_v39⟩ ::
  ⟨main_call0_call0_call0_v38, RefTerm.val_main_call0_call0_call0_v38⟩ ::
  ⟨main_call0_call0_call0_c_8, RefTerm.val_main_call0_call0_call0_c_8⟩ ::
  ⟨main_call0_call0_call0_v37, RefTerm.val_main_call0_call0_call0_v37⟩ ::
  ⟨main_call0_call0_call0_v36, RefTerm.val_main_call0_call0_call0_v36⟩ ::
  ⟨main_call0_call0_call0_v35, RefTerm.val_main_call0_call0_call0_v35⟩ ::
  ⟨main_call0_call0_call0_v34, RefTerm.val_main_call0_call0_call0_v34⟩ ::
  ⟨main_call0_call0_call0_v33, RefTerm.val_main_call0_call0_call0_v33⟩ ::
  ⟨main_call0_call0_call0_v32, RefTerm.val_main_call0_call0_call0_v32⟩ ::
  ⟨main_call0_call0_call0_v31, RefTerm.val_main_call0_call0_call0_v31⟩ ::
  ⟨main_call0_call0_call0_v30, RefTerm.val_main_call0_call0_call0_v30⟩ ::
  ⟨main_call0_call0_call0_c_7, RefTerm.val_main_call0_call0_call0_c_7⟩ ::
  ⟨main_call0_call0_call0_v29, RefTerm.val_main_call0_call0_call0_v29⟩ ::
  ⟨main_call0_call0_call0_v28, RefTerm.val_main_call0_call0_call0_v28⟩ ::
  ⟨main_call0_call0_call0_c_6, RefTerm.val_main_call0_call0_call0_c_6⟩ ::
  ⟨main_call0_call0_call0_v27, RefTerm.val_main_call0_call0_call0_v27⟩ ::
  ⟨main_call0_call0_call0_v26, RefTerm.val_main_call0_call0_call0_v26⟩ ::
  ⟨main_call0_call0_call0_v25, RefTerm.val_main_call0_call0_call0_v25⟩ ::
  ⟨main_call0_call0_call0_v24, RefTerm.val_main_call0_call0_call0_v24⟩ ::
  ⟨main_call0_call0_call0_v23, RefTerm.val_main_call0_call0_call0_v23⟩ ::
  ⟨main_call0_call0_call0_c_5, RefTerm.val_main_call0_call0_call0_c_5⟩ ::
  ⟨main_call0_call0_call0_v22, RefTerm.val_main_call0_call0_call0_v22⟩ ::
  ⟨main_call0_call0_call0_v21, RefTerm.val_main_call0_call0_call0_v21⟩ ::
  ⟨main_call0_call0_call0_c_4, RefTerm.val_main_call0_call0_call0_c_4⟩ ::
  ⟨main_call0_call0_call0_v20, RefTerm.val_main_call0_call0_call0_v20⟩ ::
  ⟨main_call0_call0_call0_v19, RefTerm.val_main_call0_call0_call0_v19⟩ ::
  ⟨main_call0_call0_call0_v18, RefTerm.val_main_call0_call0_call0_v18⟩ ::
  ⟨main_call0_call0_call0_v17, RefTerm.val_main_call0_call0_call0_v17⟩ ::
  ⟨main_call0_call0_call0_v16, RefTerm.val_main_call0_call0_call0_v16⟩ ::
  ⟨main_call0_call0_call0_c_3, RefTerm.val_main_call0_call0_call0_c_3⟩ ::
  ⟨main_call0_call0_call0_v15, RefTerm.val_main_call0_call0_call0_v15⟩ ::
  ⟨main_call0_call0_call0_v14, RefTerm.val_main_call0_call0_call0_v14⟩ ::
  ⟨main_call0_call0_call0_c_2, RefTerm.val_main_call0_call0_call0_c_2⟩ ::
  ⟨main_call0_call0_call0_v13, RefTerm.val_main_call0_call0_call0_v13⟩ ::
  ⟨main_call0_call0_call0_v12, RefTerm.val_main_call0_call0_call0_v12⟩ ::
  ⟨main_call0_call0_call0_v11, RefTerm.val_main_call0_call0_call0_v11⟩ ::
  ⟨main_call0_call0_call0_v10, RefTerm.val_main_call0_call0_call0_v10⟩ ::
  ⟨main_call0_call0_call0_v9, RefTerm.val_main_call0_call0_call0_v9⟩ ::
  ⟨main_call0_call0_call0_c_1, RefTerm.val_main_call0_call0_call0_c_1⟩ ::
  ⟨main_call0_call0_call0_v8, RefTerm.val_main_call0_call0_call0_v8⟩ ::
  ⟨main_call0_call0_call0_v7, RefTerm.val_main_call0_call0_call0_v7⟩ ::
  ⟨main_call0_call0_call0_c_0, RefTerm.val_main_call0_call0_call0_c_0⟩ ::
  ⟨main_call0_call0_call0_v6, RefTerm.val_main_call0_call0_call0_v6⟩ ::
  ⟨main_call0_call0_call0_v5, RefTerm.val_main_call0_call0_call0_v5⟩ ::
  ⟨main_call0_call0_call0_v4, RefTerm.val_main_call0_call0_call0_v4⟩ ::
  ⟨main_call0_call0_call0_v3, RefTerm.val_main_call0_call0_call0_v3⟩ ::
  ⟨main_call0_call0_call0_v2, RefTerm.val_main_call0_call0_call0_v2⟩ ::
  ⟨main_call0_call0_call0_v1, RefTerm.val_main_call0_call0_call0_v1⟩ ::
  ⟨main_call0_call0_call0_c, RefTerm.val_main_call0_call0_call0_c⟩ ::
  ⟨main_call0_call0_call0_v0, RefTerm.val_main_call0_call0_call0_v0⟩ ::
  base2 x

/-- After stretch 4 (fn_threefry2x32.body_part1: operations 85 … 144). -/
def base4 (x : FVec F S4x96x224x224 .f32) : List (Cell sig (Elt F)) :=
  ⟨main_call0_call0_call0_v94, RefTerm.val_main_call0_call0_call0_v94⟩ ::
  ⟨main_call0_call0_call0_v93, RefTerm.val_main_call0_call0_call0_v93⟩ ::
  ⟨main_call0_call0_call0_v92, RefTerm.val_main_call0_call0_call0_v92⟩ ::
  ⟨main_call0_call0_call0_v91, RefTerm.val_main_call0_call0_call0_v91⟩ ::
  ⟨main_call0_call0_call0_c_23, RefTerm.val_main_call0_call0_call0_c_23⟩ ::
  ⟨main_call0_call0_call0_v90, RefTerm.val_main_call0_call0_call0_v90⟩ ::
  ⟨main_call0_call0_call0_v89, RefTerm.val_main_call0_call0_call0_v89⟩ ::
  ⟨main_call0_call0_call0_c_22, RefTerm.val_main_call0_call0_call0_c_22⟩ ::
  ⟨main_call0_call0_call0_v88, RefTerm.val_main_call0_call0_call0_v88⟩ ::
  ⟨main_call0_call0_call0_v87, RefTerm.val_main_call0_call0_call0_v87⟩ ::
  ⟨main_call0_call0_call0_v86, RefTerm.val_main_call0_call0_call0_v86⟩ ::
  ⟨main_call0_call0_call0_v85, RefTerm.val_main_call0_call0_call0_v85⟩ ::
  ⟨main_call0_call0_call0_v84, RefTerm.val_main_call0_call0_call0_v84⟩ ::
  ⟨main_call0_call0_call0_c_21, RefTerm.val_main_call0_call0_call0_c_21⟩ ::
  ⟨main_call0_call0_call0_v83, RefTerm.val_main_call0_call0_call0_v83⟩ ::
  ⟨main_call0_call0_call0_v82, RefTerm.val_main_call0_call0_call0_v82⟩ ::
  ⟨main_call0_call0_call0_c_20, RefTerm.val_main_call0_call0_call0_c_20⟩ ::
  ⟨main_call0_call0_call0_v81, RefTerm.val_main_call0_call0_call0_v81⟩ ::
  ⟨main_call0_call0_call0_v80, RefTerm.val_main_call0_call0_call0_v80⟩ ::
  ⟨main_call0_call0_call0_v79, RefTerm.val_main_call0_call0_call0_v79⟩ ::
  ⟨main_call0_call0_call0_v78, RefTerm.val_main_call0_call0_call0_v78⟩ ::
  ⟨main_call0_call0_call0_v77, RefTerm.val_main_call0_call0_call0_v77⟩ ::
  ⟨main_call0_call0_call0_c_19, RefTerm.val_main_call0_call0_call0_c_19⟩ ::
  ⟨main_call0_call0_call0_v76, RefTerm.val_main_call0_call0_call0_v76⟩ ::
  ⟨main_call0_call0_call0_v75, RefTerm.val_main_call0_call0_call0_v75⟩ ::
  ⟨main_call0_call0_call0_c_18, RefTerm.val_main_call0_call0_call0_c_18⟩ ::
  ⟨main_call0_call0_call0_v74, RefTerm.val_main_call0_call0_call0_v74⟩ ::
  ⟨main_call0_call0_call0_v73, RefTerm.val_main_call0_call0_call0_v73⟩ ::
  ⟨main_call0_call0_call0_v72, RefTerm.val_main_call0_call0_call0_v72⟩ ::
  ⟨main_call0_call0_call0_c_17, RefTerm.val_main_call0_call0_call0_c_17⟩ ::
  ⟨main_call0_call0_call0_v71, RefTerm.val_main_call0_call0_call0_v71⟩ ::
  ⟨main_call0_call0_call0_v70, RefTerm.val_main_call0_call0_call0_v70⟩ ::
  ⟨main_call0_call0_call0_v69, RefTerm.val_main_call0_call0_call0_v69⟩ ::
  ⟨main_call0_call0_call0_v68, RefTerm.val_main_call0_call0_call0_v68⟩ ::
  ⟨main_call0_call0_call0_v67, RefTerm.val_main_call0_call0_call0_v67⟩ ::
  ⟨main_call0_call0_call0_v66, RefTerm.val_main_call0_call0_call0_v66⟩ ::
  ⟨main_call0_call0_call0_v65, RefTerm.val_main_call0_call0_call0_v65⟩ ::
  ⟨main_call0_call0_call0_v64, RefTerm.val_main_call0_call0_call0_v64⟩ ::
  ⟨main_call0_call0_call0_c_16, RefTerm.val_main_call0_call0_call0_c_16⟩ ::
  ⟨main_call0_call0_call0_v63, RefTerm.val_main_call0_call0_call0_v63⟩ ::
  ⟨main_call0_call0_call0_v62, RefTerm.val_main_call0_call0_call0_v62⟩ ::
  ⟨main_call0_call0_call0_c_15, RefTerm.val_main_call0_call0_call0_c_15⟩ ::
  ⟨main_call0_call0_call0_v61, RefTerm.val_main_call0_call0_call0_v61⟩ ::
  ⟨main_call0_call0_call0_v60, RefTerm.val_main_call0_call0_call0_v60⟩ ::
  ⟨main_call0_call0_call0_v59, RefTerm.val_main_call0_call0_call0_v59⟩ ::
  ⟨main_call0_call0_call0_v58, RefTerm.val_main_call0_call0_call0_v58⟩ ::
  ⟨main_call0_call0_call0_v57, RefTerm.val_main_call0_call0_call0_v57⟩ ::
  ⟨main_call0_call0_call0_c_14, RefTerm.val_main_call0_call0_call0_c_14⟩ ::
  ⟨main_call0_call0_call0_v56, RefTerm.val_main_call0_call0_call0_v56⟩ ::
  ⟨main_call0_call0_call0_v55, RefTerm.val_main_call0_call0_call0_v55⟩ ::
  ⟨main_call0_call0_call0_c_13, RefTerm.val_main_call0_call0_call0_c_13⟩ ::
  ⟨main_call0_call0_call0_v54, RefTerm.val_main_call0_call0_call0_v54⟩ ::
  ⟨main_call0_call0_call0_v53, RefTerm.val_main_call0_call0_call0_v53⟩ ::
  ⟨main_call0_call0_call0_v52, RefTerm.val_main_call0_call0_call0_v52⟩ ::
  ⟨main_call0_call0_call0_v51, RefTerm.val_main_call0_call0_call0_v51⟩ ::
  ⟨main_call0_call0_call0_v50, RefTerm.val_main_call0_call0_call0_v50⟩ ::
  ⟨main_call0_call0_call0_c_12, RefTerm.val_main_call0_call0_call0_c_12⟩ ::
  ⟨main_call0_call0_call0_v49, RefTerm.val_main_call0_call0_call0_v49⟩ ::
  ⟨main_call0_call0_call0_v48, RefTerm.val_main_call0_call0_call0_v48⟩ ::
  ⟨main_call0_call0_call0_c_11, RefTerm.val_main_call0_call0_call0_c_11⟩ ::
  base3 x

/-- After stretch 5 (fn_threefry2x32.body_part2: operations 145 … 204). -/
def base5 (x : FVec F S4x96x224x224 .f32) : List (Cell sig (Elt F)) :=
  ⟨main_call0_call0_call0_v142, RefTerm.val_main_call0_call0_call0_v142⟩ ::
  ⟨main_call0_call0_call0_v141, RefTerm.val_main_call0_call0_call0_v141⟩ ::
  ⟨main_call0_call0_call0_v140, RefTerm.val_main_call0_call0_call0_v140⟩ ::
  ⟨main_call0_call0_call0_c_35, RefTerm.val_main_call0_call0_call0_c_35⟩ ::
  ⟨main_call0_call0_call0_v139, RefTerm.val_main_call0_call0_call0_v139⟩ ::
  ⟨main_call0_call0_call0_v138, RefTerm.val_main_call0_call0_call0_v138⟩ ::
  ⟨main_call0_call0_call0_v137, RefTerm.val_main_call0_call0_call0_v137⟩ ::
  ⟨main_call0_call0_call0_v136, RefTerm.val_main_call0_call0_call0_v136⟩ ::
  ⟨main_call0_call0_call0_v135, RefTerm.val_main_call0_call0_call0_v135⟩ ::
  ⟨main_call0_call0_call0_v134, RefTerm.val_main_call0_call0_call0_v134⟩ ::
  ⟨main_call0_call0_call0_v133, RefTerm.val_main_call0_call0_call0_v133⟩ ::
  ⟨main_call0_call0_call0_v132, RefTerm.val_main_call0_call0_call0_v132⟩ ::
  ⟨main_call0_call0_call0_c_34, RefTerm.val_main_call0_call0_call0_c_34⟩ ::
  ⟨main_call0_call0_call0_v131, RefTerm.val_main_call0_call0_call0_v131⟩ ::
  ⟨main_call0_call0_call0_v130, RefTerm.val_main_call0_call0_call0_v130⟩ ::
  ⟨main_call0_call0_call0_c_33, RefTerm.val_main_call0_call0_call0_c_33⟩ ::
  ⟨main_call0_call0_call0_v129, RefTerm.val_main_call0_call0_call0_v129⟩ ::
  ⟨main_call0_call0_call0_v128, RefTerm.val_main_call0_call0_call0_v128⟩ ::
  ⟨main_call0_call0_call0_v127, RefTerm.val_main_call0_call0_call0_v127⟩ ::
  ⟨main_call0_call0_call0_v126, RefTerm.val_main_call0_call0_call0_v126⟩ ::
  ⟨main_call0_call0_call0_v125, RefTerm.val_main_call0_call0_call0_v125⟩ ::
  ⟨main_call0_call0_call0_c_32, RefTerm.val_main_call0_call0_call0_c_32⟩ ::
  ⟨main_call0_call0_call0_v124, RefTerm.val_main_call0_call0_call0_v124⟩ ::
  ⟨main_call0_call0_call0_v123, RefTerm.val_main_call0_call0_call0_v123⟩ ::
  ⟨main_call0_call0_call0_c_31, RefTerm.val_main_call0_call0_call0_c_31⟩ ::
  ⟨main_call0_call0_call0_v122, RefTerm.val_main_call0_call0_call0_v122⟩ ::
  ⟨main_call0_call0_call0_v121, RefTerm.val_main_call0_call0_call0_v121⟩ ::
  ⟨main_call0_call0_call0_v120, RefTerm.val_main_call0_call0_call0_v120⟩ ::
  ⟨main_call0_call0_call0_v119, RefTerm.val_main_call0_call0_call0_v119⟩ ::
  ⟨main_call0_call0_call0_v118, RefTerm.val_main_call0_call0_call0_v118⟩ ::
  ⟨main_call0_call0_call0_c_30, RefTerm.val_main_call0_call0_call0_c_30⟩ ::
  ⟨main_call0_call0_call0_v117, RefTerm.val_main_call0_call0_call0_v117⟩ ::
  ⟨main_call0_call0_call0_v116, RefTerm.val_main_call0_call0_call0_v116⟩ ::
  ⟨main_call0_call0_call0_c_29, RefTerm.val_main_call0_call0_call0_c_29⟩ ::
  ⟨main_call0_call0_call0_v115, RefTerm.val_main_call0_call0_call0_v115⟩ ::
  ⟨main_call0_call0_call0_v114, RefTerm.val_main_call0_call0_call0_v114⟩ ::
  ⟨main_call0_call0_call0_v113, RefTerm.val_main_call0_call0_call0_v113⟩ ::
  ⟨main_call0_call0_call0_v112, RefTerm.val_main_call0_call0_call0_v112⟩ ::
  ⟨main_call0_call0_call0_v111, RefTerm.val_main_call0_call0_call0_v111⟩ ::
  ⟨main_call0_call0_call0_c_28, RefTerm.val_main_call0_call0_call0_c_28⟩ ::
  ⟨main_call0_call0_call0_v110, RefTerm.val_main_call0_call0_call0_v110⟩ ::
  ⟨main_call0_call0_call0_v109, RefTerm.val_main_call0_call0_call0_v109⟩ ::
  ⟨main_call0_call0_call0_c_27, RefTerm.val_main_call0_call0_call0_c_27⟩ ::
  ⟨main_call0_call0_call0_v108, RefTerm.val_main_call0_call0_call0_v108⟩ ::
  ⟨main_call0_call0_call0_v107, RefTerm.val_main_call0_call0_call0_v107⟩ ::
  ⟨main_call0_call0_call0_v106, RefTerm.val_main_call0_call0_call0_v106⟩ ::
  ⟨main_call0_call0_call0_c_26, RefTerm.val_main_call0_call0_call0_c_26⟩ ::
  ⟨main_call0_call0_call0_v105, RefTerm.val_main_call0_call0_call0_v105⟩ ::
  ⟨main_call0_call0_call0_v104, RefTerm.val_main_call0_call0_call0_v104⟩ ::
  ⟨main_call0_call0_call0_v103, RefTerm.val_main_call0_call0_call0_v103⟩ ::
  ⟨main_call0_call0_call0_v102, RefTerm.val_main_call0_call0_call0_v102⟩ ::
  ⟨main_call0_call0_call0_v101, RefTerm.val_main_call0_call0_call0_v101⟩ ::
  ⟨main_call0_call0_call0_v100, RefTerm.val_main_call0_call0_call0_v100⟩ ::
  ⟨main_call0_call0_call0_v99, RefTerm.val_main_call0_call0_call0_v99⟩ ::
  ⟨main_call0_call0_call0_v98, RefTerm.val_main_call0_call0_call0_v98⟩ ::
  ⟨main_call0_call0_call0_c_25, RefTerm.val_main_call0_call0_call0_c_25⟩ ::
  ⟨main_call0_call0_call0_v97, RefTerm.val_main_call0_call0_call0_v97⟩ ::
  ⟨main_call0_call0_call0_v96, RefTerm.val_main_call0_call0_call0_v96⟩ ::
  ⟨main_call0_call0_call0_c_24, RefTerm.val_main_call0_call0_call0_c_24⟩ ::
  ⟨main_call0_call0_call0_v95, RefTerm.val_main_call0_call0_call0_v95⟩ ::
  base4 x

/-- After stretch 6 (fn_threefry2x32.body_part3: operations 205 … 246). -/
def base6 (x : FVec F S4x96x224x224 .f32) : List (Cell sig (Elt F)) :=
  ⟨main_call0_call0_v11_1, RefTerm.val_main_call0_call0_v11_1⟩ ::
  ⟨main_call0_call0_call0_v174, RefTerm.val_main_call0_call0_call0_v174⟩ ::
  ⟨main_call0_call0_call0_c_44, RefTerm.val_main_call0_call0_call0_c_44⟩ ::
  ⟨main_call0_call0_call0_v173, RefTerm.val_main_call0_call0_call0_v173⟩ ::
  ⟨main_call0_call0_call0_v172, RefTerm.val_main_call0_call0_call0_v172⟩ ::
  ⟨main_call0_call0_v11_0, RefTerm.val_main_call0_call0_v11_0⟩ ::
  ⟨main_call0_call0_call0_v170, RefTerm.val_main_call0_call0_call0_v170⟩ ::
  ⟨main_call0_call0_call0_v169, RefTerm.val_main_call0_call0_call0_v169⟩ ::
  ⟨main_call0_call0_call0_v168, RefTerm.val_main_call0_call0_call0_v168⟩ ::
  ⟨main_call0_call0_call0_v167, RefTerm.val_main_call0_call0_call0_v167⟩ ::
  ⟨main_call0_call0_call0_v166, RefTerm.val_main_call0_call0_call0_v166⟩ ::
  ⟨main_call0_call0_call0_c_43, RefTerm.val_main_call0_call0_call0_c_43⟩ ::
  ⟨main_call0_call0_call0_v165, RefTerm.val_main_call0_call0_call0_v165⟩ ::
  ⟨main_call0_call0_call0_v164, RefTerm.val_main_call0_call0_call0_v164⟩ ::
  ⟨main_call0_call0_call0_c_42, RefTerm.val_main_call0_call0_call0_c_42⟩ ::
  ⟨main_call0_call0_call0_v163, RefTerm.val_main_call0_call0_call0_v163⟩ ::
  ⟨main_call0_call0_call0_v162, RefTerm.val_main_call0_call0_call0_v162⟩ ::
  ⟨main_call0_call0_call0_v161, RefTerm.val_main_call0_call0_call0_v161⟩ ::
  ⟨main_call0_call0_call0_v160, RefTerm.val_main_call0_call0_call0_v160⟩ ::
  ⟨main_call0_call0_call0_v159, RefTerm.val_main_call0_call0_call0_v159⟩ ::
  ⟨main_call0_call0_call0_c_41, RefTerm.val_main_call0_call0_call0_c_41⟩ ::
  ⟨main_call0_call0_call0_v158, RefTerm.val_main_call0_call0_call0_v158⟩ ::
  ⟨main_call0_call0_call0_v157, RefTerm.val_main_call0_call0_call0_v157⟩ ::
  ⟨main_call0_call0_call0_c_40, RefTerm.val_main_call0_call0_call0_c_40⟩ ::
  ⟨main_call0_call0_call0_v156, RefTerm.val_main_call0_call0_call0_v156⟩ ::
  ⟨main_call0_call0_call0_v155, RefTerm.val_main_call0_call0_call0_v155⟩ ::
  ⟨main_call0_call0_call0_v154, RefTerm.val_main_call0_call0_call0_v154⟩ ::
  ⟨main_call0_call0_call0_v153, RefTerm.val_main_call0_call0_call0_v153⟩ ::
  ⟨main_call0_call0_call0_v152, RefTerm.val_main_call0_call0_call0_v152⟩ ::
  ⟨main_call0_call0_call0_c_39, RefTerm.val_main_call0_call0_call0_c_39⟩ ::
  ⟨main_call0_call0_call0_v151, RefTerm.val_main_call0_call0_call0_v151⟩ ::
  ⟨main_call0_call0_call0_v150, RefTerm.val_main_call0_call0_call0_v150⟩ ::
  ⟨main_call0_call0_call0_c_38, RefTerm.val_main_call0_call0_call0_c_38⟩ ::
  ⟨main_call0_call0_call0_v149, RefTerm.val_main_call0_call0_call0_v149⟩ ::
  ⟨main_call0_call0_call0_v148, RefTerm.val_main_call0_call0_call0_v148⟩ ::
  ⟨main_call0_call0_call0_v147, RefTerm.val_main_call0_call0_call0_v147⟩ ::
  ⟨main_call0_call0_call0_v146, RefTerm.val_main_call0_call0_call0_v146⟩ ::
  ⟨main_call0_call0_call0_v145, RefTerm.val_main_call0_call0_call0_v145⟩ ::
  ⟨main_call0_call0_call0_c_37, RefTerm.val_main_call0_call0_call0_c_37⟩ ::
  ⟨main_call0_call0_call0_v144, RefTerm.val_main_call0_call0_call0_v144⟩ ::
  ⟨main_call0_call0_call0_v143, RefTerm.val_main_call0_call0_call0_v143⟩ ::
  ⟨main_call0_call0_call0_c_36, RefTerm.val_main_call0_call0_call0_c_36⟩ ::
  base5 x

/-- After stretch 7 (fn_threefry_split.body (continued): operations 247 … 249). -/
def base7 (x : FVec F S4x96x224x224 .f32) : List (Cell sig (Elt F)) :=
  ⟨main_call0_v0, RefTerm.val_main_call0_v0⟩ ::
  ⟨main_call0_call0_v13, RefTerm.val_main_call0_call0_v13⟩ ::
  ⟨main_call0_call0_v12, RefTerm.val_main_call0_call0_v12⟩ ::
  base6 x

/-- After stretch 8 (fn_shuffle.body (continued): operations 250 … 266). -/
def base8 (x : FVec F S4x96x224x224 .f32) : List (Cell sig (Elt F)) :=
  ⟨main_call0_v15, RefTerm.val_main_call0_v15⟩ ::
  ⟨main_call0_v14, RefTerm.val_main_call0_v14⟩ ::
  ⟨main_call0_v13, RefTerm.val_main_call0_v13⟩ ::
  ⟨main_call0_v12, RefTerm.val_main_call0_v12⟩ ::
  ⟨main_call0_c_0, RefTerm.val_main_call0_c_0⟩ ::
  ⟨main_call0_v11, RefTerm.val_main_call0_v11⟩ ::
  ⟨main_call0_v10, RefTerm.val_main_call0_v10⟩ ::
  ⟨main_call0_c, RefTerm.val_main_call0_c⟩ ::
  ⟨main_call0_v9, RefTerm.val_main_call0_v9⟩ ::
  ⟨main_call0_v8, RefTerm.val_main_call0_v8⟩ ::
  ⟨main_call0_v7, RefTerm.val_main_call0_v7⟩ ::
  ⟨main_call0_v6, RefTerm.val_main_call0_v6⟩ ::
  ⟨main_call0_v5, RefTerm.val_main_call0_v5⟩ ::
  ⟨main_call0_v4, RefTerm.val_main_call0_v4⟩ ::
  ⟨main_call0_v3, RefTerm.val_main_call0_v3⟩ ::
  ⟨main_call0_v2, RefTerm.val_main_call0_v2⟩ ::
  ⟨main_call0_v1, RefTerm.val_main_call0_v1⟩ ::
  base7 x

/-- After stretch 9 (fn_threefry2x32_0.body_part0: operations 267 … 326). -/
def base9 (x : FVec F S4x96x224x224 .f32) : List (Cell sig (Elt F)) :=
  ⟨main_call0_call1_v47, RefTerm.val_main_call0_call1_v47⟩ ::
  ⟨main_call0_call1_v46, RefTerm.val_main_call0_call1_v46⟩ ::
  ⟨main_call0_call1_v45, RefTerm.val_main_call0_call1_v45⟩ ::
  ⟨main_call0_call1_v44, RefTerm.val_main_call0_call1_v44⟩ ::
  ⟨main_call0_call1_v43, RefTerm.val_main_call0_call1_v43⟩ ::
  ⟨main_call0_call1_c_10, RefTerm.val_main_call0_call1_c_10⟩ ::
  ⟨main_call0_call1_v42, RefTerm.val_main_call0_call1_v42⟩ ::
  ⟨main_call0_call1_v41, RefTerm.val_main_call0_call1_v41⟩ ::
  ⟨main_call0_call1_c_9, RefTerm.val_main_call0_call1_c_9⟩ ::
  ⟨main_call0_call1_v40, RefTerm.val_main_call0_call1_v40⟩ ::
  ⟨main_call0_call1_v39, RefTerm.val_main_call0_call1_v39⟩ ::
  ⟨main_call0_call1_v38, RefTerm.val_main_call0_call1_v38⟩ ::
  ⟨main_call0_call1_c_8, RefTerm.val_main_call0_call1_c_8⟩ ::
  ⟨main_call0_call1_v37, RefTerm.val_main_call0_call1_v37⟩ ::
  ⟨main_call0_call1_v36, RefTerm.val_main_call0_call1_v36⟩ ::
  ⟨main_call0_call1_v35, RefTerm.val_main_call0_call1_v35⟩ ::
  ⟨main_call0_call1_v34, RefTerm.val_main_call0_call1_v34⟩ ::
  ⟨main_call0_call1_v33, RefTerm.val_main_call0_call1_v33⟩ ::
  ⟨main_call0_call1_v32, RefTerm.val_main_call0_call1_v32⟩ ::
  ⟨main_call0_call1_v31, RefTerm.val_main_call0_call1_v31⟩ ::
  ⟨main_call0_call1_v30, RefTerm.val_main_call0_call1_v30⟩ ::
  ⟨main_call0_call1_c_7, RefTerm.val_main_call0_call1_c_7⟩ ::
  ⟨main_call0_call1_v29, RefTerm.val_main_call0_call1_v29⟩ ::
  ⟨main_call0_call1_v28, RefTerm.val_main_call0_call1_v28⟩ ::
  ⟨main_call0_call1_c_6, RefTerm.val_main_call0_call1_c_6⟩ ::
  ⟨main_call0_call1_v27, RefTerm.val_main_call0_call1_v27⟩ ::
  ⟨main_call0_call1_v26, RefTerm.val_main_call0_call1_v26⟩ ::
  ⟨main_call0_call1_v25, RefTerm.val_main_call0_call1_v25⟩ ::
  ⟨main_call0_call1_v24, RefTerm.val_main_call0_call1_v24⟩ ::
  ⟨main_call0_call1_v23, RefTerm.val_main_call0_call1_v23⟩ ::
  ⟨main_call0_call1_c_5, RefTerm.val_main_call0_call1_c_5⟩ ::
  ⟨main_call0_call1_v22, RefTerm.val_main_call0_call1_v22⟩ ::
  ⟨main_call0_call1_v21, RefTerm.val_main_call0_call1_v21⟩ ::
  ⟨main_call0_call1_c_4, RefTerm.val_main_call0_call1_c_4⟩ ::
  ⟨main_call0_call1_v20, RefTerm.val_main_call0_call1_v20⟩ ::
  ⟨main_call0_call1_v19, RefTerm.val_main_call0_call1_v19⟩ ::
  ⟨main_call0_call1_v18, RefTerm.val_main_call0_call1_v18⟩ ::
  ⟨main_call0_call1_v17, RefTerm.val_main_call0_call1_v17⟩ ::
  ⟨main_call0_call1_v16, RefTerm.val_main_call0_call1_v16⟩ ::
  ⟨main_call0_call1_c_3, RefTerm.val_main_call0_call1_c_3⟩ ::
  ⟨main_call0_call1_v15, RefTerm.val_main_call0_call1_v15⟩ ::
  ⟨main_call0_call1_v14, RefTerm.val_main_call0_call1_v14⟩ ::
  ⟨main_call0_call1_c_2, RefTerm.val_main_call0_call1_c_2⟩ ::
  ⟨main_call0_call1_v13, RefTerm.val_main_call0_call1_v13⟩ ::
  ⟨main_call0_call1_v12, RefTerm.val_main_call0_call1_v12⟩ ::
  ⟨main_call0_call1_v11, RefTerm.val_main_call0_call1_v11⟩ ::
  ⟨main_call0_call1_v10, RefTerm.val_main_call0_call1_v10⟩ ::
  ⟨main_call0_call1_v9, RefTerm.val_main_call0_call1_v9⟩ ::
  ⟨main_call0_call1_c_1, RefTerm.val_main_call0_call1_c_1⟩ ::
  ⟨main_call0_call1_v8, RefTerm.val_main_call0_call1_v8⟩ ::
  ⟨main_call0_call1_v7, RefTerm.val_main_call0_call1_v7⟩ ::
  ⟨main_call0_call1_c_0, RefTerm.val_main_call0_call1_c_0⟩ ::
  ⟨main_call0_call1_v6, RefTerm.val_main_call0_call1_v6⟩ ::
  ⟨main_call0_call1_v5, RefTerm.val_main_call0_call1_v5⟩ ::
  ⟨main_call0_call1_v4, RefTerm.val_main_call0_call1_v4⟩ ::
  ⟨main_call0_call1_v3, RefTerm.val_main_call0_call1_v3⟩ ::
  ⟨main_call0_call1_v2, RefTerm.val_main_call0_call1_v2⟩ ::
  ⟨main_call0_call1_v1, RefTerm.val_main_call0_call1_v1⟩ ::
  ⟨main_call0_call1_c, RefTerm.val_main_call0_call1_c⟩ ::
  ⟨main_call0_call1_v0, RefTerm.val_main_call0_call1_v0⟩ ::
  base8 x

/-- After stretch 10 (fn_threefry2x32_0.body_part1: operations 327 … 386). -/
def base10 (x : FVec F S4x96x224x224 .f32) : List (Cell sig (Elt F)) :=
  ⟨main_call0_call1_v94, RefTerm.val_main_call0_call1_v94⟩ ::
  ⟨main_call0_call1_v93, RefTerm.val_main_call0_call1_v93⟩ ::
  ⟨main_call0_call1_v92, RefTerm.val_main_call0_call1_v92⟩ ::
  ⟨main_call0_call1_v91, RefTerm.val_main_call0_call1_v91⟩ ::
  ⟨main_call0_call1_c_23, RefTerm.val_main_call0_call1_c_23⟩ ::
  ⟨main_call0_call1_v90, RefTerm.val_main_call0_call1_v90⟩ ::
  ⟨main_call0_call1_v89, RefTerm.val_main_call0_call1_v89⟩ ::
  ⟨main_call0_call1_c_22, RefTerm.val_main_call0_call1_c_22⟩ ::
  ⟨main_call0_call1_v88, RefTerm.val_main_call0_call1_v88⟩ ::
  ⟨main_call0_call1_v87, RefTerm.val_main_call0_call1_v87⟩ ::
  ⟨main_call0_call1_v86, RefTerm.val_main_call0_call1_v86⟩ ::
  ⟨main_call0_call1_v85, RefTerm.val_main_call0_call1_v85⟩ ::
  ⟨main_call0_call1_v84, RefTerm.val_main_call0_call1_v84⟩ ::
  ⟨main_call0_call1_c_21, RefTerm.val_main_call0_call1_c_21⟩ ::
  ⟨main_call0_call1_v83, RefTerm.val_main_call0_call1_v83⟩ ::
  ⟨main_call0_call1_v82, RefTerm.val_main_call0_call1_v82⟩ ::
  ⟨main_call0_call1_c_20, RefTerm.val_main_call0_call1_c_20⟩ ::
  ⟨main_call0_call1_v81, RefTerm.val_main_call0_call1_v81⟩ ::
  ⟨main_call0_call1_v80, RefTerm.val_main_call0_call1_v80⟩ ::
  ⟨main_call0_call1_v79, RefTerm.val_main_call0_call1_v79⟩ ::
  ⟨main_call0_call1_v78, RefTerm.val_main_call0_call1_v78⟩ ::
  ⟨main_call0_call1_v77, RefTerm.val_main_call0_call1_v77⟩ ::
  ⟨main_call0_call1_c_19, RefTerm.val_main_call0_call1_c_19⟩ ::
  ⟨main_call0_call1_v76, RefTerm.val_main_call0_call1_v76⟩ ::
  ⟨main_call0_call1_v75, RefTerm.val_main_call0_call1_v75⟩ ::
  ⟨main_call0_call1_c_18, RefTerm.val_main_call0_call1_c_18⟩ ::
  ⟨main_call0_call1_v74, RefTerm.val_main_call0_call1_v74⟩ ::
  ⟨main_call0_call1_v73, RefTerm.val_main_call0_call1_v73⟩ ::
  ⟨main_call0_call1_v72, RefTerm.val_main_call0_call1_v72⟩ ::
  ⟨main_call0_call1_c_17, RefTerm.val_main_call0_call1_c_17⟩ ::
  ⟨main_call0_call1_v71, RefTerm.val_main_call0_call1_v71⟩ ::
  ⟨main_call0_call1_v70, RefTerm.val_main_call0_call1_v70⟩ ::
  ⟨main_call0_call1_v69, RefTerm.val_main_call0_call1_v69⟩ ::
  ⟨main_call0_call1_v68, RefTerm.val_main_call0_call1_v68⟩ ::
  ⟨main_call0_call1_v67, RefTerm.val_main_call0_call1_v67⟩ ::
  ⟨main_call0_call1_v66, RefTerm.val_main_call0_call1_v66⟩ ::
  ⟨main_call0_call1_v65, RefTerm.val_main_call0_call1_v65⟩ ::
  ⟨main_call0_call1_v64, RefTerm.val_main_call0_call1_v64⟩ ::
  ⟨main_call0_call1_c_16, RefTerm.val_main_call0_call1_c_16⟩ ::
  ⟨main_call0_call1_v63, RefTerm.val_main_call0_call1_v63⟩ ::
  ⟨main_call0_call1_v62, RefTerm.val_main_call0_call1_v62⟩ ::
  ⟨main_call0_call1_c_15, RefTerm.val_main_call0_call1_c_15⟩ ::
  ⟨main_call0_call1_v61, RefTerm.val_main_call0_call1_v61⟩ ::
  ⟨main_call0_call1_v60, RefTerm.val_main_call0_call1_v60⟩ ::
  ⟨main_call0_call1_v59, RefTerm.val_main_call0_call1_v59⟩ ::
  ⟨main_call0_call1_v58, RefTerm.val_main_call0_call1_v58⟩ ::
  ⟨main_call0_call1_v57, RefTerm.val_main_call0_call1_v57⟩ ::
  ⟨main_call0_call1_c_14, RefTerm.val_main_call0_call1_c_14⟩ ::
  ⟨main_call0_call1_v56, RefTerm.val_main_call0_call1_v56⟩ ::
  ⟨main_call0_call1_v55, RefTerm.val_main_call0_call1_v55⟩ ::
  ⟨main_call0_call1_c_13, RefTerm.val_main_call0_call1_c_13⟩ ::
  ⟨main_call0_call1_v54, RefTerm.val_main_call0_call1_v54⟩ ::
  ⟨main_call0_call1_v53, RefTerm.val_main_call0_call1_v53⟩ ::
  ⟨main_call0_call1_v52, RefTerm.val_main_call0_call1_v52⟩ ::
  ⟨main_call0_call1_v51, RefTerm.val_main_call0_call1_v51⟩ ::
  ⟨main_call0_call1_v50, RefTerm.val_main_call0_call1_v50⟩ ::
  ⟨main_call0_call1_c_12, RefTerm.val_main_call0_call1_c_12⟩ ::
  ⟨main_call0_call1_v49, RefTerm.val_main_call0_call1_v49⟩ ::
  ⟨main_call0_call1_v48, RefTerm.val_main_call0_call1_v48⟩ ::
  ⟨main_call0_call1_c_11, RefTerm.val_main_call0_call1_c_11⟩ ::
  base9 x

/-- After stretch 11 (fn_threefry2x32_0.body_part2: operations 387 … 446). -/
def base11 (x : FVec F S4x96x224x224 .f32) : List (Cell sig (Elt F)) :=
  ⟨main_call0_call1_v142, RefTerm.val_main_call0_call1_v142⟩ ::
  ⟨main_call0_call1_v141, RefTerm.val_main_call0_call1_v141⟩ ::
  ⟨main_call0_call1_v140, RefTerm.val_main_call0_call1_v140⟩ ::
  ⟨main_call0_call1_c_35, RefTerm.val_main_call0_call1_c_35⟩ ::
  ⟨main_call0_call1_v139, RefTerm.val_main_call0_call1_v139⟩ ::
  ⟨main_call0_call1_v138, RefTerm.val_main_call0_call1_v138⟩ ::
  ⟨main_call0_call1_v137, RefTerm.val_main_call0_call1_v137⟩ ::
  ⟨main_call0_call1_v136, RefTerm.val_main_call0_call1_v136⟩ ::
  ⟨main_call0_call1_v135, RefTerm.val_main_call0_call1_v135⟩ ::
  ⟨main_call0_call1_v134, RefTerm.val_main_call0_call1_v134⟩ ::
  ⟨main_call0_call1_v133, RefTerm.val_main_call0_call1_v133⟩ ::
  ⟨main_call0_call1_v132, RefTerm.val_main_call0_call1_v132⟩ ::
  ⟨main_call0_call1_c_34, RefTerm.val_main_call0_call1_c_34⟩ ::
  ⟨main_call0_call1_v131, RefTerm.val_main_call0_call1_v131⟩ ::
  ⟨main_call0_call1_v130, RefTerm.val_main_call0_call1_v130⟩ ::
  ⟨main_call0_call1_c_33, RefTerm.val_main_call0_call1_c_33⟩ ::
  ⟨main_call0_call1_v129, RefTerm.val_main_call0_call1_v129⟩ ::
  ⟨main_call0_call1_v128, RefTerm.val_main_call0_call1_v128⟩ ::
  ⟨main_call0_call1_v127, RefTerm.val_main_call0_call1_v127⟩ ::
  ⟨main_call0_call1_v126, RefTerm.val_main_call0_call1_v126⟩ ::
  ⟨main_call0_call1_v125, RefTerm.val_main_call0_call1_v125⟩ ::
  ⟨main_call0_call1_c_32, RefTerm.val_main_call0_call1_c_32⟩ ::
  ⟨main_call0_call1_v124, RefTerm.val_main_call0_call1_v124⟩ ::
  ⟨main_call0_call1_v123, RefTerm.val_main_call0_call1_v123⟩ ::
  ⟨main_call0_call1_c_31, RefTerm.val_main_call0_call1_c_31⟩ ::
  ⟨main_call0_call1_v122, RefTerm.val_main_call0_call1_v122⟩ ::
  ⟨main_call0_call1_v121, RefTerm.val_main_call0_call1_v121⟩ ::
  ⟨main_call0_call1_v120, RefTerm.val_main_call0_call1_v120⟩ ::
  ⟨main_call0_call1_v119, RefTerm.val_main_call0_call1_v119⟩ ::
  ⟨main_call0_call1_v118, RefTerm.val_main_call0_call1_v118⟩ ::
  ⟨main_call0_call1_c_30, RefTerm.val_main_call0_call1_c_30⟩ ::
  ⟨main_call0_call1_v117, RefTerm.val_main_call0_call1_v117⟩ ::
  ⟨main_call0_call1_v116, RefTerm.val_main_call0_call1_v116⟩ ::
  ⟨main_call0_call1_c_29, RefTerm.val_main_call0_call1_c_29⟩ ::
  ⟨main_call0_call1_v115, RefTerm.val_main_call0_call1_v115⟩ ::
  ⟨main_call0_call1_v114, RefTerm.val_main_call0_call1_v114⟩ ::
  ⟨main_call0_call1_v113, RefTerm.val_main_call0_call1_v113⟩ ::
  ⟨main_call0_call1_v112, RefTerm.val_main_call0_call1_v112⟩ ::
  ⟨main_call0_call1_v111, RefTerm.val_main_call0_call1_v111⟩ ::
  ⟨main_call0_call1_c_28, RefTerm.val_main_call0_call1_c_28⟩ ::
  ⟨main_call0_call1_v110, RefTerm.val_main_call0_call1_v110⟩ ::
  ⟨main_call0_call1_v109, RefTerm.val_main_call0_call1_v109⟩ ::
  ⟨main_call0_call1_c_27, RefTerm.val_main_call0_call1_c_27⟩ ::
  ⟨main_call0_call1_v108, RefTerm.val_main_call0_call1_v108⟩ ::
  ⟨main_call0_call1_v107, RefTerm.val_main_call0_call1_v107⟩ ::
  ⟨main_call0_call1_v106, RefTerm.val_main_call0_call1_v106⟩ ::
  ⟨main_call0_call1_c_26, RefTerm.val_main_call0_call1_c_26⟩ ::
  ⟨main_call0_call1_v105, RefTerm.val_main_call0_call1_v105⟩ ::
  ⟨main_call0_call1_v104, RefTerm.val_main_call0_call1_v104⟩ ::
  ⟨main_call0_call1_v103, RefTerm.val_main_call0_call1_v103⟩ ::
  ⟨main_call0_call1_v102, RefTerm.val_main_call0_call1_v102⟩ ::
  ⟨main_call0_call1_v101, RefTerm.val_main_call0_call1_v101⟩ ::
  ⟨main_call0_call1_v100, RefTerm.val_main_call0_call1_v100⟩ ::
  ⟨main_call0_call1_v99, RefTerm.val_main_call0_call1_v99⟩ ::
  ⟨main_call0_call1_v98, RefTerm.val_main_call0_call1_v98⟩ ::
  ⟨main_call0_call1_c_25, RefTerm.val_main_call0_call1_c_25⟩ ::
  ⟨main_call0_call1_v97, RefTerm.val_main_call0_call1_v97⟩ ::
  ⟨main_call0_call1_v96, RefTerm.val_main_call0_call1_v96⟩ ::
  ⟨main_call0_call1_c_24, RefTerm.val_main_call0_call1_c_24⟩ ::
  ⟨main_call0_call1_v95, RefTerm.val_main_call0_call1_v95⟩ ::
  base10 x

/-- After stretch 12 (fn_threefry2x32_0.body_part3: operations 447 … 488). -/
def base12 (x : FVec F S4x96x224x224 .f32) : List (Cell sig (Elt F)) :=
  ⟨main_call0_v16_1, RefTerm.val_main_call0_v16_1⟩ ::
  ⟨main_call0_call1_v174, RefTerm.val_main_call0_call1_v174⟩ ::
  ⟨main_call0_call1_c_44, RefTerm.val_main_call0_call1_c_44⟩ ::
  ⟨main_call0_call1_v173, RefTerm.val_main_call0_call1_v173⟩ ::
  ⟨main_call0_call1_v172, RefTerm.val_main_call0_call1_v172⟩ ::
  ⟨main_call0_v16_0, RefTerm.val_main_call0_v16_0⟩ ::
  ⟨main_call0_call1_v170, RefTerm.val_main_call0_call1_v170⟩ ::
  ⟨main_call0_call1_v169, RefTerm.val_main_call0_call1_v169⟩ ::
  ⟨main_call0_call1_v168, RefTerm.val_main_call0_call1_v168⟩ ::
  ⟨main_call0_call1_v167, RefTerm.val_main_call0_call1_v167⟩ ::
  ⟨main_call0_call1_v166, RefTerm.val_main_call0_call1_v166⟩ ::
  ⟨main_call0_call1_c_43, RefTerm.val_main_call0_call1_c_43⟩ ::
  ⟨main_call0_call1_v165, RefTerm.val_main_call0_call1_v165⟩ ::
  ⟨main_call0_call1_v164, RefTerm.val_main_call0_call1_v164⟩ ::
  ⟨main_call0_call1_c_42, RefTerm.val_main_call0_call1_c_42⟩ ::
  ⟨main_call0_call1_v163, RefTerm.val_main_call0_call1_v163⟩ ::
  ⟨main_call0_call1_v162, RefTerm.val_main_call0_call1_v162⟩ ::
  ⟨main_call0_call1_v161, RefTerm.val_main_call0_call1_v161⟩ ::
  ⟨main_call0_call1_v160, RefTerm.val_main_call0_call1_v160⟩ ::
  ⟨main_call0_call1_v159, RefTerm.val_main_call0_call1_v159⟩ ::
  ⟨main_call0_call1_c_41, RefTerm.val_main_call0_call1_c_41⟩ ::
  ⟨main_call0_call1_v158, RefTerm.val_main_call0_call1_v158⟩ ::
  ⟨main_call0_call1_v157, RefTerm.val_main_call0_call1_v157⟩ ::
  ⟨main_call0_call1_c_40, RefTerm.val_main_call0_call1_c_40⟩ ::
  ⟨main_call0_call1_v156, RefTerm.val_main_call0_call1_v156⟩ ::
  ⟨main_call0_call1_v155, RefTerm.val_main_call0_call1_v155⟩ ::
  ⟨main_call0_call1_v154, RefTerm.val_main_call0_call1_v154⟩ ::
  ⟨main_call0_call1_v153, RefTerm.val_main_call0_call1_v153⟩ ::
  ⟨main_call0_call1_v152, RefTerm.val_main_call0_call1_v152⟩ ::
  ⟨main_call0_call1_c_39, RefTerm.val_main_call0_call1_c_39⟩ ::
  ⟨main_call0_call1_v151, RefTerm.val_main_call0_call1_v151⟩ ::
  ⟨main_call0_call1_v150, RefTerm.val_main_call0_call1_v150⟩ ::
  ⟨main_call0_call1_c_38, RefTerm.val_main_call0_call1_c_38⟩ ::
  ⟨main_call0_call1_v149, RefTerm.val_main_call0_call1_v149⟩ ::
  ⟨main_call0_call1_v148, RefTerm.val_main_call0_call1_v148⟩ ::
  ⟨main_call0_call1_v147, RefTerm.val_main_call0_call1_v147⟩ ::
  ⟨main_call0_call1_v146, RefTerm.val_main_call0_call1_v146⟩ ::
  ⟨main_call0_call1_v145, RefTerm.val_main_call0_call1_v145⟩ ::
  ⟨main_call0_call1_c_37, RefTerm.val_main_call0_call1_c_37⟩ ::
  ⟨main_call0_call1_v144, RefTerm.val_main_call0_call1_v144⟩ ::
  ⟨main_call0_call1_v143, RefTerm.val_main_call0_call1_v143⟩ ::
  ⟨main_call0_call1_c_36, RefTerm.val_main_call0_call1_c_36⟩ ::
  base11 x

/-- After stretch 13 (fn_shuffle.body (continued): operations 489 … 491). -/
def base13 (x : FVec F S4x96x224x224 .f32) : List (Cell sig (Elt F)) :=
  ⟨main_v8, RefTerm.val_main_v8⟩ ::
  ⟨main_call0_v18_0, RefTerm.val_main_call0_v18_0⟩ ::
  ⟨main_call0_v17, RefTerm.val_main_call0_v17⟩ ::
  base12 x

/-- After stretch 14 (main (continued): operations 492 … 513). -/
def base14 (x : FVec F S4x96x224x224 .f32) : List (Cell sig (Elt F)) :=
  ⟨main_v25, (RefTerm.val_main_v25 x)⟩ ::
  ⟨main_v24, RefTerm.val_main_v24⟩ ::
  ⟨main_v23, RefTerm.val_main_v23⟩ ::
  ⟨main_v22, RefTerm.val_main_v22⟩ ::
  ⟨main_v21, RefTerm.val_main_v21⟩ ::
  ⟨main_c_6, RefTerm.val_main_c_6⟩ ::
  ⟨main_v20, RefTerm.val_main_v20⟩ ::
  ⟨main_v19, RefTerm.val_main_v19⟩ ::
  ⟨main_c_5, RefTerm.val_main_c_5⟩ ::
  ⟨main_v18, (RefTerm.val_main_v18 x)⟩ ::
  ⟨main_v17, RefTerm.val_main_v17⟩ ::
  ⟨main_v16, RefTerm.val_main_v16⟩ ::
  ⟨main_v15, RefTerm.val_main_v15⟩ ::
  ⟨main_v14, RefTerm.val_main_v14⟩ ::
  ⟨main_c_4, RefTerm.val_main_c_4⟩ ::
  ⟨main_v13, RefTerm.val_main_v13⟩ ::
  ⟨main_v12, RefTerm.val_main_v12⟩ ::
  ⟨main_c_3, RefTerm.val_main_c_3⟩ ::
  ⟨main_v11, RefTerm.val_main_v11⟩ ::
  ⟨main_v10, RefTerm.val_main_v10⟩ ::
  ⟨main_c_2, RefTerm.val_main_c_2⟩ ::
  ⟨main_v9, RefTerm.val_main_v9⟩ ::
  base13 x

end Cert.ReferenceIdeal.RefRun

end
-- ==== Proof.RefRun1.lean ====
/- Stretch 1 of the reference program's text (main): its operations 1 … 11 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 1, in order. -/
def ops1 : List (HloOp τ sig (Elt F)) :=
  [ StableHlo.nullary main_c (constantI S_ 32 1#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_v7 (iotaInDim S95 32 0) ]

theorem obl1 (x : FVec F S4x96x224x224 .f32) : Obl (τ := τ) 1 (ops1 (F := F)) (base0 x) (base1 x) :=
  Obl.nullary RefTerm.val_main_c rfl rfl <|
  Obl.nullary RefTerm.val_main_c_0 rfl rfl <|
  Obl.binary 1 0 RefTerm.val_main_c RefTerm.val_main_c_0 RefTerm.val_main_v0 rfl rfl rfl rfl <|
  Obl.unary 0 RefTerm.val_main_v0 RefTerm.val_main_v1 rfl rfl rfl <|
  Obl.unary 0 RefTerm.val_main_v1 RefTerm.val_main_v2 rfl rfl rfl <|
  Obl.nullary RefTerm.val_main_c_1 rfl rfl <|
  Obl.binary 5 0 RefTerm.val_main_c RefTerm.val_main_c_1 RefTerm.val_main_v3 rfl rfl rfl rfl <|
  Obl.unary 0 RefTerm.val_main_v3 RefTerm.val_main_v4 rfl rfl rfl <|
  Obl.unary 0 RefTerm.val_main_v4 RefTerm.val_main_v5 rfl rfl rfl <|
  Obl.binary 4 0 RefTerm.val_main_v2 RefTerm.val_main_v5 RefTerm.val_main_v6 rfl rfl rfl rfl <|
  Obl.nullary RefTerm.val_main_v7 rfl rfl <|
  Obl.nil _ _

end Cert.ReferenceIdeal.RefRun

end
-- ==== Proof.RefRun2.lean ====
/- Stretch 2 of the reference program's text (fn_threefry_split.body): its operations 12 … 24 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 2, in order. -/
def ops2 : List (HloOp τ sig (Elt F)) :=
  [ StableHlo.TRef.unary (.of main_v6 : StableHlo.TRef sig ⟨S2, .i32⟩) main_call0.call0.v0 (extractStridedSlice S1 ![0] · slices_S2_S1_0),
    StableHlo.TRef.reshape main_call0.call0.v0 main_call0.call0.v1 rfl shapeCasts_S1_S_,
    StableHlo.TRef.unary (.of main_v6 : StableHlo.TRef sig ⟨S2, .i32⟩) main_call0.call0.v2 (extractStridedSlice S1 ![1] · slices_S2_S1_1),
    StableHlo.TRef.reshape main_call0.call0.v2 main_call0.call0.v3 rfl shapeCasts_S1_S_,
    StableHlo.TRef.nullary main_call0.call0.v4 (iotaInDim S2 64 0),
    StableHlo.TRef.nullary main_call0.call0.c (constantI S_ 64 1#64),
    StableHlo.TRef.unary main_call0.call0.c main_call0.call0.v5 (broadcastInDim S2 ![] bcast_S_S2),
    StableHlo.TRef.binary main_call0.call0.v5 main_call0.call0.v4 main_call0.call0.v6 muli,
    StableHlo.TRef.nullary main_call0.call0.c_0 (constantI S_ 64 32#64),
    StableHlo.TRef.unary main_call0.call0.c_0 main_call0.call0.v7 (broadcastInDim S2 ![] bcast_S_S2),
    StableHlo.TRef.binary main_call0.call0.v6 main_call0.call0.v7 main_call0.call0.v8 Host.shrui,
    StableHlo.TRef.unary main_call0.call0.v6 main_call0.call0.v9 (trunci 32 · natLt_32_64),
    StableHlo.TRef.unary main_call0.call0.v8 main_call0.call0.v10 (trunci 32 · natLt_32_64) ]

theorem obl2 (x : FVec F S4x96x224x224 .f32) : Obl (τ := τ) 12 (ops2 (F := F)) (base1 x) (base2 x) :=
  Obl.unary 1 RefTerm.val_main_v6 RefTerm.val_main_call0_call0_v0 rfl rfl rfl <|
  Obl.reshape 0 RefTerm.val_main_call0_call0_v0 RefTerm.val_main_call0_call0_v1 rfl (fun W h => by rw [reshape_result, h]; rfl) rfl <|
  Obl.unary 3 RefTerm.val_main_v6 RefTerm.val_main_call0_call0_v2 rfl rfl rfl <|
  Obl.reshape 0 RefTerm.val_main_call0_call0_v2 RefTerm.val_main_call0_call0_v3 rfl (fun W h => by rw [reshape_result, h]; rfl) rfl <|
  Obl.nullary RefTerm.val_main_call0_call0_v4 rfl rfl <|
  Obl.nullary RefTerm.val_main_call0_call0_c rfl rfl <|
  Obl.unary 0 RefTerm.val_main_call0_call0_c RefTerm.val_main_call0_call0_v5 rfl rfl rfl <|
  Obl.binary 0 2 RefTerm.val_main_call0_call0_v5 RefTerm.val_main_call0_call0_v4 RefTerm.val_main_call0_call0_v6 rfl rfl rfl rfl <|
  Obl.nullary RefTerm.val_main_call0_call0_c_0 rfl rfl <|
  Obl.unary 0 RefTerm.val_main_call0_call0_c_0 RefTerm.val_main_call0_call0_v7 rfl rfl rfl <|
  Obl.binary 2 0 RefTerm.val_main_call0_call0_v6 RefTerm.val_main_call0_call0_v7 RefTerm.val_main_call0_call0_v8 rfl rfl rfl rfl <|
  Obl.unary 3 RefTerm.val_main_call0_call0_v6 RefTerm.val_main_call0_call0_v9 rfl rfl rfl <|
  Obl.unary 1 RefTerm.val_main_call0_call0_v8 RefTerm.val_main_call0_call0_v10 rfl rfl rfl <|
  Obl.nil _ _

end Cert.ReferenceIdeal.RefRun

end
-- ==== Proof.RefRun3.lean ====
/- Stretch 3 of the reference program's text (fn_threefry2x32.body_part0): its operations 25 … 84 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 3, in order. -/
def ops3 : List (HloOp τ sig (Elt F)) :=
  [ StableHlo.TRef.binary main_call0.call0.v1 main_call0.call0.v3 main_call0.call0.call0.v0 xori,
    StableHlo.TRef.nullary main_call0.call0.call0.c (constantI S_ 32 466688986#32),
    StableHlo.TRef.binary main_call0.call0.call0.v0 main_call0.call0.call0.c main_call0.call0.call0.v1 xori,
    StableHlo.TRef.unary main_call0.call0.v1 main_call0.call0.call0.v2 (broadcastInDim S2 ![] bcast_S_S2),
    StableHlo.TRef.binary main_call0.call0.v10 main_call0.call0.call0.v2 main_call0.call0.call0.v3 addi,
    StableHlo.TRef.unary main_call0.call0.v3 main_call0.call0.call0.v4 (broadcastInDim S2 ![] bcast_S_S2),
    StableHlo.TRef.binary main_call0.call0.v9 main_call0.call0.call0.v4 main_call0.call0.call0.v5 addi,
    StableHlo.TRef.binary main_call0.call0.call0.v3 main_call0.call0.call0.v5 main_call0.call0.call0.v6 addi,
    StableHlo.TRef.nullary main_call0.call0.call0.c_0 (constantI S_ 32 13#32),
    StableHlo.TRef.unary main_call0.call0.call0.c_0 main_call0.call0.call0.v7 (broadcastInDim S2 ![] bcast_S_S2),
    StableHlo.TRef.binary main_call0.call0.call0.v5 main_call0.call0.call0.v7 main_call0.call0.call0.v8 Host.shli,
    StableHlo.TRef.nullary main_call0.call0.call0.c_1 (constantI S_ 32 19#32),
    StableHlo.TRef.unary main_call0.call0.call0.c_1 main_call0.call0.call0.v9 (broadcastInDim S2 ![] bcast_S_S2),
    StableHlo.TRef.binary main_call0.call0.call0.v5 main_call0.call0.call0.v9 main_call0.call0.call0.v10 Host.shrui,
    StableHlo.TRef.binary main_call0.call0.call0.v8 main_call0.call0.call0.v10 main_call0.call0.call0.v11 ori,
    StableHlo.TRef.binary main_call0.call0.call0.v6 main_call0.call0.call0.v11 main_call0.call0.call0.v12 xori,
    StableHlo.TRef.binary main_call0.call0.call0.v6 main_call0.call0.call0.v12 main_call0.call0.call0.v13 addi,
    StableHlo.TRef.nullary main_call0.call0.call0.c_2 (constantI S_ 32 15#32),
    StableHlo.TRef.unary main_call0.call0.call0.c_2 main_call0.call0.call0.v14 (broadcastInDim S2 ![] bcast_S_S2),
    StableHlo.TRef.binary main_call0.call0.call0.v12 main_call0.call0.call0.v14 main_call0.call0.call0.v15 Host.shli,
    StableHlo.TRef.nullary main_call0.call0.call0.c_3 (constantI S_ 32 17#32),
    StableHlo.TRef.unary main_call0.call0.call0.c_3 main_call0.call0.call0.v16 (broadcastInDim S2 ![] bcast_S_S2),
    StableHlo.TRef.binary main_call0.call0.call0.v12 main_call0.call0.call0.v16 main_call0.call0.call0.v17 Host.shrui,
    StableHlo.TRef.binary main_call0.call0.call0.v15 main_call0.call0.call0.v17 main_call0.call0.call0.v18 ori,
    StableHlo.TRef.binary main_call0.call0.call0.v13 main_call0.call0.call0.v18 main_call0.call0.call0.v19 xori,
    StableHlo.TRef.binary main_call0.call0.call0.v13 main_call0.call0.call0.v19 main_call0.call0.call0.v20 addi,
    StableHlo.TRef.nullary main_call0.call0.call0.c_4 (constantI S_ 32 26#32),
    StableHlo.TRef.unary main_call0.call0.call0.c_4 main_call0.call0.call0.v21 (broadcastInDim S2 ![] bcast_S_S2),
    StableHlo.TRef.binary main_call0.call0.call0.v19 main_call0.call0.call0.v21 main_call0.call0.call0.v22 Host.shli,
    StableHlo.TRef.nullary main_call0.call0.call0.c_5 (constantI S_ 32 6#32),
    StableHlo.TRef.unary main_call0.call0.call0.c_5 main_call0.call0.call0.v23 (broadcastInDim S2 ![] bcast_S_S2),
    StableHlo.TRef.binary main_call0.call0.call0.v19 main_call0.call0.call0.v23 main_call0.call0.call0.v24 Host.shrui,
    StableHlo.TRef.binary main_call0.call0.call0.v22 main_call0.call0.call0.v24 main_call0.call0.call0.v25 ori,
    StableHlo.TRef.binary main_call0.call0.call0.v20 main_call0.call0.call0.v25 main_call0.call0.call0.v26 xori,
    StableHlo.TRef.binary main_call0.call0.call0.v20 main_call0.call0.call0.v26 main_call0.call0.call0.v27 addi,
    StableHlo.TRef.nullary main_call0.call0.call0.c_6 (constantI S_ 32 6#32),
    StableHlo.TRef.unary main_call0.call0.call0.c_6 main_call0.call0.call0.v28 (broadcastInDim S2 ![] bcast_S_S2),
    StableHlo.TRef.binary main_call0.call0.call0.v26 main_call0.call0.call0.v28 main_call0.call0.call0.v29 Host.shli,
    StableHlo.TRef.nullary main_call0.call0.call0.c_7 (constantI S_ 32 26#32),
    StableHlo.TRef.unary main_call0.call0.call0.c_7 main_call0.call0.call0.v30 (broadcastInDim S2 ![] bcast_S_S2),
    StableHlo.TRef.binary main_call0.call0.call0.v26 main_call0.call0.call0.v30 main_call0.call0.call0.v31 Host.shrui,
    StableHlo.TRef.binary main_call0.call0.call0.v29 main_call0.call0.call0.v31 main_call0.call0.call0.v32 ori,
    StableHlo.TRef.binary main_call0.call0.call0.v27 main_call0.call0.call0.v32 main_call0.call0.call0.v33 xori,
    StableHlo.TRef.unary main_call0.call0.v3 main_call0.call0.call0.v34 (broadcastInDim S2 ![] bcast_S_S2),
    StableHlo.TRef.binary main_call0.call0.call0.v27 main_call0.call0.call0.v34 main_call0.call0.call0.v35 addi,
    StableHlo.TRef.unary main_call0.call0.call0.v1 main_call0.call0.call0.v36 (broadcastInDim S2 ![] bcast_S_S2),
    StableHlo.TRef.binary main_call0.call0.call0.v33 main_call0.call0.call0.v36 main_call0.call0.call0.v37 addi,
    StableHlo.TRef.nullary main_call0.call0.call0.c_8 (constantI S_ 32 1#32),
    StableHlo.TRef.unary main_call0.call0.call0.c_8 main_call0.call0.call0.v38 (broadcastInDim S2 ![] bcast_S_S2),
    StableHlo.TRef.binary main_call0.call0.call0.v37 main_call0.call0.call0.v38 main_call0.call0.call0.v39 addi,
    StableHlo.TRef.binary main_call0.call0.call0.v35 main_call0.call0.call0.v39 main_call0.call0.call0.v40 addi,
    StableHlo.TRef.nullary main_call0.call0.call0.c_9 (constantI S_ 32 17#32),
    StableHlo.TRef.unary main_call0.call0.call0.c_9 main_call0.call0.call0.v41 (broadcastInDim S2 ![] bcast_S_S2),
    StableHlo.TRef.binary main_call0.call0.call0.v39 main_call0.call0.call0.v41 main_call0.call0.call0.v42 Host.shli,
    StableHlo.TRef.nullary main_call0.call0.call0.c_10 (constantI S_ 32 15#32),
    StableHlo.TRef.unary main_call0.call0.call0.c_10 main_call0.call0.call0.v43 (broadcastInDim S2 ![] bcast_S_S2),
    StableHlo.TRef.binary main_call0.call0.call0.v39 main_call0.call0.call0.v43 main_call0.call0.call0.v44 Host.shrui,
    StableHlo.TRef.binary main_call0.call0.call0.v42 main_call0.call0.call0.v44 main_call0.call0.call0.v45 ori,
    StableHlo.TRef.binary main_call0.call0.call0.v40 main_call0.call0.call0.v45 main_call0.call0.call0.v46 xori,
    StableHlo.TRef.binary main_call0.call0.call0.v40 main_call0.call0.call0.v46 main_call0.call0.call0.v47 addi ]

theorem obl3 (x : FVec F S4x96x224x224 .f32) : Obl (τ := τ) 25 (ops3 (F := F)) (base2 x) (base3 x) :=
  Obl.binary 11 9 RefTerm.val_main_call0_call0_v1 RefTerm.val_main_call0_call0_v3 RefTerm.val_main_call0_call0_call0_v0 rfl rfl rfl rfl <|
  Obl.nullary RefTerm.val_main_call0_call0_call0_c rfl rfl <|
  Obl.binary 1 0 RefTerm.val_main_call0_call0_call0_v0 RefTerm.val_main_call0_call0_call0_c RefTerm.val_main_call0_call0_call0_v1 rfl rfl rfl rfl <|
  Obl.unary 14 RefTerm.val_main_call0_call0_v1 RefTerm.val_main_call0_call0_call0_v2 rfl rfl rfl <|
  Obl.binary 4 0 RefTerm.val_main_call0_call0_v10 RefTerm.val_main_call0_call0_call0_v2 RefTerm.val_main_call0_call0_call0_v3 rfl rfl rfl rfl <|
  Obl.unary 14 RefTerm.val_main_call0_call0_v3 RefTerm.val_main_call0_call0_call0_v4 rfl rfl rfl <|
  Obl.binary 7 0 RefTerm.val_main_call0_call0_v9 RefTerm.val_main_call0_call0_call0_v4 RefTerm.val_main_call0_call0_call0_v5 rfl rfl rfl rfl <|
  Obl.binary 2 0 RefTerm.val_main_call0_call0_call0_v3 RefTerm.val_main_call0_call0_call0_v5 RefTerm.val_main_call0_call0_call0_v6 rfl rfl rfl rfl <|
  Obl.nullary RefTerm.val_main_call0_call0_call0_c_0 rfl rfl <|
  Obl.unary 0 RefTerm.val_main_call0_call0_call0_c_0 RefTerm.val_main_call0_call0_call0_v7 rfl rfl rfl <|
  Obl.binary 3 0 RefTerm.val_main_call0_call0_call0_v5 RefTerm.val_main_call0_call0_call0_v7 RefTerm.val_main_call0_call0_call0_v8 rfl rfl rfl rfl <|
  Obl.nullary RefTerm.val_main_call0_call0_call0_c_1 rfl rfl <|
  Obl.unary 0 RefTerm.val_main_call0_call0_call0_c_1 RefTerm.val_main_call0_call0_call0_v9 rfl rfl rfl <|
  Obl.binary 6 0 RefTerm.val_main_call0_call0_call0_v5 RefTerm.val_main_call0_call0_call0_v9 RefTerm.val_main_call0_call0_call0_v10 rfl rfl rfl rfl <|
  Obl.binary 3 0 RefTerm.val_main_call0_call0_call0_v8 RefTerm.val_main_call0_call0_call0_v10 RefTerm.val_main_call0_call0_call0_v11 rfl rfl rfl rfl <|
  Obl.binary 7 0 RefTerm.val_main_call0_call0_call0_v6 RefTerm.val_main_call0_call0_call0_v11 RefTerm.val_main_call0_call0_call0_v12 rfl rfl rfl rfl <|
  Obl.binary 8 0 RefTerm.val_main_call0_call0_call0_v6 RefTerm.val_main_call0_call0_call0_v12 RefTerm.val_main_call0_call0_call0_v13 rfl rfl rfl rfl <|
  Obl.nullary RefTerm.val_main_call0_call0_call0_c_2 rfl rfl <|
  Obl.unary 0 RefTerm.val_main_call0_call0_call0_c_2 RefTerm.val_main_call0_call0_call0_v14 rfl rfl rfl <|
  Obl.binary 3 0 RefTerm.val_main_call0_call0_call0_v12 RefTerm.val_main_call0_call0_call0_v14 RefTerm.val_main_call0_call0_call0_v15 rfl rfl rfl rfl <|
  Obl.nullary RefTerm.val_main_call0_call0_call0_c_3 rfl rfl <|
  Obl.unary 0 RefTerm.val_main_call0_call0_call0_c_3 RefTerm.val_main_call0_call0_call0_v16 rfl rfl rfl <|
  Obl.binary 6 0 RefTerm.val_main_call0_call0_call0_v12 RefTerm.val_main_call0_call0_call0_v16 RefTerm.val_main_call0_call0_call0_v17 rfl rfl rfl rfl <|
  Obl.binary 3 0 RefTerm.val_main_call0_call0_call0_v15 RefTerm.val_main_call0_call0_call0_v17 RefTerm.val_main_call0_call0_call0_v18 rfl rfl rfl rfl <|
  Obl.binary 7 0 RefTerm.val_main_call0_call0_call0_v13 RefTerm.val_main_call0_call0_call0_v18 RefTerm.val_main_call0_call0_call0_v19 rfl rfl rfl rfl <|
  Obl.binary 8 0 RefTerm.val_main_call0_call0_call0_v13 RefTerm.val_main_call0_call0_call0_v19 RefTerm.val_main_call0_call0_call0_v20 rfl rfl rfl rfl <|
  Obl.nullary RefTerm.val_main_call0_call0_call0_c_4 rfl rfl <|
  Obl.unary 0 RefTerm.val_main_call0_call0_call0_c_4 RefTerm.val_main_call0_call0_call0_v21 rfl rfl rfl <|
  Obl.binary 3 0 RefTerm.val_main_call0_call0_call0_v19 RefTerm.val_main_call0_call0_call0_v21 RefTerm.val_main_call0_call0_call0_v22 rfl rfl rfl rfl <|
  Obl.nullary RefTerm.val_main_call0_call0_call0_c_5 rfl rfl <|
  Obl.unary 0 RefTerm.val_main_call0_call0_call0_c_5 RefTerm.val_main_call0_call0_call0_v23 rfl rfl rfl <|
  Obl.binary 6 0 RefTerm.val_main_call0_call0_call0_v19 RefTerm.val_main_call0_call0_call0_v23 RefTerm.val_main_call0_call0_call0_v24 rfl rfl rfl rfl <|
  Obl.binary 3 0 RefTerm.val_main_call0_call0_call0_v22 RefTerm.val_main_call0_call0_call0_v24 RefTerm.val_main_call0_call0_call0_v25 rfl rfl rfl rfl <|
  Obl.binary 7 0 RefTerm.val_main_call0_call0_call0_v20 RefTerm.val_main_call0_call0_call0_v25 RefTerm.val_main_call0_call0_call0_v26 rfl rfl rfl rfl <|
  Obl.binary 8 0 RefTerm.val_main_call0_call0_call0_v20 RefTerm.val_main_call0_call0_call0_v26 RefTerm.val_main_call0_call0_call0_v27 rfl rfl rfl rfl <|
  Obl.nullary RefTerm.val_main_call0_call0_call0_c_6 rfl rfl <|
  Obl.unary 0 RefTerm.val_main_call0_call0_call0_c_6 RefTerm.val_main_call0_call0_call0_v28 rfl rfl rfl <|
  Obl.binary 3 0 RefTerm.val_main_call0_call0_call0_v26 RefTerm.val_main_call0_call0_call0_v28 RefTerm.val_main_call0_call0_call0_v29 rfl rfl rfl rfl <|
  Obl.nullary RefTerm.val_main_call0_call0_call0_c_7 rfl rfl <|
  Obl.unary 0 RefTerm.val_main_call0_call0_call0_c_7 RefTerm.val_main_call0_call0_call0_v30 rfl rfl rfl <|
  Obl.binary 6 0 RefTerm.val_main_call0_call0_call0_v26 RefTerm.val_main_call0_call0_call0_v30 RefTerm.val_main_call0_call0_call0_v31 rfl rfl rfl rfl <|
  Obl.binary 3 0 RefTerm.val_main_call0_call0_call0_v29 RefTerm.val_main_call0_call0_call0_v31 RefTerm.val_main_call0_call0_call0_v32 rfl rfl rfl rfl <|
  Obl.binary 7 0 RefTerm.val_main_call0_call0_call0_v27 RefTerm.val_main_call0_call0_call0_v32 RefTerm.val_main_call0_call0_call0_v33 rfl rfl rfl rfl <|
  Obl.unary 52 RefTerm.val_main_call0_call0_v3 RefTerm.val_main_call0_call0_call0_v34 rfl rfl rfl <|
  Obl.binary 9 0 RefTerm.val_main_call0_call0_call0_v27 RefTerm.val_main_call0_call0_call0_v34 RefTerm.val_main_call0_call0_call0_v35 rfl rfl rfl rfl <|
  Obl.unary 42 RefTerm.val_main_call0_call0_call0_v1 RefTerm.val_main_call0_call0_call0_v36 rfl rfl rfl <|
  Obl.binary 3 0 RefTerm.val_main_call0_call0_call0_v33 RefTerm.val_main_call0_call0_call0_v36 RefTerm.val_main_call0_call0_call0_v37 rfl rfl rfl rfl <|
  Obl.nullary RefTerm.val_main_call0_call0_call0_c_8 rfl rfl <|
  Obl.unary 0 RefTerm.val_main_call0_call0_call0_c_8 RefTerm.val_main_call0_call0_call0_v38 rfl rfl rfl <|
  Obl.binary 2 0 RefTerm.val_main_call0_call0_call0_v37 RefTerm.val_main_call0_call0_call0_v38 RefTerm.val_main_call0_call0_call0_v39 rfl rfl rfl rfl <|
  Obl.binary 5 0 RefTerm.val_main_call0_call0_call0_v35 RefTerm.val_main_call0_call0_call0_v39 RefTerm.val_main_call0_call0_call0_v40 rfl rfl rfl rfl <|
  Obl.nullary RefTerm.val_main_call0_call0_call0_c_9 rfl rfl <|
  Obl.unary 0 RefTerm.val_main_call0_call0_call0_c_9 RefTerm.val_main_call0_call0_call0_v41 rfl rfl rfl <|
  Obl.binary 3 0 RefTerm.val_main_call0_call0_call0_v39 RefTerm.val_main_call0_call0_call0_v41 RefTerm.val_main_call0_call0_call0_v42 rfl rfl rfl rfl <|
  Obl.nullary RefTerm.val_main_call0_call0_call0_c_10 rfl rfl <|
  Obl.unary 0 RefTerm.val_main_call0_call0_call0_c_10 RefTerm.val_main_call0_call0_call0_v43 rfl rfl rfl <|
  Obl.binary 6 0 RefTerm.val_main_call0_call0_call0_v39 RefTerm.val_main_call0_call0_call0_v43 RefTerm.val_main_call0_call0_call0_v44 rfl rfl rfl rfl <|
  Obl.binary 3 0 RefTerm.val_main_call0_call0_call0_v42 RefTerm.val_main_call0_call0_call0_v44 RefTerm.val_main_call0_call0_call0_v45 rfl rfl rfl rfl <|
  Obl.binary 7 0 RefTerm.val_main_call0_call0_call0_v40 RefTerm.val_main_call0_call0_call0_v45 RefTerm.val_main_call0_call0_call0_v46 rfl rfl rfl rfl <|
  Obl.binary 8 0 RefTerm.val_main_call0_call0_call0_v40 RefTerm.val_main_call0_call0_call0_v46 RefTerm.val_main_call0_call0_call0_v47 rfl rfl rfl rfl <|
  Obl.nil _ _

end Cert.ReferenceIdeal.RefRun

end
-- ==== Proof.RefRun4.lean ====
/- Stretch 4 of the reference program's text (fn_threefry2x32.body_part1): its operations 85 … 144 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 4, in order. -/
def ops4 : List (HloOp τ sig (Elt F)) :=
  [ StableHlo.TRef.nullary main_call0.call0.call0.c_11 (constantI S_ 32 29#32),
    StableHlo.TRef.unary main_call0.call0.call0.c_11 main_call0.call0.call0.v48 (broadcastInDim S2 ![] bcast_S_S2),
    StableHlo.TRef.binary main_call0.call0.call0.v46 main_call0.call0.call0.v48 main_call0.call0.call0.v49 Host.shli,
    StableHlo.TRef.nullary main_call0.call0.call0.c_12 (constantI S_ 32 3#32),
    StableHlo.TRef.unary main_call0.call0.call0.c_12 main_call0.call0.call0.v50 (broadcastInDim S2 ![] bcast_S_S2),
    StableHlo.TRef.binary main_call0.call0.call0.v46 main_call0.call0.call0.v50 main_call0.call0.call0.v51 Host.shrui,
    StableHlo.TRef.binary main_call0.call0.call0.v49 main_call0.call0.call0.v51 main_call0.call0.call0.v52 ori,
    StableHlo.TRef.binary main_call0.call0.call0.v47 main_call0.call0.call0.v52 main_call0.call0.call0.v53 xori,
    StableHlo.TRef.binary main_call0.call0.call0.v47 main_call0.call0.call0.v53 main_call0.call0.call0.v54 addi,
    StableHlo.TRef.nullary main_call0.call0.call0.c_13 (constantI S_ 32 16#32),
    StableHlo.TRef.unary main_call0.call0.call0.c_13 main_call0.call0.call0.v55 (broadcastInDim S2 ![] bcast_S_S2),
    StableHlo.TRef.binary main_call0.call0.call0.v53 main_call0.call0.call0.v55 main_call0.call0.call0.v56 Host.shli,
    StableHlo.TRef.nullary main_call0.call0.call0.c_14 (constantI S_ 32 16#32),
    StableHlo.TRef.unary main_call0.call0.call0.c_14 main_call0.call0.call0.v57 (broadcastInDim S2 ![] bcast_S_S2),
    StableHlo.TRef.binary main_call0.call0.call0.v53 main_call0.call0.call0.v57 main_call0.call0.call0.v58 Host.shrui,
    StableHlo.TRef.binary main_call0.call0.call0.v56 main_call0.call0.call0.v58 main_call0.call0.call0.v59 ori,
    StableHlo.TRef.binary main_call0.call0.call0.v54 main_call0.call0.call0.v59 main_call0.call0.call0.v60 xori,
    StableHlo.TRef.binary main_call0.call0.call0.v54 main_call0.call0.call0.v60 main_call0.call0.call0.v61 addi,
    StableHlo.TRef.nullary main_call0.call0.call0.c_15 (constantI S_ 32 24#32),
    StableHlo.TRef.unary main_call0.call0.call0.c_15 main_call0.call0.call0.v62 (broadcastInDim S2 ![] bcast_S_S2),
    StableHlo.TRef.binary main_call0.call0.call0.v60 main_call0.call0.call0.v62 main_call0.call0.call0.v63 Host.shli,
    StableHlo.TRef.nullary main_call0.call0.call0.c_16 (constantI S_ 32 8#32),
    StableHlo.TRef.unary main_call0.call0.call0.c_16 main_call0.call0.call0.v64 (broadcastInDim S2 ![] bcast_S_S2),
    StableHlo.TRef.binary main_call0.call0.call0.v60 main_call0.call0.call0.v64 main_call0.call0.call0.v65 Host.shrui,
    StableHlo.TRef.binary main_call0.call0.call0.v63 main_call0.call0.call0.v65 main_call0.call0.call0.v66 ori,
    StableHlo.TRef.binary main_call0.call0.call0.v61 main_call0.call0.call0.v66 main_call0.call0.call0.v67 xori,
    StableHlo.TRef.unary main_call0.call0.call0.v1 main_call0.call0.call0.v68 (broadcastInDim S2 ![] bcast_S_S2),
    StableHlo.TRef.binary main_call0.call0.call0.v61 main_call0.call0.call0.v68 main_call0.call0.call0.v69 addi,
    StableHlo.TRef.unary main_call0.call0.v1 main_call0.call0.call0.v70 (broadcastInDim S2 ![] bcast_S_S2),
    StableHlo.TRef.binary main_call0.call0.call0.v67 main_call0.call0.call0.v70 main_call0.call0.call0.v71 addi,
    StableHlo.TRef.nullary main_call0.call0.call0.c_17 (constantI S_ 32 2#32),
    StableHlo.TRef.unary main_call0.call0.call0.c_17 main_call0.call0.call0.v72 (broadcastInDim S2 ![] bcast_S_S2),
    StableHlo.TRef.binary main_call0.call0.call0.v71 main_call0.call0.call0.v72 main_call0.call0.call0.v73 addi,
    StableHlo.TRef.binary main_call0.call0.call0.v69 main_call0.call0.call0.v73 main_call0.call0.call0.v74 addi,
    StableHlo.TRef.nullary main_call0.call0.call0.c_18 (constantI S_ 32 13#32),
    StableHlo.TRef.unary main_call0.call0.call0.c_18 main_call0.call0.call0.v75 (broadcastInDim S2 ![] bcast_S_S2),
    StableHlo.TRef.binary main_call0.call0.call0.v73 main_call0.call0.call0.v75 main_call0.call0.call0.v76 Host.shli,
    StableHlo.TRef.nullary main_call0.call0.call0.c_19 (constantI S_ 32 19#32),
    StableHlo.TRef.unary main_call0.call0.call0.c_19 main_call0.call0.call0.v77 (broadcastInDim S2 ![] bcast_S_S2),
    StableHlo.TRef.binary main_call0.call0.call0.v73 main_call0.call0.call0.v77 main_call0.call0.call0.v78 Host.shrui,
    StableHlo.TRef.binary main_call0.call0.call0.v76 main_call0.call0.call0.v78 main_call0.call0.call0.v79 ori,
    StableHlo.TRef.binary main_call0.call0.call0.v74 main_call0.call0.call0.v79 main_call0.call0.call0.v80 xori,
    StableHlo.TRef.binary main_call0.call0.call0.v74 main_call0.call0.call0.v80 main_call0.call0.call0.v81 addi,
    StableHlo.TRef.nullary main_call0.call0.call0.c_20 (constantI S_ 32 15#32),
    StableHlo.TRef.unary main_call0.call0.call0.c_20 main_call0.call0.call0.v82 (broadcastInDim S2 ![] bcast_S_S2),
    StableHlo.TRef.binary main_call0.call0.call0.v80 main_call0.call0.call0.v82 main_call0.call0.call0.v83 Host.shli,
    StableHlo.TRef.nullary main_call0.call0.call0.c_21 (constantI S_ 32 17#32),
    StableHlo.TRef.unary main_call0.call0.call0.c_21 main_call0.call0.call0.v84 (broadcastInDim S2 ![] bcast_S_S2),
    StableHlo.TRef.binary main_call0.call0.call0.v80 main_call0.call0.call0.v84 main_call0.call0.call0.v85 Host.shrui,
    StableHlo.TRef.binary main_call0.call0.call0.v83 main_call0.call0.call0.v85 main_call0.call0.call0.v86 ori,
    StableHlo.TRef.binary main_call0.call0.call0.v81 main_call0.call0.call0.v86 main_call0.call0.call0.v87 xori,
    StableHlo.TRef.binary main_call0.call0.call0.v81 main_call0.call0.call0.v87 main_call0.call0.call0.v88 addi,
    StableHlo.TRef.nullary main_call0.call0.call0.c_22 (constantI S_ 32 26#32),
    StableHlo.TRef.unary main_call0.call0.call0.c_22 main_call0.call0.call0.v89 (broadcastInDim S2 ![] bcast_S_S2),
    StableHlo.TRef.binary main_call0.call0.call0.v87 main_call0.call0.call0.v89 main_call0.call0.call0.v90 Host.shli,
    StableHlo.TRef.nullary main_call0.call0.call0.c_23 (constantI S_ 32 6#32),
    StableHlo.TRef.unary main_call0.call0.call0.c_23 main_call0.call0.call0.v91 (broadcastInDim S2 ![] bcast_S_S2),
    StableHlo.TRef.binary main_call0.call0.call0.v87 main_call0.call0.call0.v91 main_call0.call0.call0.v92 Host.shrui,
    StableHlo.TRef.binary main_call0.call0.call0.v90 main_call0.call0.call0.v92 main_call0.call0.call0.v93 ori,
    StableHlo.TRef.binary main_call0.call0.call0.v88 main_call0.call0.call0.v93 main_call0.call0.call0.v94 xori ]

theorem obl4 (x : FVec F S4x96x224x224 .f32) : Obl (τ := τ) 85 (ops4 (F := F)) (base3 x) (base4 x) :=
  Obl.nullary RefTerm.val_main_call0_call0_call0_c_11 rfl rfl <|
  Obl.unary 0 RefTerm.val_main_call0_call0_call0_c_11 RefTerm.val_main_call0_call0_call0_v48 rfl rfl rfl <|
  Obl.binary 3 0 RefTerm.val_main_call0_call0_call0_v46 RefTerm.val_main_call0_call0_call0_v48 RefTerm.val_main_call0_call0_call0_v49 rfl rfl rfl rfl <|
  Obl.nullary RefTerm.val_main_call0_call0_call0_c_12 rfl rfl <|
  Obl.unary 0 RefTerm.val_main_call0_call0_call0_c_12 RefTerm.val_main_call0_call0_call0_v50 rfl rfl rfl <|
  Obl.binary 6 0 RefTerm.val_main_call0_call0_call0_v46 RefTerm.val_main_call0_call0_call0_v50 RefTerm.val_main_call0_call0_call0_v51 rfl rfl rfl rfl <|
  Obl.binary 3 0 RefTerm.val_main_call0_call0_call0_v49 RefTerm.val_main_call0_call0_call0_v51 RefTerm.val_main_call0_call0_call0_v52 rfl rfl rfl rfl <|
  Obl.binary 7 0 RefTerm.val_main_call0_call0_call0_v47 RefTerm.val_main_call0_call0_call0_v52 RefTerm.val_main_call0_call0_call0_v53 rfl rfl rfl rfl <|
  Obl.binary 8 0 RefTerm.val_main_call0_call0_call0_v47 RefTerm.val_main_call0_call0_call0_v53 RefTerm.val_main_call0_call0_call0_v54 rfl rfl rfl rfl <|
  Obl.nullary RefTerm.val_main_call0_call0_call0_c_13 rfl rfl <|
  Obl.unary 0 RefTerm.val_main_call0_call0_call0_c_13 RefTerm.val_main_call0_call0_call0_v55 rfl rfl rfl <|
  Obl.binary 3 0 RefTerm.val_main_call0_call0_call0_v53 RefTerm.val_main_call0_call0_call0_v55 RefTerm.val_main_call0_call0_call0_v56 rfl rfl rfl rfl <|
  Obl.nullary RefTerm.val_main_call0_call0_call0_c_14 rfl rfl <|
  Obl.unary 0 RefTerm.val_main_call0_call0_call0_c_14 RefTerm.val_main_call0_call0_call0_v57 rfl rfl rfl <|
  Obl.binary 6 0 RefTerm.val_main_call0_call0_call0_v53 RefTerm.val_main_call0_call0_call0_v57 RefTerm.val_main_call0_call0_call0_v58 rfl rfl rfl rfl <|
  Obl.binary 3 0 RefTerm.val_main_call0_call0_call0_v56 RefTerm.val_main_call0_call0_call0_v58 RefTerm.val_main_call0_call0_call0_v59 rfl rfl rfl rfl <|
  Obl.binary 7 0 RefTerm.val_main_call0_call0_call0_v54 RefTerm.val_main_call0_call0_call0_v59 RefTerm.val_main_call0_call0_call0_v60 rfl rfl rfl rfl <|
  Obl.binary 8 0 RefTerm.val_main_call0_call0_call0_v54 RefTerm.val_main_call0_call0_call0_v60 RefTerm.val_main_call0_call0_call0_v61 rfl rfl rfl rfl <|
  Obl.nullary RefTerm.val_main_call0_call0_call0_c_15 rfl rfl <|
  Obl.unary 0 RefTerm.val_main_call0_call0_call0_c_15 RefTerm.val_main_call0_call0_call0_v62 rfl rfl rfl <|
  Obl.binary 3 0 RefTerm.val_main_call0_call0_call0_v60 RefTerm.val_main_call0_call0_call0_v62 RefTerm.val_main_call0_call0_call0_v63 rfl rfl rfl rfl <|
  Obl.nullary RefTerm.val_main_call0_call0_call0_c_16 rfl rfl <|
  Obl.unary 0 RefTerm.val_main_call0_call0_call0_c_16 RefTerm.val_main_call0_call0_call0_v64 rfl rfl rfl <|
  Obl.binary 6 0 RefTerm.val_main_call0_call0_call0_v60 RefTerm.val_main_call0_call0_call0_v64 RefTerm.val_main_call0_call0_call0_v65 rfl rfl rfl rfl <|
  Obl.binary 3 0 RefTerm.val_main_call0_call0_call0_v63 RefTerm.val_main_call0_call0_call0_v65 RefTerm.val_main_call0_call0_call0_v66 rfl rfl rfl rfl <|
  Obl.binary 7 0 RefTerm.val_main_call0_call0_call0_v61 RefTerm.val_main_call0_call0_call0_v66 RefTerm.val_main_call0_call0_call0_v67 rfl rfl rfl rfl <|
  Obl.unary 83 RefTerm.val_main_call0_call0_call0_v1 RefTerm.val_main_call0_call0_call0_v68 rfl rfl rfl <|
  Obl.binary 9 0 RefTerm.val_main_call0_call0_call0_v61 RefTerm.val_main_call0_call0_call0_v68 RefTerm.val_main_call0_call0_call0_v69 rfl rfl rfl rfl <|
  Obl.unary 99 RefTerm.val_main_call0_call0_v1 RefTerm.val_main_call0_call0_call0_v70 rfl rfl rfl <|
  Obl.binary 3 0 RefTerm.val_main_call0_call0_call0_v67 RefTerm.val_main_call0_call0_call0_v70 RefTerm.val_main_call0_call0_call0_v71 rfl rfl rfl rfl <|
  Obl.nullary RefTerm.val_main_call0_call0_call0_c_17 rfl rfl <|
  Obl.unary 0 RefTerm.val_main_call0_call0_call0_c_17 RefTerm.val_main_call0_call0_call0_v72 rfl rfl rfl <|
  Obl.binary 2 0 RefTerm.val_main_call0_call0_call0_v71 RefTerm.val_main_call0_call0_call0_v72 RefTerm.val_main_call0_call0_call0_v73 rfl rfl rfl rfl <|
  Obl.binary 5 0 RefTerm.val_main_call0_call0_call0_v69 RefTerm.val_main_call0_call0_call0_v73 RefTerm.val_main_call0_call0_call0_v74 rfl rfl rfl rfl <|
  Obl.nullary RefTerm.val_main_call0_call0_call0_c_18 rfl rfl <|
  Obl.unary 0 RefTerm.val_main_call0_call0_call0_c_18 RefTerm.val_main_call0_call0_call0_v75 rfl rfl rfl <|
  Obl.binary 3 0 RefTerm.val_main_call0_call0_call0_v73 RefTerm.val_main_call0_call0_call0_v75 RefTerm.val_main_call0_call0_call0_v76 rfl rfl rfl rfl <|
  Obl.nullary RefTerm.val_main_call0_call0_call0_c_19 rfl rfl <|
  Obl.unary 0 RefTerm.val_main_call0_call0_call0_c_19 RefTerm.val_main_call0_call0_call0_v77 rfl rfl rfl <|
  Obl.binary 6 0 RefTerm.val_main_call0_call0_call0_v73 RefTerm.val_main_call0_call0_call0_v77 RefTerm.val_main_call0_call0_call0_v78 rfl rfl rfl rfl <|
  Obl.binary 3 0 RefTerm.val_main_call0_call0_call0_v76 RefTerm.val_main_call0_call0_call0_v78 RefTerm.val_main_call0_call0_call0_v79 rfl rfl rfl rfl <|
  Obl.binary 7 0 RefTerm.val_main_call0_call0_call0_v74 RefTerm.val_main_call0_call0_call0_v79 RefTerm.val_main_call0_call0_call0_v80 rfl rfl rfl rfl <|
  Obl.binary 8 0 RefTerm.val_main_call0_call0_call0_v74 RefTerm.val_main_call0_call0_call0_v80 RefTerm.val_main_call0_call0_call0_v81 rfl rfl rfl rfl <|
  Obl.nullary RefTerm.val_main_call0_call0_call0_c_20 rfl rfl <|
  Obl.unary 0 RefTerm.val_main_call0_call0_call0_c_20 RefTerm.val_main_call0_call0_call0_v82 rfl rfl rfl <|
  Obl.binary 3 0 RefTerm.val_main_call0_call0_call0_v80 RefTerm.val_main_call0_call0_call0_v82 RefTerm.val_main_call0_call0_call0_v83 rfl rfl rfl rfl <|
  Obl.nullary RefTerm.val_main_call0_call0_call0_c_21 rfl rfl <|
  Obl.unary 0 RefTerm.val_main_call0_call0_call0_c_21 RefTerm.val_main_call0_call0_call0_v84 rfl rfl rfl <|
  Obl.binary 6 0 RefTerm.val_main_call0_call0_call0_v80 RefTerm.val_main_call0_call0_call0_v84 RefTerm.val_main_call0_call0_call0_v85 rfl rfl rfl rfl <|
  Obl.binary 3 0 RefTerm.val_main_call0_call0_call0_v83 RefTerm.val_main_call0_call0_call0_v85 RefTerm.val_main_call0_call0_call0_v86 rfl rfl rfl rfl <|
  Obl.binary 7 0 RefTerm.val_main_call0_call0_call0_v81 RefTerm.val_main_call0_call0_call0_v86 RefTerm.val_main_call0_call0_call0_v87 rfl rfl rfl rfl <|
  Obl.binary 8 0 RefTerm.val_main_call0_call0_call0_v81 RefTerm.val_main_call0_call0_call0_v87 RefTerm.val_main_call0_call0_call0_v88 rfl rfl rfl rfl <|
  Obl.nullary RefTerm.val_main_call0_call0_call0_c_22 rfl rfl <|
  Obl.unary 0 RefTerm.val_main_call0_call0_call0_c_22 RefTerm.val_main_call0_call0_call0_v89 rfl rfl rfl <|
  Obl.binary 3 0 RefTerm.val_main_call0_call0_call0_v87 RefTerm.val_main_call0_call0_call0_v89 RefTerm.val_main_call0_call0_call0_v90 rfl rfl rfl rfl <|
  Obl.nullary RefTerm.val_main_call0_call0_call0_c_23 rfl rfl <|
  Obl.unary 0 RefTerm.val_main_call0_call0_call0_c_23 RefTerm.val_main_call0_call0_call0_v91 rfl rfl rfl <|
  Obl.binary 6 0 RefTerm.val_main_call0_call0_call0_v87 RefTerm.val_main_call0_call0_call0_v91 RefTerm.val_main_call0_call0_call0_v92 rfl rfl rfl rfl <|
  Obl.binary 3 0 RefTerm.val_main_call0_call0_call0_v90 RefTerm.val_main_call0_call0_call0_v92 RefTerm.val_main_call0_call0_call0_v93 rfl rfl rfl rfl <|
  Obl.binary 7 0 RefTerm.val_main_call0_call0_call0_v88 RefTerm.val_main_call0_call0_call0_v93 RefTerm.val_main_call0_call0_call0_v94 rfl rfl rfl rfl <|
  Obl.nil _ _

end Cert.ReferenceIdeal.RefRun

end
-- ==== Proof.RefRun5.lean ====
/- Stretch 5 of the reference program's text (fn_threefry2x32.body_part2): its operations 145 … 204 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 5, in order. -/
def ops5 : List (HloOp τ sig (Elt F)) :=
  [ StableHlo.TRef.binary main_call0.call0.call0.v88 main_call0.call0.call0.v94 main_call0.call0.call0.v95 addi,
    StableHlo.TRef.nullary main_call0.call0.call0.c_24 (constantI S_ 32 6#32),
    StableHlo.TRef.unary main_call0.call0.call0.c_24 main_call0.call0.call0.v96 (broadcastInDim S2 ![] bcast_S_S2),
    StableHlo.TRef.binary main_call0.call0.call0.v94 main_call0.call0.call0.v96 main_call0.call0.call0.v97 Host.shli,
    StableHlo.TRef.nullary main_call0.call0.call0.c_25 (constantI S_ 32 26#32),
    StableHlo.TRef.unary main_call0.call0.call0.c_25 main_call0.call0.call0.v98 (broadcastInDim S2 ![] bcast_S_S2),
    StableHlo.TRef.binary main_call0.call0.call0.v94 main_call0.call0.call0.v98 main_call0.call0.call0.v99 Host.shrui,
    StableHlo.TRef.binary main_call0.call0.call0.v97 main_call0.call0.call0.v99 main_call0.call0.call0.v100 ori,
    StableHlo.TRef.binary main_call0.call0.call0.v95 main_call0.call0.call0.v100 main_call0.call0.call0.v101 xori,
    StableHlo.TRef.unary main_call0.call0.v1 main_call0.call0.call0.v102 (broadcastInDim S2 ![] bcast_S_S2),
    StableHlo.TRef.binary main_call0.call0.call0.v95 main_call0.call0.call0.v102 main_call0.call0.call0.v103 addi,
    StableHlo.TRef.unary main_call0.call0.v3 main_call0.call0.call0.v104 (broadcastInDim S2 ![] bcast_S_S2),
    StableHlo.TRef.binary main_call0.call0.call0.v101 main_call0.call0.call0.v104 main_call0.call0.call0.v105 addi,
    StableHlo.TRef.nullary main_call0.call0.call0.c_26 (constantI S_ 32 3#32),
    StableHlo.TRef.unary main_call0.call0.call0.c_26 main_call0.call0.call0.v106 (broadcastInDim S2 ![] bcast_S_S2),
    StableHlo.TRef.binary main_call0.call0.call0.v105 main_call0.call0.call0.v106 main_call0.call0.call0.v107 addi,
    StableHlo.TRef.binary main_call0.call0.call0.v103 main_call0.call0.call0.v107 main_call0.call0.call0.v108 addi,
    StableHlo.TRef.nullary main_call0.call0.call0.c_27 (constantI S_ 32 17#32),
    StableHlo.TRef.unary main_call0.call0.call0.c_27 main_call0.call0.call0.v109 (broadcastInDim S2 ![] bcast_S_S2),
    StableHlo.TRef.binary main_call0.call0.call0.v107 main_call0.call0.call0.v109 main_call0.call0.call0.v110 Host.shli,
    StableHlo.TRef.nullary main_call0.call0.call0.c_28 (constantI S_ 32 15#32),
    StableHlo.TRef.unary main_call0.call0.call0.c_28 main_call0.call0.call0.v111 (broadcastInDim S2 ![] bcast_S_S2),
    StableHlo.TRef.binary main_call0.call0.call0.v107 main_call0.call0.call0.v111 main_call0.call0.call0.v112 Host.shrui,
    StableHlo.TRef.binary main_call0.call0.call0.v110 main_call0.call0.call0.v112 main_call0.call0.call0.v113 ori,
    StableHlo.TRef.binary main_call0.call0.call0.v108 main_call0.call0.call0.v113 main_call0.call0.call0.v114 xori,
    StableHlo.TRef.binary main_call0.call0.call0.v108 main_call0.call0.call0.v114 main_call0.call0.call0.v115 addi,
    StableHlo.TRef.nullary main_call0.call0.call0.c_29 (constantI S_ 32 29#32),
    StableHlo.TRef.unary main_call0.call0.call0.c_29 main_call0.call0.call0.v116 (broadcastInDim S2 ![] bcast_S_S2),
    StableHlo.TRef.binary main_call0.call0.call0.v114 main_call0.call0.call0.v116 main_call0.call0.call0.v117 Host.shli,
    StableHlo.TRef.nullary main_call0.call0.call0.c_30 (constantI S_ 32 3#32),
    StableHlo.TRef.unary main_call0.call0.call0.c_30 main_call0.call0.call0.v118 (broadcastInDim S2 ![] bcast_S_S2),
    StableHlo.TRef.binary main_call0.call0.call0.v114 main_call0.call0.call0.v118 main_call0.call0.call0.v119 Host.shrui,
    StableHlo.TRef.binary main_call0.call0.call0.v117 main_call0.call0.call0.v119 main_call0.call0.call0.v120 ori,
    StableHlo.TRef.binary main_call0.call0.call0.v115 main_call0.call0.call0.v120 main_call0.call0.call0.v121 xori,
    StableHlo.TRef.binary main_call0.call0.call0.v115 main_call0.call0.call0.v121 main_call0.call0.call0.v122 addi,
    StableHlo.TRef.nullary main_call0.call0.call0.c_31 (constantI S_ 32 16#32),
    StableHlo.TRef.unary main_call0.call0.call0.c_31 main_call0.call0.call0.v123 (broadcastInDim S2 ![] bcast_S_S2),
    StableHlo.TRef.binary main_call0.call0.call0.v121 main_call0.call0.call0.v123 main_call0.call0.call0.v124 Host.shli,
    StableHlo.TRef.nullary main_call0.call0.call0.c_32 (constantI S_ 32 16#32),
    StableHlo.TRef.unary main_call0.call0.call0.c_32 main_call0.call0.call0.v125 (broadcastInDim S2 ![] bcast_S_S2),
    StableHlo.TRef.binary main_call0.call0.call0.v121 main_call0.call0.call0.v125 main_call0.call0.call0.v126 Host.shrui,
    StableHlo.TRef.binary main_call0.call0.call0.v124 main_call0.call0.call0.v126 main_call0.call0.call0.v127 ori,
    StableHlo.TRef.binary main_call0.call0.call0.v122 main_call0.call0.call0.v127 main_call0.call0.call0.v128 xori,
    StableHlo.TRef.binary main_call0.call0.call0.v122 main_call0.call0.call0.v128 main_call0.call0.call0.v129 addi,
    StableHlo.TRef.nullary main_call0.call0.call0.c_33 (constantI S_ 32 24#32),
    StableHlo.TRef.unary main_call0.call0.call0.c_33 main_call0.call0.call0.v130 (broadcastInDim S2 ![] bcast_S_S2),
    StableHlo.TRef.binary main_call0.call0.call0.v128 main_call0.call0.call0.v130 main_call0.call0.call0.v131 Host.shli,
    StableHlo.TRef.nullary main_call0.call0.call0.c_34 (constantI S_ 32 8#32),
    StableHlo.TRef.unary main_call0.call0.call0.c_34 main_call0.call0.call0.v132 (broadcastInDim S2 ![] bcast_S_S2),
    StableHlo.TRef.binary main_call0.call0.call0.v128 main_call0.call0.call0.v132 main_call0.call0.call0.v133 Host.shrui,
    StableHlo.TRef.binary main_call0.call0.call0.v131 main_call0.call0.call0.v133 main_call0.call0.call0.v134 ori,
    StableHlo.TRef.binary main_call0.call0.call0.v129 main_call0.call0.call0.v134 main_call0.call0.call0.v135 xori,
    StableHlo.TRef.unary main_call0.call0.v3 main_call0.call0.call0.v136 (broadcastInDim S2 ![] bcast_S_S2),
    StableHlo.TRef.binary main_call0.call0.call0.v129 main_call0.call0.call0.v136 main_call0.call0.call0.v137 addi,
    StableHlo.TRef.unary main_call0.call0.call0.v1 main_call0.call0.call0.v138 (broadcastInDim S2 ![] bcast_S_S2),
    StableHlo.TRef.binary main_call0.call0.call0.v135 main_call0.call0.call0.v138 main_call0.call0.call0.v139 addi,
    StableHlo.TRef.nullary main_call0.call0.call0.c_35 (constantI S_ 32 4#32),
    StableHlo.TRef.unary main_call0.call0.call0.c_35 main_call0.call0.call0.v140 (broadcastInDim S2 ![] bcast_S_S2),
    StableHlo.TRef.binary main_call0.call0.call0.v139 main_call0.call0.call0.v140 main_call0.call0.call0.v141 addi,
    StableHlo.TRef.binary main_call0.call0.call0.v137 main_call0.call0.call0.v141 main_call0.call0.call0.v142 addi ]

theorem obl5 (x : FVec F S4x96x224x224 .f32) : Obl (τ := τ) 145 (ops5 (F := F)) (base4 x) (base5 x) :=
  Obl.binary 8 0 RefTerm.val_main_call0_call0_call0_v88 RefTerm.val_main_call0_call0_call0_v94 RefTerm.val_main_call0_call0_call0_v95 rfl rfl rfl rfl <|
  Obl.nullary RefTerm.val_main_call0_call0_call0_c_24 rfl rfl <|
  Obl.unary 0 RefTerm.val_main_call0_call0_call0_c_24 RefTerm.val_main_call0_call0_call0_v96 rfl rfl rfl <|
  Obl.binary 3 0 RefTerm.val_main_call0_call0_call0_v94 RefTerm.val_main_call0_call0_call0_v96 RefTerm.val_main_call0_call0_call0_v97 rfl rfl rfl rfl <|
  Obl.nullary RefTerm.val_main_call0_call0_call0_c_25 rfl rfl <|
  Obl.unary 0 RefTerm.val_main_call0_call0_call0_c_25 RefTerm.val_main_call0_call0_call0_v98 rfl rfl rfl <|
  Obl.binary 6 0 RefTerm.val_main_call0_call0_call0_v94 RefTerm.val_main_call0_call0_call0_v98 RefTerm.val_main_call0_call0_call0_v99 rfl rfl rfl rfl <|
  Obl.binary 3 0 RefTerm.val_main_call0_call0_call0_v97 RefTerm.val_main_call0_call0_call0_v99 RefTerm.val_main_call0_call0_call0_v100 rfl rfl rfl rfl <|
  Obl.binary 7 0 RefTerm.val_main_call0_call0_call0_v95 RefTerm.val_main_call0_call0_call0_v100 RefTerm.val_main_call0_call0_call0_v101 rfl rfl rfl rfl <|
  Obl.unary 140 RefTerm.val_main_call0_call0_v1 RefTerm.val_main_call0_call0_call0_v102 rfl rfl rfl <|
  Obl.binary 9 0 RefTerm.val_main_call0_call0_call0_v95 RefTerm.val_main_call0_call0_call0_v102 RefTerm.val_main_call0_call0_call0_v103 rfl rfl rfl rfl <|
  Obl.unary 140 RefTerm.val_main_call0_call0_v3 RefTerm.val_main_call0_call0_call0_v104 rfl rfl rfl <|
  Obl.binary 3 0 RefTerm.val_main_call0_call0_call0_v101 RefTerm.val_main_call0_call0_call0_v104 RefTerm.val_main_call0_call0_call0_v105 rfl rfl rfl rfl <|
  Obl.nullary RefTerm.val_main_call0_call0_call0_c_26 rfl rfl <|
  Obl.unary 0 RefTerm.val_main_call0_call0_call0_c_26 RefTerm.val_main_call0_call0_call0_v106 rfl rfl rfl <|
  Obl.binary 2 0 RefTerm.val_main_call0_call0_call0_v105 RefTerm.val_main_call0_call0_call0_v106 RefTerm.val_main_call0_call0_call0_v107 rfl rfl rfl rfl <|
  Obl.binary 5 0 RefTerm.val_main_call0_call0_call0_v103 RefTerm.val_main_call0_call0_call0_v107 RefTerm.val_main_call0_call0_call0_v108 rfl rfl rfl rfl <|
  Obl.nullary RefTerm.val_main_call0_call0_call0_c_27 rfl rfl <|
  Obl.unary 0 RefTerm.val_main_call0_call0_call0_c_27 RefTerm.val_main_call0_call0_call0_v109 rfl rfl rfl <|
  Obl.binary 3 0 RefTerm.val_main_call0_call0_call0_v107 RefTerm.val_main_call0_call0_call0_v109 RefTerm.val_main_call0_call0_call0_v110 rfl rfl rfl rfl <|
  Obl.nullary RefTerm.val_main_call0_call0_call0_c_28 rfl rfl <|
  Obl.unary 0 RefTerm.val_main_call0_call0_call0_c_28 RefTerm.val_main_call0_call0_call0_v111 rfl rfl rfl <|
  Obl.binary 6 0 RefTerm.val_main_call0_call0_call0_v107 RefTerm.val_main_call0_call0_call0_v111 RefTerm.val_main_call0_call0_call0_v112 rfl rfl rfl rfl <|
  Obl.binary 3 0 RefTerm.val_main_call0_call0_call0_v110 RefTerm.val_main_call0_call0_call0_v112 RefTerm.val_main_call0_call0_call0_v113 rfl rfl rfl rfl <|
  Obl.binary 7 0 RefTerm.val_main_call0_call0_call0_v108 RefTerm.val_main_call0_call0_call0_v113 RefTerm.val_main_call0_call0_call0_v114 rfl rfl rfl rfl <|
  Obl.binary 8 0 RefTerm.val_main_call0_call0_call0_v108 RefTerm.val_main_call0_call0_call0_v114 RefTerm.val_main_call0_call0_call0_v115 rfl rfl rfl rfl <|
  Obl.nullary RefTerm.val_main_call0_call0_call0_c_29 rfl rfl <|
  Obl.unary 0 RefTerm.val_main_call0_call0_call0_c_29 RefTerm.val_main_call0_call0_call0_v116 rfl rfl rfl <|
  Obl.binary 3 0 RefTerm.val_main_call0_call0_call0_v114 RefTerm.val_main_call0_call0_call0_v116 RefTerm.val_main_call0_call0_call0_v117 rfl rfl rfl rfl <|
  Obl.nullary RefTerm.val_main_call0_call0_call0_c_30 rfl rfl <|
  Obl.unary 0 RefTerm.val_main_call0_call0_call0_c_30 RefTerm.val_main_call0_call0_call0_v118 rfl rfl rfl <|
  Obl.binary 6 0 RefTerm.val_main_call0_call0_call0_v114 RefTerm.val_main_call0_call0_call0_v118 RefTerm.val_main_call0_call0_call0_v119 rfl rfl rfl rfl <|
  Obl.binary 3 0 RefTerm.val_main_call0_call0_call0_v117 RefTerm.val_main_call0_call0_call0_v119 RefTerm.val_main_call0_call0_call0_v120 rfl rfl rfl rfl <|
  Obl.binary 7 0 RefTerm.val_main_call0_call0_call0_v115 RefTerm.val_main_call0_call0_call0_v120 RefTerm.val_main_call0_call0_call0_v121 rfl rfl rfl rfl <|
  Obl.binary 8 0 RefTerm.val_main_call0_call0_call0_v115 RefTerm.val_main_call0_call0_call0_v121 RefTerm.val_main_call0_call0_call0_v122 rfl rfl rfl rfl <|
  Obl.nullary RefTerm.val_main_call0_call0_call0_c_31 rfl rfl <|
  Obl.unary 0 RefTerm.val_main_call0_call0_call0_c_31 RefTerm.val_main_call0_call0_call0_v123 rfl rfl rfl <|
  Obl.binary 3 0 RefTerm.val_main_call0_call0_call0_v121 RefTerm.val_main_call0_call0_call0_v123 RefTerm.val_main_call0_call0_call0_v124 rfl rfl rfl rfl <|
  Obl.nullary RefTerm.val_main_call0_call0_call0_c_32 rfl rfl <|
  Obl.unary 0 RefTerm.val_main_call0_call0_call0_c_32 RefTerm.val_main_call0_call0_call0_v125 rfl rfl rfl <|
  Obl.binary 6 0 RefTerm.val_main_call0_call0_call0_v121 RefTerm.val_main_call0_call0_call0_v125 RefTerm.val_main_call0_call0_call0_v126 rfl rfl rfl rfl <|
  Obl.binary 3 0 RefTerm.val_main_call0_call0_call0_v124 RefTerm.val_main_call0_call0_call0_v126 RefTerm.val_main_call0_call0_call0_v127 rfl rfl rfl rfl <|
  Obl.binary 7 0 RefTerm.val_main_call0_call0_call0_v122 RefTerm.val_main_call0_call0_call0_v127 RefTerm.val_main_call0_call0_call0_v128 rfl rfl rfl rfl <|
  Obl.binary 8 0 RefTerm.val_main_call0_call0_call0_v122 RefTerm.val_main_call0_call0_call0_v128 RefTerm.val_main_call0_call0_call0_v129 rfl rfl rfl rfl <|
  Obl.nullary RefTerm.val_main_call0_call0_call0_c_33 rfl rfl <|
  Obl.unary 0 RefTerm.val_main_call0_call0_call0_c_33 RefTerm.val_main_call0_call0_call0_v130 rfl rfl rfl <|
  Obl.binary 3 0 RefTerm.val_main_call0_call0_call0_v128 RefTerm.val_main_call0_call0_call0_v130 RefTerm.val_main_call0_call0_call0_v131 rfl rfl rfl rfl <|
  Obl.nullary RefTerm.val_main_call0_call0_call0_c_34 rfl rfl <|
  Obl.unary 0 RefTerm.val_main_call0_call0_call0_c_34 RefTerm.val_main_call0_call0_call0_v132 rfl rfl rfl <|
  Obl.binary 6 0 RefTerm.val_main_call0_call0_call0_v128 RefTerm.val_main_call0_call0_call0_v132 RefTerm.val_main_call0_call0_call0_v133 rfl rfl rfl rfl <|
  Obl.binary 3 0 RefTerm.val_main_call0_call0_call0_v131 RefTerm.val_main_call0_call0_call0_v133 RefTerm.val_main_call0_call0_call0_v134 rfl rfl rfl rfl <|
  Obl.binary 7 0 RefTerm.val_main_call0_call0_call0_v129 RefTerm.val_main_call0_call0_call0_v134 RefTerm.val_main_call0_call0_call0_v135 rfl rfl rfl rfl <|
  Obl.unary 181 RefTerm.val_main_call0_call0_v3 RefTerm.val_main_call0_call0_call0_v136 rfl rfl rfl <|
  Obl.binary 9 0 RefTerm.val_main_call0_call0_call0_v129 RefTerm.val_main_call0_call0_call0_v136 RefTerm.val_main_call0_call0_call0_v137 rfl rfl rfl rfl <|
  Obl.unary 171 RefTerm.val_main_call0_call0_call0_v1 RefTerm.val_main_call0_call0_call0_v138 rfl rfl rfl <|
  Obl.binary 3 0 RefTerm.val_main_call0_call0_call0_v135 RefTerm.val_main_call0_call0_call0_v138 RefTerm.val_main_call0_call0_call0_v139 rfl rfl rfl rfl <|
  Obl.nullary RefTerm.val_main_call0_call0_call0_c_35 rfl rfl <|
  Obl.unary 0 RefTerm.val_main_call0_call0_call0_c_35 RefTerm.val_main_call0_call0_call0_v140 rfl rfl rfl <|
  Obl.binary 2 0 RefTerm.val_main_call0_call0_call0_v139 RefTerm.val_main_call0_call0_call0_v140 RefTerm.val_main_call0_call0_call0_v141 rfl rfl rfl rfl <|
  Obl.binary 5 0 RefTerm.val_main_call0_call0_call0_v137 RefTerm.val_main_call0_call0_call0_v141 RefTerm.val_main_call0_call0_call0_v142 rfl rfl rfl rfl <|
  Obl.nil _ _

end Cert.ReferenceIdeal.RefRun

end
-- ==== Proof.RefRun6.lean ====
/- Stretch 6 of the reference program's text (fn_threefry2x32.body_part3): its operations 205 … 246 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 6, in order. -/
def ops6 : List (HloOp τ sig (Elt F)) :=
  [ StableHlo.TRef.nullary main_call0.call0.call0.c_36 (constantI S_ 32 13#32),
    StableHlo.TRef.unary main_call0.call0.call0.c_36 main_call0.call0.call0.v143 (broadcastInDim S2 ![] bcast_S_S2),
    StableHlo.TRef.binary main_call0.call0.call0.v141 main_call0.call0.call0.v143 main_call0.call0.call0.v144 Host.shli,
    StableHlo.TRef.nullary main_call0.call0.call0.c_37 (constantI S_ 32 19#32),
    StableHlo.TRef.unary main_call0.call0.call0.c_37 main_call0.call0.call0.v145 (broadcastInDim S2 ![] bcast_S_S2),
    StableHlo.TRef.binary main_call0.call0.call0.v141 main_call0.call0.call0.v145 main_call0.call0.call0.v146 Host.shrui,
    StableHlo.TRef.binary main_call0.call0.call0.v144 main_call0.call0.call0.v146 main_call0.call0.call0.v147 ori,
    StableHlo.TRef.binary main_call0.call0.call0.v142 main_call0.call0.call0.v147 main_call0.call0.call0.v148 xori,
    StableHlo.TRef.binary main_call0.call0.call0.v142 main_call0.call0.call0.v148 main_call0.call0.call0.v149 addi,
    StableHlo.TRef.nullary main_call0.call0.call0.c_38 (constantI S_ 32 15#32),
    StableHlo.TRef.unary main_call0.call0.call0.c_38 main_call0.call0.call0.v150 (broadcastInDim S2 ![] bcast_S_S2),
    StableHlo.TRef.binary main_call0.call0.call0.v148 main_call0.call0.call0.v150 main_call0.call0.call0.v151 Host.shli,
    StableHlo.TRef.nullary main_call0.call0.call0.c_39 (constantI S_ 32 17#32),
    StableHlo.TRef.unary main_call0.call0.call0.c_39 main_call0.call0.call0.v152 (broadcastInDim S2 ![] bcast_S_S2),
    StableHlo.TRef.binary main_call0.call0.call0.v148 main_call0.call0.call0.v152 main_call0.call0.call0.v153 Host.shrui,
    StableHlo.TRef.binary main_call0.call0.call0.v151 main_call0.call0.call0.v153 main_call0.call0.call0.v154 ori,
    StableHlo.TRef.binary main_call0.call0.call0.v149 main_call0.call0.call0.v154 main_call0.call0.call0.v155 xori,
    StableHlo.TRef.binary main_call0.call0.call0.v149 main_call0.call0.call0.v155 main_call0.call0.call0.v156 addi,
    StableHlo.TRef.nullary main_call0.call0.call0.c_40 (constantI S_ 32 26#32),
    StableHlo.TRef.unary main_call0.call0.call0.c_40 main_call0.call0.call0.v157 (broadcastInDim S2 ![] bcast_S_S2),
    StableHlo.TRef.binary main_call0.call0.call0.v155 main_call0.call0.call0.v157 main_call0.call0.call0.v158 Host.shli,
    StableHlo.TRef.nullary main_call0.call0.call0.c_41 (constantI S_ 32 6#32),
    StableHlo.TRef.unary main_call0.call0.call0.c_41 main_call0.call0.call0.v159 (broadcastInDim S2 ![] bcast_S_S2),
    StableHlo.TRef.binary main_call0.call0.call0.v155 main_call0.call0.call0.v159 main_call0.call0.call0.v160 Host.shrui,
    StableHlo.TRef.binary main_call0.call0.call0.v158 main_call0.call0.call0.v160 main_call0.call0.call0.v161 ori,
    StableHlo.TRef.binary main_call0.call0.call0.v156 main_call0.call0.call0.v161 main_call0.call0.call0.v162 xori,
    StableHlo.TRef.binary main_call0.call0.call0.v156 main_call0.call0.call0.v162 main_call0.call0.call0.v163 addi,
    StableHlo.TRef.nullary main_call0.call0.call0.c_42 (constantI S_ 32 6#32),
    StableHlo.TRef.unary main_call0.call0.call0.c_42 main_call0.call0.call0.v164 (broadcastInDim S2 ![] bcast_S_S2),
    StableHlo.TRef.binary main_call0.call0.call0.v162 main_call0.call0.call0.v164 main_call0.call0.call0.v165 Host.shli,
    StableHlo.TRef.nullary main_call0.call0.call0.c_43 (constantI S_ 32 26#32),
    StableHlo.TRef.unary main_call0.call0.call0.c_43 main_call0.call0.call0.v166 (broadcastInDim S2 ![] bcast_S_S2),
    StableHlo.TRef.binary main_call0.call0.call0.v162 main_call0.call0.call0.v166 main_call0.call0.call0.v167 Host.shrui,
    StableHlo.TRef.binary main_call0.call0.call0.v165 main_call0.call0.call0.v167 main_call0.call0.call0.v168 ori,
    StableHlo.TRef.binary main_call0.call0.call0.v163 main_call0.call0.call0.v168 main_call0.call0.call0.v169 xori,
    StableHlo.TRef.unary main_call0.call0.call0.v1 main_call0.call0.call0.v170 (broadcastInDim S2 ![] bcast_S_S2),
    StableHlo.TRef.binary main_call0.call0.call0.v163 main_call0.call0.call0.v170 main_call0.call0.call0.v171 addi,
    StableHlo.TRef.unary main_call0.call0.v1 main_call0.call0.call0.v172 (broadcastInDim S2 ![] bcast_S_S2),
    StableHlo.TRef.binary main_call0.call0.call0.v169 main_call0.call0.call0.v172 main_call0.call0.call0.v173 addi,
    StableHlo.TRef.nullary main_call0.call0.call0.c_44 (constantI S_ 32 5#32),
    StableHlo.TRef.unary main_call0.call0.call0.c_44 main_call0.call0.call0.v174 (broadcastInDim S2 ![] bcast_S_S2),
    StableHlo.TRef.binary main_call0.call0.call0.v173 main_call0.call0.call0.v174 main_call0.call0.call0.v175 addi ]

theorem obl6 (x : FVec F S4x96x224x224 .f32) : Obl (τ := τ) 205 (ops6 (F := F)) (base5 x) (base6 x) :=
  Obl.nullary RefTerm.val_main_call0_call0_call0_c_36 rfl rfl <|
  Obl.unary 0 RefTerm.val_main_call0_call0_call0_c_36 RefTerm.val_main_call0_call0_call0_v143 rfl rfl rfl <|
  Obl.binary 3 0 RefTerm.val_main_call0_call0_call0_v141 RefTerm.val_main_call0_call0_call0_v143 RefTerm.val_main_call0_call0_call0_v144 rfl rfl rfl rfl <|
  Obl.nullary RefTerm.val_main_call0_call0_call0_c_37 rfl rfl <|
  Obl.unary 0 RefTerm.val_main_call0_call0_call0_c_37 RefTerm.val_main_call0_call0_call0_v145 rfl rfl rfl <|
  Obl.binary 6 0 RefTerm.val_main_call0_call0_call0_v141 RefTerm.val_main_call0_call0_call0_v145 RefTerm.val_main_call0_call0_call0_v146 rfl rfl rfl rfl <|
  Obl.binary 3 0 RefTerm.val_main_call0_call0_call0_v144 RefTerm.val_main_call0_call0_call0_v146 RefTerm.val_main_call0_call0_call0_v147 rfl rfl rfl rfl <|
  Obl.binary 7 0 RefTerm.val_main_call0_call0_call0_v142 RefTerm.val_main_call0_call0_call0_v147 RefTerm.val_main_call0_call0_call0_v148 rfl rfl rfl rfl <|
  Obl.binary 8 0 RefTerm.val_main_call0_call0_call0_v142 RefTerm.val_main_call0_call0_call0_v148 RefTerm.val_main_call0_call0_call0_v149 rfl rfl rfl rfl <|
  Obl.nullary RefTerm.val_main_call0_call0_call0_c_38 rfl rfl <|
  Obl.unary 0 RefTerm.val_main_call0_call0_call0_c_38 RefTerm.val_main_call0_call0_call0_v150 rfl rfl rfl <|
  Obl.binary 3 0 RefTerm.val_main_call0_call0_call0_v148 RefTerm.val_main_call0_call0_call0_v150 RefTerm.val_main_call0_call0_call0_v151 rfl rfl rfl rfl <|
  Obl.nullary RefTerm.val_main_call0_call0_call0_c_39 rfl rfl <|
  Obl.unary 0 RefTerm.val_main_call0_call0_call0_c_39 RefTerm.val_main_call0_call0_call0_v152 rfl rfl rfl <|
  Obl.binary 6 0 RefTerm.val_main_call0_call0_call0_v148 RefTerm.val_main_call0_call0_call0_v152 RefTerm.val_main_call0_call0_call0_v153 rfl rfl rfl rfl <|
  Obl.binary 3 0 RefTerm.val_main_call0_call0_call0_v151 RefTerm.val_main_call0_call0_call0_v153 RefTerm.val_main_call0_call0_call0_v154 rfl rfl rfl rfl <|
  Obl.binary 7 0 RefTerm.val_main_call0_call0_call0_v149 RefTerm.val_main_call0_call0_call0_v154 RefTerm.val_main_call0_call0_call0_v155 rfl rfl rfl rfl <|
  Obl.binary 8 0 RefTerm.val_main_call0_call0_call0_v149 RefTerm.val_main_call0_call0_call0_v155 RefTerm.val_main_call0_call0_call0_v156 rfl rfl rfl rfl <|
  Obl.nullary RefTerm.val_main_call0_call0_call0_c_40 rfl rfl <|
  Obl.unary 0 RefTerm.val_main_call0_call0_call0_c_40 RefTerm.val_main_call0_call0_call0_v157 rfl rfl rfl <|
  Obl.binary 3 0 RefTerm.val_main_call0_call0_call0_v155 RefTerm.val_main_call0_call0_call0_v157 RefTerm.val_main_call0_call0_call0_v158 rfl rfl rfl rfl <|
  Obl.nullary RefTerm.val_main_call0_call0_call0_c_41 rfl rfl <|
  Obl.unary 0 RefTerm.val_main_call0_call0_call0_c_41 RefTerm.val_main_call0_call0_call0_v159 rfl rfl rfl <|
  Obl.binary 6 0 RefTerm.val_main_call0_call0_call0_v155 RefTerm.val_main_call0_call0_call0_v159 RefTerm.val_main_call0_call0_call0_v160 rfl rfl rfl rfl <|
  Obl.binary 3 0 RefTerm.val_main_call0_call0_call0_v158 RefTerm.val_main_call0_call0_call0_v160 RefTerm.val_main_call0_call0_call0_v161 rfl rfl rfl rfl <|
  Obl.binary 7 0 RefTerm.val_main_call0_call0_call0_v156 RefTerm.val_main_call0_call0_call0_v161 RefTerm.val_main_call0_call0_call0_v162 rfl rfl rfl rfl <|
  Obl.binary 8 0 RefTerm.val_main_call0_call0_call0_v156 RefTerm.val_main_call0_call0_call0_v162 RefTerm.val_main_call0_call0_call0_v163 rfl rfl rfl rfl <|
  Obl.nullary RefTerm.val_main_call0_call0_call0_c_42 rfl rfl <|
  Obl.unary 0 RefTerm.val_main_call0_call0_call0_c_42 RefTerm.val_main_call0_call0_call0_v164 rfl rfl rfl <|
  Obl.binary 3 0 RefTerm.val_main_call0_call0_call0_v162 RefTerm.val_main_call0_call0_call0_v164 RefTerm.val_main_call0_call0_call0_v165 rfl rfl rfl rfl <|
  Obl.nullary RefTerm.val_main_call0_call0_call0_c_43 rfl rfl <|
  Obl.unary 0 RefTerm.val_main_call0_call0_call0_c_43 RefTerm.val_main_call0_call0_call0_v166 rfl rfl rfl <|
  Obl.binary 6 0 RefTerm.val_main_call0_call0_call0_v162 RefTerm.val_main_call0_call0_call0_v166 RefTerm.val_main_call0_call0_call0_v167 rfl rfl rfl rfl <|
  Obl.binary 3 0 RefTerm.val_main_call0_call0_call0_v165 RefTerm.val_main_call0_call0_call0_v167 RefTerm.val_main_call0_call0_call0_v168 rfl rfl rfl rfl <|
  Obl.binary 7 0 RefTerm.val_main_call0_call0_call0_v163 RefTerm.val_main_call0_call0_call0_v168 RefTerm.val_main_call0_call0_call0_v169 rfl rfl rfl rfl <|
  Obl.unary 212 RefTerm.val_main_call0_call0_call0_v1 RefTerm.val_main_call0_call0_call0_v170 rfl rfl rfl <|
  Obl.binary 9 0 RefTerm.val_main_call0_call0_call0_v163 RefTerm.val_main_call0_call0_call0_v170 RefTerm.val_main_call0_call0_v11_0 rfl rfl rfl rfl <|
  Obl.unary 228 RefTerm.val_main_call0_call0_v1 RefTerm.val_main_call0_call0_call0_v172 rfl rfl rfl <|
  Obl.binary 3 0 RefTerm.val_main_call0_call0_call0_v169 RefTerm.val_main_call0_call0_call0_v172 RefTerm.val_main_call0_call0_call0_v173 rfl rfl rfl rfl <|
  Obl.nullary RefTerm.val_main_call0_call0_call0_c_44 rfl rfl <|
  Obl.unary 0 RefTerm.val_main_call0_call0_call0_c_44 RefTerm.val_main_call0_call0_call0_v174 rfl rfl rfl <|
  Obl.binary 2 0 RefTerm.val_main_call0_call0_call0_v173 RefTerm.val_main_call0_call0_call0_v174 RefTerm.val_main_call0_call0_v11_1 rfl rfl rfl rfl <|
  Obl.nil _ _

end Cert.ReferenceIdeal.RefRun

end
-- ==== Proof.RefRun7.lean ====
/- Stretch 7 of the reference program's text (fn_threefry_split.body (continued)): its operations 247 … 249 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 7, in order. -/
def ops7 : List (HloOp τ sig (Elt F)) :=
  [ StableHlo.TRef.unary main_call0.call0.call0.v171 main_call0.call0.v12 (broadcastInDim S2x1 ![0] bcast_S2_S2x1_0),
    StableHlo.TRef.unary main_call0.call0.call0.v175 main_call0.call0.v13 (broadcastInDim S2x1 ![0] bcast_S2_S2x1_0),
    StableHlo.TRef.binary main_call0.call0.v12 main_call0.call0.v13 main_call0.call0.v14 (fun a b => concatenate S2x2 1 [⟨S2x1, a⟩, ⟨S2x1, b⟩] concatenates_S2x1_S2x1_S2x2_d1) ]

theorem obl7 (x : FVec F S4x96x224x224 .f32) : Obl (τ := τ) 247 (ops7 (F := F)) (base6 x) (base7 x) :=
  Obl.unary 5 RefTerm.val_main_call0_call0_v11_0 RefTerm.val_main_call0_call0_v12 rfl rfl rfl <|
  Obl.unary 1 RefTerm.val_main_call0_call0_v11_1 RefTerm.val_main_call0_call0_v13 rfl rfl rfl <|
  Obl.binary 1 0 RefTerm.val_main_call0_call0_v12 RefTerm.val_main_call0_call0_v13 RefTerm.val_main_call0_v0 rfl rfl rfl rfl <|
  Obl.nil _ _

end Cert.ReferenceIdeal.RefRun

end
-- ==== Proof.RefRun8.lean ====
/- Stretch 8 of the reference program's text (fn_shuffle.body (continued)): its operations 250 … 266 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 8, in order. -/
def ops8 : List (HloOp τ sig (Elt F)) :=
  [ StableHlo.TRef.unary main_call0.call0.v14 main_call0.v1 (extractStridedSlice S1x2 ![0, 0] · slices_S2x2_S1x2_0_0),
    StableHlo.TRef.reshape main_call0.v1 main_call0.v2 rfl shapeCasts_S1x2_S2,
    StableHlo.TRef.unary main_call0.call0.v14 main_call0.v3 (extractStridedSlice S1x2 ![1, 0] · slices_S2x2_S1x2_1_0),
    StableHlo.TRef.reshape main_call0.v3 main_call0.v4 rfl shapeCasts_S1x2_S2,
    StableHlo.TRef.unary main_call0.v4 main_call0.v5 (extractStridedSlice S1 ![0] · slices_S2_S1_0),
    StableHlo.TRef.reshape main_call0.v5 main_call0.v6 rfl shapeCasts_S1_S_,
    StableHlo.TRef.unary main_call0.v4 main_call0.v7 (extractStridedSlice S1 ![1] · slices_S2_S1_1),
    StableHlo.TRef.reshape main_call0.v7 main_call0.v8 rfl shapeCasts_S1_S_,
    StableHlo.TRef.nullary main_call0.v9 (iotaInDim S95 64 0),
    StableHlo.TRef.nullary main_call0.c (constantI S_ 64 1#64),
    StableHlo.TRef.unary main_call0.c main_call0.v10 (broadcastInDim S95 ![] bcast_S_S95),
    StableHlo.TRef.binary main_call0.v10 main_call0.v9 main_call0.v11 muli,
    StableHlo.TRef.nullary main_call0.c_0 (constantI S_ 64 32#64),
    StableHlo.TRef.unary main_call0.c_0 main_call0.v12 (broadcastInDim S95 ![] bcast_S_S95),
    StableHlo.TRef.binary main_call0.v11 main_call0.v12 main_call0.v13 Host.shrui,
    StableHlo.TRef.unary main_call0.v11 main_call0.v14 (trunci 32 · natLt_32_64),
    StableHlo.TRef.unary main_call0.v13 main_call0.v15 (trunci 32 · natLt_32_64) ]

theorem obl8 (x : FVec F S4x96x224x224 .f32) : Obl (τ := τ) 250 (ops8 (F := F)) (base7 x) (base8 x) :=
  Obl.unary 0 RefTerm.val_main_call0_v0 RefTerm.val_main_call0_v1 rfl rfl rfl <|
  Obl.reshape 0 RefTerm.val_main_call0_v1 RefTerm.val_main_call0_v2 rfl (fun W h => by rw [reshape_result, h]; rfl) rfl <|
  Obl.unary 2 RefTerm.val_main_call0_v0 RefTerm.val_main_call0_v3 rfl rfl rfl <|
  Obl.reshape 0 RefTerm.val_main_call0_v3 RefTerm.val_main_call0_v4 rfl (fun W h => by rw [reshape_result, h]; rfl) rfl <|
  Obl.unary 0 RefTerm.val_main_call0_v4 RefTerm.val_main_call0_v5 rfl rfl rfl <|
  Obl.reshape 0 RefTerm.val_main_call0_v5 RefTerm.val_main_call0_v6 rfl (fun W h => by rw [reshape_result, h]; rfl) rfl <|
  Obl.unary 2 RefTerm.val_main_call0_v4 RefTerm.val_main_call0_v7 rfl rfl rfl <|
  Obl.reshape 0 RefTerm.val_main_call0_v7 RefTerm.val_main_call0_v8 rfl (fun W h => by rw [reshape_result, h]; rfl) rfl <|
  Obl.nullary RefTerm.val_main_call0_v9 rfl rfl <|
  Obl.nullary RefTerm.val_main_call0_c rfl rfl <|
  Obl.unary 0 RefTerm.val_main_call0_c RefTerm.val_main_call0_v10 rfl rfl rfl <|
  Obl.binary 0 2 RefTerm.val_main_call0_v10 RefTerm.val_main_call0_v9 RefTerm.val_main_call0_v11 rfl rfl rfl rfl <|
  Obl.nullary RefTerm.val_main_call0_c_0 rfl rfl <|
  Obl.unary 0 RefTerm.val_main_call0_c_0 RefTerm.val_main_call0_v12 rfl rfl rfl <|
  Obl.binary 2 0 RefTerm.val_main_call0_v11 RefTerm.val_main_call0_v12 RefTerm.val_main_call0_v13 rfl rfl rfl rfl <|
  Obl.unary 3 RefTerm.val_main_call0_v11 RefTerm.val_main_call0_v14 rfl rfl rfl <|
  Obl.unary 1 RefTerm.val_main_call0_v13 RefTerm.val_main_call0_v15 rfl rfl rfl <|
  Obl.nil _ _

end Cert.ReferenceIdeal.RefRun

end
-- ==== Proof.RefRun9.lean ====
/- Stretch 9 of the reference program's text (fn_threefry2x32_0.body_part0): its operations 267 … 326 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 9, in order. -/
def ops9 : List (HloOp τ sig (Elt F)) :=
  [ StableHlo.TRef.binary main_call0.v6 main_call0.v8 main_call0.call1.v0 xori,
    StableHlo.TRef.nullary main_call0.call1.c (constantI S_ 32 466688986#32),
    StableHlo.TRef.binary main_call0.call1.v0 main_call0.call1.c main_call0.call1.v1 xori,
    StableHlo.TRef.unary main_call0.v6 main_call0.call1.v2 (broadcastInDim S95 ![] bcast_S_S95),
    StableHlo.TRef.binary main_call0.v15 main_call0.call1.v2 main_call0.call1.v3 addi,
    StableHlo.TRef.unary main_call0.v8 main_call0.call1.v4 (broadcastInDim S95 ![] bcast_S_S95),
    StableHlo.TRef.binary main_call0.v14 main_call0.call1.v4 main_call0.call1.v5 addi,
    StableHlo.TRef.binary main_call0.call1.v3 main_call0.call1.v5 main_call0.call1.v6 addi,
    StableHlo.TRef.nullary main_call0.call1.c_0 (constantI S_ 32 13#32),
    StableHlo.TRef.unary main_call0.call1.c_0 main_call0.call1.v7 (broadcastInDim S95 ![] bcast_S_S95),
    StableHlo.TRef.binary main_call0.call1.v5 main_call0.call1.v7 main_call0.call1.v8 Host.shli,
    StableHlo.TRef.nullary main_call0.call1.c_1 (constantI S_ 32 19#32),
    StableHlo.TRef.unary main_call0.call1.c_1 main_call0.call1.v9 (broadcastInDim S95 ![] bcast_S_S95),
    StableHlo.TRef.binary main_call0.call1.v5 main_call0.call1.v9 main_call0.call1.v10 Host.shrui,
    StableHlo.TRef.binary main_call0.call1.v8 main_call0.call1.v10 main_call0.call1.v11 ori,
    StableHlo.TRef.binary main_call0.call1.v6 main_call0.call1.v11 main_call0.call1.v12 xori,
    StableHlo.TRef.binary main_call0.call1.v6 main_call0.call1.v12 main_call0.call1.v13 addi,
    StableHlo.TRef.nullary main_call0.call1.c_2 (constantI S_ 32 15#32),
    StableHlo.TRef.unary main_call0.call1.c_2 main_call0.call1.v14 (broadcastInDim S95 ![] bcast_S_S95),
    StableHlo.TRef.binary main_call0.call1.v12 main_call0.call1.v14 main_call0.call1.v15 Host.shli,
    StableHlo.TRef.nullary main_call0.call1.c_3 (constantI S_ 32 17#32),
    StableHlo.TRef.unary main_call0.call1.c_3 main_call0.call1.v16 (broadcastInDim S95 ![] bcast_S_S95),
    StableHlo.TRef.binary main_call0.call1.v12 main_call0.call1.v16 main_call0.call1.v17 Host.shrui,
    StableHlo.TRef.binary main_call0.call1.v15 main_call0.call1.v17 main_call0.call1.v18 ori,
    StableHlo.TRef.binary main_call0.call1.v13 main_call0.call1.v18 main_call0.call1.v19 xori,
    StableHlo.TRef.binary main_call0.call1.v13 main_call0.call1.v19 main_call0.call1.v20 addi,
    StableHlo.TRef.nullary main_call0.call1.c_4 (constantI S_ 32 26#32),
    StableHlo.TRef.unary main_call0.call1.c_4 main_call0.call1.v21 (broadcastInDim S95 ![] bcast_S_S95),
    StableHlo.TRef.binary main_call0.call1.v19 main_call0.call1.v21 main_call0.call1.v22 Host.shli,
    StableHlo.TRef.nullary main_call0.call1.c_5 (constantI S_ 32 6#32),
    StableHlo.TRef.unary main_call0.call1.c_5 main_call0.call1.v23 (broadcastInDim S95 ![] bcast_S_S95),
    StableHlo.TRef.binary main_call0.call1.v19 main_call0.call1.v23 main_call0.call1.v24 Host.shrui,
    StableHlo.TRef.binary main_call0.call1.v22 main_call0.call1.v24 main_call0.call1.v25 ori,
    StableHlo.TRef.binary main_call0.call1.v20 main_call0.call1.v25 main_call0.call1.v26 xori,
    StableHlo.TRef.binary main_call0.call1.v20 main_call0.call1.v26 main_call0.call1.v27 addi,
    StableHlo.TRef.nullary main_call0.call1.c_6 (constantI S_ 32 6#32),
    StableHlo.TRef.unary main_call0.call1.c_6 main_call0.call1.v28 (broadcastInDim S95 ![] bcast_S_S95),
    StableHlo.TRef.binary main_call0.call1.v26 main_call0.call1.v28 main_call0.call1.v29 Host.shli,
    StableHlo.TRef.nullary main_call0.call1.c_7 (constantI S_ 32 26#32),
    StableHlo.TRef.unary main_call0.call1.c_7 main_call0.call1.v30 (broadcastInDim S95 ![] bcast_S_S95),
    StableHlo.TRef.binary main_call0.call1.v26 main_call0.call1.v30 main_call0.call1.v31 Host.shrui,
    StableHlo.TRef.binary main_call0.call1.v29 main_call0.call1.v31 main_call0.call1.v32 ori,
    StableHlo.TRef.binary main_call0.call1.v27 main_call0.call1.v32 main_call0.call1.v33 xori,
    StableHlo.TRef.unary main_call0.v8 main_call0.call1.v34 (broadcastInDim S95 ![] bcast_S_S95),
    StableHlo.TRef.binary main_call0.call1.v27 main_call0.call1.v34 main_call0.call1.v35 addi,
    StableHlo.TRef.unary main_call0.call1.v1 main_call0.call1.v36 (broadcastInDim S95 ![] bcast_S_S95),
    StableHlo.TRef.binary main_call0.call1.v33 main_call0.call1.v36 main_call0.call1.v37 addi,
    StableHlo.TRef.nullary main_call0.call1.c_8 (constantI S_ 32 1#32),
    StableHlo.TRef.unary main_call0.call1.c_8 main_call0.call1.v38 (broadcastInDim S95 ![] bcast_S_S95),
    StableHlo.TRef.binary main_call0.call1.v37 main_call0.call1.v38 main_call0.call1.v39 addi,
    StableHlo.TRef.binary main_call0.call1.v35 main_call0.call1.v39 main_call0.call1.v40 addi,
    StableHlo.TRef.nullary main_call0.call1.c_9 (constantI S_ 32 17#32),
    StableHlo.TRef.unary main_call0.call1.c_9 main_call0.call1.v41 (broadcastInDim S95 ![] bcast_S_S95),
    StableHlo.TRef.binary main_call0.call1.v39 main_call0.call1.v41 main_call0.call1.v42 Host.shli,
    StableHlo.TRef.nullary main_call0.call1.c_10 (constantI S_ 32 15#32),
    StableHlo.TRef.unary main_call0.call1.c_10 main_call0.call1.v43 (broadcastInDim S95 ![] bcast_S_S95),
    StableHlo.TRef.binary main_call0.call1.v39 main_call0.call1.v43 main_call0.call1.v44 Host.shrui,
    StableHlo.TRef.binary main_call0.call1.v42 main_call0.call1.v44 main_call0.call1.v45 ori,
    StableHlo.TRef.binary main_call0.call1.v40 main_call0.call1.v45 main_call0.call1.v46 xori,
    StableHlo.TRef.binary main_call0.call1.v40 main_call0.call1.v46 main_call0.call1.v47 addi ]

theorem obl9 (x : FVec F S4x96x224x224 .f32) : Obl (τ := τ) 267 (ops9 (F := F)) (base8 x) (base9 x) :=
  Obl.binary 11 9 RefTerm.val_main_call0_v6 RefTerm.val_main_call0_v8 RefTerm.val_main_call0_call1_v0 rfl rfl rfl rfl <|
  Obl.nullary RefTerm.val_main_call0_call1_c rfl rfl <|
  Obl.binary 1 0 RefTerm.val_main_call0_call1_v0 RefTerm.val_main_call0_call1_c RefTerm.val_main_call0_call1_v1 rfl rfl rfl rfl <|
  Obl.unary 14 RefTerm.val_main_call0_v6 RefTerm.val_main_call0_call1_v2 rfl rfl rfl <|
  Obl.binary 4 0 RefTerm.val_main_call0_v15 RefTerm.val_main_call0_call1_v2 RefTerm.val_main_call0_call1_v3 rfl rfl rfl rfl <|
  Obl.unary 14 RefTerm.val_main_call0_v8 RefTerm.val_main_call0_call1_v4 rfl rfl rfl <|
  Obl.binary 7 0 RefTerm.val_main_call0_v14 RefTerm.val_main_call0_call1_v4 RefTerm.val_main_call0_call1_v5 rfl rfl rfl rfl <|
  Obl.binary 2 0 RefTerm.val_main_call0_call1_v3 RefTerm.val_main_call0_call1_v5 RefTerm.val_main_call0_call1_v6 rfl rfl rfl rfl <|
  Obl.nullary RefTerm.val_main_call0_call1_c_0 rfl rfl <|
  Obl.unary 0 RefTerm.val_main_call0_call1_c_0 RefTerm.val_main_call0_call1_v7 rfl rfl rfl <|
  Obl.binary 3 0 RefTerm.val_main_call0_call1_v5 RefTerm.val_main_call0_call1_v7 RefTerm.val_main_call0_call1_v8 rfl rfl rfl rfl <|
  Obl.nullary RefTerm.val_main_call0_call1_c_1 rfl rfl <|
  Obl.unary 0 RefTerm.val_main_call0_call1_c_1 RefTerm.val_main_call0_call1_v9 rfl rfl rfl <|
  Obl.binary 6 0 RefTerm.val_main_call0_call1_v5 RefTerm.val_main_call0_call1_v9 RefTerm.val_main_call0_call1_v10 rfl rfl rfl rfl <|
  Obl.binary 3 0 RefTerm.val_main_call0_call1_v8 RefTerm.val_main_call0_call1_v10 RefTerm.val_main_call0_call1_v11 rfl rfl rfl rfl <|
  Obl.binary 7 0 RefTerm.val_main_call0_call1_v6 RefTerm.val_main_call0_call1_v11 RefTerm.val_main_call0_call1_v12 rfl rfl rfl rfl <|
  Obl.binary 8 0 RefTerm.val_main_call0_call1_v6 RefTerm.val_main_call0_call1_v12 RefTerm.val_main_call0_call1_v13 rfl rfl rfl rfl <|
  Obl.nullary RefTerm.val_main_call0_call1_c_2 rfl rfl <|
  Obl.unary 0 RefTerm.val_main_call0_call1_c_2 RefTerm.val_main_call0_call1_v14 rfl rfl rfl <|
  Obl.binary 3 0 RefTerm.val_main_call0_call1_v12 RefTerm.val_main_call0_call1_v14 RefTerm.val_main_call0_call1_v15 rfl rfl rfl rfl <|
  Obl.nullary RefTerm.val_main_call0_call1_c_3 rfl rfl <|
  Obl.unary 0 RefTerm.val_main_call0_call1_c_3 RefTerm.val_main_call0_call1_v16 rfl rfl rfl <|
  Obl.binary 6 0 RefTerm.val_main_call0_call1_v12 RefTerm.val_main_call0_call1_v16 RefTerm.val_main_call0_call1_v17 rfl rfl rfl rfl <|
  Obl.binary 3 0 RefTerm.val_main_call0_call1_v15 RefTerm.val_main_call0_call1_v17 RefTerm.val_main_call0_call1_v18 rfl rfl rfl rfl <|
  Obl.binary 7 0 RefTerm.val_main_call0_call1_v13 RefTerm.val_main_call0_call1_v18 RefTerm.val_main_call0_call1_v19 rfl rfl rfl rfl <|
  Obl.binary 8 0 RefTerm.val_main_call0_call1_v13 RefTerm.val_main_call0_call1_v19 RefTerm.val_main_call0_call1_v20 rfl rfl rfl rfl <|
  Obl.nullary RefTerm.val_main_call0_call1_c_4 rfl rfl <|
  Obl.unary 0 RefTerm.val_main_call0_call1_c_4 RefTerm.val_main_call0_call1_v21 rfl rfl rfl <|
  Obl.binary 3 0 RefTerm.val_main_call0_call1_v19 RefTerm.val_main_call0_call1_v21 RefTerm.val_main_call0_call1_v22 rfl rfl rfl rfl <|
  Obl.nullary RefTerm.val_main_call0_call1_c_5 rfl rfl <|
  Obl.unary 0 RefTerm.val_main_call0_call1_c_5 RefTerm.val_main_call0_call1_v23 rfl rfl rfl <|
  Obl.binary 6 0 RefTerm.val_main_call0_call1_v19 RefTerm.val_main_call0_call1_v23 RefTerm.val_main_call0_call1_v24 rfl rfl rfl rfl <|
  Obl.binary 3 0 RefTerm.val_main_call0_call1_v22 RefTerm.val_main_call0_call1_v24 RefTerm.val_main_call0_call1_v25 rfl rfl rfl rfl <|
  Obl.binary 7 0 RefTerm.val_main_call0_call1_v20 RefTerm.val_main_call0_call1_v25 RefTerm.val_main_call0_call1_v26 rfl rfl rfl rfl <|
  Obl.binary 8 0 RefTerm.val_main_call0_call1_v20 RefTerm.val_main_call0_call1_v26 RefTerm.val_main_call0_call1_v27 rfl rfl rfl rfl <|
  Obl.nullary RefTerm.val_main_call0_call1_c_6 rfl rfl <|
  Obl.unary 0 RefTerm.val_main_call0_call1_c_6 RefTerm.val_main_call0_call1_v28 rfl rfl rfl <|
  Obl.binary 3 0 RefTerm.val_main_call0_call1_v26 RefTerm.val_main_call0_call1_v28 RefTerm.val_main_call0_call1_v29 rfl rfl rfl rfl <|
  Obl.nullary RefTerm.val_main_call0_call1_c_7 rfl rfl <|
  Obl.unary 0 RefTerm.val_main_call0_call1_c_7 RefTerm.val_main_call0_call1_v30 rfl rfl rfl <|
  Obl.binary 6 0 RefTerm.val_main_call0_call1_v26 RefTerm.val_main_call0_call1_v30 RefTerm.val_main_call0_call1_v31 rfl rfl rfl rfl <|
  Obl.binary 3 0 RefTerm.val_main_call0_call1_v29 RefTerm.val_main_call0_call1_v31 RefTerm.val_main_call0_call1_v32 rfl rfl rfl rfl <|
  Obl.binary 7 0 RefTerm.val_main_call0_call1_v27 RefTerm.val_main_call0_call1_v32 RefTerm.val_main_call0_call1_v33 rfl rfl rfl rfl <|
  Obl.unary 52 RefTerm.val_main_call0_v8 RefTerm.val_main_call0_call1_v34 rfl rfl rfl <|
  Obl.binary 9 0 RefTerm.val_main_call0_call1_v27 RefTerm.val_main_call0_call1_v34 RefTerm.val_main_call0_call1_v35 rfl rfl rfl rfl <|
  Obl.unary 42 RefTerm.val_main_call0_call1_v1 RefTerm.val_main_call0_call1_v36 rfl rfl rfl <|
  Obl.binary 3 0 RefTerm.val_main_call0_call1_v33 RefTerm.val_main_call0_call1_v36 RefTerm.val_main_call0_call1_v37 rfl rfl rfl rfl <|
  Obl.nullary RefTerm.val_main_call0_call1_c_8 rfl rfl <|
  Obl.unary 0 RefTerm.val_main_call0_call1_c_8 RefTerm.val_main_call0_call1_v38 rfl rfl rfl <|
  Obl.binary 2 0 RefTerm.val_main_call0_call1_v37 RefTerm.val_main_call0_call1_v38 RefTerm.val_main_call0_call1_v39 rfl rfl rfl rfl <|
  Obl.binary 5 0 RefTerm.val_main_call0_call1_v35 RefTerm.val_main_call0_call1_v39 RefTerm.val_main_call0_call1_v40 rfl rfl rfl rfl <|
  Obl.nullary RefTerm.val_main_call0_call1_c_9 rfl rfl <|
  Obl.unary 0 RefTerm.val_main_call0_call1_c_9 RefTerm.val_main_call0_call1_v41 rfl rfl rfl <|
  Obl.binary 3 0 RefTerm.val_main_call0_call1_v39 RefTerm.val_main_call0_call1_v41 RefTerm.val_main_call0_call1_v42 rfl rfl rfl rfl <|
  Obl.nullary RefTerm.val_main_call0_call1_c_10 rfl rfl <|
  Obl.unary 0 RefTerm.val_main_call0_call1_c_10 RefTerm.val_main_call0_call1_v43 rfl rfl rfl <|
  Obl.binary 6 0 RefTerm.val_main_call0_call1_v39 RefTerm.val_main_call0_call1_v43 RefTerm.val_main_call0_call1_v44 rfl rfl rfl rfl <|
  Obl.binary 3 0 RefTerm.val_main_call0_call1_v42 RefTerm.val_main_call0_call1_v44 RefTerm.val_main_call0_call1_v45 rfl rfl rfl rfl <|
  Obl.binary 7 0 RefTerm.val_main_call0_call1_v40 RefTerm.val_main_call0_call1_v45 RefTerm.val_main_call0_call1_v46 rfl rfl rfl rfl <|
  Obl.binary 8 0 RefTerm.val_main_call0_call1_v40 RefTerm.val_main_call0_call1_v46 RefTerm.val_main_call0_call1_v47 rfl rfl rfl rfl <|
  Obl.nil _ _

end Cert.ReferenceIdeal.RefRun

end
-- ==== Proof.RefRun10.lean ====
/- Stretch 10 of the reference program's text (fn_threefry2x32_0.body_part1): its operations 327 … 386 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 10, in order. -/
def ops10 : List (HloOp τ sig (Elt F)) :=
  [ StableHlo.TRef.nullary main_call0.call1.c_11 (constantI S_ 32 29#32),
    StableHlo.TRef.unary main_call0.call1.c_11 main_call0.call1.v48 (broadcastInDim S95 ![] bcast_S_S95),
    StableHlo.TRef.binary main_call0.call1.v46 main_call0.call1.v48 main_call0.call1.v49 Host.shli,
    StableHlo.TRef.nullary main_call0.call1.c_12 (constantI S_ 32 3#32),
    StableHlo.TRef.unary main_call0.call1.c_12 main_call0.call1.v50 (broadcastInDim S95 ![] bcast_S_S95),
    StableHlo.TRef.binary main_call0.call1.v46 main_call0.call1.v50 main_call0.call1.v51 Host.shrui,
    StableHlo.TRef.binary main_call0.call1.v49 main_call0.call1.v51 main_call0.call1.v52 ori,
    StableHlo.TRef.binary main_call0.call1.v47 main_call0.call1.v52 main_call0.call1.v53 xori,
    StableHlo.TRef.binary main_call0.call1.v47 main_call0.call1.v53 main_call0.call1.v54 addi,
    StableHlo.TRef.nullary main_call0.call1.c_13 (constantI S_ 32 16#32),
    StableHlo.TRef.unary main_call0.call1.c_13 main_call0.call1.v55 (broadcastInDim S95 ![] bcast_S_S95),
    StableHlo.TRef.binary main_call0.call1.v53 main_call0.call1.v55 main_call0.call1.v56 Host.shli,
    StableHlo.TRef.nullary main_call0.call1.c_14 (constantI S_ 32 16#32),
    StableHlo.TRef.unary main_call0.call1.c_14 main_call0.call1.v57 (broadcastInDim S95 ![] bcast_S_S95),
    StableHlo.TRef.binary main_call0.call1.v53 main_call0.call1.v57 main_call0.call1.v58 Host.shrui,
    StableHlo.TRef.binary main_call0.call1.v56 main_call0.call1.v58 main_call0.call1.v59 ori,
    StableHlo.TRef.binary main_call0.call1.v54 main_call0.call1.v59 main_call0.call1.v60 xori,
    StableHlo.TRef.binary main_call0.call1.v54 main_call0.call1.v60 main_call0.call1.v61 addi,
    StableHlo.TRef.nullary main_call0.call1.c_15 (constantI S_ 32 24#32),
    StableHlo.TRef.unary main_call0.call1.c_15 main_call0.call1.v62 (broadcastInDim S95 ![] bcast_S_S95),
    StableHlo.TRef.binary main_call0.call1.v60 main_call0.call1.v62 main_call0.call1.v63 Host.shli,
    StableHlo.TRef.nullary main_call0.call1.c_16 (constantI S_ 32 8#32),
    StableHlo.TRef.unary main_call0.call1.c_16 main_call0.call1.v64 (broadcastInDim S95 ![] bcast_S_S95),
    StableHlo.TRef.binary main_call0.call1.v60 main_call0.call1.v64 main_call0.call1.v65 Host.shrui,
    StableHlo.TRef.binary main_call0.call1.v63 main_call0.call1.v65 main_call0.call1.v66 ori,
    StableHlo.TRef.binary main_call0.call1.v61 main_call0.call1.v66 main_call0.call1.v67 xori,
    StableHlo.TRef.unary main_call0.call1.v1 main_call0.call1.v68 (broadcastInDim S95 ![] bcast_S_S95),
    StableHlo.TRef.binary main_call0.call1.v61 main_call0.call1.v68 main_call0.call1.v69 addi,
    StableHlo.TRef.unary main_call0.v6 main_call0.call1.v70 (broadcastInDim S95 ![] bcast_S_S95),
    StableHlo.TRef.binary main_call0.call1.v67 main_call0.call1.v70 main_call0.call1.v71 addi,
    StableHlo.TRef.nullary main_call0.call1.c_17 (constantI S_ 32 2#32),
    StableHlo.TRef.unary main_call0.call1.c_17 main_call0.call1.v72 (broadcastInDim S95 ![] bcast_S_S95),
    StableHlo.TRef.binary main_call0.call1.v71 main_call0.call1.v72 main_call0.call1.v73 addi,
    StableHlo.TRef.binary main_call0.call1.v69 main_call0.call1.v73 main_call0.call1.v74 addi,
    StableHlo.TRef.nullary main_call0.call1.c_18 (constantI S_ 32 13#32),
    StableHlo.TRef.unary main_call0.call1.c_18 main_call0.call1.v75 (broadcastInDim S95 ![] bcast_S_S95),
    StableHlo.TRef.binary main_call0.call1.v73 main_call0.call1.v75 main_call0.call1.v76 Host.shli,
    StableHlo.TRef.nullary main_call0.call1.c_19 (constantI S_ 32 19#32),
    StableHlo.TRef.unary main_call0.call1.c_19 main_call0.call1.v77 (broadcastInDim S95 ![] bcast_S_S95),
    StableHlo.TRef.binary main_call0.call1.v73 main_call0.call1.v77 main_call0.call1.v78 Host.shrui,
    StableHlo.TRef.binary main_call0.call1.v76 main_call0.call1.v78 main_call0.call1.v79 ori,
    StableHlo.TRef.binary main_call0.call1.v74 main_call0.call1.v79 main_call0.call1.v80 xori,
    StableHlo.TRef.binary main_call0.call1.v74 main_call0.call1.v80 main_call0.call1.v81 addi,
    StableHlo.TRef.nullary main_call0.call1.c_20 (constantI S_ 32 15#32),
    StableHlo.TRef.unary main_call0.call1.c_20 main_call0.call1.v82 (broadcastInDim S95 ![] bcast_S_S95),
    StableHlo.TRef.binary main_call0.call1.v80 main_call0.call1.v82 main_call0.call1.v83 Host.shli,
    StableHlo.TRef.nullary main_call0.call1.c_21 (constantI S_ 32 17#32),
    StableHlo.TRef.unary main_call0.call1.c_21 main_call0.call1.v84 (broadcastInDim S95 ![] bcast_S_S95),
    StableHlo.TRef.binary main_call0.call1.v80 main_call0.call1.v84 main_call0.call1.v85 Host.shrui,
    StableHlo.TRef.binary main_call0.call1.v83 main_call0.call1.v85 main_call0.call1.v86 ori,
    StableHlo.TRef.binary main_call0.call1.v81 main_call0.call1.v86 main_call0.call1.v87 xori,
    StableHlo.TRef.binary main_call0.call1.v81 main_call0.call1.v87 main_call0.call1.v88 addi,
    StableHlo.TRef.nullary main_call0.call1.c_22 (constantI S_ 32 26#32),
    StableHlo.TRef.unary main_call0.call1.c_22 main_call0.call1.v89 (broadcastInDim S95 ![] bcast_S_S95),
    StableHlo.TRef.binary main_call0.call1.v87 main_call0.call1.v89 main_call0.call1.v90 Host.shli,
    StableHlo.TRef.nullary main_call0.call1.c_23 (constantI S_ 32 6#32),
    StableHlo.TRef.unary main_call0.call1.c_23 main_call0.call1.v91 (broadcastInDim S95 ![] bcast_S_S95),
    StableHlo.TRef.binary main_call0.call1.v87 main_call0.call1.v91 main_call0.call1.v92 Host.shrui,
    StableHlo.TRef.binary main_call0.call1.v90 main_call0.call1.v92 main_call0.call1.v93 ori,
    StableHlo.TRef.binary main_call0.call1.v88 main_call0.call1.v93 main_call0.call1.v94 xori ]

theorem obl10 (x : FVec F S4x96x224x224 .f32) : Obl (τ := τ) 327 (ops10 (F := F)) (base9 x) (base10 x) :=
  Obl.nullary RefTerm.val_main_call0_call1_c_11 rfl rfl <|
  Obl.unary 0 RefTerm.val_main_call0_call1_c_11 RefTerm.val_main_call0_call1_v48 rfl rfl rfl <|
  Obl.binary 3 0 RefTerm.val_main_call0_call1_v46 RefTerm.val_main_call0_call1_v48 RefTerm.val_main_call0_call1_v49 rfl rfl rfl rfl <|
  Obl.nullary RefTerm.val_main_call0_call1_c_12 rfl rfl <|
  Obl.unary 0 RefTerm.val_main_call0_call1_c_12 RefTerm.val_main_call0_call1_v50 rfl rfl rfl <|
  Obl.binary 6 0 RefTerm.val_main_call0_call1_v46 RefTerm.val_main_call0_call1_v50 RefTerm.val_main_call0_call1_v51 rfl rfl rfl rfl <|
  Obl.binary 3 0 RefTerm.val_main_call0_call1_v49 RefTerm.val_main_call0_call1_v51 RefTerm.val_main_call0_call1_v52 rfl rfl rfl rfl <|
  Obl.binary 7 0 RefTerm.val_main_call0_call1_v47 RefTerm.val_main_call0_call1_v52 RefTerm.val_main_call0_call1_v53 rfl rfl rfl rfl <|
  Obl.binary 8 0 RefTerm.val_main_call0_call1_v47 RefTerm.val_main_call0_call1_v53 RefTerm.val_main_call0_call1_v54 rfl rfl rfl rfl <|
  Obl.nullary RefTerm.val_main_call0_call1_c_13 rfl rfl <|
  Obl.unary 0 RefTerm.val_main_call0_call1_c_13 RefTerm.val_main_call0_call1_v55 rfl rfl rfl <|
  Obl.binary 3 0 RefTerm.val_main_call0_call1_v53 RefTerm.val_main_call0_call1_v55 RefTerm.val_main_call0_call1_v56 rfl rfl rfl rfl <|
  Obl.nullary RefTerm.val_main_call0_call1_c_14 rfl rfl <|
  Obl.unary 0 RefTerm.val_main_call0_call1_c_14 RefTerm.val_main_call0_call1_v57 rfl rfl rfl <|
  Obl.binary 6 0 RefTerm.val_main_call0_call1_v53 RefTerm.val_main_call0_call1_v57 RefTerm.val_main_call0_call1_v58 rfl rfl rfl rfl <|
  Obl.binary 3 0 RefTerm.val_main_call0_call1_v56 RefTerm.val_main_call0_call1_v58 RefTerm.val_main_call0_call1_v59 rfl rfl rfl rfl <|
  Obl.binary 7 0 RefTerm.val_main_call0_call1_v54 RefTerm.val_main_call0_call1_v59 RefTerm.val_main_call0_call1_v60 rfl rfl rfl rfl <|
  Obl.binary 8 0 RefTerm.val_main_call0_call1_v54 RefTerm.val_main_call0_call1_v60 RefTerm.val_main_call0_call1_v61 rfl rfl rfl rfl <|
  Obl.nullary RefTerm.val_main_call0_call1_c_15 rfl rfl <|
  Obl.unary 0 RefTerm.val_main_call0_call1_c_15 RefTerm.val_main_call0_call1_v62 rfl rfl rfl <|
  Obl.binary 3 0 RefTerm.val_main_call0_call1_v60 RefTerm.val_main_call0_call1_v62 RefTerm.val_main_call0_call1_v63 rfl rfl rfl rfl <|
  Obl.nullary RefTerm.val_main_call0_call1_c_16 rfl rfl <|
  Obl.unary 0 RefTerm.val_main_call0_call1_c_16 RefTerm.val_main_call0_call1_v64 rfl rfl rfl <|
  Obl.binary 6 0 RefTerm.val_main_call0_call1_v60 RefTerm.val_main_call0_call1_v64 RefTerm.val_main_call0_call1_v65 rfl rfl rfl rfl <|
  Obl.binary 3 0 RefTerm.val_main_call0_call1_v63 RefTerm.val_main_call0_call1_v65 RefTerm.val_main_call0_call1_v66 rfl rfl rfl rfl <|
  Obl.binary 7 0 RefTerm.val_main_call0_call1_v61 RefTerm.val_main_call0_call1_v66 RefTerm.val_main_call0_call1_v67 rfl rfl rfl rfl <|
  Obl.unary 83 RefTerm.val_main_call0_call1_v1 RefTerm.val_main_call0_call1_v68 rfl rfl rfl <|
  Obl.binary 9 0 RefTerm.val_main_call0_call1_v61 RefTerm.val_main_call0_call1_v68 RefTerm.val_main_call0_call1_v69 rfl rfl rfl rfl <|
  Obl.unary 99 RefTerm.val_main_call0_v6 RefTerm.val_main_call0_call1_v70 rfl rfl rfl <|
  Obl.binary 3 0 RefTerm.val_main_call0_call1_v67 RefTerm.val_main_call0_call1_v70 RefTerm.val_main_call0_call1_v71 rfl rfl rfl rfl <|
  Obl.nullary RefTerm.val_main_call0_call1_c_17 rfl rfl <|
  Obl.unary 0 RefTerm.val_main_call0_call1_c_17 RefTerm.val_main_call0_call1_v72 rfl rfl rfl <|
  Obl.binary 2 0 RefTerm.val_main_call0_call1_v71 RefTerm.val_main_call0_call1_v72 RefTerm.val_main_call0_call1_v73 rfl rfl rfl rfl <|
  Obl.binary 5 0 RefTerm.val_main_call0_call1_v69 RefTerm.val_main_call0_call1_v73 RefTerm.val_main_call0_call1_v74 rfl rfl rfl rfl <|
  Obl.nullary RefTerm.val_main_call0_call1_c_18 rfl rfl <|
  Obl.unary 0 RefTerm.val_main_call0_call1_c_18 RefTerm.val_main_call0_call1_v75 rfl rfl rfl <|
  Obl.binary 3 0 RefTerm.val_main_call0_call1_v73 RefTerm.val_main_call0_call1_v75 RefTerm.val_main_call0_call1_v76 rfl rfl rfl rfl <|
  Obl.nullary RefTerm.val_main_call0_call1_c_19 rfl rfl <|
  Obl.unary 0 RefTerm.val_main_call0_call1_c_19 RefTerm.val_main_call0_call1_v77 rfl rfl rfl <|
  Obl.binary 6 0 RefTerm.val_main_call0_call1_v73 RefTerm.val_main_call0_call1_v77 RefTerm.val_main_call0_call1_v78 rfl rfl rfl rfl <|
  Obl.binary 3 0 RefTerm.val_main_call0_call1_v76 RefTerm.val_main_call0_call1_v78 RefTerm.val_main_call0_call1_v79 rfl rfl rfl rfl <|
  Obl.binary 7 0 RefTerm.val_main_call0_call1_v74 RefTerm.val_main_call0_call1_v79 RefTerm.val_main_call0_call1_v80 rfl rfl rfl rfl <|
  Obl.binary 8 0 RefTerm.val_main_call0_call1_v74 RefTerm.val_main_call0_call1_v80 RefTerm.val_main_call0_call1_v81 rfl rfl rfl rfl <|
  Obl.nullary RefTerm.val_main_call0_call1_c_20 rfl rfl <|
  Obl.unary 0 RefTerm.val_main_call0_call1_c_20 RefTerm.val_main_call0_call1_v82 rfl rfl rfl <|
  Obl.binary 3 0 RefTerm.val_main_call0_call1_v80 RefTerm.val_main_call0_call1_v82 RefTerm.val_main_call0_call1_v83 rfl rfl rfl rfl <|
  Obl.nullary RefTerm.val_main_call0_call1_c_21 rfl rfl <|
  Obl.unary 0 RefTerm.val_main_call0_call1_c_21 RefTerm.val_main_call0_call1_v84 rfl rfl rfl <|
  Obl.binary 6 0 RefTerm.val_main_call0_call1_v80 RefTerm.val_main_call0_call1_v84 RefTerm.val_main_call0_call1_v85 rfl rfl rfl rfl <|
  Obl.binary 3 0 RefTerm.val_main_call0_call1_v83 RefTerm.val_main_call0_call1_v85 RefTerm.val_main_call0_call1_v86 rfl rfl rfl rfl <|
  Obl.binary 7 0 RefTerm.val_main_call0_call1_v81 RefTerm.val_main_call0_call1_v86 RefTerm.val_main_call0_call1_v87 rfl rfl rfl rfl <|
  Obl.binary 8 0 RefTerm.val_main_call0_call1_v81 RefTerm.val_main_call0_call1_v87 RefTerm.val_main_call0_call1_v88 rfl rfl rfl rfl <|
  Obl.nullary RefTerm.val_main_call0_call1_c_22 rfl rfl <|
  Obl.unary 0 RefTerm.val_main_call0_call1_c_22 RefTerm.val_main_call0_call1_v89 rfl rfl rfl <|
  Obl.binary 3 0 RefTerm.val_main_call0_call1_v87 RefTerm.val_main_call0_call1_v89 RefTerm.val_main_call0_call1_v90 rfl rfl rfl rfl <|
  Obl.nullary RefTerm.val_main_call0_call1_c_23 rfl rfl <|
  Obl.unary 0 RefTerm.val_main_call0_call1_c_23 RefTerm.val_main_call0_call1_v91 rfl rfl rfl <|
  Obl.binary 6 0 RefTerm.val_main_call0_call1_v87 RefTerm.val_main_call0_call1_v91 RefTerm.val_main_call0_call1_v92 rfl rfl rfl rfl <|
  Obl.binary 3 0 RefTerm.val_main_call0_call1_v90 RefTerm.val_main_call0_call1_v92 RefTerm.val_main_call0_call1_v93 rfl rfl rfl rfl <|
  Obl.binary 7 0 RefTerm.val_main_call0_call1_v88 RefTerm.val_main_call0_call1_v93 RefTerm.val_main_call0_call1_v94 rfl rfl rfl rfl <|
  Obl.nil _ _

end Cert.ReferenceIdeal.RefRun

end
-- ==== Proof.RefRun11.lean ====
/- Stretch 11 of the reference program's text (fn_threefry2x32_0.body_part2): its operations 387 … 446 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 11, in order. -/
def ops11 : List (HloOp τ sig (Elt F)) :=
  [ StableHlo.TRef.binary main_call0.call1.v88 main_call0.call1.v94 main_call0.call1.v95 addi,
    StableHlo.TRef.nullary main_call0.call1.c_24 (constantI S_ 32 6#32),
    StableHlo.TRef.unary main_call0.call1.c_24 main_call0.call1.v96 (broadcastInDim S95 ![] bcast_S_S95),
    StableHlo.TRef.binary main_call0.call1.v94 main_call0.call1.v96 main_call0.call1.v97 Host.shli,
    StableHlo.TRef.nullary main_call0.call1.c_25 (constantI S_ 32 26#32),
    StableHlo.TRef.unary main_call0.call1.c_25 main_call0.call1.v98 (broadcastInDim S95 ![] bcast_S_S95),
    StableHlo.TRef.binary main_call0.call1.v94 main_call0.call1.v98 main_call0.call1.v99 Host.shrui,
    StableHlo.TRef.binary main_call0.call1.v97 main_call0.call1.v99 main_call0.call1.v100 ori,
    StableHlo.TRef.binary main_call0.call1.v95 main_call0.call1.v100 main_call0.call1.v101 xori,
    StableHlo.TRef.unary main_call0.v6 main_call0.call1.v102 (broadcastInDim S95 ![] bcast_S_S95),
    StableHlo.TRef.binary main_call0.call1.v95 main_call0.call1.v102 main_call0.call1.v103 addi,
    StableHlo.TRef.unary main_call0.v8 main_call0.call1.v104 (broadcastInDim S95 ![] bcast_S_S95),
    StableHlo.TRef.binary main_call0.call1.v101 main_call0.call1.v104 main_call0.call1.v105 addi,
    StableHlo.TRef.nullary main_call0.call1.c_26 (constantI S_ 32 3#32),
    StableHlo.TRef.unary main_call0.call1.c_26 main_call0.call1.v106 (broadcastInDim S95 ![] bcast_S_S95),
    StableHlo.TRef.binary main_call0.call1.v105 main_call0.call1.v106 main_call0.call1.v107 addi,
    StableHlo.TRef.binary main_call0.call1.v103 main_call0.call1.v107 main_call0.call1.v108 addi,
    StableHlo.TRef.nullary main_call0.call1.c_27 (constantI S_ 32 17#32),
    StableHlo.TRef.unary main_call0.call1.c_27 main_call0.call1.v109 (broadcastInDim S95 ![] bcast_S_S95),
    StableHlo.TRef.binary main_call0.call1.v107 main_call0.call1.v109 main_call0.call1.v110 Host.shli,
    StableHlo.TRef.nullary main_call0.call1.c_28 (constantI S_ 32 15#32),
    StableHlo.TRef.unary main_call0.call1.c_28 main_call0.call1.v111 (broadcastInDim S95 ![] bcast_S_S95),
    StableHlo.TRef.binary main_call0.call1.v107 main_call0.call1.v111 main_call0.call1.v112 Host.shrui,
    StableHlo.TRef.binary main_call0.call1.v110 main_call0.call1.v112 main_call0.call1.v113 ori,
    StableHlo.TRef.binary main_call0.call1.v108 main_call0.call1.v113 main_call0.call1.v114 xori,
    StableHlo.TRef.binary main_call0.call1.v108 main_call0.call1.v114 main_call0.call1.v115 addi,
    StableHlo.TRef.nullary main_call0.call1.c_29 (constantI S_ 32 29#32),
    StableHlo.TRef.unary main_call0.call1.c_29 main_call0.call1.v116 (broadcastInDim S95 ![] bcast_S_S95),
    StableHlo.TRef.binary main_call0.call1.v114 main_call0.call1.v116 main_call0.call1.v117 Host.shli,
    StableHlo.TRef.nullary main_call0.call1.c_30 (constantI S_ 32 3#32),
    StableHlo.TRef.unary main_call0.call1.c_30 main_call0.call1.v118 (broadcastInDim S95 ![] bcast_S_S95),
    StableHlo.TRef.binary main_call0.call1.v114 main_call0.call1.v118 main_call0.call1.v119 Host.shrui,
    StableHlo.TRef.binary main_call0.call1.v117 main_call0.call1.v119 main_call0.call1.v120 ori,
    StableHlo.TRef.binary main_call0.call1.v115 main_call0.call1.v120 main_call0.call1.v121 xori,
    StableHlo.TRef.binary main_call0.call1.v115 main_call0.call1.v121 main_call0.call1.v122 addi,
    StableHlo.TRef.nullary main_call0.call1.c_31 (constantI S_ 32 16#32),
    StableHlo.TRef.unary main_call0.call1.c_31 main_call0.call1.v123 (broadcastInDim S95 ![] bcast_S_S95),
    StableHlo.TRef.binary main_call0.call1.v121 main_call0.call1.v123 main_call0.call1.v124 Host.shli,
    StableHlo.TRef.nullary main_call0.call1.c_32 (constantI S_ 32 16#32),
    StableHlo.TRef.unary main_call0.call1.c_32 main_call0.call1.v125 (broadcastInDim S95 ![] bcast_S_S95),
    StableHlo.TRef.binary main_call0.call1.v121 main_call0.call1.v125 main_call0.call1.v126 Host.shrui,
    StableHlo.TRef.binary main_call0.call1.v124 main_call0.call1.v126 main_call0.call1.v127 ori,
    StableHlo.TRef.binary main_call0.call1.v122 main_call0.call1.v127 main_call0.call1.v128 xori,
    StableHlo.TRef.binary main_call0.call1.v122 main_call0.call1.v128 main_call0.call1.v129 addi,
    StableHlo.TRef.nullary main_call0.call1.c_33 (constantI S_ 32 24#32),
    StableHlo.TRef.unary main_call0.call1.c_33 main_call0.call1.v130 (broadcastInDim S95 ![] bcast_S_S95),
    StableHlo.TRef.binary main_call0.call1.v128 main_call0.call1.v130 main_call0.call1.v131 Host.shli,
    StableHlo.TRef.nullary main_call0.call1.c_34 (constantI S_ 32 8#32),
    StableHlo.TRef.unary main_call0.call1.c_34 main_call0.call1.v132 (broadcastInDim S95 ![] bcast_S_S95),
    StableHlo.TRef.binary main_call0.call1.v128 main_call0.call1.v132 main_call0.call1.v133 Host.shrui,
    StableHlo.TRef.binary main_call0.call1.v131 main_call0.call1.v133 main_call0.call1.v134 ori,
    StableHlo.TRef.binary main_call0.call1.v129 main_call0.call1.v134 main_call0.call1.v135 xori,
    StableHlo.TRef.unary main_call0.v8 main_call0.call1.v136 (broadcastInDim S95 ![] bcast_S_S95),
    StableHlo.TRef.binary main_call0.call1.v129 main_call0.call1.v136 main_call0.call1.v137 addi,
    StableHlo.TRef.unary main_call0.call1.v1 main_call0.call1.v138 (broadcastInDim S95 ![] bcast_S_S95),
    StableHlo.TRef.binary main_call0.call1.v135 main_call0.call1.v138 main_call0.call1.v139 addi,
    StableHlo.TRef.nullary main_call0.call1.c_35 (constantI S_ 32 4#32),
    StableHlo.TRef.unary main_call0.call1.c_35 main_call0.call1.v140 (broadcastInDim S95 ![] bcast_S_S95),
    StableHlo.TRef.binary main_call0.call1.v139 main_call0.call1.v140 main_call0.call1.v141 addi,
    StableHlo.TRef.binary main_call0.call1.v137 main_call0.call1.v141 main_call0.call1.v142 addi ]

theorem obl11 (x : FVec F S4x96x224x224 .f32) : Obl (τ := τ) 387 (ops11 (F := F)) (base10 x) (base11 x) :=
  Obl.binary 8 0 RefTerm.val_main_call0_call1_v88 RefTerm.val_main_call0_call1_v94 RefTerm.val_main_call0_call1_v95 rfl rfl rfl rfl <|
  Obl.nullary RefTerm.val_main_call0_call1_c_24 rfl rfl <|
  Obl.unary 0 RefTerm.val_main_call0_call1_c_24 RefTerm.val_main_call0_call1_v96 rfl rfl rfl <|
  Obl.binary 3 0 RefTerm.val_main_call0_call1_v94 RefTerm.val_main_call0_call1_v96 RefTerm.val_main_call0_call1_v97 rfl rfl rfl rfl <|
  Obl.nullary RefTerm.val_main_call0_call1_c_25 rfl rfl <|
  Obl.unary 0 RefTerm.val_main_call0_call1_c_25 RefTerm.val_main_call0_call1_v98 rfl rfl rfl <|
  Obl.binary 6 0 RefTerm.val_main_call0_call1_v94 RefTerm.val_main_call0_call1_v98 RefTerm.val_main_call0_call1_v99 rfl rfl rfl rfl <|
  Obl.binary 3 0 RefTerm.val_main_call0_call1_v97 RefTerm.val_main_call0_call1_v99 RefTerm.val_main_call0_call1_v100 rfl rfl rfl rfl <|
  Obl.binary 7 0 RefTerm.val_main_call0_call1_v95 RefTerm.val_main_call0_call1_v100 RefTerm.val_main_call0_call1_v101 rfl rfl rfl rfl <|
  Obl.unary 140 RefTerm.val_main_call0_v6 RefTerm.val_main_call0_call1_v102 rfl rfl rfl <|
  Obl.binary 9 0 RefTerm.val_main_call0_call1_v95 RefTerm.val_main_call0_call1_v102 RefTerm.val_main_call0_call1_v103 rfl rfl rfl rfl <|
  Obl.unary 140 RefTerm.val_main_call0_v8 RefTerm.val_main_call0_call1_v104 rfl rfl rfl <|
  Obl.binary 3 0 RefTerm.val_main_call0_call1_v101 RefTerm.val_main_call0_call1_v104 RefTerm.val_main_call0_call1_v105 rfl rfl rfl rfl <|
  Obl.nullary RefTerm.val_main_call0_call1_c_26 rfl rfl <|
  Obl.unary 0 RefTerm.val_main_call0_call1_c_26 RefTerm.val_main_call0_call1_v106 rfl rfl rfl <|
  Obl.binary 2 0 RefTerm.val_main_call0_call1_v105 RefTerm.val_main_call0_call1_v106 RefTerm.val_main_call0_call1_v107 rfl rfl rfl rfl <|
  Obl.binary 5 0 RefTerm.val_main_call0_call1_v103 RefTerm.val_main_call0_call1_v107 RefTerm.val_main_call0_call1_v108 rfl rfl rfl rfl <|
  Obl.nullary RefTerm.val_main_call0_call1_c_27 rfl rfl <|
  Obl.unary 0 RefTerm.val_main_call0_call1_c_27 RefTerm.val_main_call0_call1_v109 rfl rfl rfl <|
  Obl.binary 3 0 RefTerm.val_main_call0_call1_v107 RefTerm.val_main_call0_call1_v109 RefTerm.val_main_call0_call1_v110 rfl rfl rfl rfl <|
  Obl.nullary RefTerm.val_main_call0_call1_c_28 rfl rfl <|
  Obl.unary 0 RefTerm.val_main_call0_call1_c_28 RefTerm.val_main_call0_call1_v111 rfl rfl rfl <|
  Obl.binary 6 0 RefTerm.val_main_call0_call1_v107 RefTerm.val_main_call0_call1_v111 RefTerm.val_main_call0_call1_v112 rfl rfl rfl rfl <|
  Obl.binary 3 0 RefTerm.val_main_call0_call1_v110 RefTerm.val_main_call0_call1_v112 RefTerm.val_main_call0_call1_v113 rfl rfl rfl rfl <|
  Obl.binary 7 0 RefTerm.val_main_call0_call1_v108 RefTerm.val_main_call0_call1_v113 RefTerm.val_main_call0_call1_v114 rfl rfl rfl rfl <|
  Obl.binary 8 0 RefTerm.val_main_call0_call1_v108 RefTerm.val_main_call0_call1_v114 RefTerm.val_main_call0_call1_v115 rfl rfl rfl rfl <|
  Obl.nullary RefTerm.val_main_call0_call1_c_29 rfl rfl <|
  Obl.unary 0 RefTerm.val_main_call0_call1_c_29 RefTerm.val_main_call0_call1_v116 rfl rfl rfl <|
  Obl.binary 3 0 RefTerm.val_main_call0_call1_v114 RefTerm.val_main_call0_call1_v116 RefTerm.val_main_call0_call1_v117 rfl rfl rfl rfl <|
  Obl.nullary RefTerm.val_main_call0_call1_c_30 rfl rfl <|
  Obl.unary 0 RefTerm.val_main_call0_call1_c_30 RefTerm.val_main_call0_call1_v118 rfl rfl rfl <|
  Obl.binary 6 0 RefTerm.val_main_call0_call1_v114 RefTerm.val_main_call0_call1_v118 RefTerm.val_main_call0_call1_v119 rfl rfl rfl rfl <|
  Obl.binary 3 0 RefTerm.val_main_call0_call1_v117 RefTerm.val_main_call0_call1_v119 RefTerm.val_main_call0_call1_v120 rfl rfl rfl rfl <|
  Obl.binary 7 0 RefTerm.val_main_call0_call1_v115 RefTerm.val_main_call0_call1_v120 RefTerm.val_main_call0_call1_v121 rfl rfl rfl rfl <|
  Obl.binary 8 0 RefTerm.val_main_call0_call1_v115 RefTerm.val_main_call0_call1_v121 RefTerm.val_main_call0_call1_v122 rfl rfl rfl rfl <|
  Obl.nullary RefTerm.val_main_call0_call1_c_31 rfl rfl <|
  Obl.unary 0 RefTerm.val_main_call0_call1_c_31 RefTerm.val_main_call0_call1_v123 rfl rfl rfl <|
  Obl.binary 3 0 RefTerm.val_main_call0_call1_v121 RefTerm.val_main_call0_call1_v123 RefTerm.val_main_call0_call1_v124 rfl rfl rfl rfl <|
  Obl.nullary RefTerm.val_main_call0_call1_c_32 rfl rfl <|
  Obl.unary 0 RefTerm.val_main_call0_call1_c_32 RefTerm.val_main_call0_call1_v125 rfl rfl rfl <|
  Obl.binary 6 0 RefTerm.val_main_call0_call1_v121 RefTerm.val_main_call0_call1_v125 RefTerm.val_main_call0_call1_v126 rfl rfl rfl rfl <|
  Obl.binary 3 0 RefTerm.val_main_call0_call1_v124 RefTerm.val_main_call0_call1_v126 RefTerm.val_main_call0_call1_v127 rfl rfl rfl rfl <|
  Obl.binary 7 0 RefTerm.val_main_call0_call1_v122 RefTerm.val_main_call0_call1_v127 RefTerm.val_main_call0_call1_v128 rfl rfl rfl rfl <|
  Obl.binary 8 0 RefTerm.val_main_call0_call1_v122 RefTerm.val_main_call0_call1_v128 RefTerm.val_main_call0_call1_v129 rfl rfl rfl rfl <|
  Obl.nullary RefTerm.val_main_call0_call1_c_33 rfl rfl <|
  Obl.unary 0 RefTerm.val_main_call0_call1_c_33 RefTerm.val_main_call0_call1_v130 rfl rfl rfl <|
  Obl.binary 3 0 RefTerm.val_main_call0_call1_v128 RefTerm.val_main_call0_call1_v130 RefTerm.val_main_call0_call1_v131 rfl rfl rfl rfl <|
  Obl.nullary RefTerm.val_main_call0_call1_c_34 rfl rfl <|
  Obl.unary 0 RefTerm.val_main_call0_call1_c_34 RefTerm.val_main_call0_call1_v132 rfl rfl rfl <|
  Obl.binary 6 0 RefTerm.val_main_call0_call1_v128 RefTerm.val_main_call0_call1_v132 RefTerm.val_main_call0_call1_v133 rfl rfl rfl rfl <|
  Obl.binary 3 0 RefTerm.val_main_call0_call1_v131 RefTerm.val_main_call0_call1_v133 RefTerm.val_main_call0_call1_v134 rfl rfl rfl rfl <|
  Obl.binary 7 0 RefTerm.val_main_call0_call1_v129 RefTerm.val_main_call0_call1_v134 RefTerm.val_main_call0_call1_v135 rfl rfl rfl rfl <|
  Obl.unary 181 RefTerm.val_main_call0_v8 RefTerm.val_main_call0_call1_v136 rfl rfl rfl <|
  Obl.binary 9 0 RefTerm.val_main_call0_call1_v129 RefTerm.val_main_call0_call1_v136 RefTerm.val_main_call0_call1_v137 rfl rfl rfl rfl <|
  Obl.unary 171 RefTerm.val_main_call0_call1_v1 RefTerm.val_main_call0_call1_v138 rfl rfl rfl <|
  Obl.binary 3 0 RefTerm.val_main_call0_call1_v135 RefTerm.val_main_call0_call1_v138 RefTerm.val_main_call0_call1_v139 rfl rfl rfl rfl <|
  Obl.nullary RefTerm.val_main_call0_call1_c_35 rfl rfl <|
  Obl.unary 0 RefTerm.val_main_call0_call1_c_35 RefTerm.val_main_call0_call1_v140 rfl rfl rfl <|
  Obl.binary 2 0 RefTerm.val_main_call0_call1_v139 RefTerm.val_main_call0_call1_v140 RefTerm.val_main_call0_call1_v141 rfl rfl rfl rfl <|
  Obl.binary 5 0 RefTerm.val_main_call0_call1_v137 RefTerm.val_main_call0_call1_v141 RefTerm.val_main_call0_call1_v142 rfl rfl rfl rfl <|
  Obl.nil _ _

end Cert.ReferenceIdeal.RefRun

end
-- ==== Proof.RefRun12.lean ====
/- Stretch 12 of the reference program's text (fn_threefry2x32_0.body_part3): its operations 447 … 488 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 12, in order. -/
def ops12 : List (HloOp τ sig (Elt F)) :=
  [ StableHlo.TRef.nullary main_call0.call1.c_36 (constantI S_ 32 13#32),
    StableHlo.TRef.unary main_call0.call1.c_36 main_call0.call1.v143 (broadcastInDim S95 ![] bcast_S_S95),
    StableHlo.TRef.binary main_call0.call1.v141 main_call0.call1.v143 main_call0.call1.v144 Host.shli,
    StableHlo.TRef.nullary main_call0.call1.c_37 (constantI S_ 32 19#32),
    StableHlo.TRef.unary main_call0.call1.c_37 main_call0.call1.v145 (broadcastInDim S95 ![] bcast_S_S95),
    StableHlo.TRef.binary main_call0.call1.v141 main_call0.call1.v145 main_call0.call1.v146 Host.shrui,
    StableHlo.TRef.binary main_call0.call1.v144 main_call0.call1.v146 main_call0.call1.v147 ori,
    StableHlo.TRef.binary main_call0.call1.v142 main_call0.call1.v147 main_call0.call1.v148 xori,
    StableHlo.TRef.binary main_call0.call1.v142 main_call0.call1.v148 main_call0.call1.v149 addi,
    StableHlo.TRef.nullary main_call0.call1.c_38 (constantI S_ 32 15#32),
    StableHlo.TRef.unary main_call0.call1.c_38 main_call0.call1.v150 (broadcastInDim S95 ![] bcast_S_S95),
    StableHlo.TRef.binary main_call0.call1.v148 main_call0.call1.v150 main_call0.call1.v151 Host.shli,
    StableHlo.TRef.nullary main_call0.call1.c_39 (constantI S_ 32 17#32),
    StableHlo.TRef.unary main_call0.call1.c_39 main_call0.call1.v152 (broadcastInDim S95 ![] bcast_S_S95),
    StableHlo.TRef.binary main_call0.call1.v148 main_call0.call1.v152 main_call0.call1.v153 Host.shrui,
    StableHlo.TRef.binary main_call0.call1.v151 main_call0.call1.v153 main_call0.call1.v154 ori,
    StableHlo.TRef.binary main_call0.call1.v149 main_call0.call1.v154 main_call0.call1.v155 xori,
    StableHlo.TRef.binary main_call0.call1.v149 main_call0.call1.v155 main_call0.call1.v156 addi,
    StableHlo.TRef.nullary main_call0.call1.c_40 (constantI S_ 32 26#32),
    StableHlo.TRef.unary main_call0.call1.c_40 main_call0.call1.v157 (broadcastInDim S95 ![] bcast_S_S95),
    StableHlo.TRef.binary main_call0.call1.v155 main_call0.call1.v157 main_call0.call1.v158 Host.shli,
    StableHlo.TRef.nullary main_call0.call1.c_41 (constantI S_ 32 6#32),
    StableHlo.TRef.unary main_call0.call1.c_41 main_call0.call1.v159 (broadcastInDim S95 ![] bcast_S_S95),
    StableHlo.TRef.binary main_call0.call1.v155 main_call0.call1.v159 main_call0.call1.v160 Host.shrui,
    StableHlo.TRef.binary main_call0.call1.v158 main_call0.call1.v160 main_call0.call1.v161 ori,
    StableHlo.TRef.binary main_call0.call1.v156 main_call0.call1.v161 main_call0.call1.v162 xori,
    StableHlo.TRef.binary main_call0.call1.v156 main_call0.call1.v162 main_call0.call1.v163 addi,
    StableHlo.TRef.nullary main_call0.call1.c_42 (constantI S_ 32 6#32),
    StableHlo.TRef.unary main_call0.call1.c_42 main_call0.call1.v164 (broadcastInDim S95 ![] bcast_S_S95),
    StableHlo.TRef.binary main_call0.call1.v162 main_call0.call1.v164 main_call0.call1.v165 Host.shli,
    StableHlo.TRef.nullary main_call0.call1.c_43 (constantI S_ 32 26#32),
    StableHlo.TRef.unary main_call0.call1.c_43 main_call0.call1.v166 (broadcastInDim S95 ![] bcast_S_S95),
    StableHlo.TRef.binary main_call0.call1.v162 main_call0.call1.v166 main_call0.call1.v167 Host.shrui,
    StableHlo.TRef.binary main_call0.call1.v165 main_call0.call1.v167 main_call0.call1.v168 ori,
    StableHlo.TRef.binary main_call0.call1.v163 main_call0.call1.v168 main_call0.call1.v169 xori,
    StableHlo.TRef.unary main_call0.call1.v1 main_call0.call1.v170 (broadcastInDim S95 ![] bcast_S_S95),
    StableHlo.TRef.binary main_call0.call1.v163 main_call0.call1.v170 main_call0.call1.v171 addi,
    StableHlo.TRef.unary main_call0.v6 main_call0.call1.v172 (broadcastInDim S95 ![] bcast_S_S95),
    StableHlo.TRef.binary main_call0.call1.v169 main_call0.call1.v172 main_call0.call1.v173 addi,
    StableHlo.TRef.nullary main_call0.call1.c_44 (constantI S_ 32 5#32),
    StableHlo.TRef.unary main_call0.call1.c_44 main_call0.call1.v174 (broadcastInDim S95 ![] bcast_S_S95),
    StableHlo.TRef.binary main_call0.call1.v173 main_call0.call1.v174 main_call0.call1.v175 addi ]

theorem obl12 (x : FVec F S4x96x224x224 .f32) : Obl (τ := τ) 447 (ops12 (F := F)) (base11 x) (base12 x) :=
  Obl.nullary RefTerm.val_main_call0_call1_c_36 rfl rfl <|
  Obl.unary 0 RefTerm.val_main_call0_call1_c_36 RefTerm.val_main_call0_call1_v143 rfl rfl rfl <|
  Obl.binary 3 0 RefTerm.val_main_call0_call1_v141 RefTerm.val_main_call0_call1_v143 RefTerm.val_main_call0_call1_v144 rfl rfl rfl rfl <|
  Obl.nullary RefTerm.val_main_call0_call1_c_37 rfl rfl <|
  Obl.unary 0 RefTerm.val_main_call0_call1_c_37 RefTerm.val_main_call0_call1_v145 rfl rfl rfl <|
  Obl.binary 6 0 RefTerm.val_main_call0_call1_v141 RefTerm.val_main_call0_call1_v145 RefTerm.val_main_call0_call1_v146 rfl rfl rfl rfl <|
  Obl.binary 3 0 RefTerm.val_main_call0_call1_v144 RefTerm.val_main_call0_call1_v146 RefTerm.val_main_call0_call1_v147 rfl rfl rfl rfl <|
  Obl.binary 7 0 RefTerm.val_main_call0_call1_v142 RefTerm.val_main_call0_call1_v147 RefTerm.val_main_call0_call1_v148 rfl rfl rfl rfl <|
  Obl.binary 8 0 RefTerm.val_main_call0_call1_v142 RefTerm.val_main_call0_call1_v148 RefTerm.val_main_call0_call1_v149 rfl rfl rfl rfl <|
  Obl.nullary RefTerm.val_main_call0_call1_c_38 rfl rfl <|
  Obl.unary 0 RefTerm.val_main_call0_call1_c_38 RefTerm.val_main_call0_call1_v150 rfl rfl rfl <|
  Obl.binary 3 0 RefTerm.val_main_call0_call1_v148 RefTerm.val_main_call0_call1_v150 RefTerm.val_main_call0_call1_v151 rfl rfl rfl rfl <|
  Obl.nullary RefTerm.val_main_call0_call1_c_39 rfl rfl <|
  Obl.unary 0 RefTerm.val_main_call0_call1_c_39 RefTerm.val_main_call0_call1_v152 rfl rfl rfl <|
  Obl.binary 6 0 RefTerm.val_main_call0_call1_v148 RefTerm.val_main_call0_call1_v152 RefTerm.val_main_call0_call1_v153 rfl rfl rfl rfl <|
  Obl.binary 3 0 RefTerm.val_main_call0_call1_v151 RefTerm.val_main_call0_call1_v153 RefTerm.val_main_call0_call1_v154 rfl rfl rfl rfl <|
  Obl.binary 7 0 RefTerm.val_main_call0_call1_v149 RefTerm.val_main_call0_call1_v154 RefTerm.val_main_call0_call1_v155 rfl rfl rfl rfl <|
  Obl.binary 8 0 RefTerm.val_main_call0_call1_v149 RefTerm.val_main_call0_call1_v155 RefTerm.val_main_call0_call1_v156 rfl rfl rfl rfl <|
  Obl.nullary RefTerm.val_main_call0_call1_c_40 rfl rfl <|
  Obl.unary 0 RefTerm.val_main_call0_call1_c_40 RefTerm.val_main_call0_call1_v157 rfl rfl rfl <|
  Obl.binary 3 0 RefTerm.val_main_call0_call1_v155 RefTerm.val_main_call0_call1_v157 RefTerm.val_main_call0_call1_v158 rfl rfl rfl rfl <|
  Obl.nullary RefTerm.val_main_call0_call1_c_41 rfl rfl <|
  Obl.unary 0 RefTerm.val_main_call0_call1_c_41 RefTerm.val_main_call0_call1_v159 rfl rfl rfl <|
  Obl.binary 6 0 RefTerm.val_main_call0_call1_v155 RefTerm.val_main_call0_call1_v159 RefTerm.val_main_call0_call1_v160 rfl rfl rfl rfl <|
  Obl.binary 3 0 RefTerm.val_main_call0_call1_v158 RefTerm.val_main_call0_call1_v160 RefTerm.val_main_call0_call1_v161 rfl rfl rfl rfl <|
  Obl.binary 7 0 RefTerm.val_main_call0_call1_v156 RefTerm.val_main_call0_call1_v161 RefTerm.val_main_call0_call1_v162 rfl rfl rfl rfl <|
  Obl.binary 8 0 RefTerm.val_main_call0_call1_v156 RefTerm.val_main_call0_call1_v162 RefTerm.val_main_call0_call1_v163 rfl rfl rfl rfl <|
  Obl.nullary RefTerm.val_main_call0_call1_c_42 rfl rfl <|
  Obl.unary 0 RefTerm.val_main_call0_call1_c_42 RefTerm.val_main_call0_call1_v164 rfl rfl rfl <|
  Obl.binary 3 0 RefTerm.val_main_call0_call1_v162 RefTerm.val_main_call0_call1_v164 RefTerm.val_main_call0_call1_v165 rfl rfl rfl rfl <|
  Obl.nullary RefTerm.val_main_call0_call1_c_43 rfl rfl <|
  Obl.unary 0 RefTerm.val_main_call0_call1_c_43 RefTerm.val_main_call0_call1_v166 rfl rfl rfl <|
  Obl.binary 6 0 RefTerm.val_main_call0_call1_v162 RefTerm.val_main_call0_call1_v166 RefTerm.val_main_call0_call1_v167 rfl rfl rfl rfl <|
  Obl.binary 3 0 RefTerm.val_main_call0_call1_v165 RefTerm.val_main_call0_call1_v167 RefTerm.val_main_call0_call1_v168 rfl rfl rfl rfl <|
  Obl.binary 7 0 RefTerm.val_main_call0_call1_v163 RefTerm.val_main_call0_call1_v168 RefTerm.val_main_call0_call1_v169 rfl rfl rfl rfl <|
  Obl.unary 212 RefTerm.val_main_call0_call1_v1 RefTerm.val_main_call0_call1_v170 rfl rfl rfl <|
  Obl.binary 9 0 RefTerm.val_main_call0_call1_v163 RefTerm.val_main_call0_call1_v170 RefTerm.val_main_call0_v16_0 rfl rfl rfl rfl <|
  Obl.unary 228 RefTerm.val_main_call0_v6 RefTerm.val_main_call0_call1_v172 rfl rfl rfl <|
  Obl.binary 3 0 RefTerm.val_main_call0_call1_v169 RefTerm.val_main_call0_call1_v172 RefTerm.val_main_call0_call1_v173 rfl rfl rfl rfl <|
  Obl.nullary RefTerm.val_main_call0_call1_c_44 rfl rfl <|
  Obl.unary 0 RefTerm.val_main_call0_call1_c_44 RefTerm.val_main_call0_call1_v174 rfl rfl rfl <|
  Obl.binary 2 0 RefTerm.val_main_call0_call1_v173 RefTerm.val_main_call0_call1_v174 RefTerm.val_main_call0_v16_1 rfl rfl rfl rfl <|
  Obl.nil _ _

end Cert.ReferenceIdeal.RefRun

end
-- ==== Proof.RefRun13.lean ====
/- Stretch 13 of the reference program's text (fn_shuffle.body (continued)): its operations 489 … 491 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 13, in order. -/
def ops13 : List (HloOp τ sig (Elt F)) :=
  [ StableHlo.TRef.binary main_call0.call1.v171 main_call0.call1.v175 main_call0.v17 xori,
    StableHlo.TRef.binary main_call0.v17 (.of main_v7 : StableHlo.TRef sig ⟨S95, .i32⟩) main_call0.v18_0 (fun x y => (Host.sort2 S95 0 comparator_i32_i32_d0 x y).1),
    StableHlo.TRef.binary main_call0.v17 (.of main_v7 : StableHlo.TRef sig ⟨S95, .i32⟩) main_call0.v18_1 (fun x y => (Host.sort2 S95 0 comparator_i32_i32_d0 x y).2) ]

theorem obl13 (x : FVec F S4x96x224x224 .f32) : Obl (τ := τ) 489 (ops13 (F := F)) (base12 x) (base13 x) :=
  Obl.binary 5 0 RefTerm.val_main_call0_v16_0 RefTerm.val_main_call0_v16_1 RefTerm.val_main_call0_v17 rfl rfl rfl rfl <|
  Obl.binary 0 478 RefTerm.val_main_call0_v17 RefTerm.val_main_v7 RefTerm.val_main_call0_v18_0 rfl rfl rfl rfl <|
  Obl.binary 1 479 RefTerm.val_main_call0_v17 RefTerm.val_main_v7 RefTerm.val_main_v8 rfl rfl rfl rfl <|
  Obl.nil _ _

end Cert.ReferenceIdeal.RefRun

end
-- ==== Proof.RefRun14.lean ====
/- Stretch 14 of the reference program's text (main (continued)): its operations 492 … 513 as a list, copied from the
   program with the call's arguments and buffer record in place of the function's parameters, and the stretch's obligation:
   operation by operation, the positions of the operands' cells among the cells so far (the last written first) and the
   result's cell, each equation between the operation's function at the operands' terms and the result's term by rfl. -/
import proofs.«214360_g58884001628789_cont_9to1c4b_137_4_alg».proof.Proof.RefRunCells

set_option maxRecDepth 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of stretch 14, in order. -/
def ops14 : List (HloOp τ sig (Elt F)) :=
  [ StableHlo.unary main_v8 main_v9 ((extractStridedSlice S9 ![0] · slices_S95_S9_0) : (⟨S95, .i32⟩ : BufTy).Contents (Elt F) → (⟨S9, .i32⟩ : BufTy).Contents (Elt F)),
    StableHlo.nullary main_c_2 (constantI S_ 32 1#32),
    StableHlo.unary main_c_2 main_v10 (broadcastInDim S9 ![] bcast_S_S9 : (⟨S_, .i32⟩ : BufTy).Contents (Elt F) → (⟨S9, .i32⟩ : BufTy).Contents (Elt F)),
    StableHlo.binary main_v9 main_v10 main_v11 (addi : (⟨S9, .i32⟩ : BufTy).Contents (Elt F) → (⟨S9, .i32⟩ : BufTy).Contents (Elt F) → (⟨S9, .i32⟩ : BufTy).Contents (Elt F)),
    StableHlo.nullary main_c_3 (constantI S_ 32 0#32),
    StableHlo.unary main_c_3 main_v12 (broadcastInDim S9 ![] bcast_S_S9 : (⟨S_, .i32⟩ : BufTy).Contents (Elt F) → (⟨S9, .i32⟩ : BufTy).Contents (Elt F)),
    StableHlo.binary main_v11 main_v12 main_v13 (cmpi .slt : (⟨S9, .i32⟩ : BufTy).Contents (Elt F) → (⟨S9, .i32⟩ : BufTy).Contents (Elt F) → (⟨S9, .i1⟩ : BufTy).Contents (Elt F)),
    StableHlo.nullary main_c_4 (constantI S_ 32 96#32),
    StableHlo.unary main_c_4 main_v14 (broadcastInDim S9 ![] bcast_S_S9 : (⟨S_, .i32⟩ : BufTy).Contents (Elt F) → (⟨S9, .i32⟩ : BufTy).Contents (Elt F)),
    StableHlo.binary main_v11 main_v14 main_v15 (addi : (⟨S9, .i32⟩ : BufTy).Contents (Elt F) → (⟨S9, .i32⟩ : BufTy).Contents (Elt F) → (⟨S9, .i32⟩ : BufTy).Contents (Elt F)),
    StableHlo.ternary main_v13 main_v15 main_v11 main_v16 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
    StableHlo.unary main_v16 main_v17 (broadcastInDim S9x1 ![0] bcast_S9_S9x1_0 : (⟨S9, .i32⟩ : BufTy).Contents (Elt F) → (⟨S9x1, .i32⟩ : BufTy).Contents (Elt F)),
    StableHlo.binary main_arg0 main_v17 main_v18 ((fun x i => Host.gather gather_S4x96x224x224_S9x1_S4x9x224x224_023_1_n_n_1_1_41224224 x i) : (⟨S4x96x224x224, .f32⟩ : BufTy).Contents (Elt F) → (⟨S9x1, .i32⟩ : BufTy).Contents (Elt F) → (⟨S4x9x224x224, .f32⟩ : BufTy).Contents (Elt F)),
    StableHlo.nullary main_c_5 (constantI S_ 32 0#32),
    StableHlo.unary main_c_5 main_v19 (broadcastInDim S9 ![] bcast_S_S9 : (⟨S_, .i32⟩ : BufTy).Contents (Elt F) → (⟨S9, .i32⟩ : BufTy).Contents (Elt F)),
    StableHlo.binary main_v9 main_v19 main_v20 (cmpi .slt : (⟨S9, .i32⟩ : BufTy).Contents (Elt F) → (⟨S9, .i32⟩ : BufTy).Contents (Elt F) → (⟨S9, .i1⟩ : BufTy).Contents (Elt F)),
    StableHlo.nullary main_c_6 (constantI S_ 32 96#32),
    StableHlo.unary main_c_6 main_v21 (broadcastInDim S9 ![] bcast_S_S9 : (⟨S_, .i32⟩ : BufTy).Contents (Elt F) → (⟨S9, .i32⟩ : BufTy).Contents (Elt F)),
    StableHlo.binary main_v9 main_v21 main_v22 (addi : (⟨S9, .i32⟩ : BufTy).Contents (Elt F) → (⟨S9, .i32⟩ : BufTy).Contents (Elt F) → (⟨S9, .i32⟩ : BufTy).Contents (Elt F)),
    StableHlo.ternary main_v20 main_v22 main_v9 main_v23 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
    StableHlo.unary main_v23 main_v24 (broadcastInDim S9x1 ![0] bcast_S9_S9x1_0 : (⟨S9, .i32⟩ : BufTy).Contents (Elt F) → (⟨S9x1, .i32⟩ : BufTy).Contents (Elt F)),
    StableHlo.ternary main_arg0 main_v24 main_v18 main_v25 ((fun x i u => Host.scatter scatter_S4x96x224x224_S9x1_S4x9x224x224_023_1_1_1 (fun _ b => b) x i u) : (⟨S4x96x224x224, .f32⟩ : BufTy).Contents (Elt F) → (⟨S9x1, .i32⟩ : BufTy).Contents (Elt F) → (⟨S4x9x224x224, .f32⟩ : BufTy).Contents (Elt F) → (⟨S4x96x224x224, .f32⟩ : BufTy).Contents (Elt F)) ]

theorem obl14 (x : FVec F S4x96x224x224 .f32) : Obl (τ := τ) 492 (ops14 (F := F)) (base13 x) (base14 x) :=
  Obl.unary 0 RefTerm.val_main_v8 RefTerm.val_main_v9 rfl rfl rfl <|
  Obl.nullary RefTerm.val_main_c_2 rfl rfl <|
  Obl.unary 0 RefTerm.val_main_c_2 RefTerm.val_main_v10 rfl rfl rfl <|
  Obl.binary 2 0 RefTerm.val_main_v9 RefTerm.val_main_v10 RefTerm.val_main_v11 rfl rfl rfl rfl <|
  Obl.nullary RefTerm.val_main_c_3 rfl rfl <|
  Obl.unary 0 RefTerm.val_main_c_3 RefTerm.val_main_v12 rfl rfl rfl <|
  Obl.binary 2 0 RefTerm.val_main_v11 RefTerm.val_main_v12 RefTerm.val_main_v13 rfl rfl rfl rfl <|
  Obl.nullary RefTerm.val_main_c_4 rfl rfl <|
  Obl.unary 0 RefTerm.val_main_c_4 RefTerm.val_main_v14 rfl rfl rfl <|
  Obl.binary 5 0 RefTerm.val_main_v11 RefTerm.val_main_v14 RefTerm.val_main_v15 rfl rfl rfl rfl <|
  Obl.ternary 3 0 6 RefTerm.val_main_v13 RefTerm.val_main_v15 RefTerm.val_main_v11 RefTerm.val_main_v16 rfl rfl rfl rfl rfl <|
  Obl.unary 0 RefTerm.val_main_v16 RefTerm.val_main_v17 rfl rfl rfl <|
  Obl.binary 503 0 x RefTerm.val_main_v17 (RefTerm.val_main_v18 x) rfl rfl rfl rfl <|
  Obl.nullary RefTerm.val_main_c_5 rfl rfl <|
  Obl.unary 0 RefTerm.val_main_c_5 RefTerm.val_main_v19 rfl rfl rfl <|
  Obl.binary 14 0 RefTerm.val_main_v9 RefTerm.val_main_v19 RefTerm.val_main_v20 rfl rfl rfl rfl <|
  Obl.nullary RefTerm.val_main_c_6 rfl rfl <|
  Obl.unary 0 RefTerm.val_main_c_6 RefTerm.val_main_v21 rfl rfl rfl <|
  Obl.binary 17 0 RefTerm.val_main_v9 RefTerm.val_main_v21 RefTerm.val_main_v22 rfl rfl rfl rfl <|
  Obl.ternary 3 0 18 RefTerm.val_main_v20 RefTerm.val_main_v22 RefTerm.val_main_v9 RefTerm.val_main_v23 rfl rfl rfl rfl rfl <|
  Obl.unary 0 RefTerm.val_main_v23 RefTerm.val_main_v24 rfl rfl rfl <|
  Obl.ternary 512 0 8 x RefTerm.val_main_v24 (RefTerm.val_main_v18 x) (RefTerm.val_main_v25 x) rfl rfl rfl rfl rfl <|
  Obl.nil _ _

end Cert.ReferenceIdeal.RefRun

end
-- ==== Proof.RefRun.lean ====
/- The reference program's run.

   The program is a straight line of 513 single-result operations once its calls are unfolded: @main's first eleven,
   then @_shuffle's body -- @_threefry_split's (thirteen operations, the four parts of @threefry2x32, three more),
   seventeen of its own, the four parts of @threefry2x32_0, the xor and the two results of the sort -- and @main's last
   twenty-two. Each stretch of text between calls is one module RefRun<k>: its operations as a list (ops<k>) and its
   obligation (obl<k>: every operation's result is its RefTerm definition whenever its operands' buffers hold theirs).
   Here the stretches are joined: the program text is seq of the joined list (each function's body is a line of
   operations, a call, a line: seqK; a line followed by a line is one line: seq_append), the obligations chain
   (Obl.append, the counter advancing by each stretch's length), and StableHlo.run_seq gives every buffer at the fold of
   the operations over the launch contents, which Obl.holds reads at the result's cell and at the argument's. -/
import proofs.«214360_g58884001628789_cont_9to1c4b_137_4_alg».proof.Proof.RefRun1
import proofs.«214360_g58884001628789_cont_9to1c4b_137_4_alg».proof.Proof.RefRun2
import proofs.«214360_g58884001628789_cont_9to1c4b_137_4_alg».proof.Proof.RefRun3
import proofs.«214360_g58884001628789_cont_9to1c4b_137_4_alg».proof.Proof.RefRun4
import proofs.«214360_g58884001628789_cont_9to1c4b_137_4_alg».proof.Proof.RefRun5
import proofs.«214360_g58884001628789_cont_9to1c4b_137_4_alg».proof.Proof.RefRun6
import proofs.«214360_g58884001628789_cont_9to1c4b_137_4_alg».proof.Proof.RefRun7
import proofs.«214360_g58884001628789_cont_9to1c4b_137_4_alg».proof.Proof.RefRun8
import proofs.«214360_g58884001628789_cont_9to1c4b_137_4_alg».proof.Proof.RefRun9
import proofs.«214360_g58884001628789_cont_9to1c4b_137_4_alg».proof.Proof.RefRun10
import proofs.«214360_g58884001628789_cont_9to1c4b_137_4_alg».proof.Proof.RefRun11
import proofs.«214360_g58884001628789_cont_9to1c4b_137_4_alg».proof.Proof.RefRun12
import proofs.«214360_g58884001628789_cont_9to1c4b_137_4_alg».proof.Proof.RefRun13
import proofs.«214360_g58884001628789_cont_9to1c4b_137_4_alg».proof.Proof.RefRun14

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The list of operations -/

/-- @threefry2x32's body at its call in @_threefry_split. -/
def opsTF : List (HloOp τ sig (Elt F)) := ops3 ++ (ops4 ++ (ops5 ++ ops6))
/-- @_threefry_split's body at its call in @_shuffle. -/
def opsSplit : List (HloOp τ sig (Elt F)) := ops2 ++ (opsTF ++ ops7)
/-- @threefry2x32_0's body at its call in @_shuffle. -/
def opsTF0 : List (HloOp τ sig (Elt F)) := ops9 ++ (ops10 ++ (ops11 ++ ops12))
/-- @_shuffle's body at its call in @main. -/
def opsShuffle : List (HloOp τ sig (Elt F)) := opsSplit ++ (ops8 ++ (opsTF0 ++ ops13))
/-- @main's 513 operations, in order. -/
def ops : List (HloOp τ sig (Elt F)) := ops1 ++ (opsShuffle ++ ops14)

/-! ## The program text is that line -/

theorem tf_eq :
    fn_threefry2x32.body (F := F) main_call0.call0.v1 main_call0.call0.v3 main_call0.call0.v10 main_call0.call0.v9
      main_call0.call0.call0 = seq opsTF := by
  have h0 : fn_threefry2x32.body_part0 (F := F) main_call0.call0.v1 main_call0.call0.v3 main_call0.call0.v10
      main_call0.call0.v9 main_call0.call0.call0 = seq ops3 := rfl
  have h1 : fn_threefry2x32.body_part1 (F := F) main_call0.call0.v1 main_call0.call0.v3 main_call0.call0.v10
      main_call0.call0.v9 main_call0.call0.call0 = seq ops4 := rfl
  have h2 : fn_threefry2x32.body_part2 (F := F) main_call0.call0.v1 main_call0.call0.v3 main_call0.call0.v10
      main_call0.call0.v9 main_call0.call0.call0 = seq ops5 := rfl
  have h3 : fn_threefry2x32.body_part3 (F := F) main_call0.call0.v1 main_call0.call0.v3 main_call0.call0.v10
      main_call0.call0.v9 main_call0.call0.call0 = seq ops6 := rfl
  have h : fn_threefry2x32.body (F := F) main_call0.call0.v1 main_call0.call0.v3 main_call0.call0.v10 main_call0.call0.v9
      main_call0.call0.call0
      = (fn_threefry2x32.body_part0 (F := F) main_call0.call0.v1 main_call0.call0.v3 main_call0.call0.v10
          main_call0.call0.v9 main_call0.call0.call0 >>= fun _ =>
        fn_threefry2x32.body_part1 (F := F) main_call0.call0.v1 main_call0.call0.v3 main_call0.call0.v10
          main_call0.call0.v9 main_call0.call0.call0 >>= fun _ =>
        fn_threefry2x32.body_part2 (F := F) main_call0.call0.v1 main_call0.call0.v3 main_call0.call0.v10
          main_call0.call0.v9 main_call0.call0.call0 >>= fun _ =>
        fn_threefry2x32.body_part3 (F := F) main_call0.call0.v1 main_call0.call0.v3 main_call0.call0.v10
          main_call0.call0.v9 main_call0.call0.call0) := rfl
  rw [h, h0, h1, h2, h3, ← seq_append, ← seq_append, ← seq_append]
  rfl

theorem split_eq :
    fn_threefry_split.body (F := F) (.of main_v6) main_call0.call0 = seq opsSplit := by
  have h : fn_threefry_split.body (F := F) (.of main_v6) main_call0.call0
      = seqK ops2 (fn_threefry2x32.body (F := F) main_call0.call0.v1 main_call0.call0.v3 main_call0.call0.v10
          main_call0.call0.v9 main_call0.call0.call0 >>= fun _ => seq ops7) := rfl
  rw [h, tf_eq, ← seq_append, seqK_seq]
  rfl

theorem tf0_eq :
    fn_threefry2x32_0.body (F := F) main_call0.v6 main_call0.v8 main_call0.v15 main_call0.v14 main_call0.call1
      = seq opsTF0 := by
  have h0 : fn_threefry2x32_0.body_part0 (F := F) main_call0.v6 main_call0.v8 main_call0.v15 main_call0.v14
      main_call0.call1 = seq ops9 := rfl
  have h1 : fn_threefry2x32_0.body_part1 (F := F) main_call0.v6 main_call0.v8 main_call0.v15 main_call0.v14
      main_call0.call1 = seq ops10 := rfl
  have h2 : fn_threefry2x32_0.body_part2 (F := F) main_call0.v6 main_call0.v8 main_call0.v15 main_call0.v14
      main_call0.call1 = seq ops11 := rfl
  have h3 : fn_threefry2x32_0.body_part3 (F := F) main_call0.v6 main_call0.v8 main_call0.v15 main_call0.v14
      main_call0.call1 = seq ops12 := rfl
  have h : fn_threefry2x32_0.body (F := F) main_call0.v6 main_call0.v8 main_call0.v15 main_call0.v14 main_call0.call1
      = (fn_threefry2x32_0.body_part0 (F := F) main_call0.v6 main_call0.v8 main_call0.v15 main_call0.v14
          main_call0.call1 >>= fun _ =>
        fn_threefry2x32_0.body_part1 (F := F) main_call0.v6 main_call0.v8 main_call0.v15 main_call0.v14
          main_call0.call1 >>= fun _ =>
        fn_threefry2x32_0.body_part2 (F := F) main_call0.v6 main_call0.v8 main_call0.v15 main_call0.v14
          main_call0.call1 >>= fun _ =>
        fn_threefry2x32_0.body_part3 (F := F) main_call0.v6 main_call0.v8 main_call0.v15 main_call0.v14
          main_call0.call1) := rfl
  rw [h, h0, h1, h2, h3, ← seq_append, ← seq_append, ← seq_append]
  rfl

theorem shuffle_eq :
    fn_shuffle.body (F := F) (.of main_v6) (.of main_v7) main_call0 = seq opsShuffle := by
  have h : fn_shuffle.body (F := F) (.of main_v6) (.of main_v7) main_call0
      = (fn_threefry_split.body (F := F) (.of main_v6) main_call0.call0 >>= fun _ =>
          seqK ops8 (fn_threefry2x32_0.body (F := F) main_call0.v6 main_call0.v8 main_call0.v15 main_call0.v14
            main_call0.call1 >>= fun _ => seq ops13)) := rfl
  rw [h, split_eq, tf0_eq, ← seq_append, seqK_seq, ← seq_append]
  rfl

/-- @main is the line of its operations. -/
theorem main_eq (c : Dev nD) : main (F := F) c = seq ops := by
  have h : main (F := F) c
      = seqK ops1 (fn_shuffle.body (F := F) (.of main_v6) (.of main_v7) main_call0 >>= fun _ => seq ops14) := rfl
  rw [h, shuffle_eq, ← seq_append, seqK_seq]
  rfl

/-! ## The obligations, joined -/

/-- Obl.append with the counter after the first stretch given as a number. -/
theorem Obl.append' {n m : Nat} {l₁ l₂ : List (HloOp τ sig (Elt F))} {b₀ b₁ b₂ : List (Cell sig (Elt F))}
    (h₁ : Obl (τ := τ) n l₁ b₀ b₁) (hm : n + l₁.length = m) (h₂ : Obl (τ := τ) m l₂ b₁ b₂) : Obl n (l₁ ++ l₂) b₀ b₂ :=
  h₁.append (hm ▸ h₂)

theorem oblTF (x : FVec F S4x96x224x224 .f32) : Obl (τ := τ) 25 (opsTF (F := F)) (base2 x) (base6 x) :=
  (obl3 x).append' rfl ((obl4 x).append' rfl ((obl5 x).append' rfl (obl6 x)))

theorem oblSplit (x : FVec F S4x96x224x224 .f32) : Obl (τ := τ) 12 (opsSplit (F := F)) (base1 x) (base7 x) :=
  (obl2 x).append' rfl ((oblTF x).append' rfl (obl7 x))

theorem oblTF0 (x : FVec F S4x96x224x224 .f32) : Obl (τ := τ) 267 (opsTF0 (F := F)) (base8 x) (base12 x) :=
  (obl9 x).append' rfl ((obl10 x).append' rfl ((obl11 x).append' rfl (obl12 x)))

theorem oblShuffle (x : FVec F S4x96x224x224 .f32) : Obl (τ := τ) 12 (opsShuffle (F := F)) (base1 x) (base13 x) :=
  (oblSplit x).append' rfl ((obl8 x).append' rfl ((oblTF0 x).append' rfl (obl13 x)))

/-- From any valuation holding the argument's contents x at its buffer, the 513 operations end in one holding every cell. -/
theorem obl (x : FVec F S4x96x224x224 .f32) : Obl (τ := τ) 1 (ops (F := F)) (base0 x) (base14 x) :=
  (obl1 x).append' rfl ((oblShuffle x).append' rfl (obl14 x))

/-! ## The run -/

theorem scopedRefs_eq : (Finset.univ.filter fun b : Ref sig .tc => b.isScoped) = ∅ := by decide
theorem scopedSems_eq : (Finset.univ.filter fun sm : SemLoc sig => sm.isScoped .tc) = ∅ := by decide

/-- What the operations leave, from contents V: the result buffer at the term of the argument's contents, the argument's
    buffer as it was. -/
theorem after_ops (V : Valuation τ sig (Elt F)) :
    after ops V (Proc.devRef .tc main_v25) = RefTerm.val_main_v25 (V (Proc.devRef .tc main_arg0))
      ∧ after ops V (Proc.devRef .tc main_arg0) = V (Proc.devRef .tc main_arg0) := by
  have hH : Holds (after ops V) (base14 (V (Proc.devRef .tc main_arg0))) :=
    (obl (V (Proc.devRef .tc main_arg0))).holds
      (fun c hc => by rcases List.mem_singleton.mp hc with rfl; exact Nat.zero_lt_one)
      (fun c hc => by rcases List.mem_singleton.mp hc with rfl; rfl)
  exact ⟨hH.get (i := 0) rfl, hH.get (i := 513) rfl⟩

/-- On every device, for any float values, from any memory with zero counters: every weakly fair execution of @main
    terminates with the result buffer at the term RefTerm.val_main_v25 of the argument's launch contents and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = RefTerm.val_main_v25 (m ((c.tc : Thread nD τ).loc main_arg0))
      ∧ r.2.mem ((c.tc : Thread nD τ).loc main_arg0) = m ((c.tc : Thread nD τ).loc main_arg0) :=
  (θ_run defs _ _).mono (fun _ h c =>
      ⟨(h c main_v25).trans (after_ops (launchContents m c)).1, (h c main_arg0).trans (after_ops (launchContents m c)).2⟩)
    (run_seq scopedRefs_eq scopedSems_eq defs main (fun _ => ops) main_eq
      (fun c => (obl (m ((c.tc : Thread nD τ).loc main_arg0))).bufs_sub) m ρ
      (fun c => (obl (m ((c.tc : Thread nD τ).loc main_arg0))).fresh))

end Cert.ReferenceIdeal.RefRun

end
-- ==== Proof.RefPerm1.lean ====
/-
  The first nine entries of a stable sort of 95 words by "unsigned less-than on the key", read off a table of the 95
  keys. The sort itself is never evaluated: nine positions whose keys increase, and below each of which no other
  position's key lies, are the sort's first nine positions (Lib/SortPrefix.lean). Everything here is generic in the key
  vector; the table enters through the hypothesis "the key at position p is the table's p-th word".
-/
import Idealize.ShloMosaic.Lib.SortPrefix
import Idealize.ShloMosaic.Lib.ValueIdx

namespace Cert.ReferenceIdeal.RefPerm

open Idealize.ShloMosaic Idealize.ShloMosaic.ValueIdx

/-- The 95 sort keys as naturals, position by position. -/
def keyNat : List Nat :=
  [1733648124, 2357486511, 956228320, 755481449, 3786439072, 2431038124, 438947094, 303619477,
   1796224850, 3689843458, 2900711456, 4263874625, 3892603394, 1946223970, 3958628334, 3035854874,
   606965905, 3452739159, 2081488987, 60968890, 1063205560, 607180308, 1941635128, 495438794,
   2346032614, 4231625503, 840431450, 2832591139, 3666201288, 1947112134, 276753252, 4019951623,
   852675347, 2665105211, 2026657333, 443106385, 3548760953, 890747306, 751095692, 4257029666,
   3114542902, 4206358298, 1436756834, 4238747536, 1172165383, 2451516178, 3673495533, 1177439778,
   2390916415, 2521891409, 1237269687, 930387303, 1059922492, 1622025957, 133467977, 2716011135,
   895653001, 2795943939, 496499772, 3461490903, 2747468860, 742752978, 1496761516, 980854499,
   890374069, 2378661925, 3224364552, 3144444938, 3024532600, 1605465290, 2034444598, 3374088438,
   1324545891, 3102127472, 2698043946, 2194729946, 63446991, 702706994, 1300784970, 1213556641,
   3225947956, 805560257, 3996898782, 1409164325, 1217809363, 3953328641, 2180397845, 3938748620,
   3164192981, 1136226829, 258996721, 2319445427, 3617800784, 2977660956, 736378866]

/-- The key table as 32-bit words. -/
def T (p : Fin 95) : BitVec 32 := BitVec.ofNat 32 (keyNat.getD p.val 0)

/-- The positions of the nine smallest keys, smallest first. -/
def σ : Fin 9 → Fin 95 := ![19, 76, 54, 90, 30, 7, 6, 35, 23]

/-- "Key, then position": the strict total order that a stable sort by the key realizes. -/
def B (k k' : Fin 95) : Bool := (T k).ult (T k') || (decide (T k = T k') && decide (k < k'))

theorem B_strictTotal : StrictTotalBefore B :=
  StrictTotalBefore.of_key_then_position (fun a b : BitVec 32 => a.ult b) T
    (fun a => by simp [BitVec.ult])
    (fun a b c hab hbc => by
      simp only [BitVec.ult, decide_eq_true_eq] at hab hbc ⊢; omega)
    (fun a b => by
      simp only [BitVec.ult, decide_eq_true_eq]
      rcases Nat.lt_trichotomy a.toNat b.toNat with h | h | h
      · exact Or.inl h
      · exact Or.inr (Or.inl (BitVec.eq_of_toNat_eq h))
      · exact Or.inr (Or.inr h))

/-- The 95 keys are pairwise different. -/
theorem T_injective : ∀ k k' : Fin 95, k ≠ k' → T k ≠ T k' := by decide +kernel

theorem σ_injective : Function.Injective σ := by decide +kernel

/-- The nine selected keys increase. -/
theorem σ_ordered : ∀ i j : Fin 9, i < j → B (σ j) (σ i) = false := by decide +kernel

/-- No position left out has a key below a selected one. -/
theorem σ_dominates : ∀ (i : Fin 9) (p : Fin 95), (∀ j, σ j ≠ p) → B p (σ i) = false := by decide +kernel

/-- The stable sort of the table's positions starts with the nine selected ones. -/
theorem sortedFrom_B (i : Fin 9) : sortedFrom B (i.castLE (by decide)) = σ i :=
  B_strictTotal.sortedFrom_eq_of_prefix (by decide) σ σ_injective σ_ordered σ_dominates i

theorem ofFin_eq_ix1 {n : Nat} (k : Fin n) : Shape.Idx.ofFin k = ix1 k := by
  funext d; match d with | ⟨0, _⟩ => exact Fin.ext rfl

/-- On a rank-1 shape the second component of a two-operand sort reads its operand through the one sorting
    permutation of the positions. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (ix1 (sortedFrom (fun k k' => cmp (x (ix1 k), y (ix1 k)) (x (ix1 k'), y (ix1 k')) == 1#1) (j 0))) := by
  unfold Host.sort2
  simp [ofFin_eq_ix1]

/-- THE FIRST NINE OF THE SORT: for any key vector that reads the table, any carried vector, and any comparator that is
    "unsigned less-than on the keys", sorted position `i < 9` carries the entry at position `σ i`. -/
theorem sort2_snd_prefix {β : Type} (cmp : BitVec 32 × β → BitVec 32 × β → BitVec 1)
    (hcmp : ∀ a b c d, cmp (a, c) (b, d) = IntOp.cmpi .ult a b)
    (keys : IVec ⟨1, ![95]⟩ 32) (hkeys : ∀ p : Fin 95, keys (ix1 p) = T p)
    (vals : (⟨1, ![95]⟩ : Shape).Idx → β) (i : Fin 9) :
    (Host.sort2 ⟨1, ![95]⟩ 0 cmp keys vals).2 (ix1 (i.castLE (by decide))) = vals (ix1 (σ i)) := by
  rw [sort2_snd_rank1]
  have hbefore : (fun k k' : Fin 95 => cmp (keys (ix1 k), vals (ix1 k)) (keys (ix1 k'), vals (ix1 k')) == 1#1)
      = fun k k' => (T k).ult (T k') := by
    funext k k'
    rw [hcmp, hkeys, hkeys]
    unfold IntOp.cmpi
    cases (T k).ult (T k') <;> rfl
  rw [hbefore]
  have hcongr : sortedFrom (fun k k' : Fin 95 => (T k).ult (T k')) = sortedFrom B :=
    sortedFrom_congr _ _ fun k k' hk => by
      unfold B
      rw [decide_eq_false (T_injective k k' hk)]
      simp
  rw [hcongr]
  exact congrArg (fun p => vals (ix1 p)) (sortedFrom_B i)

end Cert.ReferenceIdeal.RefPerm
-- ==== Proof.RefPerm2.lean ====
/-
  The 95 sort keys of the reference are the table's words. Each key is the exclusive-or of the two output words of
  the 20-round add / rotate / exclusive-or generator on the counter pair (0, p), under the subkey the key split yields;
  every buffer of that computation is a named definition, elementwise in the lane, so lane p of the last buffer is a
  closed word determined by lane p of its operands; its equality with the table's word is decided by evaluation.
-/
import proofs.«214360_g58884001628789_cont_9to1c4b_137_4_alg».proof.Proof.RefTerm
import proofs.«214360_g58884001628789_cont_9to1c4b_137_4_alg».proof.Proof.RefPerm1

namespace Cert.ReferenceIdeal.RefPerm

open Idealize.ShloMosaic Idealize.ShloMosaic.ValueIdx

/-- Lane `p` of the key vector is the `p`-th word of the table. -/
theorem keys_eq : ∀ p : Fin 95, RefTerm.val_main_call0_v17 (ix1 p) = T p := by decide +kernel

end Cert.ReferenceIdeal.RefPerm
-- ==== Proof.RefPerm.lean ====
/-
  The nine drawn channel numbers are the literals: the reference's first nine sorted positions, read off the table of
  its 95 random keys. The keys are evaluated lane by lane (RefPerm2); the sort is never evaluated (RefPerm1).
-/
import proofs.«214360_g58884001628789_cont_9to1c4b_137_4_alg».proof.Proof.RefTerm
import proofs.«214360_g58884001628789_cont_9to1c4b_137_4_alg».proof.Proof.Spec
import proofs.«214360_g58884001628789_cont_9to1c4b_137_4_alg».proof.Proof.RefPerm1
import proofs.«214360_g58884001628789_cont_9to1c4b_137_4_alg».proof.Proof.RefPerm2

namespace Cert.ReferenceIdeal.RefPerm

open Idealize.ShloMosaic Idealize.ShloMosaic.ValueIdx

/-- The first nine entries of a 95-vector, read at an index: entry `j` of the slice is entry `j` of the vector. -/
theorem slice9_apply {α : Type} (x : (⟨1, ![95]⟩ : Shape).Idx → α)
    (h : (⟨1, ![95]⟩ : Shape).Slices ![0] ⟨1, ![9]⟩) (j : Fin 9) :
    extractStridedSlice ⟨1, ![9]⟩ ![0] x h (ix1 j) = x (ix1 (j.castLE (by decide))) := by
  unfold extractStridedSlice
  refine congrArg x ?_
  funext a
  match a with
  | ⟨0, _⟩ => exact Fin.ext (Nat.zero_add _)

/-- The carried vector is the positions themselves: entry `p` is the word `p`. -/
theorem iota_apply (p : Fin 95) : RefTerm.val_main_v7 (ix1 p) = BitVec.ofNat 32 p.val := rfl

/-- Position `σ j` is the `j`-th drawn channel number. -/
theorem σ_val (j : Fin 9) : (σ j).val = Cert.Spec.drawn j := by
  revert j; decide

/-- THE NINE DRAWN CHANNEL NUMBERS: the reference's first nine sorted positions are the literals. -/
theorem drawn_eq (j : Fin 9) :
    RefTerm.val_main_v9 (Idealize.ShloMosaic.ValueIdx.ix1 j) = BitVec.ofNat 32 (Cert.Spec.drawn j) := by
  unfold RefTerm.val_main_v9
  rw [slice9_apply]
  unfold RefTerm.val_main_v8
  rw [sort2_snd_prefix comparator_i32_i32_d0 (fun _ _ _ _ => rfl) RefTerm.val_main_call0_v17 keys_eq
    RefTerm.val_main_v7 j, iota_apply, σ_val]

end Cert.ReferenceIdeal.RefPerm
-- ==== Proof.LibScatterRead.lean ====
/-
  A scatter whose body returns the update ("replace"), read at ONE index of the operand.

  The model's scatter is the left fold, over the update indices in row-major order, of the step "if the update index
  lands inside the operand at `i₀`, replace the element at `i₀` by the update's". Read at a fixed index `i` the fold
  only ever changes the element when an update index lands exactly at `i`. So: if every update index landing at `i`
  carries the same value `c`, the result at `i` is `c` when some update index lands there, and the operand's own
  element when none does. Nothing here depends on the shapes or on the dimension numbers.
-/
import Idealize.ShloMosaic.PureOps

namespace Idealize.ShloMosaic.ScatterRead

open Idealize.ShloMosaic

/-- A left fold of a step that, for a label `n` landing at `g n = some i₀`, replaces the element at `i₀` by `v n`, and
    for a label landing nowhere changes nothing — read at `i`: if every label of the list landing at `i` carries `c`,
    the result is `c`, or it is the start's element and no label of the list lands at `i`. -/
theorem foldl_replace_apply {ι κ α : Type} [DecidableEq ι] (g : κ → Option ι) (v : κ → α)
    (step : (ι → α) → κ → (ι → α))
    (hsome : ∀ r n i₀, g n = some i₀ → step r n = fun i' => if i' = i₀ then v n else r i')
    (hnone : ∀ r n, g n = none → step r n = r)
    (i : ι) (c : α) (l : List κ) (hall : ∀ n ∈ l, g n = some i → v n = c) (x : ι → α) :
    (l.foldl step x) i = c ∨ ((l.foldl step x) i = x i ∧ ∀ n ∈ l, g n ≠ some i) := by
  induction l generalizing x with
  | nil => exact Or.inr ⟨rfl, fun n hn => absurd hn List.not_mem_nil⟩
  | cons n l ih =>
    rw [List.foldl_cons]
    rcases ih (fun m hm => hall m (List.mem_cons_of_mem _ hm)) (step x n) with h | ⟨h, hno⟩
    · exact Or.inl h
    · rw [h]
      cases hg : g n with
      | none =>
        rw [hnone x n hg]
        refine Or.inr ⟨rfl, fun m hm => ?_⟩
        rcases List.mem_cons.1 hm with rfl | hm
        · rw [hg]; exact fun h => by cases h
        · exact hno m hm
      | some i₀ =>
        rw [hsome x n i₀ hg]
        by_cases hi : i = i₀
        · subst hi
          refine Or.inl ?_
          show (if i = i then v n else x i) = c
          rw [if_pos rfl]
          exact hall n List.mem_cons_self hg
        · refine Or.inr ⟨?_, fun m hm => ?_⟩
          · show (if i = i₀ then v n else x i) = x i
            rw [if_neg hi]
          · rcases List.mem_cons.1 hm with rfl | hm
            · rw [hg]; exact fun h => hi (Option.some.inj h).symm
            · exact hno m hm

variable {s si u : Shape} {α : Type} {w : Nat}

/-- The scatter with the replacing body, read at `i`: if every update index landing at `i` carries `c`, the result at
    `i` is `c`, or it is the operand's element and no update index lands at `i`. -/
theorem scatter_replace_apply (d : ScatterDims s si u) (x : s.Idx → α) (idx : IVec si w) (upd : u.Idx → α)
    (i : s.Idx) (c : α) (hall : ∀ j : u.Idx, d.resultIdx? j idx = some i → upd j = c) :
    Host.scatter d (fun _ b => b) x idx upd i = c
    ∨ (Host.scatter d (fun _ b => b) x idx upd i = x i ∧ ∀ j : u.Idx, d.resultIdx? j idx ≠ some i) := by
  unfold Host.scatter
  have key := foldl_replace_apply (fun n : Fin u.numel => d.resultIdx? (u.rowMajor.symm n) idx)
    (fun n => upd (u.rowMajor.symm n)) _
    (fun r n i₀ hg => by
      show (match d.resultIdx? (u.rowMajor.symm n) idx with
        | some i => fun i' => if i' = i then (fun _ b => b) (r i) (upd (u.rowMajor.symm n)) else r i'
        | none => r) = _
      rw [show d.resultIdx? (u.rowMajor.symm n) idx = some i₀ from hg])
    (fun r n hg => by
      show (match d.resultIdx? (u.rowMajor.symm n) idx with
        | some i => fun i' => if i' = i then (fun _ b => b) (r i) (upd (u.rowMajor.symm n)) else r i'
        | none => r) = _
      rw [show d.resultIdx? (u.rowMajor.symm n) idx = none from hg])
    i c (List.finRange u.numel) (fun n _ hn => hall _ hn) x
  rcases key with h | ⟨h, hno⟩
  · exact Or.inl h
  · refine Or.inr ⟨h, fun j => ?_⟩
    have := hno (u.rowMajor j) (List.mem_finRange _)
    simpa using this

/-- An update index `j₀` lands at `i`, and every update index landing at `i` carries `j₀`'s value: the result at `i`
    is that value. -/
theorem scatter_replace_hit (d : ScatterDims s si u) (x : s.Idx → α) (idx : IVec si w) (upd : u.Idx → α)
    (i : s.Idx) (j₀ : u.Idx) (h₀ : d.resultIdx? j₀ idx = some i)
    (hall : ∀ j : u.Idx, d.resultIdx? j idx = some i → upd j = upd j₀) :
    Host.scatter d (fun _ b => b) x idx upd i = upd j₀ := by
  rcases scatter_replace_apply d x idx upd i (upd j₀) hall with h | ⟨_, hno⟩
  · exact h
  · exact absurd h₀ (hno j₀)

/-- No update index lands at `i`: the result at `i` is the operand's element. -/
theorem scatter_replace_miss (d : ScatterDims s si u) (x : s.Idx → α) (idx : IVec si w) (upd : u.Idx → α)
    (i : s.Idx) (hno : ∀ j : u.Idx, d.resultIdx? j idx ≠ some i) :
    Host.scatter d (fun _ b => b) x idx upd i = x i := by
  rcases scatter_replace_apply d x idx upd i (x i) (fun j hj => absurd hj (hno j)) with h | ⟨h, _⟩
  · exact h
  · exact h

end Idealize.ShloMosaic.ScatterRead
-- ==== Proof.RefTail.lean ====
/-
  The reference's last operations, read at one index, ARE the specification.

  After the nine channel numbers `p` are known, @main adds one to each (the channel to copy FROM), wraps a negative
  number around by 96 (never taken: the numbers are small and positive), gathers the nine channels `p + 1` of the
  argument, wraps `p` the same way, and scatters the gathered channels over the argument at the channels `p`, the
  scatter's body returning the update. The scatter is a fold over all update indices; read at ONE index `(b, c, h, w)`
  of the result, an update index `(b', k, h', w')` lands there exactly when `b' = b`, `h' = h`, `w' = w` and
  `drawn k = c`; the nine drawn channels are pairwise different, so at most one `k` qualifies, and the entry is the
  gathered one, the argument's at channel `drawn k + 1`; when no `k` qualifies the entry is the argument's own.
  That is `Cert.Spec.G4`.
-/
import proofs.«214360_g58884001628789_cont_9to1c4b_137_4_alg».proof.Proof.Gen.ReferenceIdeal
import proofs.«214360_g58884001628789_cont_9to1c4b_137_4_alg».proof.Proof.Spec
import proofs.«214360_g58884001628789_cont_9to1c4b_137_4_alg».proof.Proof.LibScatterRead

noncomputable section

namespace Cert.ReferenceIdeal.RefTail

open Idealize.ShloMosaic Idealize.ShloMosaic.ValueIdx Idealize.ShloMosaic.ScatterRead
open Cert.ReferenceIdeal Cert.ReferenceIdeal.Facts₀ Cert.ReferenceIdeal.Facts

variable {F : FTy → Type} [FloatOps F]

/-! ## The operations, composed -/

/-- @main's operations after main_v9, as one function of those nine words and the argument (each operation as printed,
    composed). -/
def tail (p : IVec S9 32) (x : FVec F S4x96x224x224 .f32) : FVec F S4x96x224x224 .f32 :=
  let c_2 : IVec S_ 32 := constantI S_ 32 1#32
  let v10 : IVec S9 32 := broadcastInDim S9 ![] bcast_S_S9 c_2
  let v11 : IVec S9 32 := addi p v10
  let c_3 : IVec S_ 32 := constantI S_ 32 0#32
  let v12 : IVec S9 32 := broadcastInDim S9 ![] bcast_S_S9 c_3
  let v13 : IVec S9 1 := cmpi .slt v11 v12
  let c_4 : IVec S_ 32 := constantI S_ 32 96#32
  let v14 : IVec S9 32 := broadcastInDim S9 ![] bcast_S_S9 c_4
  let v15 : IVec S9 32 := addi v11 v14
  let v16 : IVec S9 32 := select v13 v15 v11
  let v17 : IVec S9x1 32 := broadcastInDim S9x1 ![0] bcast_S9_S9x1_0 v16
  let v18 : FVec F S4x9x224x224 .f32 :=
    Host.gather gather_S4x96x224x224_S9x1_S4x9x224x224_023_1_n_n_1_1_41224224 x v17
  let c_5 : IVec S_ 32 := constantI S_ 32 0#32
  let v19 : IVec S9 32 := broadcastInDim S9 ![] bcast_S_S9 c_5
  let v20 : IVec S9 1 := cmpi .slt p v19
  let c_6 : IVec S_ 32 := constantI S_ 32 96#32
  let v21 : IVec S9 32 := broadcastInDim S9 ![] bcast_S_S9 c_6
  let v22 : IVec S9 32 := addi p v21
  let v23 : IVec S9 32 := select v20 v22 p
  let v24 : IVec S9x1 32 := broadcastInDim S9x1 ![0] bcast_S9_S9x1_0 v23
  Host.scatter scatter_S4x96x224x224_S9x1_S4x9x224x224_023_1_1_1 (fun _ b => b) x v24 v18

/-- The scatter's dimension numbers, under a short name. -/
abbrev sd : ScatterDims S4x96x224x224 S9x1 S4x9x224x224 := scatter_S4x96x224x224_S9x1_S4x9x224x224_023_1_1_1
/-- The gather's dimension numbers, under a short name. -/
abbrev gd : GatherDims S4x96x224x224 S9x1 S4x9x224x224 := gather_S4x96x224x224_S9x1_S4x9x224x224_023_1_n_n_1_1_41224224

/-- The start indices of the gather: `p + 1`, wrapped around by 96 where negative, as a column. -/
def idxG (p : IVec S9 32) : IVec S9x1 32 :=
  broadcastInDim S9x1 ![0] bcast_S9_S9x1_0
    (select (cmpi .slt (addi p (broadcastInDim S9 ![] bcast_S_S9 (constantI S_ 32 1#32)))
        (broadcastInDim S9 ![] bcast_S_S9 (constantI S_ 32 0#32)))
      (addi (addi p (broadcastInDim S9 ![] bcast_S_S9 (constantI S_ 32 1#32)))
        (broadcastInDim S9 ![] bcast_S_S9 (constantI S_ 32 96#32)))
      (addi p (broadcastInDim S9 ![] bcast_S_S9 (constantI S_ 32 1#32))))

/-- The scatter indices: `p`, wrapped around by 96 where negative, as a column. -/
def idxS (p : IVec S9 32) : IVec S9x1 32 :=
  broadcastInDim S9x1 ![0] bcast_S9_S9x1_0
    (select (cmpi .slt p (broadcastInDim S9 ![] bcast_S_S9 (constantI S_ 32 0#32)))
      (addi p (broadcastInDim S9 ![] bcast_S_S9 (constantI S_ 32 96#32)))
      p)

/-- The composition is one scatter of one gather at those two index columns. -/
theorem tail_def (p : IVec S9 32) (x : FVec F S4x96x224x224 .f32) :
    tail p x = Host.scatter sd (fun _ b => b) x (idxS p) (Host.gather gd x (idxG p)) := rfl

/-! ## The two index columns at a row -/

/-- A column made of a vector of nine reads the vector at its row. -/
theorem column_apply {α : Type} (v : S9.Idx → α) (k : Fin 9) (z : Fin 1) :
    broadcastInDim S9x1 ![0] bcast_S9_S9x1_0 v (ix2 k z) = v (ix1 k) := by
  show v _ = v _
  congr 1
  funext a
  match a with
  | ⟨0, _⟩ => rfl

/-- The nine drawn channels and their right neighbours are small positive words: neither wraps around. -/
theorem wrap_small (k : Fin 9) :
    Scalar.select (IntOp.cmpi .slt (BitVec.ofNat 32 (Cert.Spec.drawn k)) 0#32)
        (IntOp.addi (BitVec.ofNat 32 (Cert.Spec.drawn k)) 96#32) (BitVec.ofNat 32 (Cert.Spec.drawn k))
      = BitVec.ofNat 32 (Cert.Spec.drawn k)
    ∧ Scalar.select (IntOp.cmpi .slt (IntOp.addi (BitVec.ofNat 32 (Cert.Spec.drawn k)) 1#32) 0#32)
        (IntOp.addi (IntOp.addi (BitVec.ofNat 32 (Cert.Spec.drawn k)) 1#32) 96#32)
        (IntOp.addi (BitVec.ofNat 32 (Cert.Spec.drawn k)) 1#32)
      = BitVec.ofNat 32 (Cert.Spec.drawn k + 1) := by
  fin_cases k <;> decide

/-- The scatter index at row `k` is the drawn channel `k`. -/
theorem idxS_apply (p : IVec S9 32) (hp : ∀ j : Fin 9, p (ix1 j) = BitVec.ofNat 32 (Cert.Spec.drawn j)) (k : Fin 9)
    (z : Fin 1) : idxS p (ix2 k z) = BitVec.ofNat 32 (Cert.Spec.drawn k) := by
  unfold idxS
  rw [column_apply]
  show Scalar.select (IntOp.cmpi .slt (p (ix1 k)) 0#32) (IntOp.addi (p (ix1 k)) 96#32) (p (ix1 k)) = _
  rw [hp k]
  exact (wrap_small k).1

/-- The gather's start index at row `k` is the drawn channel's right neighbour. -/
theorem idxG_apply (p : IVec S9 32) (hp : ∀ j : Fin 9, p (ix1 j) = BitVec.ofNat 32 (Cert.Spec.drawn j)) (k : Fin 9)
    (z : Fin 1) : idxG p (ix2 k z) = BitVec.ofNat 32 (Cert.Spec.drawn k + 1) := by
  unfold idxG
  rw [column_apply]
  show Scalar.select (IntOp.cmpi .slt (IntOp.addi (p (ix1 k)) 1#32) 0#32)
      (IntOp.addi (IntOp.addi (p (ix1 k)) 1#32) 96#32) (IntOp.addi (p (ix1 k)) 1#32) = _
  rw [hp k]
  exact (wrap_small k).2

/-- A drawn channel is below 95. -/
theorem drawn_lt (k : Fin 9) : Cert.Spec.drawn k < 95 := by fin_cases k <;> decide

/-- The nine drawn channels are pairwise different. -/
theorem drawn_inj {k k' : Fin 9} (h : Cert.Spec.drawn k = Cert.Spec.drawn k') : k = k' := by
  revert k k'; decide

/-- A word below `2 ^ 31` read signed is itself. -/
theorem toInt_ofNat_small (n : Nat) (hn : n < 96) : (BitVec.ofNat 32 n).toInt = (n : Int) := by
  have h1 : (BitVec.ofNat 32 n).toNat = n := by
    rw [BitVec.toNat_ofNat]; exact Nat.mod_eq_of_lt (by omega)
  unfold BitVec.toInt
  rw [h1]
  split <;> omega

/-! ## The gather and the scatter at an index -/

/-- The gather at `(b, k, h, w)`: the operand at channel "start index `k`, read signed and clamped into `[0, 95]`". -/
theorem gather_apply {α : Type} (x : S4x96x224x224.Idx → α) (idx : IVec S9x1 32) (b : Fin 4) (k : Fin 9) (h w : Fin 224) :
    Host.gather gd x idx (ix4 b k h w)
      = x (ix4 b ⟨min (idx (ix2 k 0)).toInt.toNat 95, by omega⟩ h w) := by
  unfold Host.gather
  congr 1
  funext a
  refine Fin.ext ?_
  show gd.start (ix4 b k h w) idx a + gd.batchCoord (ix4 b k h w) a + gd.offCoord (ix4 b k h w) a = _
  match a with
  | ⟨0, _⟩ =>
    have h1 : gd.start (ix4 b k h w) idx 0 = 0 := rfl
    have h2 : gd.batchCoord (ix4 b k h w) 0 = 0 := rfl
    have h3 : gd.offCoord (ix4 b k h w) 0 = b.val := rfl
    show gd.start (ix4 b k h w) idx 0 + gd.batchCoord (ix4 b k h w) 0 + gd.offCoord (ix4 b k h w) 0 = b.val
    rw [h1, h2, h3]; omega
  | ⟨1, _⟩ =>
    have h1 : gd.start (ix4 b k h w) idx 1 = min (idx (ix2 k 0)).toInt.toNat 95 := by
      show min (idx _).toInt.toNat 95 = min (idx _).toInt.toNat 95
      refine congrArg (fun t => min (idx t).toInt.toNat 95) ?_
      funext c
      match c with
      | ⟨0, _⟩ => rfl
      | ⟨1, _⟩ => rfl
    have h2 : gd.batchCoord (ix4 b k h w) 1 = 0 := rfl
    have h3 : gd.offCoord (ix4 b k h w) 1 = 0 := rfl
    show gd.start (ix4 b k h w) idx 1 + gd.batchCoord (ix4 b k h w) 1 + gd.offCoord (ix4 b k h w) 1
      = min (idx (ix2 k 0)).toInt.toNat 95
    rw [h1, h2, h3]; omega
  | ⟨2, _⟩ =>
    have h1 : gd.start (ix4 b k h w) idx 2 = 0 := rfl
    have h2 : gd.batchCoord (ix4 b k h w) 2 = 0 := rfl
    have h3 : gd.offCoord (ix4 b k h w) 2 = h.val := rfl
    show gd.start (ix4 b k h w) idx 2 + gd.batchCoord (ix4 b k h w) 2 + gd.offCoord (ix4 b k h w) 2 = h.val
    rw [h1, h2, h3]; omega
  | ⟨3, _⟩ =>
    have h1 : gd.start (ix4 b k h w) idx 3 = 0 := rfl
    have h2 : gd.batchCoord (ix4 b k h w) 3 = 0 := rfl
    have h3 : gd.offCoord (ix4 b k h w) 3 = w.val := rfl
    show gd.start (ix4 b k h w) idx 3 + gd.batchCoord (ix4 b k h w) 3 + gd.offCoord (ix4 b k h w) 3 = w.val
    rw [h1, h2, h3]; omega

/-- The start of the scatter's window on the channel axis: the scatter index of the update's row, read signed. -/
theorem start_channel (idx : IVec S9x1 32) (j : S4x9x224x224.Idx) :
    sd.start j idx 1 = (idx (ix2 (j 1) 0)).toInt := by
  show (idx _).toInt = (idx _).toInt
  congr 2
  funext b
  match b with
  | ⟨0, _⟩ => rfl
  | ⟨1, _⟩ => rfl

/-- Where update index `(b, k, h, w)` lands when scatter index `k` is the channel `c k` (below 96): at
    `(b, c k, h, w)`. -/
theorem resultIdx?_eq (idx : IVec S9x1 32) (c : Fin 9 → Nat) (hc : ∀ k, c k < 96)
    (hidx : ∀ k, (idx (ix2 k 0)).toInt = (c k : Int)) (b : Fin 4) (k : Fin 9) (h w : Fin 224) :
    sd.resultIdx? (ix4 b k h w) idx = some (ix4 b ⟨c k, hc k⟩ h w) := by
  have e0 : sd.start (ix4 b k h w) idx 0 + sd.window (ix4 b k h w) 0 = (b.val : Int) := by
    show (0 : Int) + ((b.val : Nat) : Int) = _
    omega
  have e1 : sd.start (ix4 b k h w) idx 1 + sd.window (ix4 b k h w) 1 = (c k : Int) := by
    rw [start_channel]
    show (idx (ix2 k 0)).toInt + ((0 : Nat) : Int) = _
    rw [hidx k]; omega
  have e2 : sd.start (ix4 b k h w) idx 2 + sd.window (ix4 b k h w) 2 = (h.val : Int) := by
    show (0 : Int) + ((h.val : Nat) : Int) = _
    omega
  have e3 : sd.start (ix4 b k h w) idx 3 + sd.window (ix4 b k h w) 3 = (w.val : Int) := by
    show (0 : Int) + ((w.val : Nat) : Int) = _
    omega
  have hcond : ∀ a, 0 ≤ sd.start (ix4 b k h w) idx a + sd.window (ix4 b k h w) a
      ∧ sd.start (ix4 b k h w) idx a + sd.window (ix4 b k h w) a < S4x96x224x224.size a := by
    intro a
    match a with
    | ⟨0, _⟩ =>
      show 0 ≤ sd.start (ix4 b k h w) idx 0 + sd.window (ix4 b k h w) 0
        ∧ sd.start (ix4 b k h w) idx 0 + sd.window (ix4 b k h w) 0 < ((4 : Nat) : Int)
      rw [e0]; have := b.isLt; omega
    | ⟨1, _⟩ =>
      show 0 ≤ sd.start (ix4 b k h w) idx 1 + sd.window (ix4 b k h w) 1
        ∧ sd.start (ix4 b k h w) idx 1 + sd.window (ix4 b k h w) 1 < ((96 : Nat) : Int)
      rw [e1]; have := hc k; omega
    | ⟨2, _⟩ =>
      show 0 ≤ sd.start (ix4 b k h w) idx 2 + sd.window (ix4 b k h w) 2
        ∧ sd.start (ix4 b k h w) idx 2 + sd.window (ix4 b k h w) 2 < ((224 : Nat) : Int)
      rw [e2]; have := h.isLt; omega
    | ⟨3, _⟩ =>
      show 0 ≤ sd.start (ix4 b k h w) idx 3 + sd.window (ix4 b k h w) 3
        ∧ sd.start (ix4 b k h w) idx 3 + sd.window (ix4 b k h w) 3 < ((224 : Nat) : Int)
      rw [e3]; have := w.isLt; omega
  unfold ScatterDims.resultIdx?
  rw [dif_pos hcond]
  congr 1
  funext a
  refine Fin.ext ?_
  match a with
  | ⟨0, _⟩ =>
    show (sd.start (ix4 b k h w) idx 0 + sd.window (ix4 b k h w) 0).toNat = b.val
    rw [e0]; rfl
  | ⟨1, _⟩ =>
    show (sd.start (ix4 b k h w) idx 1 + sd.window (ix4 b k h w) 1).toNat = c k
    rw [e1]; rfl
  | ⟨2, _⟩ =>
    show (sd.start (ix4 b k h w) idx 2 + sd.window (ix4 b k h w) 2).toNat = h.val
    rw [e2]; rfl
  | ⟨3, _⟩ =>
    show (sd.start (ix4 b k h w) idx 3 + sd.window (ix4 b k h w) 3).toNat = w.val
    rw [e3]; rfl

/-! ## The composition is the specification -/

/-- @main's last operations, at the nine drawn channel numbers, compute `Cert.Spec.G4` of the argument. -/
theorem tail_eq (p : IVec S9 32) (hp : ∀ j : Fin 9, p (ix1 j) = BitVec.ofNat 32 (Cert.Spec.drawn j))
    (x : FVec F S4x96x224x224 .f32) : tail p x = Cert.Spec.G4 (α := F .f32) x := by
  funext i
  obtain ⟨b, c, h, w, rfl⟩ : ∃ b c h w, i = ix4 b c h w := ⟨i 0, i 1, i 2, i 3, eq_ix4 i⟩
  rw [tail_def, Cert.Spec.G4_apply]
  -- where the update indices land
  have hland : ∀ (b' : Fin 4) (k : Fin 9) (h' w' : Fin 224),
      sd.resultIdx? (ix4 b' k h' w') (idxS p)
        = some (ix4 b' ⟨Cert.Spec.drawn k, Nat.lt_trans (drawn_lt k) (by decide)⟩ h' w') :=
    fun b' k h' w' => resultIdx?_eq (idxS p) Cert.Spec.drawn (fun k => Nat.lt_trans (drawn_lt k) (by decide))
      (fun k => by rw [idxS_apply p hp k 0]; exact toInt_ofNat_small _ (Nat.lt_trans (drawn_lt k) (by decide))) b' k h' w'
  -- the gathered entry
  have hgath : ∀ (b' : Fin 4) (k : Fin 9) (h' w' : Fin 224),
      Host.gather gd x (idxG p) (ix4 b' k h' w')
        = x (ix4 b' ⟨Cert.Spec.drawn k + 1, Nat.succ_lt_succ (drawn_lt k)⟩ h' w') := by
    intro b' k h' w'
    rw [gather_apply]
    congr 2
    refine Fin.ext ?_
    show min (idxG p (ix2 k 0)).toInt.toNat 95 = Cert.Spec.drawn k + 1
    rw [idxG_apply p hp k 0, toInt_ofNat_small _ (Nat.lt_of_lt_of_le (Nat.succ_lt_succ (drawn_lt k)) (by decide))]
    have := drawn_lt k
    omega
  by_cases hs : Cert.Spec.shift c.val = 1
  · -- a drawn channel: exactly one row of the update lands here
    obtain ⟨k, hk⟩ := (Cert.Spec.shift_eq_one_iff c.val).1 hs
    have hi : (ix4 b c h w : S4x96x224x224.Idx)
        = ix4 b ⟨Cert.Spec.drawn k, Nat.lt_trans (drawn_lt k) (by decide)⟩ h w := by
      congr 1; exact Fin.ext hk.symm
    rw [scatter_replace_hit sd x (idxS p) _ _ (ix4 b k h w) (by rw [hland, hi])]
    · rw [hgath]
      congr 1
      show _ = ix4 b ⟨c.val + Cert.Spec.shift c.val, _⟩ h w
      congr 1
      refine Fin.ext ?_
      show Cert.Spec.drawn k + 1 = c.val + Cert.Spec.shift c.val
      rw [hs, hk]
    · intro j hj
      obtain ⟨b', k', h', w', rfl⟩ : ∃ b' k' h' w', j = ix4 b' k' h' w' := ⟨j 0, j 1, j 2, j 3, eq_ix4 j⟩
      rw [hland, hi] at hj
      have hj := Option.some.inj hj
      have hb : b' = b := congrFun hj 0
      have hk' : Cert.Spec.drawn k' = Cert.Spec.drawn k := congrArg Fin.val (congrFun hj 1)
      have hh : h' = h := congrFun hj 2
      have hw : w' = w := congrFun hj 3
      rw [hb, drawn_inj hk', hh, hw]
  · -- any other channel: no row of the update lands here
    have hs0 : Cert.Spec.shift c.val = 0 := by have := Cert.Spec.shift_le_one c.val; omega
    rw [scatter_replace_miss sd x (idxS p)]
    · congr 1
      show _ = ix4 b ⟨c.val + Cert.Spec.shift c.val, _⟩ h w
      congr 1
      refine Fin.ext ?_
      show c.val = c.val + Cert.Spec.shift c.val
      rw [hs0]; rfl
    · intro j hj
      obtain ⟨b', k', h', w', rfl⟩ : ∃ b' k' h' w', j = ix4 b' k' h' w' := ⟨j 0, j 1, j 2, j 3, eq_ix4 j⟩
      rw [hland] at hj
      have hj := Option.some.inj hj
      have hk' : Cert.Spec.drawn k' = c.val := congrArg Fin.val (congrFun hj 1)
      exact hs ((Cert.Spec.shift_eq_one_iff c.val).2 ⟨k', hk'⟩)

end Cert.ReferenceIdeal.RefTail

end
-- ==== Proof.RefTailTerm.lean ====
/-
  The named per-buffer values of @main's last operations are the composed function `RefTail.tail` at the nine words
  `val_main_v9`: the same operations in the same order, so the two unfold to the same term.
-/
import proofs.«214360_g58884001628789_cont_9to1c4b_137_4_alg».proof.Proof.RefTerm
import proofs.«214360_g58884001628789_cont_9to1c4b_137_4_alg».proof.Proof.RefTail

namespace Cert.ReferenceIdeal.RefTail

open Idealize.ShloMosaic Cert.ReferenceIdeal

/-- The value of @main's result buffer, as named per buffer, is `tail` of the value of main_v9 and the argument. -/
theorem val_eq_tail {F : FTy → Type} [FloatOps F] (x : FVec F S4x96x224x224 .f32) :
    RefTerm.val_main_v25 x = tail RefTerm.val_main_v9 x := rfl

end Cert.ReferenceIdeal.RefTail
-- ==== Proof.lean ====
/-
  The certificate's claim: the kernel's three programs run, and the idealized kernel and the idealized reference
  compute the same function.

  The function (Proof/Spec.lean): of a batch of 4 images of 96 channels, each of nine drawn channels is overwritten by a
  copy of its right neighbour as that neighbour stood in the input; every other channel is kept. As one index
  function, the result's entry at (b, c, h, w) is the input's at (b, c + shift c, h, w).

  The kernel re-lays the batch as 384 rows of 50176 entries, has 32 vector subcores copy 12 rows each — result row r from
  input row r + shift (r % 96) — and re-lays the rows back (Proof/KValue.lean: that is the function above). Its run
  (Proof/KTile*.lean, Proof/KLaunch*.lean, once per float instance) ends with the argument unchanged and the result
  that function of the argument; the two frame claims are that run with the value dropped.

  The reference draws the nine channels by a counter-based generator and a stable sort, gathers the neighbours and
  scatters them over the drawn channels. Its run (Proof/RefRun*.lean) ends at the composed term of its operations over
  named intermediates (Proof/RefTerm.lean); the nine drawn numbers are the literals (Proof/RefPerm*.lean: the 95 keys
  evaluated lane by lane, the first nine places of the order read off without sorting); and a scatter of pairwise
  different in-range channels over a gather of their neighbours is the function above (Proof/RefTail.lean).
  No operation was rewritten by the idealization, so there is nothing to preserve.
-/
import proofs.«214360_g58884001628789_cont_9to1c4b_137_4_alg».proof.Defs
import proofs.«214360_g58884001628789_cont_9to1c4b_137_4_alg».proof.Proof.Gen.Kernel
import proofs.«214360_g58884001628789_cont_9to1c4b_137_4_alg».proof.Proof.Gen.Kernel.Skeleton
import proofs.«214360_g58884001628789_cont_9to1c4b_137_4_alg».proof.Proof.Gen.KernelIdeal
import proofs.«214360_g58884001628789_cont_9to1c4b_137_4_alg».proof.Proof.Gen.KernelIdeal.Skeleton
import proofs.«214360_g58884001628789_cont_9to1c4b_137_4_alg».proof.Proof.Gen.ReferenceIdeal
import proofs.«214360_g58884001628789_cont_9to1c4b_137_4_alg».proof.Proof.Gen.Pre_finite_inputs
import proofs.«214360_g58884001628789_cont_9to1c4b_137_4_alg».proof.Proof.KLaunchB
import proofs.«214360_g58884001628789_cont_9to1c4b_137_4_alg».proof.Proof.KLaunchI
import proofs.«214360_g58884001628789_cont_9to1c4b_137_4_alg».proof.Proof.RefRun
import proofs.«214360_g58884001628789_cont_9to1c4b_137_4_alg».proof.Proof.RefPerm
import proofs.«214360_g58884001628789_cont_9to1c4b_137_4_alg».proof.Proof.RefTailTerm
import Idealize.ShloMosaic.Adequacy
import Idealize.ShloMosaic.Init

noncomputable section

namespace Cert.Proof

open Idealize.ShloMosaic Idealize.SL.Sem

/-- The reference's result term is the specification of its argument: the term's last operations are `tail` of the
    nine drawn numbers, which are the literals. -/
theorem ref_value (x : FVec Ideal Cert.ReferenceIdeal.S4x96x224x224 .f32) :
    Cert.ReferenceIdeal.RefTerm.val_main_v25 x = Cert.Spec.G4 x :=
  (Cert.ReferenceIdeal.RefTail.val_eq_tail x).trans
    (Cert.ReferenceIdeal.RefTail.tail_eq _ Cert.ReferenceIdeal.RefPerm.drawn_eq x)

theorem frame_k : Cert.frame_Kernel := fun m ρ _ =>
  (θ_run Cert.Kernel.defs _ _).mono (fun _ h c => (h c).2) (Cert.Proof.KernelRun.run_main (F := Bits) m ρ)

theorem frame_ki : Cert.frame_KernelIdeal := fun m ρ _ =>
  (θ_run Cert.KernelIdeal.defs _ _).mono (fun _ h c => (h c).2) (Cert.Proof.KernelIdealRun.run_main (F := Ideal) m ρ)

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end at the specification of the (agreeing) arguments. -/
theorem algebraic : Cert.algebraic_KernelIdeal_ReferenceIdeal := by
  intro m ρ m' ρ' _ hagree
  refine ⟨fun c => Cert.Spec.G4 (m ((c.tc : Thread Cert.KernelIdeal.nD Cert.KernelIdeal.τ).loc Cert.KernelIdeal.main_arg0)), ?_, ?_⟩
  · exact (θ_run Cert.KernelIdeal.defs _ _).mono (fun _ h c => h c) (Cert.Proof.KernelIdealRun.run_main (F := Ideal) m ρ)
  · refine (θ_run Cert.ReferenceIdeal.defs _ _).mono (fun _ h c => ⟨?_, (h c).2⟩)
      (Cert.ReferenceIdeal.RefRun.run (F := Ideal) m' ρ')
    rw [(h c).1, ref_value, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
